-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S1000x128 : Shape := ⟨2, ![1000, 128]⟩
abbrev S3x128x128 : Shape := ⟨3, ![3, 128, 128]⟩
abbrev S3x128 : Shape := ⟨2, ![3, 128]⟩
abbrev S384x128 : Shape := ⟨2, ![384, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg14 : FVec F S128x1 .f32) (main_arg15 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg14
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg15
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg10 : FVec F S3x128 .f32) (main_arg11 : FVec F S3x128 .f32) (main_arg12 : FVec F S384x128 .f32) (main_arg13 : FVec F S128 .f32) (main_arg14 : FVec F S128x1 .f32) (main_arg15 : FVec F S1 .f32) (main_v33 : IVec S_ 1) : IVec S_ 1 :=
  let main_v34 : FVec F S3x128 .f32 := Host.absf main_arg10
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg11
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S384x128 .f32 := Host.absf main_arg12
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_v48 main_v49 main_v50

def fn_part1 {F : FTy → Type} [FloatOps F] (main_arg7 : FVec F S3x128 .f32) (main_arg8 : FVec F S3x128 .f32) (main_arg9 : FVec F S3x128 .f32) (main_arg10 : FVec F S3x128 .f32) (main_arg11 : FVec F S3x128 .f32) (main_arg12 : FVec F S384x128 .f32) (main_arg13 : FVec F S128 .f32) (main_arg14 : FVec F S128x1 .f32) (main_arg15 : FVec F S1 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg7
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg8
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg9
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : IVec S50000 32) (main_arg1 : IVec S2x800000 32) (main_arg2 : IVec S50000 32) (main_arg3 : FVec F S1000x128 .f32) (main_arg4 : FVec F S3x128x128 .f32) (main_arg5 : FVec F S3x128 .f32) (main_arg6 : FVec F S3x128x128 .f32) (main_arg7 : FVec F S3x128 .f32) (main_arg8 : FVec F S3x128 .f32) (main_arg9 : FVec F S3x128 .f32) (main_arg10 : FVec F S3x128 .f32) (main_arg11 : FVec F S3x128 .f32) (main_arg12 : FVec F S384x128 .f32) (main_arg13 : FVec F S128 .f32) (main_arg14 : FVec F S128x1 .f32) (main_arg15 : FVec F S1 .f32) : IVec S_ 1 :=
  let main_v0 : FVec F S1000x128 .f32 := Host.absf main_arg3
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_v4 : FVec F S3x128x128 .f32 := Host.absf main_arg4
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg5
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg6
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg7 main_arg8 main_arg9 main_arg10 main_arg11 main_arg12 main_arg13 main_arg14 main_arg15 main_v13 main_v16
-- ==== Kernel.lean ====
abbrev S50000 : Shape := ⟨1, ![50000]⟩
abbrev S2x800000 : Shape := ⟨2, ![2, 800000]⟩
abbrev S1000x128 : Shape := ⟨2, ![1000, 128]⟩
abbrev S3x128x128 : Shape := ⟨3, ![3, 128, 128]⟩
abbrev S3x128 : Shape := ⟨2, ![3, 128]⟩
abbrev S384x128 : Shape := ⟨2, ![384, 128]⟩
abbrev S128 : Shape := ⟨1, ![128]⟩
abbrev S128x1 : Shape := ⟨2, ![128, 1]⟩
abbrev S1 : Shape := ⟨1, ![1]⟩
abbrev S_ : Shape := ⟨0, ![]⟩
abbrev S50000x1 : Shape := ⟨2, ![50000, 1]⟩
abbrev S50000x128 : Shape := ⟨2, ![50000, 128]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S2000x128 : Shape := ⟨2, ![2000, 128]⟩
abbrev S50000x384 : Shape := ⟨2, ![50000, 384]⟩
abbrev S512x384 : Shape := ⟨2, ![512, 384]⟩
abbrev S512 : Shape := ⟨1, ![512]⟩
abbrev S512x1 : Shape := ⟨2, ![512, 1]⟩
abbrev S1x1 : Shape := ⟨2, ![1, 1]⟩
abbrev S512x128 : Shape := ⟨2, ![512, 128]⟩

abbrev nBuf : Space → Nat
  | .hbm => 158
  | .vmem => 48
  | .smem => 0
  | _ => 0

abbrev hbmTy0_0 (i : Nat) : BufTy := match i % 128 with
  | 0 => ⟨S50000, .i32⟩
  | 1 => ⟨S2x800000, .i32⟩
  | 2 => ⟨S50000, .i32⟩
  | 3 => ⟨S1000x128, .f32⟩
  | 4 => ⟨S3x128x128, .f32⟩
  | 5 => ⟨S3x128, .f32⟩
  | 6 => ⟨S3x128x128, .f32⟩
  | 7 => ⟨S3x128, .f32⟩
  | 8 => ⟨S3x128, .f32⟩
  | 9 => ⟨S3x128, .f32⟩
  | 10 => ⟨S3x128, .f32⟩
  | 11 => ⟨S3x128, .f32⟩
  | 12 => ⟨S384x128, .f32⟩
  | 13 => ⟨S128, .f32⟩
  | 14 => ⟨S128x1, .f32⟩
  | 15 => ⟨S1, .f32⟩
  | 16 => ⟨S_, .i32⟩
  | 17 => ⟨S50000, .i32⟩
  | 18 => ⟨S50000, .i1⟩
  | 19 => ⟨S_, .i32⟩
  | 20 => ⟨S50000, .i32⟩
  | 21 => ⟨S50000, .i32⟩
  | 22 => ⟨S50000, .i32⟩
  | 23 => ⟨S50000x1, .i32⟩
  | 24 => ⟨S50000x128, .f32⟩
  | 25 => ⟨S1x800000, .i32⟩
  | 26 => ⟨S800000, .i32⟩
  | 27 => ⟨S1x800000, .i32⟩
  | 28 => ⟨S800000, .i32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S1x128x128, .f32⟩
  | 43 => ⟨S128x128, .f32⟩
  | 44 => ⟨S1x128, .f32⟩
  | 45 => ⟨S128, .f32⟩
  | 46 => ⟨S1x128x128, .f32⟩
  | 47 => ⟨S128x128, .f32⟩
  | 48 => ⟨S1x128, .f32⟩
  | 49 => ⟨S128, .f32⟩
  | 50 => ⟨S1x128, .f32⟩
  | 51 => ⟨S128, .f32⟩
  | 52 => ⟨S1x128, .f32⟩
  | 53 => ⟨S128, .f32⟩
  | 54 => ⟨S1x128, .f32⟩
  | 55 => ⟨S128, .f32⟩
  | 56 => ⟨S1x128, .f32⟩
  | 57 => ⟨S128, .f32⟩
  | 58 => ⟨S1x128, .f32⟩
  | 59 => ⟨S1x128, .f32⟩
  | 60 => ⟨S1x128, .f32⟩
  | 61 => ⟨S1x128, .f32⟩
  | 62 => ⟨S1x128, .f32⟩
  | 63 => ⟨S1x128, .f32⟩
  | 64 => ⟨S50000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S1x128x128, .f32⟩
  | 79 => ⟨S128x128, .f32⟩
  | 80 => ⟨S1x128, .f32⟩
  | 81 => ⟨S128, .f32⟩
  | 82 => ⟨S1x128x128, .f32⟩
  | 83 => ⟨S128x128, .f32⟩
  | 84 => ⟨S1x128, .f32⟩
  | 85 => ⟨S128, .f32⟩
  | 86 => ⟨S1x128, .f32⟩
  | 87 => ⟨S128, .f32⟩
  | 88 => ⟨S1x128, .f32⟩
  | 89 => ⟨S128, .f32⟩
  | 90 => ⟨S1x128, .f32⟩
  | 91 => ⟨S128, .f32⟩
  | 92 => ⟨S1x128, .f32⟩
  | 93 => ⟨S128, .f32⟩
  | 94 => ⟨S1x128, .f32⟩
  | 95 => ⟨S1x128, .f32⟩
  | 96 => ⟨S1x128, .f32⟩
  | 97 => ⟨S1x128, .f32⟩
  | 98 => ⟨S1x128, .f32⟩
  | 99 => ⟨S1x128, .f32⟩
  | 100 => ⟨S50000x128, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x128, .f32⟩
  | 110 => ⟨S_, .f32⟩
  | 111 => ⟨S50000x128, .f32⟩
  | 112 => ⟨S800000x1, .i32⟩
  | 113 => ⟨S50000x128, .f32⟩
  | 114 => ⟨S1x128x128, .f32⟩
  | 115 => ⟨S128x128, .f32⟩
  | 116 => ⟨S1x128, .f32⟩
  | 117 => ⟨S128, .f32⟩
  | 118 => ⟨S1x128x128, .f32⟩
  | 119 => ⟨S128x128, .f32⟩
  | 120 => ⟨S1x128, .f32⟩
  | 121 => ⟨S128, .f32⟩
  | 122 => ⟨S1x128, .f32⟩
  | 123 => ⟨S128, .f32⟩
  | 124 => ⟨S1x128, .f32⟩
  | 125 => ⟨S128, .f32⟩
  | 126 => ⟨S1x128, .f32⟩
  | 127 => ⟨S128, .f32⟩
  | _ => ⟨S50000, .i32⟩

abbrev hbmTy0_1 (i : Nat) : BufTy := match i % 128 with
  | 0 => ⟨S1x128, .f32⟩
  | 1 => ⟨S128, .f32⟩
  | 2 => ⟨S1x128, .f32⟩
  | 3 => ⟨S1x128, .f32⟩
  | 4 => ⟨S1x128, .f32⟩
  | 5 => ⟨S1x128, .f32⟩
  | 6 => ⟨S1x128, .f32⟩
  | 7 => ⟨S1x128, .f32⟩
  | 8 => ⟨S50000x128, .f32⟩
  | 9 => ⟨S50000x384, .f32⟩
  | 10 => ⟨S_, .f32⟩
  | 11 => ⟨S512x384, .f32⟩
  | 12 => ⟨S50000x1, .i32⟩
  | 13 => ⟨S512x384, .f32⟩
  | 14 => ⟨S_, .f32⟩
  | 15 => ⟨S50000, .f32⟩
  | 16 => ⟨S_, .f32⟩
  | 17 => ⟨S512, .f32⟩
  | 18 => ⟨S50000x1, .i32⟩
  | 19 => ⟨S512, .f32⟩
  | 20 => ⟨S512x1, .f32⟩
  | 21 => ⟨S_, .f32⟩
  | 22 => ⟨S512x1, .f32⟩
  | 23 => ⟨S512x1, .f32⟩
  | 24 => ⟨S512x384, .f32⟩
  | 25 => ⟨S512x384, .f32⟩
  | 26 => ⟨S1x128, .f32⟩
  | 27 => ⟨S1x128, .f32⟩
  | 28 => ⟨S1x1, .f32⟩
  | 29 => ⟨S512x1, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S512x384, .f32⟩
  | .local _ .vmem, ⟨43, _⟩ => ⟨S384x128, .f32⟩
  | .local _ .vmem, ⟨44, _⟩ => ⟨S1x128, .f32⟩
  | .local _ .vmem, ⟨45, _⟩ => ⟨S1x128, .f32⟩
  | .local _ .vmem, ⟨46, _⟩ => ⟨S1x1, .f32⟩
  | .local _ .vmem, ⟨47, _⟩ => ⟨S512x1, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_3 : Ref sig .tc := ⟨.hbm, 65, rfl⟩
abbrev main_v44 : Ref sig .tc := ⟨.hbm, 66, rfl⟩
abbrev main_v45 : Ref sig .tc := ⟨.hbm, 67, rfl⟩
abbrev main_c_4 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_5 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_c_6 : Ref sig .tc := ⟨.hbm, 101, rfl⟩
abbrev main_v77 : Ref sig .tc := ⟨.hbm, 102, rfl⟩
abbrev main_v78 : Ref sig .tc := ⟨.hbm, 103, rfl⟩
abbrev main_c_7 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_8 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_cst_9 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_cst_10 : Ref sig .tc := ⟨.hbm, 142, rfl⟩
abbrev main_v114 : Ref sig .tc := ⟨.hbm, 143, rfl⟩
abbrev main_cst_11 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_cst_12 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc3_stg0_0 : Ref sig .tc := ⟨.vmem, 42, rfl⟩
abbrev cc3_stg1_0 : Ref sig .tc := ⟨.vmem, 43, rfl⟩
abbrev cc3_stg2_0 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg5_0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41
abbrev cc3_sem0_0 : DmaSem sig := 42
abbrev cc3_sem1_0 : DmaSem sig := 43
abbrev cc3_sem2_0 : DmaSem sig := 44
abbrev cc3_sem3_0 : DmaSem sig := 45
abbrev cc3_sem4_0 : DmaSem sig := 46
abbrev cc3_sem5_0 : DmaSem sig := 47

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x384 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S384x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S50000x128_S50000x128_S50000x128_S50000x384_d1 : Shape.Concatenates [S50000x128, S50000x128, S50000x128] S50000x384 1
  bcast_S_S512x384 : S_.BroadcastsInDim S512x384 (![] : Fin 0 → Fin S512x384.rank)
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S512x1_S512x384_0_1 : S512x1.BroadcastsInDim S512x384 (![0, 1] : Fin 2 → Fin S512x384.rank)
  shapeCasts_S128x1_S1x128 : S128x1.ShapeCasts S1x128
  shapeCasts_S1_S1x1 : S1.ShapeCasts S1x1
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S384x128_S384x128_0_0 : ∀ a, (![0, 0] : Fin 2 → Nat) a + S384x128.size a ≤ S384x128.size a
  h_S384x128 : 0 < S384x128.numel
  broadcasts_S1x128_S512x128 : S1x128.Broadcasts S512x128
  reduces_S512x128_S512 : S512x128.Reduces [1] S512
  shapeCasts_S512_S512x1 : S512.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  gather_S1000x128_S50000x1_S50000x128_1_0_n_n_0_1_1128_wf : GatherDims.WF S1000x128 S50000x1 S50000x128 [1] [0] [] [0] [] 1 ![1, 128]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  scatter_S512x384_S50000x1_S50000x384_1_0_0_1_wf : ScatterDims.WF S512x384 S50000x1 S50000x384 [1] [0] [0] 1
  scatter_S512_S50000x1_S50000_n_0_0_1_wf : ScatterDims.WF S512 S50000x1 S50000 [] [0] [0] 1
  dot_S512x384_S384x128_S512x128_1_0_0_1_n_n_wf : DotDims.WF S512x384 S384x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S50000x128.size a
  hwx0_10 : ∀ i : grid0.Coords, EltTy.bits .f32 = 32 ∨ (Rect.block (s := S50000x128) S2000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S50000x128.size a
  hwx1_10 : ∀ i : grid1.Coords, EltTy.bits .f32 = 32 ∨ (Rect.block (s := S50000x128) S2000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x128.size a ≤ S50000x128.size a
  hwx2_10 : ∀ i : grid2.Coords, EltTy.bits .f32 = 32 ∨ (Rect.block (s := S50000x128) S2000x128.size (cc2_transform_10 i) (hinb2_10 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x384.size a ≤ S512x384.size a
  hwx3_0 : ∀ i : grid3.Coords, EltTy.bits .f32 = 32 ∨ (Rect.block (s := S512x384) S512x384.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S384x128.size a ≤ S384x128.size a
  hwx3_1 : ∀ i : grid3.Coords, EltTy.bits .f32 = 32 ∨ (Rect.block (s := S384x128) S384x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x1.size a ≤ S512x1.size a
  hwx3_5 : ∀ i : grid3.Coords, EltTy.bits .f32 = 32 ∨ (Rect.block (s := S512x1) S512x1.size (cc3_transform_5 i) (hinb3_5 i)).WholeWords (EltTy.packing .f32)

variable [Facts₀]

def gather_S1000x128_S50000x1_S50000x128_1_0_n_n_0_1_1128 : GatherDims S1000x128 S50000x1 S50000x128 where
  offsetDims := [1]
  collapsedSliceDims := [0]
  operandBatchingDims := []
  startIndicesBatchingDims := []
  startIndexMap := [0]
  indexVectorDim := 1
  sliceSizes := ![1, 128]
  wf := gather_S1000x128_S50000x1_S50000x128_1_0_n_n_0_1_1128_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S512x384_S50000x1_S50000x384_1_0_0_1 : ScatterDims S512x384 S50000x1 S50000x384 where
  updateWindowDims := [1]
  insertedWindowDims := [0]
  scatterDimsToOperandDims := [0]
  indexVectorDim := 1
  wf := scatter_S512x384_S50000x1_S50000x384_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x384_S384x128_S512x128_1_0_0_1_n_n : DotDims S512x384 S384x128 S512x128 where
  lhsContracting := [1]
  rhsContracting := [0]
  lhsNonContracting := [0]
  rhsNonContracting := [1]
  lhsBatch := []
  rhsBatch := []
  wf := dot_S512x384_S384x128_S512x128_1_0_0_1_n_n_wf

abbrev win0_0 : Pipeline.Window sig grid0 :=
  Pipeline.Window.ofSpec (Memref.whole main_v6) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v40) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v41) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v42) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v43) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v55) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v70) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v71) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v72) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v73) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v74) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v75) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v76) S2000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v76) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v86) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v88) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v103) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v92) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v104) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v105) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v106) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v107) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v108) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v109) S2000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v122) S512x384.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S384x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v123) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v124) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v125) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v126) S512x1.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000 : Shape := ⟨1, ![50000]⟩
abbrev S2x800000 : Shape := ⟨2, ![2, 800000]⟩
abbrev S1000x128 : Shape := ⟨2, ![1000, 128]⟩
abbrev S3x128x128 : Shape := ⟨3, ![3, 128, 128]⟩
abbrev S3x128 : Shape := ⟨2, ![3, 128]⟩
abbrev S384x128 : Shape := ⟨2, ![384, 128]⟩
abbrev S128 : Shape := ⟨1, ![128]⟩
abbrev S128x1 : Shape := ⟨2, ![128, 1]⟩
abbrev S1 : Shape := ⟨1, ![1]⟩
abbrev S_ : Shape := ⟨0, ![]⟩
abbrev S50000x1 : Shape := ⟨2, ![50000, 1]⟩
abbrev S50000x128 : Shape := ⟨2, ![50000, 128]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S50000x384 : Shape := ⟨2, ![50000, 384]⟩
abbrev S512x384 : Shape := ⟨2, ![512, 384]⟩
abbrev S512 : Shape := ⟨1, ![512]⟩
abbrev S512x1 : Shape := ⟨2, ![512, 1]⟩
abbrev S512x128 : Shape := ⟨2, ![512, 128]⟩
abbrev S1x1 : Shape := ⟨2, ![1, 1]⟩

abbrev nBuf : Space → Nat
  | .hbm => 237
  | .vmem => 0
  | .smem => 0
  | _ => 0

abbrev hbmTy0_0 (i : Nat) : BufTy := match i % 128 with
  | 0 => ⟨S50000, .i32⟩
  | 1 => ⟨S2x800000, .i32⟩
  | 2 => ⟨S50000, .i32⟩
  | 3 => ⟨S1000x128, .f32⟩
  | 4 => ⟨S3x128x128, .f32⟩
  | 5 => ⟨S3x128, .f32⟩
  | 6 => ⟨S3x128x128, .f32⟩
  | 7 => ⟨S3x128, .f32⟩
  | 8 => ⟨S3x128, .f32⟩
  | 9 => ⟨S3x128, .f32⟩
  | 10 => ⟨S3x128, .f32⟩
  | 11 => ⟨S3x128, .f32⟩
  | 12 => ⟨S384x128, .f32⟩
  | 13 => ⟨S128, .f32⟩
  | 14 => ⟨S128x1, .f32⟩
  | 15 => ⟨S1, .f32⟩
  | 16 => ⟨S_, .i32⟩
  | 17 => ⟨S50000, .i32⟩
  | 18 => ⟨S50000, .i1⟩
  | 19 => ⟨S_, .i32⟩
  | 20 => ⟨S50000, .i32⟩
  | 21 => ⟨S50000, .i32⟩
  | 22 => ⟨S50000, .i32⟩
  | 23 => ⟨S50000x1, .i32⟩
  | 24 => ⟨S50000x128, .f32⟩
  | 25 => ⟨S1x800000, .i32⟩
  | 26 => ⟨S800000, .i32⟩
  | 27 => ⟨S1x800000, .i32⟩
  | 28 => ⟨S800000, .i32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S50000x128, .f32⟩
  | 43 => ⟨S1x128x128, .f32⟩
  | 44 => ⟨S128x128, .f32⟩
  | 45 => ⟨S50000x128, .f32⟩
  | 46 => ⟨S1x128, .f32⟩
  | 47 => ⟨S128, .f32⟩
  | 48 => ⟨S1x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S1x128x128, .f32⟩
  | 55 => ⟨S128x128, .f32⟩
  | 56 => ⟨S50000x128, .f32⟩
  | 57 => ⟨S1x128, .f32⟩
  | 58 => ⟨S128, .f32⟩
  | 59 => ⟨S1x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S1x128, .f32⟩
  | 66 => ⟨S128, .f32⟩
  | 67 => ⟨S1x128, .f32⟩
  | 68 => ⟨S50000x128, .f32⟩
  | 69 => ⟨S50000x128, .f32⟩
  | 70 => ⟨S1x128, .f32⟩
  | 71 => ⟨S128, .f32⟩
  | 72 => ⟨S_, .f32⟩
  | 73 => ⟨S128, .f32⟩
  | 74 => ⟨S128, .f32⟩
  | 75 => ⟨S128, .f32⟩
  | 76 => ⟨S1x128, .f32⟩
  | 77 => ⟨S50000x128, .f32⟩
  | 78 => ⟨S50000x128, .f32⟩
  | 79 => ⟨S1x128, .f32⟩
  | 80 => ⟨S128, .f32⟩
  | 81 => ⟨S1x128, .f32⟩
  | 82 => ⟨S50000x128, .f32⟩
  | 83 => ⟨S50000x128, .f32⟩
  | 84 => ⟨S1x128, .f32⟩
  | 85 => ⟨S128, .f32⟩
  | 86 => ⟨S1x128, .f32⟩
  | 87 => ⟨S50000x128, .f32⟩
  | 88 => ⟨S50000x128, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x128, .f32⟩
  | 98 => ⟨S_, .f32⟩
  | 99 => ⟨S50000x128, .f32⟩
  | 100 => ⟨S800000x1, .i32⟩
  | 101 => ⟨S50000x128, .f32⟩
  | 102 => ⟨S50000x128, .f32⟩
  | 103 => ⟨S1x128x128, .f32⟩
  | 104 => ⟨S128x128, .f32⟩
  | 105 => ⟨S50000x128, .f32⟩
  | 106 => ⟨S1x128, .f32⟩
  | 107 => ⟨S128, .f32⟩
  | 108 => ⟨S1x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S1x128x128, .f32⟩
  | 115 => ⟨S128x128, .f32⟩
  | 116 => ⟨S50000x128, .f32⟩
  | 117 => ⟨S1x128, .f32⟩
  | 118 => ⟨S128, .f32⟩
  | 119 => ⟨S1x128, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S1x128, .f32⟩
  | 126 => ⟨S128, .f32⟩
  | 127 => ⟨S1x128, .f32⟩
  | _ => ⟨S50000, .i32⟩

abbrev hbmTy0_1 (i : Nat) : BufTy := match i % 128 with
  | 0 => ⟨S50000x128, .f32⟩
  | 1 => ⟨S50000x128, .f32⟩
  | 2 => ⟨S1x128, .f32⟩
  | 3 => ⟨S128, .f32⟩
  | 4 => ⟨S_, .f32⟩
  | 5 => ⟨S128, .f32⟩
  | 6 => ⟨S128, .f32⟩
  | 7 => ⟨S128, .f32⟩
  | 8 => ⟨S1x128, .f32⟩
  | 9 => ⟨S50000x128, .f32⟩
  | 10 => ⟨S50000x128, .f32⟩
  | 11 => ⟨S1x128, .f32⟩
  | 12 => ⟨S128, .f32⟩
  | 13 => ⟨S1x128, .f32⟩
  | 14 => ⟨S50000x128, .f32⟩
  | 15 => ⟨S50000x128, .f32⟩
  | 16 => ⟨S1x128, .f32⟩
  | 17 => ⟨S128, .f32⟩
  | 18 => ⟨S1x128, .f32⟩
  | 19 => ⟨S50000x128, .f32⟩
  | 20 => ⟨S50000x128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S50000x128, .f32⟩
  | 35 => ⟨S1x128x128, .f32⟩
  | 36 => ⟨S128x128, .f32⟩
  | 37 => ⟨S50000x128, .f32⟩
  | 38 => ⟨S1x128, .f32⟩
  | 39 => ⟨S128, .f32⟩
  | 40 => ⟨S1x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S1x128x128, .f32⟩
  | 47 => ⟨S128x128, .f32⟩
  | 48 => ⟨S50000x128, .f32⟩
  | 49 => ⟨S1x128, .f32⟩
  | 50 => ⟨S128, .f32⟩
  | 51 => ⟨S1x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S1x128, .f32⟩
  | 58 => ⟨S128, .f32⟩
  | 59 => ⟨S1x128, .f32⟩
  | 60 => ⟨S50000x128, .f32⟩
  | 61 => ⟨S50000x128, .f32⟩
  | 62 => ⟨S1x128, .f32⟩
  | 63 => ⟨S128, .f32⟩
  | 64 => ⟨S_, .f32⟩
  | 65 => ⟨S128, .f32⟩
  | 66 => ⟨S128, .f32⟩
  | 67 => ⟨S128, .f32⟩
  | 68 => ⟨S1x128, .f32⟩
  | 69 => ⟨S50000x128, .f32⟩
  | 70 => ⟨S50000x128, .f32⟩
  | 71 => ⟨S1x128, .f32⟩
  | 72 => ⟨S128, .f32⟩
  | 73 => ⟨S1x128, .f32⟩
  | 74 => ⟨S50000x128, .f32⟩
  | 75 => ⟨S50000x128, .f32⟩
  | 76 => ⟨S1x128, .f32⟩
  | 77 => ⟨S128, .f32⟩
  | 78 => ⟨S1x128, .f32⟩
  | 79 => ⟨S50000x128, .f32⟩
  | 80 => ⟨S50000x128, .f32⟩
  | 81 => ⟨S50000x384, .f32⟩
  | 82 => ⟨S_, .f32⟩
  | 83 => ⟨S512x384, .f32⟩
  | 84 => ⟨S50000x1, .i32⟩
  | 85 => ⟨S512x384, .f32⟩
  | 86 => ⟨S_, .f32⟩
  | 87 => ⟨S50000, .f32⟩
  | 88 => ⟨S_, .f32⟩
  | 89 => ⟨S512, .f32⟩
  | 90 => ⟨S50000x1, .i32⟩
  | 91 => ⟨S512, .f32⟩
  | 92 => ⟨S512x1, .f32⟩
  | 93 => ⟨S_, .f32⟩
  | 94 => ⟨S512x1, .f32⟩
  | 95 => ⟨S512x1, .f32⟩
  | 96 => ⟨S512x384, .f32⟩
  | 97 => ⟨S512x384, .f32⟩
  | 98 => ⟨S512x128, .f32⟩
  | 99 => ⟨S1x128, .f32⟩
  | 100 => ⟨S512x128, .f32⟩
  | 101 => ⟨S512x128, .f32⟩
  | 102 => ⟨S_, .f32⟩
  | 103 => ⟨S512x128, .f32⟩
  | 104 => ⟨S512x128, .f32⟩
  | 105 => ⟨S512x1, .f32⟩
  | 106 => ⟨S1x1, .f32⟩
  | 107 => ⟨S512x1, .f32⟩
  | 108 => ⟨S512x1, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call0_cst : Ref sig .tc := ⟨.hbm, 51, rfl⟩
abbrev main_call0_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call1_cst : Ref sig .tc := ⟨.hbm, 62, rfl⟩
abbrev main_call1_v0 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_3 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_4 : Ref sig .tc := ⟨.hbm, 89, rfl⟩
abbrev main_v63 : Ref sig .tc := ⟨.hbm, 90, rfl⟩
abbrev main_v64 : Ref sig .tc := ⟨.hbm, 91, rfl⟩
abbrev main_c_5 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_6 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_call2_cst : Ref sig .tc := ⟨.hbm, 111, rfl⟩
abbrev main_call2_v0 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_call3_cst : Ref sig .tc := ⟨.hbm, 122, rfl⟩
abbrev main_call3_v0 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_7 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_c_8 : Ref sig .tc := ⟨.hbm, 149, rfl⟩
abbrev main_v115 : Ref sig .tc := ⟨.hbm, 150, rfl⟩
abbrev main_v116 : Ref sig .tc := ⟨.hbm, 151, rfl⟩
abbrev main_c_9 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_10 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_call4_cst : Ref sig .tc := ⟨.hbm, 171, rfl⟩
abbrev main_call4_v0 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_call5_cst : Ref sig .tc := ⟨.hbm, 182, rfl⟩
abbrev main_call5_v0 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_cst_11 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_cst_12 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_cst_13 : Ref sig .tc := ⟨.hbm, 214, rfl⟩
abbrev main_v171 : Ref sig .tc := ⟨.hbm, 215, rfl⟩
abbrev main_cst_14 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_cst_15 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_call6_cst : Ref sig .tc := ⟨.hbm, 230, rfl⟩
abbrev main_call6_v0 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S50000x128_S50000x128_S50000x128_S50000x384_d1 : Shape.Concatenates [S50000x128, S50000x128, S50000x128] S50000x384 1
  bcast_S_S512x384 : S_.BroadcastsInDim S512x384 (![] : Fin 0 → Fin S512x384.rank)
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S512x1_S512x384_0_1 : S512x1.BroadcastsInDim S512x384 (![0, 1] : Fin 2 → Fin S512x384.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S1000x128_S50000x1_S50000x128_1_0_n_n_0_1_1128_wf : GatherDims.WF S1000x128 S50000x1 S50000x128 [1] [0] [] [0] [] 1 ![1, 128]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S512x384_S50000x1_S50000x384_1_0_0_1_wf : ScatterDims.WF S512x384 S50000x1 S50000x384 [1] [0] [0] 1
  scatter_S512_S50000x1_S50000_n_0_0_1_wf : ScatterDims.WF S512 S50000x1 S50000 [] [0] [0] 1
  dot_S512x384_S384x128_S512x128_1_0_0_1_n_n_wf : DotDims.WF S512x384 S384x128 S512x128 [1] [0] [0] [1] [] []
  dot_S512x128_S128x1_S512x1_1_0_0_1_n_n_wf : DotDims.WF S512x128 S128x1 S512x1 [1] [0] [0] [1] [] []

variable [Facts₀]

def gather_S1000x128_S50000x1_S50000x128_1_0_n_n_0_1_1128 : GatherDims S1000x128 S50000x1 S50000x128 where
  offsetDims := [1]
  collapsedSliceDims := [0]
  operandBatchingDims := []
  startIndicesBatchingDims := []
  startIndexMap := [0]
  indexVectorDim := 1
  sliceSizes := ![1, 128]
  wf := gather_S1000x128_S50000x1_S50000x128_1_0_n_n_0_1_1128_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x384_S50000x1_S50000x384_1_0_0_1 : ScatterDims S512x384 S50000x1 S50000x384 where
  updateWindowDims := [1]
  insertedWindowDims := [0]
  scatterDimsToOperandDims := [0]
  indexVectorDim := 1
  wf := scatter_S512x384_S50000x1_S50000x384_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x384_S384x128_S512x128_1_0_0_1_n_n : DotDims S512x384 S384x128 S512x128 where
  lhsContracting := [1]
  rhsContracting := [0]
  lhsNonContracting := [0]
  rhsNonContracting := [1]
  lhsBatch := []
  rhsBatch := []
  wf := dot_S512x384_S384x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.Bits.LayerRegion0.lean ====
/-
  Region 0 of the program: one layer of the graph network, run block of 2000 rows by block of 2000 rows over
  25 grid points. At a point the body reads the blocks of the node features and of the aggregated neighbour
  features, the two weight matrices and the six one-row parameters (bias, bias, gain, offset, running mean,
  running variance), and stores ONE block of the result. This module states what the stored block is as a
  function of the ten blocks read, proves the body's Hoare triple, gives the pipeline's proof data at any
  contents the region may be entered from, and discharges the pipeline's obligation at every grid point.
  Everything is stated at any float instance.
-/
import proofs.«106503_j32512902431459_1_alg».proof.Proof.Gen.Kernel.Launch
import proofs.«106503_j32512902431459_1_alg».proof.Proof.Gen.Kernel.Skeleton
import proofs.«106503_j32512902431459_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## A window's block at a grid point -/

/-- Window `w`'s block at point `t`, read off its array as the region finds it. -/
def layerBlock0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the pipeline fetched it there or kept
    it from the point before (the block index had not moved). -/
theorem layerBefore0_0_of {c : Dev nD} (dat : Dat τ (Elt F) Unit ℕ (UR sig nD τ) ℕ cfg0 c) (hA : dat.A 0 = V c (Pipeline.arrRef spec0 0))
    (hafter : ∀ t, dat.after 0 t = layerBlock0 V c 0 t) (t : Fin cfg0.N) (d) : dat.before 0 t d = layerBlock0 V c 0 t :=
  (dat.before_in_eq_fetched 0 rfl (fun _ => rfl) (fun _ _ _ => rfl) (fun t => by rw [hafter]; unfold Dat.blockOf layerBlock0; rw [hA]; try rfl) t d).trans
    (by unfold Dat.fetched Dat.blockOf layerBlock0; rw [hA]; try rfl)

/-- Input window 1's staging buffer holds its block at every point, whether the pipeline fetched it there or kept
    it from the point before (the block index had not moved). -/
theorem layerBefore0_1_of {c : Dev nD} (dat : Dat τ (Elt F) Unit ℕ (UR sig nD τ) ℕ cfg0 c) (hA : dat.A 1 = V c (Pipeline.arrRef spec0 1))
    (hafter : ∀ t, dat.after 1 t = layerBlock0 V c 1 t) (t : Fin cfg0.N) (d) : dat.before 1 t d = layerBlock0 V c 1 t :=
  (dat.before_in_eq_fetched 1 rfl (fun _ => rfl) (fun _ _ _ => rfl) (fun t => by rw [hafter]; unfold Dat.blockOf layerBlock0; rw [hA]; try rfl) t d).trans
    (by unfold Dat.fetched Dat.blockOf layerBlock0; rw [hA]; try rfl)

/-- Input window 2's staging buffer holds its block at every point, whether the pipeline fetched it there or kept
    it from the point before (the block index had not moved). -/
theorem layerBefore0_2_of {c : Dev nD} (dat : Dat τ (Elt F) Unit ℕ (UR sig nD τ) ℕ cfg0 c) (hA : dat.A 2 = V c (Pipeline.arrRef spec0 2))
    (hafter : ∀ t, dat.after 2 t = layerBlock0 V c 2 t) (t : Fin cfg0.N) (d) : dat.before 2 t d = layerBlock0 V c 2 t :=
  (dat.before_in_eq_fetched 2 rfl (fun _ => rfl) (fun _ _ _ => rfl) (fun t => by rw [hafter]; unfold Dat.blockOf layerBlock0; rw [hA]; try rfl) t d).trans
    (by unfold Dat.fetched Dat.blockOf layerBlock0; rw [hA]; try rfl)

/-- Input window 3's staging buffer holds its block at every point, whether the pipeline fetched it there or kept
    it from the point before (the block index had not moved). -/
theorem layerBefore0_3_of {c : Dev nD} (dat : Dat τ (Elt F) Unit ℕ (UR sig nD τ) ℕ cfg0 c) (hA : dat.A 3 = V c (Pipeline.arrRef spec0 3))
    (hafter : ∀ t, dat.after 3 t = layerBlock0 V c 3 t) (t : Fin cfg0.N) (d) : dat.before 3 t d = layerBlock0 V c 3 t :=
  (dat.before_in_eq_fetched 3 rfl (fun _ => rfl) (fun _ _ _ => rfl) (fun t => by rw [hafter]; unfold Dat.blockOf layerBlock0; rw [hA]; try rfl) t d).trans
    (by unfold Dat.fetched Dat.blockOf layerBlock0; rw [hA]; try rfl)

/-- Input window 4's staging buffer holds its block at every point, whether the pipeline fetched it there or kept
    it from the point before (the block index had not moved). -/
theorem layerBefore0_4_of {c : Dev nD} (dat : Dat τ (Elt F) Unit ℕ (UR sig nD τ) ℕ cfg0 c) (hA : dat.A 4 = V c (Pipeline.arrRef spec0 4))
    (hafter : ∀ t, dat.after 4 t = layerBlock0 V c 4 t) (t : Fin cfg0.N) (d) : dat.before 4 t d = layerBlock0 V c 4 t :=
  (dat.before_in_eq_fetched 4 rfl (fun _ => rfl) (fun _ _ _ => rfl) (fun t => by rw [hafter]; unfold Dat.blockOf layerBlock0; rw [hA]; try rfl) t d).trans
    (by unfold Dat.fetched Dat.blockOf layerBlock0; rw [hA]; try rfl)

/-- Input window 5's staging buffer holds its block at every point, whether the pipeline fetched it there or kept
    it from the point before (the block index had not moved). -/
theorem layerBefore0_5_of {c : Dev nD} (dat : Dat τ (Elt F) Unit ℕ (UR sig nD τ) ℕ cfg0 c) (hA : dat.A 5 = V c (Pipeline.arrRef spec0 5))
    (hafter : ∀ t, dat.after 5 t = layerBlock0 V c 5 t) (t : Fin cfg0.N) (d) : dat.before 5 t d = layerBlock0 V c 5 t :=
  (dat.before_in_eq_fetched 5 rfl (fun _ => rfl) (fun _ _ _ => rfl) (fun t => by rw [hafter]; unfold Dat.blockOf layerBlock0; rw [hA]; try rfl) t d).trans
    (by unfold Dat.fetched Dat.blockOf layerBlock0; rw [hA]; try rfl)

/-- Input window 6's staging buffer holds its block at every point, whether the pipeline fetched it there or kept
    it from the point before (the block index had not moved). -/
theorem layerBefore0_6_of {c : Dev nD} (dat : Dat τ (Elt F) Unit ℕ (UR sig nD τ) ℕ cfg0 c) (hA : dat.A 6 = V c (Pipeline.arrRef spec0 6))
    (hafter : ∀ t, dat.after 6 t = layerBlock0 V c 6 t) (t : Fin cfg0.N) (d) : dat.before 6 t d = layerBlock0 V c 6 t :=
  (dat.before_in_eq_fetched 6 rfl (fun _ => rfl) (fun _ _ _ => rfl) (fun t => by rw [hafter]; unfold Dat.blockOf layerBlock0; rw [hA]; try rfl) t d).trans
    (by unfold Dat.fetched Dat.blockOf layerBlock0; rw [hA]; try rfl)

/-- Input window 7's staging buffer holds its block at every point, whether the pipeline fetched it there or kept
    it from the point before (the block index had not moved). -/
theorem layerBefore0_7_of {c : Dev nD} (dat : Dat τ (Elt F) Unit ℕ (UR sig nD τ) ℕ cfg0 c) (hA : dat.A 7 = V c (Pipeline.arrRef spec0 7))
    (hafter : ∀ t, dat.after 7 t = layerBlock0 V c 7 t) (t : Fin cfg0.N) (d) : dat.before 7 t d = layerBlock0 V c 7 t :=
  (dat.before_in_eq_fetched 7 rfl (fun _ => rfl) (fun _ _ _ => rfl) (fun t => by rw [hafter]; unfold Dat.blockOf layerBlock0; rw [hA]; try rfl) t d).trans
    (by unfold Dat.fetched Dat.blockOf layerBlock0; rw [hA]; try rfl)

/-- Input window 8's staging buffer holds its block at every point, whether the pipeline fetched it there or kept
    it from the point before (the block index had not moved). -/
theorem layerBefore0_8_of {c : Dev nD} (dat : Dat τ (Elt F) Unit ℕ (UR sig nD τ) ℕ cfg0 c) (hA : dat.A 8 = V c (Pipeline.arrRef spec0 8))
    (hafter : ∀ t, dat.after 8 t = layerBlock0 V c 8 t) (t : Fin cfg0.N) (d) : dat.before 8 t d = layerBlock0 V c 8 t :=
  (dat.before_in_eq_fetched 8 rfl (fun _ => rfl) (fun _ _ _ => rfl) (fun t => by rw [hafter]; unfold Dat.blockOf layerBlock0; rw [hA]; try rfl) t d).trans
    (by unfold Dat.fetched Dat.blockOf layerBlock0; rw [hA]; try rfl)

/-- Input window 9's staging buffer holds its block at every point, whether the pipeline fetched it there or kept
    it from the point before (the block index had not moved). -/
theorem layerBefore0_9_of {c : Dev nD} (dat : Dat τ (Elt F) Unit ℕ (UR sig nD τ) ℕ cfg0 c) (hA : dat.A 9 = V c (Pipeline.arrRef spec0 9))
    (hafter : ∀ t, dat.after 9 t = layerBlock0 V c 9 t) (t : Fin cfg0.N) (d) : dat.before 9 t d = layerBlock0 V c 9 t :=
  (dat.before_in_eq_fetched 9 rfl (fun _ => rfl) (fun _ _ _ => rfl) (fun t => by rw [hafter]; unfold Dat.blockOf layerBlock0; rw [hA]; try rfl) t d).trans
    (by unfold Dat.fetched Dat.blockOf layerBlock0; rw [hA]; try rfl)

/-! ## What the body stores -/

/-- The whole block of 2000 rows, the whole weight matrix, the whole parameter row: every access of the body is to
    a whole buffer. -/
abbrev rowsRect0 : Rect S2000x128 := Rect.unit (s := S2000x128) ![0, 0] S2000x128.size inb_S2000x128_S2000x128_0_0
abbrev weightRect0 : Rect S128x128 := Rect.unit (s := S128x128) ![0, 0] S128x128.size inb_S128x128_S128x128_0_0
abbrev paramRect0 : Rect S1x128 := Rect.unit (s := S1x128) ![0, 0] S1x128.size inb_S1x128_S1x128_0_0

/-- The output block after the body: its one store, of the layer's arithmetic (the two named payloads) on the ten
    blocks read. -/
def layerOut0 (x0 : Vec F S2000x128 .f32) (x1 : Vec F S2000x128 .f32) (x2 : Vec F S128x128 .f32) (x3 : Vec F S1x128 .f32) (x4 : Vec F S128x128 .f32) (x5 : Vec F S1x128 .f32) (x6 : Vec F S1x128 .f32) (x7 : Vec F S1x128 .f32) (x8 : Vec F S1x128 .f32) (x9 : Vec F S1x128 .f32) : Vec F S2000x128 .f32 :=
  View.canon [⟨rowsRect0, k0_pay1 (k0_pay2 (View.ld x0 rowsRect0) (View.ld x1 rowsRect0) (View.ld x2 weightRect0) (View.ld x3 paramRect0) (View.ld x4 weightRect0) (View.ld x5 paramRect0) (View.ld x9 paramRect0) (View.ld x8 paramRect0)) (View.ld x6 paramRect0) (View.ld x7 paramRect0)⟩]

/-- The one store covers the output block. -/
theorem layerCover0 (p0 : Vec F S2000x128 .f32) (y : S2000x128.Idx) :
    ∃ pc ∈ ([⟨rowsRect0, p0⟩] : List (View.Piece (Elt F) S2000x128 .f32)), y ∈ pc.1.set :=
  View.cover_of_tiled [⟨rowsRect0, p0⟩] S2000x128.size (by rfl) y

/-! ## The body's triple -/

set_option maxHeartbeats 1000000 in
/-- The body on whole staging buffers, the ten inputs' at known contents and the output's at anything, runs to the
    end, leaves the inputs as they were and the output's buffer at `layerOut0` of the inputs. -/
theorem layerKernel0 (c : Dev nD) (E : Set ℕ) (i : grid0.Coords) (arg0 : Memref sig .tc .vmem S2000x128 .f32) (harg0 : arg0.IsWhole) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S2000x128 .f32) (x2 : Vec F S128x128 .f32) (x3 : Vec F S1x128 .f32) (x4 : Vec F S128x128 .f32) (x5 : Vec F S1x128 .f32) (x6 : Vec F S1x128 .f32) (x7 : Vec F S1x128 .f32) (x8 : Vec F S1x128 .f32) (x9 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (layerOut0 x0 x1 x2 x3 x4 x5 x6 x7 x8 x9)) -∗ K ⟨⟩))
      ⊢ wp frame (wpE (defs₀ (F := F)) Variants.none c none) E (cc0__gin_layer_kernel i arg0 harg0 arg1 harg1 arg2 harg2 arg3 harg3 arg4 harg4 arg5 harg5 arg6 harg6 arg7 harg7 arg8 harg8 arg9 harg9 arg10 harg10) K := by
  simp only [cc0__gin_layer_kernel_eq_skeleton]; unfold cc0__gin_layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (layerCover0 _)

/-! ## The pipeline's proof data -/

/-- The proof data of this region on core `c`: the arrays as the region finds them; after the body at point `t`
    each input's buffer still at its block and the output's at `layerOut0` of the input blocks; nothing owed. -/
def layerDat0 (c : Dev nD) : Dat τ (Elt F) Unit ℕ (UR sig nD τ) ℕ cfg0 c where
  A w := V c (Pipeline.arrRef spec0 w)
  after w t := match w with
    | ⟨0, _⟩ => layerBlock0 V c 0 t
    | ⟨1, _⟩ => layerBlock0 V c 1 t
    | ⟨2, _⟩ => layerBlock0 V c 2 t
    | ⟨3, _⟩ => layerBlock0 V c 3 t
    | ⟨4, _⟩ => layerBlock0 V c 4 t
    | ⟨5, _⟩ => layerBlock0 V c 5 t
    | ⟨6, _⟩ => layerBlock0 V c 6 t
    | ⟨7, _⟩ => layerBlock0 V c 7 t
    | ⟨8, _⟩ => layerBlock0 V c 8 t
    | ⟨9, _⟩ => layerBlock0 V c 9 t
    | ⟨10, _⟩ => layerOut0 (layerBlock0 V c 0 t) (layerBlock0 V c 1 t) (layerBlock0 V c 2 t) (layerBlock0 V c 3 t) (layerBlock0 V c 4 t) (layerBlock0 V c 5 t) (layerBlock0 V c 6 t) (layerBlock0 V c 7 t) (layerBlock0 V c 8 t) (layerBlock0 V c 9 t)
  Φ _ := Pipeline.ΦA spec0 c
  q _ := fullShare
  owed _ := 0

theorem layerA0 (c : Dev nD) (w : Fin cfg0.W) : (layerDat0 V c).A w = V c (Pipeline.arrRef spec0 w) := by
  dsimp only [layerDat0]

theorem layerAfter0_0 (c : Dev nD) (t : Fin cfg0.N) : (layerDat0 V c).after 0 t = layerBlock0 V c 0 t := by dsimp only [layerDat0]
theorem layerAfter0_1 (c : Dev nD) (t : Fin cfg0.N) : (layerDat0 V c).after 1 t = layerBlock0 V c 1 t := by dsimp only [layerDat0]
theorem layerAfter0_2 (c : Dev nD) (t : Fin cfg0.N) : (layerDat0 V c).after 2 t = layerBlock0 V c 2 t := by dsimp only [layerDat0]
theorem layerAfter0_3 (c : Dev nD) (t : Fin cfg0.N) : (layerDat0 V c).after 3 t = layerBlock0 V c 3 t := by dsimp only [layerDat0]
theorem layerAfter0_4 (c : Dev nD) (t : Fin cfg0.N) : (layerDat0 V c).after 4 t = layerBlock0 V c 4 t := by dsimp only [layerDat0]
theorem layerAfter0_5 (c : Dev nD) (t : Fin cfg0.N) : (layerDat0 V c).after 5 t = layerBlock0 V c 5 t := by dsimp only [layerDat0]
theorem layerAfter0_6 (c : Dev nD) (t : Fin cfg0.N) : (layerDat0 V c).after 6 t = layerBlock0 V c 6 t := by dsimp only [layerDat0]
theorem layerAfter0_7 (c : Dev nD) (t : Fin cfg0.N) : (layerDat0 V c).after 7 t = layerBlock0 V c 7 t := by dsimp only [layerDat0]
theorem layerAfter0_8 (c : Dev nD) (t : Fin cfg0.N) : (layerDat0 V c).after 8 t = layerBlock0 V c 8 t := by dsimp only [layerDat0]
theorem layerAfter0_9 (c : Dev nD) (t : Fin cfg0.N) : (layerDat0 V c).after 9 t = layerBlock0 V c 9 t := by dsimp only [layerDat0]
theorem layerAfter0_10 (c : Dev nD) (t : Fin cfg0.N) : (layerDat0 V c).after 10 t = layerOut0 (layerBlock0 V c 0 t) (layerBlock0 V c 1 t) (layerBlock0 V c 2 t) (layerBlock0 V c 3 t) (layerBlock0 V c 4 t) (layerBlock0 V c 5 t) (layerBlock0 V c 6 t) (layerBlock0 V c 7 t) (layerBlock0 V c 8 t) (layerBlock0 V c 9 t) := by dsimp only [layerDat0]

theorem layerBefore0_0 (c : Dev nD) (t : Fin cfg0.N) (d) : (layerDat0 V c).before 0 t d = layerBlock0 V c 0 t :=
  layerBefore0_0_of V (layerDat0 V c) (layerA0 V c 0) (layerAfter0_0 V c) t d
theorem layerBefore0_1 (c : Dev nD) (t : Fin cfg0.N) (d) : (layerDat0 V c).before 1 t d = layerBlock0 V c 1 t :=
  layerBefore0_1_of V (layerDat0 V c) (layerA0 V c 1) (layerAfter0_1 V c) t d
theorem layerBefore0_2 (c : Dev nD) (t : Fin cfg0.N) (d) : (layerDat0 V c).before 2 t d = layerBlock0 V c 2 t :=
  layerBefore0_2_of V (layerDat0 V c) (layerA0 V c 2) (layerAfter0_2 V c) t d
theorem layerBefore0_3 (c : Dev nD) (t : Fin cfg0.N) (d) : (layerDat0 V c).before 3 t d = layerBlock0 V c 3 t :=
  layerBefore0_3_of V (layerDat0 V c) (layerA0 V c 3) (layerAfter0_3 V c) t d
theorem layerBefore0_4 (c : Dev nD) (t : Fin cfg0.N) (d) : (layerDat0 V c).before 4 t d = layerBlock0 V c 4 t :=
  layerBefore0_4_of V (layerDat0 V c) (layerA0 V c 4) (layerAfter0_4 V c) t d
theorem layerBefore0_5 (c : Dev nD) (t : Fin cfg0.N) (d) : (layerDat0 V c).before 5 t d = layerBlock0 V c 5 t :=
  layerBefore0_5_of V (layerDat0 V c) (layerA0 V c 5) (layerAfter0_5 V c) t d
theorem layerBefore0_6 (c : Dev nD) (t : Fin cfg0.N) (d) : (layerDat0 V c).before 6 t d = layerBlock0 V c 6 t :=
  layerBefore0_6_of V (layerDat0 V c) (layerA0 V c 6) (layerAfter0_6 V c) t d
theorem layerBefore0_7 (c : Dev nD) (t : Fin cfg0.N) (d) : (layerDat0 V c).before 7 t d = layerBlock0 V c 7 t :=
  layerBefore0_7_of V (layerDat0 V c) (layerA0 V c 7) (layerAfter0_7 V c) t d
theorem layerBefore0_8 (c : Dev nD) (t : Fin cfg0.N) (d) : (layerDat0 V c).before 8 t d = layerBlock0 V c 8 t :=
  layerBefore0_8_of V (layerDat0 V c) (layerA0 V c 8) (layerAfter0_8 V c) t d
theorem layerBefore0_9 (c : Dev nD) (t : Fin cfg0.N) (d) : (layerDat0 V c).before 9 t d = layerBlock0 V c 9 t :=
  layerBefore0_9_of V (layerDat0 V c) (layerA0 V c 9) (layerAfter0_9 V c) t d

/-! ## The obligation at a grid point -/

/-- What the body is called with at point `t`, the windows one by one, -/
def layerPre0 (c : Dev nD) (t : Fin cfg0.N) : sProp 𝕄 :=
  iprop((layerDat0 V c).Φ t.castSucc ∗ (layerDat0 V c).owesAt () t.castSucc
    ∗ (∃ d, owns (c : Thread nD τ) (st0_0 t) fullShare ((layerDat0 V c).before 0 t d))
    ∗ (∃ d, owns (c : Thread nD τ) (st0_1 t) fullShare ((layerDat0 V c).before 1 t d))
    ∗ (∃ d, owns (c : Thread nD τ) (st0_2 t) fullShare ((layerDat0 V c).before 2 t d))
    ∗ (∃ d, owns (c : Thread nD τ) (st0_3 t) fullShare ((layerDat0 V c).before 3 t d))
    ∗ (∃ d, owns (c : Thread nD τ) (st0_4 t) fullShare ((layerDat0 V c).before 4 t d))
    ∗ (∃ d, owns (c : Thread nD τ) (st0_5 t) fullShare ((layerDat0 V c).before 5 t d))
    ∗ (∃ d, owns (c : Thread nD τ) (st0_6 t) fullShare ((layerDat0 V c).before 6 t d))
    ∗ (∃ d, owns (c : Thread nD τ) (st0_7 t) fullShare ((layerDat0 V c).before 7 t d))
    ∗ (∃ d, owns (c : Thread nD τ) (st0_8 t) fullShare ((layerDat0 V c).before 8 t d))
    ∗ (∃ d, owns (c : Thread nD τ) (st0_9 t) fullShare ((layerDat0 V c).before 9 t d))
    ∗ (∃ d, owns (c : Thread nD τ) (st0_10 t) fullShare ((layerDat0 V c).before 10 t d)))

/-- and what it returns. -/
def layerPost0 (c : Dev nD) (t : Fin cfg0.N) : sProp 𝕄 :=
  iprop((layerDat0 V c).Φ t.succ ∗ (layerDat0 V c).owesAt () t.succ
    ∗ owns (c : Thread nD τ) (st0_0 t) fullShare ((layerDat0 V c).after 0 t)
    ∗ owns (c : Thread nD τ) (st0_1 t) fullShare ((layerDat0 V c).after 1 t)
    ∗ owns (c : Thread nD τ) (st0_2 t) fullShare ((layerDat0 V c).after 2 t)
    ∗ owns (c : Thread nD τ) (st0_3 t) fullShare ((layerDat0 V c).after 3 t)
    ∗ owns (c : Thread nD τ) (st0_4 t) fullShare ((layerDat0 V c).after 4 t)
    ∗ owns (c : Thread nD τ) (st0_5 t) fullShare ((layerDat0 V c).after 5 t)
    ∗ owns (c : Thread nD τ) (st0_6 t) fullShare ((layerDat0 V c).after 6 t)
    ∗ owns (c : Thread nD τ) (st0_7 t) fullShare ((layerDat0 V c).after 7 t)
    ∗ owns (c : Thread nD τ) (st0_8 t) fullShare ((layerDat0 V c).after 8 t)
    ∗ owns (c : Thread nD τ) (st0_9 t) fullShare ((layerDat0 V c).after 9 t)
    ∗ owns (c : Thread nD τ) (st0_10 t) fullShare ((layerDat0 V c).after 10 t))

/-- The body at any point: the inputs' buffers hold their blocks, so the body's triple applies; the invariant and
    what the core owes pass through unread. -/
theorem layerBody0 (c : Dev nD) (t : Fin cfg0.N) :
    layerPre0 V c t ⊢ wp frame (wpE (defs₀ (F := F)) Variants.none c none) Set.univ (bodyAt0 t) (fun _ => layerPost0 V c t) := by
  unfold layerPre0 layerPost0 bodyAt0
  simp only [layerBefore0_0, layerBefore0_1, layerBefore0_2, layerBefore0_3, layerBefore0_4, layerBefore0_5, layerBefore0_6, layerBefore0_7, layerBefore0_8, layerBefore0_9]
  rw [show (layerDat0 V c).Φ t.succ = (layerDat0 V c).Φ t.castSucc from rfl,
    show (layerDat0 V c).owesAt () t.succ = (layerDat0 V c).owesAt () t.castSucc from rfl,
    layerAfter0_0, layerAfter0_1, layerAfter0_2, layerAfter0_3, layerAfter0_4, layerAfter0_5, layerAfter0_6, layerAfter0_7, layerAfter0_8, layerAfter0_9, layerAfter0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (layerKernel0 c Set.univ _ _ _ _ _ _ _ _ _ _ _ _ _ _ _ _ _ _ _ _ _ _ _ (layerBlock0 V c 0 t) (layerBlock0 V c 1 t) (layerBlock0 V c 2 t) (layerBlock0 V c 3 t) (layerBlock0 V c 4 t) (layerBlock0 V c 5 t) (layerBlock0 V c 6 t) (layerBlock0 V c 7 t) (layerBlock0 V c 8 t) (layerBlock0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's body obligation, at every point. -/
theorem layerObligation0 (c : Dev nD) : BodyObligation (layerDat0 (F := F) V c) (defs₀ (F := F)) Variants.none () Set.univ := fun t => by
  rw [bigSep_W0, bigSep_W0]
  exact layerBody0 V c t

end Cert.Kernel.Frame

end
-- ==== Proof.Bits.LayerRegion1.lean ====
/-
  Region 1 of the program: one layer of the graph network, run block of 2000 rows by block of 2000 rows over
  25 grid points. At a point the body reads the blocks of the node features and of the aggregated neighbour
  features, the two weight matrices and the six one-row parameters (bias, bias, gain, offset, running mean,
  running variance), and stores ONE block of the result. This module states what the stored block is as a
  function of the ten blocks read, proves the body's Hoare triple, gives the pipeline's proof data at any
  contents the region may be entered from, and discharges the pipeline's obligation at every grid point.
  Everything is stated at any float instance.
-/
import proofs.«106503_j32512902431459_1_alg».proof.Proof.Gen.Kernel.Launch
import proofs.«106503_j32512902431459_1_alg».proof.Proof.Gen.Kernel.Skeleton
import proofs.«106503_j32512902431459_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## A window's block at a grid point -/

/-- Window `w`'s block at point `t`, read off its array as the region finds it. -/
def layerBlock1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or kept
    it from the point before (the block index had not moved). -/
theorem layerBefore1_0_of {c : Dev nD} (dat : Dat τ (Elt F) Unit ℕ (UR sig nD τ) ℕ cfg1 c) (hA : dat.A 0 = V c (Pipeline.arrRef spec1 0))
    (hafter : ∀ t, dat.after 0 t = layerBlock1 V c 0 t) (t : Fin cfg1.N) (d) : dat.before 0 t d = layerBlock1 V c 0 t :=
  (dat.before_in_eq_fetched 0 rfl (fun _ => rfl) (fun _ _ _ => rfl) (fun t => by rw [hafter]; unfold Dat.blockOf layerBlock1; rw [hA]; try rfl) t d).trans
    (by unfold Dat.fetched Dat.blockOf layerBlock1; rw [hA]; try rfl)

/-- Input window 1's staging buffer holds its block at every point, whether the pipeline fetched it there or kept
    it from the point before (the block index had not moved). -/
theorem layerBefore1_1_of {c : Dev nD} (dat : Dat τ (Elt F) Unit ℕ (UR sig nD τ) ℕ cfg1 c) (hA : dat.A 1 = V c (Pipeline.arrRef spec1 1))
    (hafter : ∀ t, dat.after 1 t = layerBlock1 V c 1 t) (t : Fin cfg1.N) (d) : dat.before 1 t d = layerBlock1 V c 1 t :=
  (dat.before_in_eq_fetched 1 rfl (fun _ => rfl) (fun _ _ _ => rfl) (fun t => by rw [hafter]; unfold Dat.blockOf layerBlock1; rw [hA]; try rfl) t d).trans
    (by unfold Dat.fetched Dat.blockOf layerBlock1; rw [hA]; try rfl)

/-- Input window 2's staging buffer holds its block at every point, whether the pipeline fetched it there or kept
    it from the point before (the block index had not moved). -/
theorem layerBefore1_2_of {c : Dev nD} (dat : Dat τ (Elt F) Unit ℕ (UR sig nD τ) ℕ cfg1 c) (hA : dat.A 2 = V c (Pipeline.arrRef spec1 2))
    (hafter : ∀ t, dat.after 2 t = layerBlock1 V c 2 t) (t : Fin cfg1.N) (d) : dat.before 2 t d = layerBlock1 V c 2 t :=
  (dat.before_in_eq_fetched 2 rfl (fun _ => rfl) (fun _ _ _ => rfl) (fun t => by rw [hafter]; unfold Dat.blockOf layerBlock1; rw [hA]; try rfl) t d).trans
    (by unfold Dat.fetched Dat.blockOf layerBlock1; rw [hA]; try rfl)

/-- Input window 3's staging buffer holds its block at every point, whether the pipeline fetched it there or kept
    it from the point before (the block index had not moved). -/
theorem layerBefore1_3_of {c : Dev nD} (dat : Dat τ (Elt F) Unit ℕ (UR sig nD τ) ℕ cfg1 c) (hA : dat.A 3 = V c (Pipeline.arrRef spec1 3))
    (hafter : ∀ t, dat.after 3 t = layerBlock1 V c 3 t) (t : Fin cfg1.N) (d) : dat.before 3 t d = layerBlock1 V c 3 t :=
  (dat.before_in_eq_fetched 3 rfl (fun _ => rfl) (fun _ _ _ => rfl) (fun t => by rw [hafter]; unfold Dat.blockOf layerBlock1; rw [hA]; try rfl) t d).trans
    (by unfold Dat.fetched Dat.blockOf layerBlock1; rw [hA]; try rfl)

/-- Input window 4's staging buffer holds its block at every point, whether the pipeline fetched it there or kept
    it from the point before (the block index had not moved). -/
theorem layerBefore1_4_of {c : Dev nD} (dat : Dat τ (Elt F) Unit ℕ (UR sig nD τ) ℕ cfg1 c) (hA : dat.A 4 = V c (Pipeline.arrRef spec1 4))
    (hafter : ∀ t, dat.after 4 t = layerBlock1 V c 4 t) (t : Fin cfg1.N) (d) : dat.before 4 t d = layerBlock1 V c 4 t :=
  (dat.before_in_eq_fetched 4 rfl (fun _ => rfl) (fun _ _ _ => rfl) (fun t => by rw [hafter]; unfold Dat.blockOf layerBlock1; rw [hA]; try rfl) t d).trans
    (by unfold Dat.fetched Dat.blockOf layerBlock1; rw [hA]; try rfl)

/-- Input window 5's staging buffer holds its block at every point, whether the pipeline fetched it there or kept
    it from the point before (the block index had not moved). -/
theorem layerBefore1_5_of {c : Dev nD} (dat : Dat τ (Elt F) Unit ℕ (UR sig nD τ) ℕ cfg1 c) (hA : dat.A 5 = V c (Pipeline.arrRef spec1 5))
    (hafter : ∀ t, dat.after 5 t = layerBlock1 V c 5 t) (t : Fin cfg1.N) (d) : dat.before 5 t d = layerBlock1 V c 5 t :=
  (dat.before_in_eq_fetched 5 rfl (fun _ => rfl) (fun _ _ _ => rfl) (fun t => by rw [hafter]; unfold Dat.blockOf layerBlock1; rw [hA]; try rfl) t d).trans
    (by unfold Dat.fetched Dat.blockOf layerBlock1; rw [hA]; try rfl)

/-- Input window 6's staging buffer holds its block at every point, whether the pipeline fetched it there or kept
    it from the point before (the block index had not moved). -/
theorem layerBefore1_6_of {c : Dev nD} (dat : Dat τ (Elt F) Unit ℕ (UR sig nD τ) ℕ cfg1 c) (hA : dat.A 6 = V c (Pipeline.arrRef spec1 6))
    (hafter : ∀ t, dat.after 6 t = layerBlock1 V c 6 t) (t : Fin cfg1.N) (d) : dat.before 6 t d = layerBlock1 V c 6 t :=
  (dat.before_in_eq_fetched 6 rfl (fun _ => rfl) (fun _ _ _ => rfl) (fun t => by rw [hafter]; unfold Dat.blockOf layerBlock1; rw [hA]; try rfl) t d).trans
    (by unfold Dat.fetched Dat.blockOf layerBlock1; rw [hA]; try rfl)

/-- Input window 7's staging buffer holds its block at every point, whether the pipeline fetched it there or kept
    it from the point before (the block index had not moved). -/
theorem layerBefore1_7_of {c : Dev nD} (dat : Dat τ (Elt F) Unit ℕ (UR sig nD τ) ℕ cfg1 c) (hA : dat.A 7 = V c (Pipeline.arrRef spec1 7))
    (hafter : ∀ t, dat.after 7 t = layerBlock1 V c 7 t) (t : Fin cfg1.N) (d) : dat.before 7 t d = layerBlock1 V c 7 t :=
  (dat.before_in_eq_fetched 7 rfl (fun _ => rfl) (fun _ _ _ => rfl) (fun t => by rw [hafter]; unfold Dat.blockOf layerBlock1; rw [hA]; try rfl) t d).trans
    (by unfold Dat.fetched Dat.blockOf layerBlock1; rw [hA]; try rfl)

/-- Input window 8's staging buffer holds its block at every point, whether the pipeline fetched it there or kept
    it from the point before (the block index had not moved). -/
theorem layerBefore1_8_of {c : Dev nD} (dat : Dat τ (Elt F) Unit ℕ (UR sig nD τ) ℕ cfg1 c) (hA : dat.A 8 = V c (Pipeline.arrRef spec1 8))
    (hafter : ∀ t, dat.after 8 t = layerBlock1 V c 8 t) (t : Fin cfg1.N) (d) : dat.before 8 t d = layerBlock1 V c 8 t :=
  (dat.before_in_eq_fetched 8 rfl (fun _ => rfl) (fun _ _ _ => rfl) (fun t => by rw [hafter]; unfold Dat.blockOf layerBlock1; rw [hA]; try rfl) t d).trans
    (by unfold Dat.fetched Dat.blockOf layerBlock1; rw [hA]; try rfl)

/-- Input window 9's staging buffer holds its block at every point, whether the pipeline fetched it there or kept
    it from the point before (the block index had not moved). -/
theorem layerBefore1_9_of {c : Dev nD} (dat : Dat τ (Elt F) Unit ℕ (UR sig nD τ) ℕ cfg1 c) (hA : dat.A 9 = V c (Pipeline.arrRef spec1 9))
    (hafter : ∀ t, dat.after 9 t = layerBlock1 V c 9 t) (t : Fin cfg1.N) (d) : dat.before 9 t d = layerBlock1 V c 9 t :=
  (dat.before_in_eq_fetched 9 rfl (fun _ => rfl) (fun _ _ _ => rfl) (fun t => by rw [hafter]; unfold Dat.blockOf layerBlock1; rw [hA]; try rfl) t d).trans
    (by unfold Dat.fetched Dat.blockOf layerBlock1; rw [hA]; try rfl)

/-! ## What the body stores -/

/-- The whole block of 2000 rows, the whole weight matrix, the whole parameter row: every access of the body is to
    a whole buffer. -/
abbrev rowsRect1 : Rect S2000x128 := Rect.unit (s := S2000x128) ![0, 0] S2000x128.size inb_S2000x128_S2000x128_0_0
abbrev weightRect1 : Rect S128x128 := Rect.unit (s := S128x128) ![0, 0] S128x128.size inb_S128x128_S128x128_0_0
abbrev paramRect1 : Rect S1x128 := Rect.unit (s := S1x128) ![0, 0] S1x128.size inb_S1x128_S1x128_0_0

/-- The output block after the body: its one store, of the layer's arithmetic (the two named payloads) on the ten
    blocks read. -/
def layerOut1 (x0 : Vec F S2000x128 .f32) (x1 : Vec F S2000x128 .f32) (x2 : Vec F S128x128 .f32) (x3 : Vec F S1x128 .f32) (x4 : Vec F S128x128 .f32) (x5 : Vec F S1x128 .f32) (x6 : Vec F S1x128 .f32) (x7 : Vec F S1x128 .f32) (x8 : Vec F S1x128 .f32) (x9 : Vec F S1x128 .f32) : Vec F S2000x128 .f32 :=
  View.canon [⟨rowsRect1, k1_pay1 (k1_pay2 (View.ld x0 rowsRect1) (View.ld x1 rowsRect1) (View.ld x2 weightRect1) (View.ld x3 paramRect1) (View.ld x4 weightRect1) (View.ld x5 paramRect1) (View.ld x9 paramRect1) (View.ld x8 paramRect1)) (View.ld x6 paramRect1) (View.ld x7 paramRect1)⟩]

/-- The one store covers the output block. -/
theorem layerCover1 (p0 : Vec F S2000x128 .f32) (y : S2000x128.Idx) :
    ∃ pc ∈ ([⟨rowsRect1, p0⟩] : List (View.Piece (Elt F) S2000x128 .f32)), y ∈ pc.1.set :=
  View.cover_of_tiled [⟨rowsRect1, p0⟩] S2000x128.size (by rfl) y

/-! ## The body's triple -/

set_option maxHeartbeats 1000000 in
/-- The body on whole staging buffers, the ten inputs' at known contents and the output's at anything, runs to the
    end, leaves the inputs as they were and the output's buffer at `layerOut1` of the inputs. -/
theorem layerKernel1 (c : Dev nD) (E : Set ℕ) (i : grid1.Coords) (arg0 : Memref sig .tc .vmem S2000x128 .f32) (harg0 : arg0.IsWhole) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S2000x128 .f32) (x2 : Vec F S128x128 .f32) (x3 : Vec F S1x128 .f32) (x4 : Vec F S128x128 .f32) (x5 : Vec F S1x128 .f32) (x6 : Vec F S1x128 .f32) (x7 : Vec F S1x128 .f32) (x8 : Vec F S1x128 .f32) (x9 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (layerOut1 x0 x1 x2 x3 x4 x5 x6 x7 x8 x9)) -∗ K ⟨⟩))
      ⊢ wp frame (wpE (defs₀ (F := F)) Variants.none c none) E (cc1__gin_layer_kernel i arg0 harg0 arg1 harg1 arg2 harg2 arg3 harg3 arg4 harg4 arg5 harg5 arg6 harg6 arg7 harg7 arg8 harg8 arg9 harg9 arg10 harg10) K := by
  simp only [cc1__gin_layer_kernel_eq_skeleton]; unfold cc1__gin_layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (layerCover1 _)

/-! ## The pipeline's proof data -/

/-- The proof data of this region on core `c`: the arrays as the region finds them; after the body at point `t`
    each input's buffer still at its block and the output's at `layerOut1` of the input blocks; nothing owed. -/
def layerDat1 (c : Dev nD) : Dat τ (Elt F) Unit ℕ (UR sig nD τ) ℕ cfg1 c where
  A w := V c (Pipeline.arrRef spec1 w)
  after w t := match w with
    | ⟨0, _⟩ => layerBlock1 V c 0 t
    | ⟨1, _⟩ => layerBlock1 V c 1 t
    | ⟨2, _⟩ => layerBlock1 V c 2 t
    | ⟨3, _⟩ => layerBlock1 V c 3 t
    | ⟨4, _⟩ => layerBlock1 V c 4 t
    | ⟨5, _⟩ => layerBlock1 V c 5 t
    | ⟨6, _⟩ => layerBlock1 V c 6 t
    | ⟨7, _⟩ => layerBlock1 V c 7 t
    | ⟨8, _⟩ => layerBlock1 V c 8 t
    | ⟨9, _⟩ => layerBlock1 V c 9 t
    | ⟨10, _⟩ => layerOut1 (layerBlock1 V c 0 t) (layerBlock1 V c 1 t) (layerBlock1 V c 2 t) (layerBlock1 V c 3 t) (layerBlock1 V c 4 t) (layerBlock1 V c 5 t) (layerBlock1 V c 6 t) (layerBlock1 V c 7 t) (layerBlock1 V c 8 t) (layerBlock1 V c 9 t)
  Φ _ := Pipeline.ΦA spec1 c
  q _ := fullShare
  owed _ := 0

theorem layerA1 (c : Dev nD) (w : Fin cfg1.W) : (layerDat1 V c).A w = V c (Pipeline.arrRef spec1 w) := by
  dsimp only [layerDat1]

theorem layerAfter1_0 (c : Dev nD) (t : Fin cfg1.N) : (layerDat1 V c).after 0 t = layerBlock1 V c 0 t := by dsimp only [layerDat1]
theorem layerAfter1_1 (c : Dev nD) (t : Fin cfg1.N) : (layerDat1 V c).after 1 t = layerBlock1 V c 1 t := by dsimp only [layerDat1]
theorem layerAfter1_2 (c : Dev nD) (t : Fin cfg1.N) : (layerDat1 V c).after 2 t = layerBlock1 V c 2 t := by dsimp only [layerDat1]
theorem layerAfter1_3 (c : Dev nD) (t : Fin cfg1.N) : (layerDat1 V c).after 3 t = layerBlock1 V c 3 t := by dsimp only [layerDat1]
theorem layerAfter1_4 (c : Dev nD) (t : Fin cfg1.N) : (layerDat1 V c).after 4 t = layerBlock1 V c 4 t := by dsimp only [layerDat1]
theorem layerAfter1_5 (c : Dev nD) (t : Fin cfg1.N) : (layerDat1 V c).after 5 t = layerBlock1 V c 5 t := by dsimp only [layerDat1]
theorem layerAfter1_6 (c : Dev nD) (t : Fin cfg1.N) : (layerDat1 V c).after 6 t = layerBlock1 V c 6 t := by dsimp only [layerDat1]
theorem layerAfter1_7 (c : Dev nD) (t : Fin cfg1.N) : (layerDat1 V c).after 7 t = layerBlock1 V c 7 t := by dsimp only [layerDat1]
theorem layerAfter1_8 (c : Dev nD) (t : Fin cfg1.N) : (layerDat1 V c).after 8 t = layerBlock1 V c 8 t := by dsimp only [layerDat1]
theorem layerAfter1_9 (c : Dev nD) (t : Fin cfg1.N) : (layerDat1 V c).after 9 t = layerBlock1 V c 9 t := by dsimp only [layerDat1]
theorem layerAfter1_10 (c : Dev nD) (t : Fin cfg1.N) : (layerDat1 V c).after 10 t = layerOut1 (layerBlock1 V c 0 t) (layerBlock1 V c 1 t) (layerBlock1 V c 2 t) (layerBlock1 V c 3 t) (layerBlock1 V c 4 t) (layerBlock1 V c 5 t) (layerBlock1 V c 6 t) (layerBlock1 V c 7 t) (layerBlock1 V c 8 t) (layerBlock1 V c 9 t) := by dsimp only [layerDat1]

theorem layerBefore1_0 (c : Dev nD) (t : Fin cfg1.N) (d) : (layerDat1 V c).before 0 t d = layerBlock1 V c 0 t :=
  layerBefore1_0_of V (layerDat1 V c) (layerA1 V c 0) (layerAfter1_0 V c) t d
theorem layerBefore1_1 (c : Dev nD) (t : Fin cfg1.N) (d) : (layerDat1 V c).before 1 t d = layerBlock1 V c 1 t :=
  layerBefore1_1_of V (layerDat1 V c) (layerA1 V c 1) (layerAfter1_1 V c) t d
theorem layerBefore1_2 (c : Dev nD) (t : Fin cfg1.N) (d) : (layerDat1 V c).before 2 t d = layerBlock1 V c 2 t :=
  layerBefore1_2_of V (layerDat1 V c) (layerA1 V c 2) (layerAfter1_2 V c) t d
theorem layerBefore1_3 (c : Dev nD) (t : Fin cfg1.N) (d) : (layerDat1 V c).before 3 t d = layerBlock1 V c 3 t :=
  layerBefore1_3_of V (layerDat1 V c) (layerA1 V c 3) (layerAfter1_3 V c) t d
theorem layerBefore1_4 (c : Dev nD) (t : Fin cfg1.N) (d) : (layerDat1 V c).before 4 t d = layerBlock1 V c 4 t :=
  layerBefore1_4_of V (layerDat1 V c) (layerA1 V c 4) (layerAfter1_4 V c) t d
theorem layerBefore1_5 (c : Dev nD) (t : Fin cfg1.N) (d) : (layerDat1 V c).before 5 t d = layerBlock1 V c 5 t :=
  layerBefore1_5_of V (layerDat1 V c) (layerA1 V c 5) (layerAfter1_5 V c) t d
theorem layerBefore1_6 (c : Dev nD) (t : Fin cfg1.N) (d) : (layerDat1 V c).before 6 t d = layerBlock1 V c 6 t :=
  layerBefore1_6_of V (layerDat1 V c) (layerA1 V c 6) (layerAfter1_6 V c) t d
theorem layerBefore1_7 (c : Dev nD) (t : Fin cfg1.N) (d) : (layerDat1 V c).before 7 t d = layerBlock1 V c 7 t :=
  layerBefore1_7_of V (layerDat1 V c) (layerA1 V c 7) (layerAfter1_7 V c) t d
theorem layerBefore1_8 (c : Dev nD) (t : Fin cfg1.N) (d) : (layerDat1 V c).before 8 t d = layerBlock1 V c 8 t :=
  layerBefore1_8_of V (layerDat1 V c) (layerA1 V c 8) (layerAfter1_8 V c) t d
theorem layerBefore1_9 (c : Dev nD) (t : Fin cfg1.N) (d) : (layerDat1 V c).before 9 t d = layerBlock1 V c 9 t :=
  layerBefore1_9_of V (layerDat1 V c) (layerA1 V c 9) (layerAfter1_9 V c) t d

/-! ## The obligation at a grid point -/

/-- What the body is called with at point `t`, the windows one by one, -/
def layerPre1 (c : Dev nD) (t : Fin cfg1.N) : sProp 𝕄 :=
  iprop((layerDat1 V c).Φ t.castSucc ∗ (layerDat1 V c).owesAt () t.castSucc
    ∗ (∃ d, owns (c : Thread nD τ) (st1_0 t) fullShare ((layerDat1 V c).before 0 t d))
    ∗ (∃ d, owns (c : Thread nD τ) (st1_1 t) fullShare ((layerDat1 V c).before 1 t d))
    ∗ (∃ d, owns (c : Thread nD τ) (st1_2 t) fullShare ((layerDat1 V c).before 2 t d))
    ∗ (∃ d, owns (c : Thread nD τ) (st1_3 t) fullShare ((layerDat1 V c).before 3 t d))
    ∗ (∃ d, owns (c : Thread nD τ) (st1_4 t) fullShare ((layerDat1 V c).before 4 t d))
    ∗ (∃ d, owns (c : Thread nD τ) (st1_5 t) fullShare ((layerDat1 V c).before 5 t d))
    ∗ (∃ d, owns (c : Thread nD τ) (st1_6 t) fullShare ((layerDat1 V c).before 6 t d))
    ∗ (∃ d, owns (c : Thread nD τ) (st1_7 t) fullShare ((layerDat1 V c).before 7 t d))
    ∗ (∃ d, owns (c : Thread nD τ) (st1_8 t) fullShare ((layerDat1 V c).before 8 t d))
    ∗ (∃ d, owns (c : Thread nD τ) (st1_9 t) fullShare ((layerDat1 V c).before 9 t d))
    ∗ (∃ d, owns (c : Thread nD τ) (st1_10 t) fullShare ((layerDat1 V c).before 10 t d)))

/-- and what it returns. -/
def layerPost1 (c : Dev nD) (t : Fin cfg1.N) : sProp 𝕄 :=
  iprop((layerDat1 V c).Φ t.succ ∗ (layerDat1 V c).owesAt () t.succ
    ∗ owns (c : Thread nD τ) (st1_0 t) fullShare ((layerDat1 V c).after 0 t)
    ∗ owns (c : Thread nD τ) (st1_1 t) fullShare ((layerDat1 V c).after 1 t)
    ∗ owns (c : Thread nD τ) (st1_2 t) fullShare ((layerDat1 V c).after 2 t)
    ∗ owns (c : Thread nD τ) (st1_3 t) fullShare ((layerDat1 V c).after 3 t)
    ∗ owns (c : Thread nD τ) (st1_4 t) fullShare ((layerDat1 V c).after 4 t)
    ∗ owns (c : Thread nD τ) (st1_5 t) fullShare ((layerDat1 V c).after 5 t)
    ∗ owns (c : Thread nD τ) (st1_6 t) fullShare ((layerDat1 V c).after 6 t)
    ∗ owns (c : Thread nD τ) (st1_7 t) fullShare ((layerDat1 V c).after 7 t)
    ∗ owns (c : Thread nD τ) (st1_8 t) fullShare ((layerDat1 V c).after 8 t)
    ∗ owns (c : Thread nD τ) (st1_9 t) fullShare ((layerDat1 V c).after 9 t)
    ∗ owns (c : Thread nD τ) (st1_10 t) fullShare ((layerDat1 V c).after 10 t))

/-- The body at any point: the inputs' buffers hold their blocks, so the body's triple applies; the invariant and
    what the core owes pass through unread. -/
theorem layerBody1 (c : Dev nD) (t : Fin cfg1.N) :
    layerPre1 V c t ⊢ wp frame (wpE (defs₀ (F := F)) Variants.none c none) Set.univ (bodyAt1 t) (fun _ => layerPost1 V c t) := by
  unfold layerPre1 layerPost1 bodyAt1
  simp only [layerBefore1_0, layerBefore1_1, layerBefore1_2, layerBefore1_3, layerBefore1_4, layerBefore1_5, layerBefore1_6, layerBefore1_7, layerBefore1_8, layerBefore1_9]
  rw [show (layerDat1 V c).Φ t.succ = (layerDat1 V c).Φ t.castSucc from rfl,
    show (layerDat1 V c).owesAt () t.succ = (layerDat1 V c).owesAt () t.castSucc from rfl,
    layerAfter1_0, layerAfter1_1, layerAfter1_2, layerAfter1_3, layerAfter1_4, layerAfter1_5, layerAfter1_6, layerAfter1_7, layerAfter1_8, layerAfter1_9, layerAfter1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (layerKernel1 c Set.univ _ _ _ _ _ _ _ _ _ _ _ _ _ _ _ _ _ _ _ _ _ _ _ (layerBlock1 V c 0 t) (layerBlock1 V c 1 t) (layerBlock1 V c 2 t) (layerBlock1 V c 3 t) (layerBlock1 V c 4 t) (layerBlock1 V c 5 t) (layerBlock1 V c 6 t) (layerBlock1 V c 7 t) (layerBlock1 V c 8 t) (layerBlock1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's body obligation, at every point. -/
theorem layerObligation1 (c : Dev nD) : BodyObligation (layerDat1 (F := F) V c) (defs₀ (F := F)) Variants.none () Set.univ := fun t => by
  rw [bigSep_W1, bigSep_W1]
  exact layerBody1 V c t

end Cert.Kernel.Frame

end
-- ==== Proof.Bits.LayerRegion2.lean ====
/-
  Region 2 of the program: one layer of the graph network, run block of 2000 rows by block of 2000 rows over
  25 grid points. At a point the body reads the blocks of the node features and of the aggregated neighbour
  features, the two weight matrices and the six one-row parameters (bias, bias, gain, offset, running mean,
  running variance), and stores ONE block of the result. This module states what the stored block is as a
  function of the ten blocks read, proves the body's Hoare triple, gives the pipeline's proof data at any
  contents the region may be entered from, and discharges the pipeline's obligation at every grid point.
  Everything is stated at any float instance.
-/
import proofs.«106503_j32512902431459_1_alg».proof.Proof.Gen.Kernel.Launch
import proofs.«106503_j32512902431459_1_alg».proof.Proof.Gen.Kernel.Skeleton
import proofs.«106503_j32512902431459_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## A window's block at a grid point -/

/-- Window `w`'s block at point `t`, read off its array as the region finds it. -/
def layerBlock2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the pipeline fetched it there or kept
    it from the point before (the block index had not moved). -/
theorem layerBefore2_0_of {c : Dev nD} (dat : Dat τ (Elt F) Unit ℕ (UR sig nD τ) ℕ cfg2 c) (hA : dat.A 0 = V c (Pipeline.arrRef spec2 0))
    (hafter : ∀ t, dat.after 0 t = layerBlock2 V c 0 t) (t : Fin cfg2.N) (d) : dat.before 0 t d = layerBlock2 V c 0 t :=
  (dat.before_in_eq_fetched 0 rfl (fun _ => rfl) (fun _ _ _ => rfl) (fun t => by rw [hafter]; unfold Dat.blockOf layerBlock2; rw [hA]; try rfl) t d).trans
    (by unfold Dat.fetched Dat.blockOf layerBlock2; rw [hA]; try rfl)

/-- Input window 1's staging buffer holds its block at every point, whether the pipeline fetched it there or kept
    it from the point before (the block index had not moved). -/
theorem layerBefore2_1_of {c : Dev nD} (dat : Dat τ (Elt F) Unit ℕ (UR sig nD τ) ℕ cfg2 c) (hA : dat.A 1 = V c (Pipeline.arrRef spec2 1))
    (hafter : ∀ t, dat.after 1 t = layerBlock2 V c 1 t) (t : Fin cfg2.N) (d) : dat.before 1 t d = layerBlock2 V c 1 t :=
  (dat.before_in_eq_fetched 1 rfl (fun _ => rfl) (fun _ _ _ => rfl) (fun t => by rw [hafter]; unfold Dat.blockOf layerBlock2; rw [hA]; try rfl) t d).trans
    (by unfold Dat.fetched Dat.blockOf layerBlock2; rw [hA]; try rfl)

/-- Input window 2's staging buffer holds its block at every point, whether the pipeline fetched it there or kept
    it from the point before (the block index had not moved). -/
theorem layerBefore2_2_of {c : Dev nD} (dat : Dat τ (Elt F) Unit ℕ (UR sig nD τ) ℕ cfg2 c) (hA : dat.A 2 = V c (Pipeline.arrRef spec2 2))
    (hafter : ∀ t, dat.after 2 t = layerBlock2 V c 2 t) (t : Fin cfg2.N) (d) : dat.before 2 t d = layerBlock2 V c 2 t :=
  (dat.before_in_eq_fetched 2 rfl (fun _ => rfl) (fun _ _ _ => rfl) (fun t => by rw [hafter]; unfold Dat.blockOf layerBlock2; rw [hA]; try rfl) t d).trans
    (by unfold Dat.fetched Dat.blockOf layerBlock2; rw [hA]; try rfl)

/-- Input window 3's staging buffer holds its block at every point, whether the pipeline fetched it there or kept
    it from the point before (the block index had not moved). -/
theorem layerBefore2_3_of {c : Dev nD} (dat : Dat τ (Elt F) Unit ℕ (UR sig nD τ) ℕ cfg2 c) (hA : dat.A 3 = V c (Pipeline.arrRef spec2 3))
    (hafter : ∀ t, dat.after 3 t = layerBlock2 V c 3 t) (t : Fin cfg2.N) (d) : dat.before 3 t d = layerBlock2 V c 3 t :=
  (dat.before_in_eq_fetched 3 rfl (fun _ => rfl) (fun _ _ _ => rfl) (fun t => by rw [hafter]; unfold Dat.blockOf layerBlock2; rw [hA]; try rfl) t d).trans
    (by unfold Dat.fetched Dat.blockOf layerBlock2; rw [hA]; try rfl)

/-- Input window 4's staging buffer holds its block at every point, whether the pipeline fetched it there or kept
    it from the point before (the block index had not moved). -/
theorem layerBefore2_4_of {c : Dev nD} (dat : Dat τ (Elt F) Unit ℕ (UR sig nD τ) ℕ cfg2 c) (hA : dat.A 4 = V c (Pipeline.arrRef spec2 4))
    (hafter : ∀ t, dat.after 4 t = layerBlock2 V c 4 t) (t : Fin cfg2.N) (d) : dat.before 4 t d = layerBlock2 V c 4 t :=
  (dat.before_in_eq_fetched 4 rfl (fun _ => rfl) (fun _ _ _ => rfl) (fun t => by rw [hafter]; unfold Dat.blockOf layerBlock2; rw [hA]; try rfl) t d).trans
    (by unfold Dat.fetched Dat.blockOf layerBlock2; rw [hA]; try rfl)

/-- Input window 5's staging buffer holds its block at every point, whether the pipeline fetched it there or kept
    it from the point before (the block index had not moved). -/
theorem layerBefore2_5_of {c : Dev nD} (dat : Dat τ (Elt F) Unit ℕ (UR sig nD τ) ℕ cfg2 c) (hA : dat.A 5 = V c (Pipeline.arrRef spec2 5))
    (hafter : ∀ t, dat.after 5 t = layerBlock2 V c 5 t) (t : Fin cfg2.N) (d) : dat.before 5 t d = layerBlock2 V c 5 t :=
  (dat.before_in_eq_fetched 5 rfl (fun _ => rfl) (fun _ _ _ => rfl) (fun t => by rw [hafter]; unfold Dat.blockOf layerBlock2; rw [hA]; try rfl) t d).trans
    (by unfold Dat.fetched Dat.blockOf layerBlock2; rw [hA]; try rfl)

/-- Input window 6's staging buffer holds its block at every point, whether the pipeline fetched it there or kept
    it from the point before (the block index had not moved). -/
theorem layerBefore2_6_of {c : Dev nD} (dat : Dat τ (Elt F) Unit ℕ (UR sig nD τ) ℕ cfg2 c) (hA : dat.A 6 = V c (Pipeline.arrRef spec2 6))
    (hafter : ∀ t, dat.after 6 t = layerBlock2 V c 6 t) (t : Fin cfg2.N) (d) : dat.before 6 t d = layerBlock2 V c 6 t :=
  (dat.before_in_eq_fetched 6 rfl (fun _ => rfl) (fun _ _ _ => rfl) (fun t => by rw [hafter]; unfold Dat.blockOf layerBlock2; rw [hA]; try rfl) t d).trans
    (by unfold Dat.fetched Dat.blockOf layerBlock2; rw [hA]; try rfl)

/-- Input window 7's staging buffer holds its block at every point, whether the pipeline fetched it there or kept
    it from the point before (the block index had not moved). -/
theorem layerBefore2_7_of {c : Dev nD} (dat : Dat τ (Elt F) Unit ℕ (UR sig nD τ) ℕ cfg2 c) (hA : dat.A 7 = V c (Pipeline.arrRef spec2 7))
    (hafter : ∀ t, dat.after 7 t = layerBlock2 V c 7 t) (t : Fin cfg2.N) (d) : dat.before 7 t d = layerBlock2 V c 7 t :=
  (dat.before_in_eq_fetched 7 rfl (fun _ => rfl) (fun _ _ _ => rfl) (fun t => by rw [hafter]; unfold Dat.blockOf layerBlock2; rw [hA]; try rfl) t d).trans
    (by unfold Dat.fetched Dat.blockOf layerBlock2; rw [hA]; try rfl)

/-- Input window 8's staging buffer holds its block at every point, whether the pipeline fetched it there or kept
    it from the point before (the block index had not moved). -/
theorem layerBefore2_8_of {c : Dev nD} (dat : Dat τ (Elt F) Unit ℕ (UR sig nD τ) ℕ cfg2 c) (hA : dat.A 8 = V c (Pipeline.arrRef spec2 8))
    (hafter : ∀ t, dat.after 8 t = layerBlock2 V c 8 t) (t : Fin cfg2.N) (d) : dat.before 8 t d = layerBlock2 V c 8 t :=
  (dat.before_in_eq_fetched 8 rfl (fun _ => rfl) (fun _ _ _ => rfl) (fun t => by rw [hafter]; unfold Dat.blockOf layerBlock2; rw [hA]; try rfl) t d).trans
    (by unfold Dat.fetched Dat.blockOf layerBlock2; rw [hA]; try rfl)

/-- Input window 9's staging buffer holds its block at every point, whether the pipeline fetched it there or kept
    it from the point before (the block index had not moved). -/
theorem layerBefore2_9_of {c : Dev nD} (dat : Dat τ (Elt F) Unit ℕ (UR sig nD τ) ℕ cfg2 c) (hA : dat.A 9 = V c (Pipeline.arrRef spec2 9))
    (hafter : ∀ t, dat.after 9 t = layerBlock2 V c 9 t) (t : Fin cfg2.N) (d) : dat.before 9 t d = layerBlock2 V c 9 t :=
  (dat.before_in_eq_fetched 9 rfl (fun _ => rfl) (fun _ _ _ => rfl) (fun t => by rw [hafter]; unfold Dat.blockOf layerBlock2; rw [hA]; try rfl) t d).trans
    (by unfold Dat.fetched Dat.blockOf layerBlock2; rw [hA]; try rfl)

/-! ## What the body stores -/

/-- The whole block of 2000 rows, the whole weight matrix, the whole parameter row: every access of the body is to
    a whole buffer. -/
abbrev rowsRect2 : Rect S2000x128 := Rect.unit (s := S2000x128) ![0, 0] S2000x128.size inb_S2000x128_S2000x128_0_0
abbrev weightRect2 : Rect S128x128 := Rect.unit (s := S128x128) ![0, 0] S128x128.size inb_S128x128_S128x128_0_0
abbrev paramRect2 : Rect S1x128 := Rect.unit (s := S1x128) ![0, 0] S1x128.size inb_S1x128_S1x128_0_0

/-- The output block after the body: its one store, of the layer's arithmetic (the two named payloads) on the ten
    blocks read. -/
def layerOut2 (x0 : Vec F S2000x128 .f32) (x1 : Vec F S2000x128 .f32) (x2 : Vec F S128x128 .f32) (x3 : Vec F S1x128 .f32) (x4 : Vec F S128x128 .f32) (x5 : Vec F S1x128 .f32) (x6 : Vec F S1x128 .f32) (x7 : Vec F S1x128 .f32) (x8 : Vec F S1x128 .f32) (x9 : Vec F S1x128 .f32) : Vec F S2000x128 .f32 :=
  View.canon [⟨rowsRect2, k2_pay1 (k2_pay2 (View.ld x0 rowsRect2) (View.ld x1 rowsRect2) (View.ld x2 weightRect2) (View.ld x3 paramRect2) (View.ld x4 weightRect2) (View.ld x5 paramRect2) (View.ld x9 paramRect2) (View.ld x8 paramRect2)) (View.ld x6 paramRect2) (View.ld x7 paramRect2)⟩]

/-- The one store covers the output block. -/
theorem layerCover2 (p0 : Vec F S2000x128 .f32) (y : S2000x128.Idx) :
    ∃ pc ∈ ([⟨rowsRect2, p0⟩] : List (View.Piece (Elt F) S2000x128 .f32)), y ∈ pc.1.set :=
  View.cover_of_tiled [⟨rowsRect2, p0⟩] S2000x128.size (by rfl) y

/-! ## The body's triple -/

set_option maxHeartbeats 1000000 in
/-- The body on whole staging buffers, the ten inputs' at known contents and the output's at anything, runs to the
    end, leaves the inputs as they were and the output's buffer at `layerOut2` of the inputs. -/
theorem layerKernel2 (c : Dev nD) (E : Set ℕ) (i : grid2.Coords) (arg0 : Memref sig .tc .vmem S2000x128 .f32) (harg0 : arg0.IsWhole) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S2000x128 .f32) (x2 : Vec F S128x128 .f32) (x3 : Vec F S1x128 .f32) (x4 : Vec F S128x128 .f32) (x5 : Vec F S1x128 .f32) (x6 : Vec F S1x128 .f32) (x7 : Vec F S1x128 .f32) (x8 : Vec F S1x128 .f32) (x9 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (layerOut2 x0 x1 x2 x3 x4 x5 x6 x7 x8 x9)) -∗ K ⟨⟩))
      ⊢ wp frame (wpE (defs₀ (F := F)) Variants.none c none) E (cc2__gin_layer_kernel i arg0 harg0 arg1 harg1 arg2 harg2 arg3 harg3 arg4 harg4 arg5 harg5 arg6 harg6 arg7 harg7 arg8 harg8 arg9 harg9 arg10 harg10) K := by
  simp only [cc2__gin_layer_kernel_eq_skeleton]; unfold cc2__gin_layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (layerCover2 _)

/-! ## The pipeline's proof data -/

/-- The proof data of this region on core `c`: the arrays as the region finds them; after the body at point `t`
    each input's buffer still at its block and the output's at `layerOut2` of the input blocks; nothing owed. -/
def layerDat2 (c : Dev nD) : Dat τ (Elt F) Unit ℕ (UR sig nD τ) ℕ cfg2 c where
  A w := V c (Pipeline.arrRef spec2 w)
  after w t := match w with
    | ⟨0, _⟩ => layerBlock2 V c 0 t
    | ⟨1, _⟩ => layerBlock2 V c 1 t
    | ⟨2, _⟩ => layerBlock2 V c 2 t
    | ⟨3, _⟩ => layerBlock2 V c 3 t
    | ⟨4, _⟩ => layerBlock2 V c 4 t
    | ⟨5, _⟩ => layerBlock2 V c 5 t
    | ⟨6, _⟩ => layerBlock2 V c 6 t
    | ⟨7, _⟩ => layerBlock2 V c 7 t
    | ⟨8, _⟩ => layerBlock2 V c 8 t
    | ⟨9, _⟩ => layerBlock2 V c 9 t
    | ⟨10, _⟩ => layerOut2 (layerBlock2 V c 0 t) (layerBlock2 V c 1 t) (layerBlock2 V c 2 t) (layerBlock2 V c 3 t) (layerBlock2 V c 4 t) (layerBlock2 V c 5 t) (layerBlock2 V c 6 t) (layerBlock2 V c 7 t) (layerBlock2 V c 8 t) (layerBlock2 V c 9 t)
  Φ _ := Pipeline.ΦA spec2 c
  q _ := fullShare
  owed _ := 0

theorem layerA2 (c : Dev nD) (w : Fin cfg2.W) : (layerDat2 V c).A w = V c (Pipeline.arrRef spec2 w) := by
  dsimp only [layerDat2]

theorem layerAfter2_0 (c : Dev nD) (t : Fin cfg2.N) : (layerDat2 V c).after 0 t = layerBlock2 V c 0 t := by dsimp only [layerDat2]
theorem layerAfter2_1 (c : Dev nD) (t : Fin cfg2.N) : (layerDat2 V c).after 1 t = layerBlock2 V c 1 t := by dsimp only [layerDat2]
theorem layerAfter2_2 (c : Dev nD) (t : Fin cfg2.N) : (layerDat2 V c).after 2 t = layerBlock2 V c 2 t := by dsimp only [layerDat2]
theorem layerAfter2_3 (c : Dev nD) (t : Fin cfg2.N) : (layerDat2 V c).after 3 t = layerBlock2 V c 3 t := by dsimp only [layerDat2]
theorem layerAfter2_4 (c : Dev nD) (t : Fin cfg2.N) : (layerDat2 V c).after 4 t = layerBlock2 V c 4 t := by dsimp only [layerDat2]
theorem layerAfter2_5 (c : Dev nD) (t : Fin cfg2.N) : (layerDat2 V c).after 5 t = layerBlock2 V c 5 t := by dsimp only [layerDat2]
theorem layerAfter2_6 (c : Dev nD) (t : Fin cfg2.N) : (layerDat2 V c).after 6 t = layerBlock2 V c 6 t := by dsimp only [layerDat2]
theorem layerAfter2_7 (c : Dev nD) (t : Fin cfg2.N) : (layerDat2 V c).after 7 t = layerBlock2 V c 7 t := by dsimp only [layerDat2]
theorem layerAfter2_8 (c : Dev nD) (t : Fin cfg2.N) : (layerDat2 V c).after 8 t = layerBlock2 V c 8 t := by dsimp only [layerDat2]
theorem layerAfter2_9 (c : Dev nD) (t : Fin cfg2.N) : (layerDat2 V c).after 9 t = layerBlock2 V c 9 t := by dsimp only [layerDat2]
theorem layerAfter2_10 (c : Dev nD) (t : Fin cfg2.N) : (layerDat2 V c).after 10 t = layerOut2 (layerBlock2 V c 0 t) (layerBlock2 V c 1 t) (layerBlock2 V c 2 t) (layerBlock2 V c 3 t) (layerBlock2 V c 4 t) (layerBlock2 V c 5 t) (layerBlock2 V c 6 t) (layerBlock2 V c 7 t) (layerBlock2 V c 8 t) (layerBlock2 V c 9 t) := by dsimp only [layerDat2]

theorem layerBefore2_0 (c : Dev nD) (t : Fin cfg2.N) (d) : (layerDat2 V c).before 0 t d = layerBlock2 V c 0 t :=
  layerBefore2_0_of V (layerDat2 V c) (layerA2 V c 0) (layerAfter2_0 V c) t d
theorem layerBefore2_1 (c : Dev nD) (t : Fin cfg2.N) (d) : (layerDat2 V c).before 1 t d = layerBlock2 V c 1 t :=
  layerBefore2_1_of V (layerDat2 V c) (layerA2 V c 1) (layerAfter2_1 V c) t d
theorem layerBefore2_2 (c : Dev nD) (t : Fin cfg2.N) (d) : (layerDat2 V c).before 2 t d = layerBlock2 V c 2 t :=
  layerBefore2_2_of V (layerDat2 V c) (layerA2 V c 2) (layerAfter2_2 V c) t d
theorem layerBefore2_3 (c : Dev nD) (t : Fin cfg2.N) (d) : (layerDat2 V c).before 3 t d = layerBlock2 V c 3 t :=
  layerBefore2_3_of V (layerDat2 V c) (layerA2 V c 3) (layerAfter2_3 V c) t d
theorem layerBefore2_4 (c : Dev nD) (t : Fin cfg2.N) (d) : (layerDat2 V c).before 4 t d = layerBlock2 V c 4 t :=
  layerBefore2_4_of V (layerDat2 V c) (layerA2 V c 4) (layerAfter2_4 V c) t d
theorem layerBefore2_5 (c : Dev nD) (t : Fin cfg2.N) (d) : (layerDat2 V c).before 5 t d = layerBlock2 V c 5 t :=
  layerBefore2_5_of V (layerDat2 V c) (layerA2 V c 5) (layerAfter2_5 V c) t d
theorem layerBefore2_6 (c : Dev nD) (t : Fin cfg2.N) (d) : (layerDat2 V c).before 6 t d = layerBlock2 V c 6 t :=
  layerBefore2_6_of V (layerDat2 V c) (layerA2 V c 6) (layerAfter2_6 V c) t d
theorem layerBefore2_7 (c : Dev nD) (t : Fin cfg2.N) (d) : (layerDat2 V c).before 7 t d = layerBlock2 V c 7 t :=
  layerBefore2_7_of V (layerDat2 V c) (layerA2 V c 7) (layerAfter2_7 V c) t d
theorem layerBefore2_8 (c : Dev nD) (t : Fin cfg2.N) (d) : (layerDat2 V c).before 8 t d = layerBlock2 V c 8 t :=
  layerBefore2_8_of V (layerDat2 V c) (layerA2 V c 8) (layerAfter2_8 V c) t d
theorem layerBefore2_9 (c : Dev nD) (t : Fin cfg2.N) (d) : (layerDat2 V c).before 9 t d = layerBlock2 V c 9 t :=
  layerBefore2_9_of V (layerDat2 V c) (layerA2 V c 9) (layerAfter2_9 V c) t d

/-! ## The obligation at a grid point -/

/-- What the body is called with at point `t`, the windows one by one, -/
def layerPre2 (c : Dev nD) (t : Fin cfg2.N) : sProp 𝕄 :=
  iprop((layerDat2 V c).Φ t.castSucc ∗ (layerDat2 V c).owesAt () t.castSucc
    ∗ (∃ d, owns (c : Thread nD τ) (st2_0 t) fullShare ((layerDat2 V c).before 0 t d))
    ∗ (∃ d, owns (c : Thread nD τ) (st2_1 t) fullShare ((layerDat2 V c).before 1 t d))
    ∗ (∃ d, owns (c : Thread nD τ) (st2_2 t) fullShare ((layerDat2 V c).before 2 t d))
    ∗ (∃ d, owns (c : Thread nD τ) (st2_3 t) fullShare ((layerDat2 V c).before 3 t d))
    ∗ (∃ d, owns (c : Thread nD τ) (st2_4 t) fullShare ((layerDat2 V c).before 4 t d))
    ∗ (∃ d, owns (c : Thread nD τ) (st2_5 t) fullShare ((layerDat2 V c).before 5 t d))
    ∗ (∃ d, owns (c : Thread nD τ) (st2_6 t) fullShare ((layerDat2 V c).before 6 t d))
    ∗ (∃ d, owns (c : Thread nD τ) (st2_7 t) fullShare ((layerDat2 V c).before 7 t d))
    ∗ (∃ d, owns (c : Thread nD τ) (st2_8 t) fullShare ((layerDat2 V c).before 8 t d))
    ∗ (∃ d, owns (c : Thread nD τ) (st2_9 t) fullShare ((layerDat2 V c).before 9 t d))
    ∗ (∃ d, owns (c : Thread nD τ) (st2_10 t) fullShare ((layerDat2 V c).before 10 t d)))

/-- and what it returns. -/
def layerPost2 (c : Dev nD) (t : Fin cfg2.N) : sProp 𝕄 :=
  iprop((layerDat2 V c).Φ t.succ ∗ (layerDat2 V c).owesAt () t.succ
    ∗ owns (c : Thread nD τ) (st2_0 t) fullShare ((layerDat2 V c).after 0 t)
    ∗ owns (c : Thread nD τ) (st2_1 t) fullShare ((layerDat2 V c).after 1 t)
    ∗ owns (c : Thread nD τ) (st2_2 t) fullShare ((layerDat2 V c).after 2 t)
    ∗ owns (c : Thread nD τ) (st2_3 t) fullShare ((layerDat2 V c).after 3 t)
    ∗ owns (c : Thread nD τ) (st2_4 t) fullShare ((layerDat2 V c).after 4 t)
    ∗ owns (c : Thread nD τ) (st2_5 t) fullShare ((layerDat2 V c).after 5 t)
    ∗ owns (c : Thread nD τ) (st2_6 t) fullShare ((layerDat2 V c).after 6 t)
    ∗ owns (c : Thread nD τ) (st2_7 t) fullShare ((layerDat2 V c).after 7 t)
    ∗ owns (c : Thread nD τ) (st2_8 t) fullShare ((layerDat2 V c).after 8 t)
    ∗ owns (c : Thread nD τ) (st2_9 t) fullShare ((layerDat2 V c).after 9 t)
    ∗ owns (c : Thread nD τ) (st2_10 t) fullShare ((layerDat2 V c).after 10 t))

/-- The body at any point: the inputs' buffers hold their blocks, so the body's triple applies; the invariant and
    what the core owes pass through unread. -/
theorem layerBody2 (c : Dev nD) (t : Fin cfg2.N) :
    layerPre2 V c t ⊢ wp frame (wpE (defs₀ (F := F)) Variants.none c none) Set.univ (bodyAt2 t) (fun _ => layerPost2 V c t) := by
  unfold layerPre2 layerPost2 bodyAt2
  simp only [layerBefore2_0, layerBefore2_1, layerBefore2_2, layerBefore2_3, layerBefore2_4, layerBefore2_5, layerBefore2_6, layerBefore2_7, layerBefore2_8, layerBefore2_9]
  rw [show (layerDat2 V c).Φ t.succ = (layerDat2 V c).Φ t.castSucc from rfl,
    show (layerDat2 V c).owesAt () t.succ = (layerDat2 V c).owesAt () t.castSucc from rfl,
    layerAfter2_0, layerAfter2_1, layerAfter2_2, layerAfter2_3, layerAfter2_4, layerAfter2_5, layerAfter2_6, layerAfter2_7, layerAfter2_8, layerAfter2_9, layerAfter2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (layerKernel2 c Set.univ _ _ _ _ _ _ _ _ _ _ _ _ _ _ _ _ _ _ _ _ _ _ _ (layerBlock2 V c 0 t) (layerBlock2 V c 1 t) (layerBlock2 V c 2 t) (layerBlock2 V c 3 t) (layerBlock2 V c 4 t) (layerBlock2 V c 5 t) (layerBlock2 V c 6 t) (layerBlock2 V c 7 t) (layerBlock2 V c 8 t) (layerBlock2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's body obligation, at every point. -/
theorem layerObligation2 (c : Dev nD) : BodyObligation (layerDat2 (F := F) V c) (defs₀ (F := F)) Variants.none () Set.univ := fun t => by
  rw [bigSep_W2, bigSep_W2]
  exact layerBody2 V c t

end Cert.Kernel.Frame

end
-- ==== Proof.Bits.HeadRegion.lean ====
/-
  Region 3 of the program: the head on the pooled graph features, one grid point. The body reads the pooled array
  (512 graphs by 384 features), the first weight matrix, its bias row, the second layer's weights laid as one row,
  and the last bias (one entry), and stores the 512-by-1 result. This module states what is stored as a function
  of the five arrays read, proves the body's Hoare triple, gives the pipeline's proof data at any contents the
  region may be entered from, and discharges the pipeline's obligation. Everything is stated at any float instance.
-/
import proofs.«106503_j32512902431459_1_alg».proof.Proof.Gen.Kernel.Launch
import proofs.«106503_j32512902431459_1_alg».proof.Proof.Gen.Kernel.Skeleton
import proofs.«106503_j32512902431459_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## A window's block at the grid point -/

/-- Window `w`'s block at point `t`, read off its array as the region finds it. -/
def headBlock (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at the point. -/
theorem headBefore_0_of {c : Dev nD} (dat : Dat τ (Elt F) Unit ℕ (UR sig nD τ) ℕ cfg3 c) (hA : dat.A 0 = V c (Pipeline.arrRef spec3 0))
    (hafter : ∀ t, dat.after 0 t = headBlock V c 0 t) (t : Fin cfg3.N) (d) : dat.before 0 t d = headBlock V c 0 t :=
  (dat.before_in_eq_fetched 0 rfl (fun _ => rfl) (fun _ _ _ => rfl) (fun t => by rw [hafter]; unfold Dat.blockOf headBlock; rw [hA]; try rfl) t d).trans
    (by unfold Dat.fetched Dat.blockOf headBlock; rw [hA]; try rfl)

/-- Input window 1's staging buffer holds its block at the point. -/
theorem headBefore_1_of {c : Dev nD} (dat : Dat τ (Elt F) Unit ℕ (UR sig nD τ) ℕ cfg3 c) (hA : dat.A 1 = V c (Pipeline.arrRef spec3 1))
    (hafter : ∀ t, dat.after 1 t = headBlock V c 1 t) (t : Fin cfg3.N) (d) : dat.before 1 t d = headBlock V c 1 t :=
  (dat.before_in_eq_fetched 1 rfl (fun _ => rfl) (fun _ _ _ => rfl) (fun t => by rw [hafter]; unfold Dat.blockOf headBlock; rw [hA]; try rfl) t d).trans
    (by unfold Dat.fetched Dat.blockOf headBlock; rw [hA]; try rfl)

/-- Input window 2's staging buffer holds its block at the point. -/
theorem headBefore_2_of {c : Dev nD} (dat : Dat τ (Elt F) Unit ℕ (UR sig nD τ) ℕ cfg3 c) (hA : dat.A 2 = V c (Pipeline.arrRef spec3 2))
    (hafter : ∀ t, dat.after 2 t = headBlock V c 2 t) (t : Fin cfg3.N) (d) : dat.before 2 t d = headBlock V c 2 t :=
  (dat.before_in_eq_fetched 2 rfl (fun _ => rfl) (fun _ _ _ => rfl) (fun t => by rw [hafter]; unfold Dat.blockOf headBlock; rw [hA]; try rfl) t d).trans
    (by unfold Dat.fetched Dat.blockOf headBlock; rw [hA]; try rfl)

/-- Input window 3's staging buffer holds its block at the point. -/
theorem headBefore_3_of {c : Dev nD} (dat : Dat τ (Elt F) Unit ℕ (UR sig nD τ) ℕ cfg3 c) (hA : dat.A 3 = V c (Pipeline.arrRef spec3 3))
    (hafter : ∀ t, dat.after 3 t = headBlock V c 3 t) (t : Fin cfg3.N) (d) : dat.before 3 t d = headBlock V c 3 t :=
  (dat.before_in_eq_fetched 3 rfl (fun _ => rfl) (fun _ _ _ => rfl) (fun t => by rw [hafter]; unfold Dat.blockOf headBlock; rw [hA]; try rfl) t d).trans
    (by unfold Dat.fetched Dat.blockOf headBlock; rw [hA]; try rfl)

/-- Input window 4's staging buffer holds its block at the point. -/
theorem headBefore_4_of {c : Dev nD} (dat : Dat τ (Elt F) Unit ℕ (UR sig nD τ) ℕ cfg3 c) (hA : dat.A 4 = V c (Pipeline.arrRef spec3 4))
    (hafter : ∀ t, dat.after 4 t = headBlock V c 4 t) (t : Fin cfg3.N) (d) : dat.before 4 t d = headBlock V c 4 t :=
  (dat.before_in_eq_fetched 4 rfl (fun _ => rfl) (fun _ _ _ => rfl) (fun t => by rw [hafter]; unfold Dat.blockOf headBlock; rw [hA]; try rfl) t d).trans
    (by unfold Dat.fetched Dat.blockOf headBlock; rw [hA]; try rfl)

/-! ## What the body stores -/

abbrev pooledRect : Rect S512x384 := Rect.unit (s := S512x384) ![0, 0] S512x384.size inb_S512x384_S512x384_0_0
abbrev headWeightRect : Rect S384x128 := Rect.unit (s := S384x128) ![0, 0] S384x128.size inb_S384x128_S384x128_0_0
abbrev headRowRect : Rect S1x128 := Rect.unit (s := S1x128) ![0, 0] S1x128.size inb_S1x128_S1x128_0_0
abbrev headOneRect : Rect S1x1 := Rect.unit (s := S1x1) ![0, 0] S1x1.size inb_S1x1_S1x1_0_0
abbrev headOutRect : Rect S512x1 := Rect.unit (s := S512x1) ![0, 0] S512x1.size inb_S512x1_S512x1_0_0

/-- The output column after the body: its one store, of the head's arithmetic (the named payload) on the five
    arrays read. -/
def headOut (x0 : Vec F S512x384 .f32) (x1 : Vec F S384x128 .f32) (x2 : Vec F S1x128 .f32) (x3 : Vec F S1x128 .f32) (x4 : Vec F S1x1 .f32) : Vec F S512x1 .f32 :=
  View.canon [⟨headOutRect, k3_pay1 (View.ld x0 pooledRect) (View.ld x1 headWeightRect) (View.ld x2 headRowRect) (View.ld x3 headRowRect) (View.ld x4 headOneRect)⟩]

/-- The one store covers the output column. -/
theorem headCover (p0 : Vec F S512x1 .f32) (y : S512x1.Idx) :
    ∃ pc ∈ ([⟨headOutRect, p0⟩] : List (View.Piece (Elt F) S512x1 .f32)), y ∈ pc.1.set :=
  View.cover_of_tiled [⟨headOutRect, p0⟩] S512x1.size (by rfl) y

/-! ## The body's triple -/

set_option maxHeartbeats 1000000 in
/-- The body on whole staging buffers, the five inputs' at known contents and the output's at anything, runs to the
    end, leaves the inputs as they were and the output's buffer at `headOut` of the inputs. -/
theorem headKernel (c : Dev nD) (E : Set ℕ) (i : grid3.Coords) (arg0 : Memref sig .tc .vmem S512x384 .f32) (harg0 : arg0.IsWhole) (arg1 : Memref sig .tc .vmem S384x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x1 .f32) (harg4 : arg4.IsWhole) (arg5 : Memref sig .tc .vmem S512x1 .f32) (harg5 : arg5.IsWhole)
    (x0 : Vec F S512x384 .f32) (x1 : Vec F S384x128 .f32) (x2 : Vec F S1x128 .f32) (x3 : Vec F S1x128 .f32) (x4 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (headOut x0 x1 x2 x3 x4)) -∗ K ⟨⟩))
      ⊢ wp frame (wpE (defs₀ (F := F)) Variants.none c none) E (cc3__head_kernel i arg0 harg0 arg1 harg1 arg2 harg2 arg3 harg3 arg4 harg4 arg5 harg5) K := by
  simp only [cc3__head_kernel_eq_skeleton]; unfold cc3__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (headCover _)

/-! ## The pipeline's proof data -/

/-- The proof data of this region on core `c`: the arrays as the region finds them; after the body each input's
    buffer still at its block and the output's at `headOut` of the input blocks; nothing owed. -/
def headDat (c : Dev nD) : Dat τ (Elt F) Unit ℕ (UR sig nD τ) ℕ cfg3 c where
  A w := V c (Pipeline.arrRef spec3 w)
  after w t := match w with
    | ⟨0, _⟩ => headBlock V c 0 t
    | ⟨1, _⟩ => headBlock V c 1 t
    | ⟨2, _⟩ => headBlock V c 2 t
    | ⟨3, _⟩ => headBlock V c 3 t
    | ⟨4, _⟩ => headBlock V c 4 t
    | ⟨5, _⟩ => headOut (headBlock V c 0 t) (headBlock V c 1 t) (headBlock V c 2 t) (headBlock V c 3 t) (headBlock V c 4 t)
  Φ _ := Pipeline.ΦA spec3 c
  q _ := fullShare
  owed _ := 0

theorem headA (c : Dev nD) (w : Fin cfg3.W) : (headDat V c).A w = V c (Pipeline.arrRef spec3 w) := by
  dsimp only [headDat]

theorem headAfter_0 (c : Dev nD) (t : Fin cfg3.N) : (headDat V c).after 0 t = headBlock V c 0 t := by dsimp only [headDat]
theorem headAfter_1 (c : Dev nD) (t : Fin cfg3.N) : (headDat V c).after 1 t = headBlock V c 1 t := by dsimp only [headDat]
theorem headAfter_2 (c : Dev nD) (t : Fin cfg3.N) : (headDat V c).after 2 t = headBlock V c 2 t := by dsimp only [headDat]
theorem headAfter_3 (c : Dev nD) (t : Fin cfg3.N) : (headDat V c).after 3 t = headBlock V c 3 t := by dsimp only [headDat]
theorem headAfter_4 (c : Dev nD) (t : Fin cfg3.N) : (headDat V c).after 4 t = headBlock V c 4 t := by dsimp only [headDat]
theorem headAfter_5 (c : Dev nD) (t : Fin cfg3.N) : (headDat V c).after 5 t = headOut (headBlock V c 0 t) (headBlock V c 1 t) (headBlock V c 2 t) (headBlock V c 3 t) (headBlock V c 4 t) := by dsimp only [headDat]

theorem headBefore_0 (c : Dev nD) (t : Fin cfg3.N) (d) : (headDat V c).before 0 t d = headBlock V c 0 t :=
  headBefore_0_of V (headDat V c) (headA V c 0) (headAfter_0 V c) t d
theorem headBefore_1 (c : Dev nD) (t : Fin cfg3.N) (d) : (headDat V c).before 1 t d = headBlock V c 1 t :=
  headBefore_1_of V (headDat V c) (headA V c 1) (headAfter_1 V c) t d
theorem headBefore_2 (c : Dev nD) (t : Fin cfg3.N) (d) : (headDat V c).before 2 t d = headBlock V c 2 t :=
  headBefore_2_of V (headDat V c) (headA V c 2) (headAfter_2 V c) t d
theorem headBefore_3 (c : Dev nD) (t : Fin cfg3.N) (d) : (headDat V c).before 3 t d = headBlock V c 3 t :=
  headBefore_3_of V (headDat V c) (headA V c 3) (headAfter_3 V c) t d
theorem headBefore_4 (c : Dev nD) (t : Fin cfg3.N) (d) : (headDat V c).before 4 t d = headBlock V c 4 t :=
  headBefore_4_of V (headDat V c) (headA V c 4) (headAfter_4 V c) t d

/-! ## The obligation at the grid point -/

def headPre (c : Dev nD) (t : Fin cfg3.N) : sProp 𝕄 :=
  iprop((headDat V c).Φ t.castSucc ∗ (headDat V c).owesAt () t.castSucc
    ∗ (∃ d, owns (c : Thread nD τ) (st3_0 t) fullShare ((headDat V c).before 0 t d))
    ∗ (∃ d, owns (c : Thread nD τ) (st3_1 t) fullShare ((headDat V c).before 1 t d))
    ∗ (∃ d, owns (c : Thread nD τ) (st3_2 t) fullShare ((headDat V c).before 2 t d))
    ∗ (∃ d, owns (c : Thread nD τ) (st3_3 t) fullShare ((headDat V c).before 3 t d))
    ∗ (∃ d, owns (c : Thread nD τ) (st3_4 t) fullShare ((headDat V c).before 4 t d))
    ∗ (∃ d, owns (c : Thread nD τ) (st3_5 t) fullShare ((headDat V c).before 5 t d)))

def headPost (c : Dev nD) (t : Fin cfg3.N) : sProp 𝕄 :=
  iprop((headDat V c).Φ t.succ ∗ (headDat V c).owesAt () t.succ
    ∗ owns (c : Thread nD τ) (st3_0 t) fullShare ((headDat V c).after 0 t)
    ∗ owns (c : Thread nD τ) (st3_1 t) fullShare ((headDat V c).after 1 t)
    ∗ owns (c : Thread nD τ) (st3_2 t) fullShare ((headDat V c).after 2 t)
    ∗ owns (c : Thread nD τ) (st3_3 t) fullShare ((headDat V c).after 3 t)
    ∗ owns (c : Thread nD τ) (st3_4 t) fullShare ((headDat V c).after 4 t)
    ∗ owns (c : Thread nD τ) (st3_5 t) fullShare ((headDat V c).after 5 t))

theorem headBody (c : Dev nD) (t : Fin cfg3.N) :
    headPre V c t ⊢ wp frame (wpE (defs₀ (F := F)) Variants.none c none) Set.univ (bodyAt3 t) (fun _ => headPost V c t) := by
  unfold headPre headPost bodyAt3
  simp only [headBefore_0, headBefore_1, headBefore_2, headBefore_3, headBefore_4]
  rw [show (headDat V c).Φ t.succ = (headDat V c).Φ t.castSucc from rfl,
    show (headDat V c).owesAt () t.succ = (headDat V c).owesAt () t.castSucc from rfl,
    headAfter_0, headAfter_1, headAfter_2, headAfter_3, headAfter_4, headAfter_5]
  iintro ⟨HΦ, Ho, ⟨%d0, H0⟩, ⟨%d1, H1⟩, ⟨%d2, H2⟩, ⟨%d3, H3⟩, ⟨%d4, H4⟩, ⟨%d5, H5⟩⟩
  iapply (headKernel c Set.univ _ _ _ _ _ _ _ _ _ _ _ _ _ (headBlock V c 0 t) (headBlock V c 1 t) (headBlock V c 2 t) (headBlock V c 3 t) (headBlock V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at the grid point. -/
theorem headObligation (c : Dev nD) : BodyObligation (headDat (F := F) V c) (defs₀ (F := F)) Variants.none () Set.univ := fun t => by
  rw [bigSep_W3, bigSep_W3]
  exact headBody V c t

end Cert.Kernel.Frame

end
-- ==== Proof.Bits.WholeRun.lean ====
/-
  The whole program's run. @main is eight items: a stretch of host operations, a kernel region, and so on four
  times (three graph-network layers and the head). The contents of every unscoped buffer between two items are a
  fold from the launch memory: a host stretch applies its operations; a region leaves its input arrays as entered
  and its output array at what its blocks' write-backs leave. Each region is a segment around those contents, and
  one launch runs the eight segments: every weakly fair execution terminates, nothing faults, and at the end every
  unscoped buffer holds the last contents of the fold. From that: every argument array ends as launched, and the
  result buffer holds what the head region's one block wrote. Everything is stated at any float instance.
-/
import proofs.«106503_j32512902431459_1_alg».proof.Proof.Gen.Kernel.Launch
import proofs.«106503_j32512902431459_1_alg».proof.Proof.Gen.Kernel.Skeleton
import proofs.«106503_j32512902431459_1_alg».proof.Proof.Gen.Kernel.Points
import proofs.«106503_j32512902431459_1_alg».proof.Proof.Gen.Kernel.Regions
import proofs.«106503_j32512902431459_1_alg».proof.Proof.Bits.LayerRegion0
import proofs.«106503_j32512902431459_1_alg».proof.Proof.Bits.LayerRegion1
import proofs.«106503_j32512902431459_1_alg».proof.Proof.Bits.LayerRegion2
import proofs.«106503_j32512902431459_1_alg».proof.Proof.Bits.HeadRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev cont0 : Dev nD → Valuation τ sig (Elt F) := fun c b => (s₀ m ρ).mem ((c : Dev nD), b)

/-- After the host operations before region 0: what region 0 is entered from. -/
abbrev cont1 : Dev nD → Valuation τ sig (Elt F) := fun c => StableHlo.after hostOps0 (cont0 m ρ c)
/-- The same, read at the TensorCore's references. -/
abbrev ent1 : (c : Dev nD) → (b : Ref sig .tc) → Buf (Elt F) ((c : Thread nD τ).loc b) := fun c b => cont1 m ρ c b
/-- At region 0's exit: its arrays at what the pipeline leaves (an input as entered, the output at its blocks'
    write-backs), every other buffer as entered. -/
def cont2 (c : Dev nD) : Valuation τ sig (Elt F) :=
  Pipeline.withArrays spec0 c (cont1 m ρ c) fun w => (layerDat0 (ent1 m ρ) c).arrAt w cfg0.N
theorem cont2_arr (c : Dev nD) (w : Fin cfg0.W) :
    cont2 m ρ c (Proc.devRef .tc (Pipeline.arrRef spec0 w)) = (layerDat0 (ent1 m ρ) c).arrAt w cfg0.N := by
  unfold cont2; exact Pipeline.withArrays_arr spec0 launch0.win.arr_inj c _ _ w
theorem cont2_of_ne (c : Dev nD) (b : Ref sig .tc) (hb : ∀ w, Pipeline.arrRef spec0 w ≠ b) :
    cont2 m ρ c (Proc.devRef .tc b) = cont1 m ρ c (Proc.devRef .tc b) := by
  unfold cont2; exact Pipeline.withArrays_of_ne spec0 c _ _ b hb
abbrev ext2 : (c : Dev nD) → (b : Ref sig .tc) → Buf (Elt F) ((c : Thread nD τ).loc b) := fun c b => cont2 m ρ c b
theorem exitArr0 (c : Dev nD) (w : Fin cfg0.W) : (layerDat0 (ent1 m ρ) c).arrAt w cfg0.N = ext2 m ρ c (Pipeline.arrRef spec0 w) :=
  (cont2_arr m ρ c w).symm
theorem exitRest0 (c : Dev nD) : ∀ b, b ∉ Finset.univ.image (Pipeline.arrRef spec0) → ext2 m ρ c b = ent1 m ρ c b :=
  fun b hb => cont2_of_ne m ρ c b fun w e => hb (Finset.mem_image.mpr ⟨w, Finset.mem_univ _, e⟩)
theorem cont1_of (c : Dev nD) (b : Ref sig .tc) (h : b ∉ hostOps0_W) : cont1 m ρ c b = cont0 m ρ c b :=
  StableHlo.after_of_writes_sub hostOps0 _ hostOps0_writes h

/-- After the host operations before region 1: what region 1 is entered from. -/
abbrev cont3 : Dev nD → Valuation τ sig (Elt F) := fun c => StableHlo.after hostOps1 (cont2 m ρ c)
/-- The same, read at the TensorCore's references. -/
abbrev ent3 : (c : Dev nD) → (b : Ref sig .tc) → Buf (Elt F) ((c : Thread nD τ).loc b) := fun c b => cont3 m ρ c b
/-- At region 1's exit: its arrays at what the pipeline leaves (an input as entered, the output at its blocks'
    write-backs), every other buffer as entered. -/
def cont4 (c : Dev nD) : Valuation τ sig (Elt F) :=
  Pipeline.withArrays spec1 c (cont3 m ρ c) fun w => (layerDat1 (ent3 m ρ) c).arrAt w cfg1.N
theorem cont4_arr (c : Dev nD) (w : Fin cfg1.W) :
    cont4 m ρ c (Proc.devRef .tc (Pipeline.arrRef spec1 w)) = (layerDat1 (ent3 m ρ) c).arrAt w cfg1.N := by
  unfold cont4; exact Pipeline.withArrays_arr spec1 launch1.win.arr_inj c _ _ w
theorem cont4_of_ne (c : Dev nD) (b : Ref sig .tc) (hb : ∀ w, Pipeline.arrRef spec1 w ≠ b) :
    cont4 m ρ c (Proc.devRef .tc b) = cont3 m ρ c (Proc.devRef .tc b) := by
  unfold cont4; exact Pipeline.withArrays_of_ne spec1 c _ _ b hb
abbrev ext4 : (c : Dev nD) → (b : Ref sig .tc) → Buf (Elt F) ((c : Thread nD τ).loc b) := fun c b => cont4 m ρ c b
theorem exitArr1 (c : Dev nD) (w : Fin cfg1.W) : (layerDat1 (ent3 m ρ) c).arrAt w cfg1.N = ext4 m ρ c (Pipeline.arrRef spec1 w) :=
  (cont4_arr m ρ c w).symm
theorem exitRest1 (c : Dev nD) : ∀ b, b ∉ Finset.univ.image (Pipeline.arrRef spec1) → ext4 m ρ c b = ent3 m ρ c b :=
  fun b hb => cont4_of_ne m ρ c b fun w e => hb (Finset.mem_image.mpr ⟨w, Finset.mem_univ _, e⟩)
theorem cont3_of (c : Dev nD) (b : Ref sig .tc) (h : b ∉ hostOps1_W) : cont3 m ρ c b = cont2 m ρ c b :=
  StableHlo.after_of_writes_sub hostOps1 _ hostOps1_writes h

/-- After the host operations before region 2: what region 2 is entered from. -/
abbrev cont5 : Dev nD → Valuation τ sig (Elt F) := fun c => StableHlo.after hostOps2 (cont4 m ρ c)
/-- The same, read at the TensorCore's references. -/
abbrev ent5 : (c : Dev nD) → (b : Ref sig .tc) → Buf (Elt F) ((c : Thread nD τ).loc b) := fun c b => cont5 m ρ c b
/-- At region 2's exit: its arrays at what the pipeline leaves (an input as entered, the output at its blocks'
    write-backs), every other buffer as entered. -/
def cont6 (c : Dev nD) : Valuation τ sig (Elt F) :=
  Pipeline.withArrays spec2 c (cont5 m ρ c) fun w => (layerDat2 (ent5 m ρ) c).arrAt w cfg2.N
theorem cont6_arr (c : Dev nD) (w : Fin cfg2.W) :
    cont6 m ρ c (Proc.devRef .tc (Pipeline.arrRef spec2 w)) = (layerDat2 (ent5 m ρ) c).arrAt w cfg2.N := by
  unfold cont6; exact Pipeline.withArrays_arr spec2 launch2.win.arr_inj c _ _ w
theorem cont6_of_ne (c : Dev nD) (b : Ref sig .tc) (hb : ∀ w, Pipeline.arrRef spec2 w ≠ b) :
    cont6 m ρ c (Proc.devRef .tc b) = cont5 m ρ c (Proc.devRef .tc b) := by
  unfold cont6; exact Pipeline.withArrays_of_ne spec2 c _ _ b hb
abbrev ext6 : (c : Dev nD) → (b : Ref sig .tc) → Buf (Elt F) ((c : Thread nD τ).loc b) := fun c b => cont6 m ρ c b
theorem exitArr2 (c : Dev nD) (w : Fin cfg2.W) : (layerDat2 (ent5 m ρ) c).arrAt w cfg2.N = ext6 m ρ c (Pipeline.arrRef spec2 w) :=
  (cont6_arr m ρ c w).symm
theorem exitRest2 (c : Dev nD) : ∀ b, b ∉ Finset.univ.image (Pipeline.arrRef spec2) → ext6 m ρ c b = ent5 m ρ c b :=
  fun b hb => cont6_of_ne m ρ c b fun w e => hb (Finset.mem_image.mpr ⟨w, Finset.mem_univ _, e⟩)
theorem cont5_of (c : Dev nD) (b : Ref sig .tc) (h : b ∉ hostOps2_W) : cont5 m ρ c b = cont4 m ρ c b :=
  StableHlo.after_of_writes_sub hostOps2 _ hostOps2_writes h

/-- After the host operations before region 3: what region 3 is entered from. -/
abbrev cont7 : Dev nD → Valuation τ sig (Elt F) := fun c => StableHlo.after hostOps3 (cont6 m ρ c)
/-- The same, read at the TensorCore's references. -/
abbrev ent7 : (c : Dev nD) → (b : Ref sig .tc) → Buf (Elt F) ((c : Thread nD τ).loc b) := fun c b => cont7 m ρ c b
/-- At region 3's exit: its arrays at what the pipeline leaves (an input as entered, the output at its blocks'
    write-backs), every other buffer as entered. -/
def cont8 (c : Dev nD) : Valuation τ sig (Elt F) :=
  Pipeline.withArrays spec3 c (cont7 m ρ c) fun w => (headDat (ent7 m ρ) c).arrAt w cfg3.N
theorem cont8_arr (c : Dev nD) (w : Fin cfg3.W) :
    cont8 m ρ c (Proc.devRef .tc (Pipeline.arrRef spec3 w)) = (headDat (ent7 m ρ) c).arrAt w cfg3.N := by
  unfold cont8; exact Pipeline.withArrays_arr spec3 launch3.win.arr_inj c _ _ w
theorem cont8_of_ne (c : Dev nD) (b : Ref sig .tc) (hb : ∀ w, Pipeline.arrRef spec3 w ≠ b) :
    cont8 m ρ c (Proc.devRef .tc b) = cont7 m ρ c (Proc.devRef .tc b) := by
  unfold cont8; exact Pipeline.withArrays_of_ne spec3 c _ _ b hb
abbrev ext8 : (c : Dev nD) → (b : Ref sig .tc) → Buf (Elt F) ((c : Thread nD τ).loc b) := fun c b => cont8 m ρ c b
theorem exitArr3 (c : Dev nD) (w : Fin cfg3.W) : (headDat (ent7 m ρ) c).arrAt w cfg3.N = ext8 m ρ c (Pipeline.arrRef spec3 w) :=
  (cont8_arr m ρ c w).symm
theorem exitRest3 (c : Dev nD) : ∀ b, b ∉ Finset.univ.image (Pipeline.arrRef spec3) → ext8 m ρ c b = ent7 m ρ c b :=
  fun b hb => cont8_of_ne m ρ c b fun w e => hb (Finset.mem_image.mpr ⟨w, Finset.mem_univ _, e⟩)
theorem cont7_of (c : Dev nD) (b : Ref sig .tc) (h : b ∉ hostOps3_W) : cont7 m ρ c b = cont6 m ρ c b :=
  StableHlo.after_of_writes_sub hostOps3 _ hostOps3_writes h

/-! ## An argument array ends as launched -/

/-- A buffer no host stretch writes and no region has among its arrays holds its launch contents at the end. -/
theorem cont8_untouched (c : Dev nD) (b : Ref sig .tc) (h0 : b ∉ hostOps0_W) (h1 : b ∉ hostOps1_W) (h2 : b ∉ hostOps2_W) (h3 : b ∉ hostOps3_W)
    (a0 : ∀ w, Pipeline.arrRef spec0 w ≠ b) (a1 : ∀ w, Pipeline.arrRef spec1 w ≠ b) (a2 : ∀ w, Pipeline.arrRef spec2 w ≠ b) (a3 : ∀ w, Pipeline.arrRef spec3 w ≠ b) :
    cont8 m ρ c (Proc.devRef .tc b) = m ((c : Thread nD τ).loc b) :=
  calc cont8 m ρ c (Proc.devRef .tc b)
    _ = cont7 m ρ c (Proc.devRef .tc b) := cont8_of_ne m ρ c b a3
    _ = cont6 m ρ c (Proc.devRef .tc b) := cont7_of m ρ c b h3
    _ = cont5 m ρ c (Proc.devRef .tc b) := cont6_of_ne m ρ c b a2
    _ = cont4 m ρ c (Proc.devRef .tc b) := cont5_of m ρ c b h2
    _ = cont3 m ρ c (Proc.devRef .tc b) := cont4_of_ne m ρ c b a1
    _ = cont2 m ρ c (Proc.devRef .tc b) := cont3_of m ρ c b h1
    _ = cont1 m ρ c (Proc.devRef .tc b) := cont2_of_ne m ρ c b a0
    _ = cont0 m ρ c (Proc.devRef .tc b) := cont1_of m ρ c b h0
    _ = m ((c : Thread nD τ).loc b) := rfl

/-- The first head weight matrix is an argument that the head region reads through an input window: the region
    leaves an input's array as entered. -/
theorem cont8_headWeights (c : Dev nD) : cont8 m ρ c (Proc.devRef .tc main_arg12) = m ((c : Thread nD τ).loc main_arg12) :=
  calc cont8 m ρ c (Proc.devRef .tc main_arg12)
    _ = cont7 m ρ c (Proc.devRef .tc main_arg12) := (cont8_arr m ρ c 1).trans (((headDat (ent7 m ρ) c).arrAt_in 1 rfl _).trans (headA (ent7 m ρ) c 1))
    _ = cont6 m ρ c (Proc.devRef .tc main_arg12) := cont7_of m ρ c main_arg12 (by decide)
    _ = cont5 m ρ c (Proc.devRef .tc main_arg12) := cont6_of_ne m ρ c main_arg12 (by decide)
    _ = cont4 m ρ c (Proc.devRef .tc main_arg12) := cont5_of m ρ c main_arg12 (by decide)
    _ = cont3 m ρ c (Proc.devRef .tc main_arg12) := cont4_of_ne m ρ c main_arg12 (by decide)
    _ = cont2 m ρ c (Proc.devRef .tc main_arg12) := cont3_of m ρ c main_arg12 (by decide)
    _ = cont1 m ρ c (Proc.devRef .tc main_arg12) := cont2_of_ne m ρ c main_arg12 (by decide)
    _ = cont0 m ρ c (Proc.devRef .tc main_arg12) := cont1_of m ρ c main_arg12 (by decide)
    _ = m ((c : Thread nD τ).loc main_arg12) := rfl

/-! ## The proof data family and the thread state -/

/-- No pipeline has a prefetched table. -/
abbrev noTables : (p : Fin 4) → (pcfgs (F := F) p).Adm := fun p => (cfgs p).toPCfg_adm
/-- Every pipeline's proof data, each at its region's entry contents. -/
def datFamily : (p : Fin 4) → (c : Dev nD) → Dat τ (Elt F) Unit ℕ (UR sig nD τ) ℕ (Pipeline.pin (pcfgs (F := F)) noTables p) c
  | ⟨0, _⟩ => fun c => layerDat0 (ent1 m ρ) c
  | ⟨1, _⟩ => fun c => layerDat1 (ent3 m ρ) c
  | ⟨2, _⟩ => fun c => layerDat2 (ent5 m ρ) c
  | ⟨3, _⟩ => fun c => headDat (ent7 m ρ) c
abbrev 𝒱none : Variants := Variants.none
/-- No core owes another anything: no level is assigned. -/
abbrev noLevels : GSem nD τ sig → Finset Unit := fun _ => ∅
abbrev noLevel : GSem nD τ sig → Unit → ℕ := fun _ _ => 0
/-- What rides beside the buffers through every segment: the core's generator register at some state, and the core
    owing nothing. -/
abbrev riding (c : Dev nD) : sProp 𝕄 := iprop((∃ r, prngReg c r) ∗ ∃ W, owes (c : Thread nD τ) (0 : CellTallies nD τ sig Unit) W)
/-- A host stretch as a segment over the unscoped references from the contents `W`. -/
abbrev hostSegment (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱none noLevels noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding
/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register
    at some state. -/
abbrev lastState (c : Dev nD) : sProp 𝕄 := iprop(StableHlo.held (c : Thread nD τ) (Pipeline.ucRefs τ sig) (cont8 m ρ c) ∗ ∃ r, prngReg c r)

/-! ## The regions as segments -/

set_option backward.isDefEq.respectTransparency.types false in
/-- Region 0 over the thread state: entered from every unscoped buffer at `cont1`, left at `cont2`. Its arrays
    are split out of the unscoped buffers and put back at the exit contents; the generator register goes into the
    pipeline's invariant and comes out; nothing is owed; the kernel has no semaphore of its own. -/
def region0 : Pipeline.RegionSeg (pcfgs (F := F)) noTables (datFamily m ρ) () defs₀ 𝒱none noLevels noLevel 0 where
  win := launch0.win.to₀
  block_pos := launch0.block_pos
  stage_whole := launch0.stage_whole
  K := PEmpty
  osem k := k.elim
  ho := Pipeline.OwnSemFacts.none _
  hbody c := (layerObligation0 (ent1 m ρ) c).loose
  hwaits := Pipeline.hwaits_of_owed_zero _ _ _ _ noLevels noLevel 0 fun _ _ => rfl
  pre c := iprop(StableHlo.held (c : Thread nD τ) (Pipeline.ucRefs τ sig) (cont1 m ρ c) ∗ riding c)
  post c := iprop(StableHlo.held (c : Thread nD τ) (Pipeline.ucRefs τ sig) (cont2 m ρ c) ∗ riding c)
  X c := iprop(∃ r, prngReg c r)
  Y c := iprop(∃ r, prngReg c r)
  Z c := Pipeline.unscopedRest (Ix := Unit) (Name := ℕ) (U := UR sig nD τ) (Lvl := ℕ) spec0 c (ent1 m ρ c)
  hentry c := by
    rw [Pipeline.ownSems0_none]
    have hsplit := Pipeline.arrays_of_unscopedBufs (p := 0) (pcfgs (F := F)) noTables (datFamily m ρ) launch0.win launch0.arr_whole c
      ((datFamily m ρ 0 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datFamily m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (datFamily m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (datFamily m ρ) ((datFamily m ρ 0 c).share_full fun _ => rfl)
      (ent1 m ρ c) (ext2 m ρ c) ((datFamily m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `cont3`, left at `cont4`. Its arrays
    are split out of the unscoped buffers and put back at the exit contents; the generator register goes into the
    pipeline's invariant and comes out; nothing is owed; the kernel has no semaphore of its own. -/
def region1 : Pipeline.RegionSeg (pcfgs (F := F)) noTables (datFamily m ρ) () defs₀ 𝒱none noLevels noLevel 1 where
  win := launch1.win.to₀
  block_pos := launch1.block_pos
  stage_whole := launch1.stage_whole
  K := PEmpty
  osem k := k.elim
  ho := Pipeline.OwnSemFacts.none _
  hbody c := (layerObligation1 (ent3 m ρ) c).loose
  hwaits := Pipeline.hwaits_of_owed_zero _ _ _ _ noLevels noLevel 1 fun _ _ => rfl
  pre c := iprop(StableHlo.held (c : Thread nD τ) (Pipeline.ucRefs τ sig) (cont3 m ρ c) ∗ riding c)
  post c := iprop(StableHlo.held (c : Thread nD τ) (Pipeline.ucRefs τ sig) (cont4 m ρ c) ∗ riding c)
  X c := iprop(∃ r, prngReg c r)
  Y c := iprop(∃ r, prngReg c r)
  Z c := Pipeline.unscopedRest (Ix := Unit) (Name := ℕ) (U := UR sig nD τ) (Lvl := ℕ) spec1 c (ent3 m ρ c)
  hentry c := by
    rw [Pipeline.ownSems0_none]
    have hsplit := Pipeline.arrays_of_unscopedBufs (p := 1) (pcfgs (F := F)) noTables (datFamily m ρ) launch1.win launch1.arr_whole c
      ((datFamily m ρ 1 c).share_full fun _ => rfl) (ent3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datFamily m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (datFamily m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (datFamily m ρ) ((datFamily m ρ 1 c).share_full fun _ => rfl)
      (ent3 m ρ c) (ext4 m ρ c) ((datFamily m ρ 1 c).arrAt · cfg1.N) (exitArr1 m ρ c) (exitRest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `cont5`, left at `cont6`. Its arrays
    are split out of the unscoped buffers and put back at the exit contents; the generator register goes into the
    pipeline's invariant and comes out; nothing is owed; the kernel has no semaphore of its own. -/
def region2 : Pipeline.RegionSeg (pcfgs (F := F)) noTables (datFamily m ρ) () defs₀ 𝒱none noLevels noLevel 2 where
  win := launch2.win.to₀
  block_pos := launch2.block_pos
  stage_whole := launch2.stage_whole
  K := PEmpty
  osem k := k.elim
  ho := Pipeline.OwnSemFacts.none _
  hbody c := (layerObligation2 (ent5 m ρ) c).loose
  hwaits := Pipeline.hwaits_of_owed_zero _ _ _ _ noLevels noLevel 2 fun _ _ => rfl
  pre c := iprop(StableHlo.held (c : Thread nD τ) (Pipeline.ucRefs τ sig) (cont5 m ρ c) ∗ riding c)
  post c := iprop(StableHlo.held (c : Thread nD τ) (Pipeline.ucRefs τ sig) (cont6 m ρ c) ∗ riding c)
  X c := iprop(∃ r, prngReg c r)
  Y c := iprop(∃ r, prngReg c r)
  Z c := Pipeline.unscopedRest (Ix := Unit) (Name := ℕ) (U := UR sig nD τ) (Lvl := ℕ) spec2 c (ent5 m ρ c)
  hentry c := by
    rw [Pipeline.ownSems0_none]
    have hsplit := Pipeline.arrays_of_unscopedBufs (p := 2) (pcfgs (F := F)) noTables (datFamily m ρ) launch2.win launch2.arr_whole c
      ((datFamily m ρ 2 c).share_full fun _ => rfl) (ent5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datFamily m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (datFamily m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (datFamily m ρ) ((datFamily m ρ 2 c).share_full fun _ => rfl)
      (ent5 m ρ c) (ext6 m ρ c) ((datFamily m ρ 2 c).arrAt · cfg2.N) (exitArr2 m ρ c) (exitRest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `cont7`, left at `cont8`. Its arrays
    are split out of the unscoped buffers and put back at the exit contents; the generator register goes into the
    pipeline's invariant and comes out; nothing is owed; the kernel has no semaphore of its own. -/
def region3 : Pipeline.RegionSeg (pcfgs (F := F)) noTables (datFamily m ρ) () defs₀ 𝒱none noLevels noLevel 3 where
  win := launch3.win.to₀
  block_pos := launch3.block_pos
  stage_whole := launch3.stage_whole
  K := PEmpty
  osem k := k.elim
  ho := Pipeline.OwnSemFacts.none _
  hbody c := (headObligation (ent7 m ρ) c).loose
  hwaits := Pipeline.hwaits_of_owed_zero _ _ _ _ noLevels noLevel 3 fun _ _ => rfl
  pre c := iprop(StableHlo.held (c : Thread nD τ) (Pipeline.ucRefs τ sig) (cont7 m ρ c) ∗ riding c)
  post c := iprop(lastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (ent7 m ρ c)
  hentry c := by
    rw [Pipeline.ownSems0_none]
    have hsplit := Pipeline.arrays_of_unscopedBufs (p := 3) (pcfgs (F := F)) noTables (datFamily m ρ) launch3.win launch3.arr_whole c
      ((datFamily m ρ 3 c).share_full fun _ => rfl) (ent7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datFamily m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (datFamily m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTables (Ix := Unit) (Name := ℕ) (U := UR sig nD τ) (Lvl := ℕ)
      launch3.win launch3.arr_whole c (datFamily m ρ) ((datFamily m ρ 3 c).share_full fun _ => rfl)
      (ent7 m ρ c) (ext8 m ρ c) ((datFamily m ρ 3 c).arrAt · cfg3.N) (exitArr3 m ρ c) (exitRest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight segments in order. -/
abbrev segments : List (Pipeline.Seg (pcfgs (F := F)) noTables (datFamily m ρ) () defs₀ 𝒱none noLevels noLevel) :=
  [ .host (hostSegment hostOps0 hostOps0_sub hostOps0_fresh (cont0 m ρ)),
    .region (region0 m ρ),
    .host (hostSegment hostOps1 hostOps1_sub hostOps1_fresh (cont2 m ρ)),
    .region (region1 m ρ),
    .host (hostSegment hostOps2 hostOps2_sub hostOps2_fresh (cont4 m ρ)),
    .region (region2 m ρ),
    .host (hostSegment hostOps3 hostOps3_sub hostOps3_fresh (cont6 m ρ)),
    .region (region3 m ρ) ]
/-- @main is the run of the segments. -/
theorem main_is_segments (c : Dev nD) : main (F := F) c = Pipeline.Seg.run (segments m ρ) := (main_chain c).trans (by chain_rfl)

set_option backward.isDefEq.respectTransparency.types false in
/-- THE RUN: from any memory with zero counters every weakly fair execution of @main terminates, nothing faulting,
    and in every final state every unscoped buffer holds the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = cont8 m ρ c b) :=
  Pipeline.θ_run_regions_kit (pcfgs (F := F)) noTables (datFamily m ρ) () cellOf_inj emb₁ defs₀ 𝒱none noLevels noLevel m ρ main (segments m ρ)
    (fun c Q => by rw [main_is_segments m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (cont0 m ρ c) ∗ riding c)) (Tₙ := lastState m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach noLevels noLevel fun c => ?_
      rw [show unscopedBufs c (fun b => m ((c : Thread nD τ).loc b)) = StableHlo.held (c : Thread nD τ) (Pipeline.ucRefs τ sig) (cont0 m ρ c)
        from Pipeline.unscopedBufs_held c (cont0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = cont8 m ρ c b)
    (hfin := fun c s' => by
      iintro ⟨⟨Hh, -⟩, HSI⟩
      unfold StableHlo.held
      imodintro
      iapply (pointsTo_read_all (Pipeline.ucRefs τ sig) (fun b => (((c : Thread nD τ)).1, b)) (cont8 m ρ c) s')
      isplitl [Hh] <;> iassumption)
    (hQ := fun s h c => h c)

/-! ## What the run gives -/

/-- The result buffer at the end is what the head region's one write-back leaves in it. -/
theorem cont8_result (c : Dev nD) : cont8 m ρ c (Proc.devRef .tc main_v126) = (headDat (ent7 m ρ) c).arrAt 5 cfg3.N :=
  cont8_arr m ρ c 5

/-- Every argument array ends as launched. -/
theorem cont8_args (c : Dev nD) :
    cont8 m ρ c (Proc.devRef .tc main_arg0) = m ((c : Thread nD τ).loc main_arg0) ∧
    cont8 m ρ c (Proc.devRef .tc main_arg1) = m ((c : Thread nD τ).loc main_arg1) ∧
    cont8 m ρ c (Proc.devRef .tc main_arg2) = m ((c : Thread nD τ).loc main_arg2) ∧
    cont8 m ρ c (Proc.devRef .tc main_arg3) = m ((c : Thread nD τ).loc main_arg3) ∧
    cont8 m ρ c (Proc.devRef .tc main_arg4) = m ((c : Thread nD τ).loc main_arg4) ∧
    cont8 m ρ c (Proc.devRef .tc main_arg5) = m ((c : Thread nD τ).loc main_arg5) ∧
    cont8 m ρ c (Proc.devRef .tc main_arg6) = m ((c : Thread nD τ).loc main_arg6) ∧
    cont8 m ρ c (Proc.devRef .tc main_arg7) = m ((c : Thread nD τ).loc main_arg7) ∧
    cont8 m ρ c (Proc.devRef .tc main_arg8) = m ((c : Thread nD τ).loc main_arg8) ∧
    cont8 m ρ c (Proc.devRef .tc main_arg9) = m ((c : Thread nD τ).loc main_arg9) ∧
    cont8 m ρ c (Proc.devRef .tc main_arg10) = m ((c : Thread nD τ).loc main_arg10) ∧
    cont8 m ρ c (Proc.devRef .tc main_arg11) = m ((c : Thread nD τ).loc main_arg11) ∧
    cont8 m ρ c (Proc.devRef .tc main_arg12) = m ((c : Thread nD τ).loc main_arg12) ∧
    cont8 m ρ c (Proc.devRef .tc main_arg13) = m ((c : Thread nD τ).loc main_arg13) ∧
    cont8 m ρ c (Proc.devRef .tc main_arg14) = m ((c : Thread nD τ).loc main_arg14) ∧
    cont8 m ρ c (Proc.devRef .tc main_arg15) = m ((c : Thread nD τ).loc main_arg15) :=
  ⟨cont8_untouched m ρ c main_arg0 (by decide) (by decide) (by decide) (by decide) (by decide) (by decide) (by decide) (by decide),
   cont8_untouched m ρ c main_arg1 (by decide) (by decide) (by decide) (by decide) (by decide) (by decide) (by decide) (by decide),
   cont8_untouched m ρ c main_arg2 (by decide) (by decide) (by decide) (by decide) (by decide) (by decide) (by decide) (by decide),
   cont8_untouched m ρ c main_arg3 (by decide) (by decide) (by decide) (by decide) (by decide) (by decide) (by decide) (by decide),
   cont8_untouched m ρ c main_arg4 (by decide) (by decide) (by decide) (by decide) (by decide) (by decide) (by decide) (by decide),
   cont8_untouched m ρ c main_arg5 (by decide) (by decide) (by decide) (by decide) (by decide) (by decide) (by decide) (by decide),
   cont8_untouched m ρ c main_arg6 (by decide) (by decide) (by decide) (by decide) (by decide) (by decide) (by decide) (by decide),
   cont8_untouched m ρ c main_arg7 (by decide) (by decide) (by decide) (by decide) (by decide) (by decide) (by decide) (by decide),
   cont8_untouched m ρ c main_arg8 (by decide) (by decide) (by decide) (by decide) (by decide) (by decide) (by decide) (by decide),
   cont8_untouched m ρ c main_arg9 (by decide) (by decide) (by decide) (by decide) (by decide) (by decide) (by decide) (by decide),
   cont8_untouched m ρ c main_arg10 (by decide) (by decide) (by decide) (by decide) (by decide) (by decide) (by decide) (by decide),
   cont8_untouched m ρ c main_arg11 (by decide) (by decide) (by decide) (by decide) (by decide) (by decide) (by decide) (by decide),
   cont8_headWeights m ρ c,
   cont8_untouched m ρ c main_arg13 (by decide) (by decide) (by decide) (by decide) (by decide) (by decide) (by decide) (by decide),
   cont8_untouched m ρ c main_arg14 (by decide) (by decide) (by decide) (by decide) (by decide) (by decide) (by decide) (by decide),
   cont8_untouched m ρ c main_arg15 (by decide) (by decide) (by decide) (by decide) (by decide) (by decide) (by decide) (by decide)⟩

/-- THE FRAME: every weakly fair execution of @main terminates, nothing faulting, and every argument array ends as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)) :=
  (θ_run defs _ _).mono (fun r h c => by
    have ha := cont8_args m ρ c
    exact ⟨(h c _ (mem_unscoped main_arg0 (by decide))).trans ha.1,
      (h c _ (mem_unscoped main_arg1 (by decide))).trans ha.2.1,
      (h c _ (mem_unscoped main_arg2 (by decide))).trans ha.2.2.1,
      (h c _ (mem_unscoped main_arg3 (by decide))).trans ha.2.2.2.1,
      (h c _ (mem_unscoped main_arg4 (by decide))).trans ha.2.2.2.2.1,
      (h c _ (mem_unscoped main_arg5 (by decide))).trans ha.2.2.2.2.2.1,
      (h c _ (mem_unscoped main_arg6 (by decide))).trans ha.2.2.2.2.2.2.1,
      (h c _ (mem_unscoped main_arg7 (by decide))).trans ha.2.2.2.2.2.2.2.1,
      (h c _ (mem_unscoped main_arg8 (by decide))).trans ha.2.2.2.2.2.2.2.2.1,
      (h c _ (mem_unscoped main_arg9 (by decide))).trans ha.2.2.2.2.2.2.2.2.2.1,
      (h c _ (mem_unscoped main_arg10 (by decide))).trans ha.2.2.2.2.2.2.2.2.2.2.1,
      (h c _ (mem_unscoped main_arg11 (by decide))).trans ha.2.2.2.2.2.2.2.2.2.2.2.1,
      (h c _ (mem_unscoped main_arg12 (by decide))).trans ha.2.2.2.2.2.2.2.2.2.2.2.2.1,
      (h c _ (mem_unscoped main_arg13 (by decide))).trans ha.2.2.2.2.2.2.2.2.2.2.2.2.2.1,
      (h c _ (mem_unscoped main_arg14 (by decide))).trans ha.2.2.2.2.2.2.2.2.2.2.2.2.2.2.1,
      (h c _ (mem_unscoped main_arg15 (by decide))).trans ha.2.2.2.2.2.2.2.2.2.2.2.2.2.2.2⟩) (run_all m ρ)

end Cert.Kernel.Frame

end
-- ==== Proof.Ideal.LayerRegion0.lean ====
/-
  Region 0 of the program: one layer of the graph network, run block of 2000 rows by block of 2000 rows over
  25 grid points. At a point the body reads the blocks of the node features and of the aggregated neighbour
  features, the two weight matrices and the six one-row parameters (bias, bias, gain, offset, running mean,
  running variance), and stores ONE block of the result. This module states what the stored block is as a
  function of the ten blocks read, proves the body's Hoare triple, gives the pipeline's proof data at any
  contents the region may be entered from, and discharges the pipeline's obligation at every grid point.
  Everything is stated at any float instance.
-/
import proofs.«106503_j32512902431459_1_alg».proof.Proof.Gen.KernelIdeal.Launch
import proofs.«106503_j32512902431459_1_alg».proof.Proof.Gen.KernelIdeal.Skeleton
import proofs.«106503_j32512902431459_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## A window's block at a grid point -/

/-- Window `w`'s block at point `t`, read off its array as the region finds it. -/
def layerBlock0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the pipeline fetched it there or kept
    it from the point before (the block index had not moved). -/
theorem layerBefore0_0_of {c : Dev nD} (dat : Dat τ (Elt F) Unit ℕ (UR sig nD τ) ℕ cfg0 c) (hA : dat.A 0 = V c (Pipeline.arrRef spec0 0))
    (hafter : ∀ t, dat.after 0 t = layerBlock0 V c 0 t) (t : Fin cfg0.N) (d) : dat.before 0 t d = layerBlock0 V c 0 t :=
  (dat.before_in_eq_fetched 0 rfl (fun _ => rfl) (fun _ _ _ => rfl) (fun t => by rw [hafter]; unfold Dat.blockOf layerBlock0; rw [hA]; try rfl) t d).trans
    (by unfold Dat.fetched Dat.blockOf layerBlock0; rw [hA]; try rfl)

/-- Input window 1's staging buffer holds its block at every point, whether the pipeline fetched it there or kept
    it from the point before (the block index had not moved). -/
theorem layerBefore0_1_of {c : Dev nD} (dat : Dat τ (Elt F) Unit ℕ (UR sig nD τ) ℕ cfg0 c) (hA : dat.A 1 = V c (Pipeline.arrRef spec0 1))
    (hafter : ∀ t, dat.after 1 t = layerBlock0 V c 1 t) (t : Fin cfg0.N) (d) : dat.before 1 t d = layerBlock0 V c 1 t :=
  (dat.before_in_eq_fetched 1 rfl (fun _ => rfl) (fun _ _ _ => rfl) (fun t => by rw [hafter]; unfold Dat.blockOf layerBlock0; rw [hA]; try rfl) t d).trans
    (by unfold Dat.fetched Dat.blockOf layerBlock0; rw [hA]; try rfl)

/-- Input window 2's staging buffer holds its block at every point, whether the pipeline fetched it there or kept
    it from the point before (the block index had not moved). -/
theorem layerBefore0_2_of {c : Dev nD} (dat : Dat τ (Elt F) Unit ℕ (UR sig nD τ) ℕ cfg0 c) (hA : dat.A 2 = V c (Pipeline.arrRef spec0 2))
    (hafter : ∀ t, dat.after 2 t = layerBlock0 V c 2 t) (t : Fin cfg0.N) (d) : dat.before 2 t d = layerBlock0 V c 2 t :=
  (dat.before_in_eq_fetched 2 rfl (fun _ => rfl) (fun _ _ _ => rfl) (fun t => by rw [hafter]; unfold Dat.blockOf layerBlock0; rw [hA]; try rfl) t d).trans
    (by unfold Dat.fetched Dat.blockOf layerBlock0; rw [hA]; try rfl)

/-- Input window 3's staging buffer holds its block at every point, whether the pipeline fetched it there or kept
    it from the point before (the block index had not moved). -/
theorem layerBefore0_3_of {c : Dev nD} (dat : Dat τ (Elt F) Unit ℕ (UR sig nD τ) ℕ cfg0 c) (hA : dat.A 3 = V c (Pipeline.arrRef spec0 3))
    (hafter : ∀ t, dat.after 3 t = layerBlock0 V c 3 t) (t : Fin cfg0.N) (d) : dat.before 3 t d = layerBlock0 V c 3 t :=
  (dat.before_in_eq_fetched 3 rfl (fun _ => rfl) (fun _ _ _ => rfl) (fun t => by rw [hafter]; unfold Dat.blockOf layerBlock0; rw [hA]; try rfl) t d).trans
    (by unfold Dat.fetched Dat.blockOf layerBlock0; rw [hA]; try rfl)

/-- Input window 4's staging buffer holds its block at every point, whether the pipeline fetched it there or kept
    it from the point before (the block index had not moved). -/
theorem layerBefore0_4_of {c : Dev nD} (dat : Dat τ (Elt F) Unit ℕ (UR sig nD τ) ℕ cfg0 c) (hA : dat.A 4 = V c (Pipeline.arrRef spec0 4))
    (hafter : ∀ t, dat.after 4 t = layerBlock0 V c 4 t) (t : Fin cfg0.N) (d) : dat.before 4 t d = layerBlock0 V c 4 t :=
  (dat.before_in_eq_fetched 4 rfl (fun _ => rfl) (fun _ _ _ => rfl) (fun t => by rw [hafter]; unfold Dat.blockOf layerBlock0; rw [hA]; try rfl) t d).trans
    (by unfold Dat.fetched Dat.blockOf layerBlock0; rw [hA]; try rfl)

/-- Input window 5's staging buffer holds its block at every point, whether the pipeline fetched it there or kept
    it from the point before (the block index had not moved). -/
theorem layerBefore0_5_of {c : Dev nD} (dat : Dat τ (Elt F) Unit ℕ (UR sig nD τ) ℕ cfg0 c) (hA : dat.A 5 = V c (Pipeline.arrRef spec0 5))
    (hafter : ∀ t, dat.after 5 t = layerBlock0 V c 5 t) (t : Fin cfg0.N) (d) : dat.before 5 t d = layerBlock0 V c 5 t :=
  (dat.before_in_eq_fetched 5 rfl (fun _ => rfl) (fun _ _ _ => rfl) (fun t => by rw [hafter]; unfold Dat.blockOf layerBlock0; rw [hA]; try rfl) t d).trans
    (by unfold Dat.fetched Dat.blockOf layerBlock0; rw [hA]; try rfl)

/-- Input window 6's staging buffer holds its block at every point, whether the pipeline fetched it there or kept
    it from the point before (the block index had not moved). -/
theorem layerBefore0_6_of {c : Dev nD} (dat : Dat τ (Elt F) Unit ℕ (UR sig nD τ) ℕ cfg0 c) (hA : dat.A 6 = V c (Pipeline.arrRef spec0 6))
    (hafter : ∀ t, dat.after 6 t = layerBlock0 V c 6 t) (t : Fin cfg0.N) (d) : dat.before 6 t d = layerBlock0 V c 6 t :=
  (dat.before_in_eq_fetched 6 rfl (fun _ => rfl) (fun _ _ _ => rfl) (fun t => by rw [hafter]; unfold Dat.blockOf layerBlock0; rw [hA]; try rfl) t d).trans
    (by unfold Dat.fetched Dat.blockOf layerBlock0; rw [hA]; try rfl)

/-- Input window 7's staging buffer holds its block at every point, whether the pipeline fetched it there or kept
    it from the point before (the block index had not moved). -/
theorem layerBefore0_7_of {c : Dev nD} (dat : Dat τ (Elt F) Unit ℕ (UR sig nD τ) ℕ cfg0 c) (hA : dat.A 7 = V c (Pipeline.arrRef spec0 7))
    (hafter : ∀ t, dat.after 7 t = layerBlock0 V c 7 t) (t : Fin cfg0.N) (d) : dat.before 7 t d = layerBlock0 V c 7 t :=
  (dat.before_in_eq_fetched 7 rfl (fun _ => rfl) (fun _ _ _ => rfl) (fun t => by rw [hafter]; unfold Dat.blockOf layerBlock0; rw [hA]; try rfl) t d).trans
    (by unfold Dat.fetched Dat.blockOf layerBlock0; rw [hA]; try rfl)

/-- Input window 8's staging buffer holds its block at every point, whether the pipeline fetched it there or kept
    it from the point before (the block index had not moved). -/
theorem layerBefore0_8_of {c : Dev nD} (dat : Dat τ (Elt F) Unit ℕ (UR sig nD τ) ℕ cfg0 c) (hA : dat.A 8 = V c (Pipeline.arrRef spec0 8))
    (hafter : ∀ t, dat.after 8 t = layerBlock0 V c 8 t) (t : Fin cfg0.N) (d) : dat.before 8 t d = layerBlock0 V c 8 t :=
  (dat.before_in_eq_fetched 8 rfl (fun _ => rfl) (fun _ _ _ => rfl) (fun t => by rw [hafter]; unfold Dat.blockOf layerBlock0; rw [hA]; try rfl) t d).trans
    (by unfold Dat.fetched Dat.blockOf layerBlock0; rw [hA]; try rfl)

/-- Input window 9's staging buffer holds its block at every point, whether the pipeline fetched it there or kept
    it from the point before (the block index had not moved). -/
theorem layerBefore0_9_of {c : Dev nD} (dat : Dat τ (Elt F) Unit ℕ (UR sig nD τ) ℕ cfg0 c) (hA : dat.A 9 = V c (Pipeline.arrRef spec0 9))
    (hafter : ∀ t, dat.after 9 t = layerBlock0 V c 9 t) (t : Fin cfg0.N) (d) : dat.before 9 t d = layerBlock0 V c 9 t :=
  (dat.before_in_eq_fetched 9 rfl (fun _ => rfl) (fun _ _ _ => rfl) (fun t => by rw [hafter]; unfold Dat.blockOf layerBlock0; rw [hA]; try rfl) t d).trans
    (by unfold Dat.fetched Dat.blockOf layerBlock0; rw [hA]; try rfl)

/-! ## What the body stores -/

/-- The whole block of 2000 rows, the whole weight matrix, the whole parameter row: every access of the body is to
    a whole buffer. -/
abbrev rowsRect0 : Rect S2000x128 := Rect.unit (s := S2000x128) ![0, 0] S2000x128.size inb_S2000x128_S2000x128_0_0
abbrev weightRect0 : Rect S128x128 := Rect.unit (s := S128x128) ![0, 0] S128x128.size inb_S128x128_S128x128_0_0
abbrev paramRect0 : Rect S1x128 := Rect.unit (s := S1x128) ![0, 0] S1x128.size inb_S1x128_S1x128_0_0

/-- The output block after the body: its one store, of the layer's arithmetic (the two named payloads) on the ten
    blocks read. -/
def layerOut0 (x0 : Vec F S2000x128 .f32) (x1 : Vec F S2000x128 .f32) (x2 : Vec F S128x128 .f32) (x3 : Vec F S1x128 .f32) (x4 : Vec F S128x128 .f32) (x5 : Vec F S1x128 .f32) (x6 : Vec F S1x128 .f32) (x7 : Vec F S1x128 .f32) (x8 : Vec F S1x128 .f32) (x9 : Vec F S1x128 .f32) : Vec F S2000x128 .f32 :=
  View.canon [⟨rowsRect0, k0_pay1 (k0_pay2 (View.ld x0 rowsRect0) (View.ld x1 rowsRect0) (View.ld x2 weightRect0) (View.ld x3 paramRect0) (View.ld x4 weightRect0) (View.ld x5 paramRect0) (View.ld x9 paramRect0) (View.ld x8 paramRect0)) (View.ld x6 paramRect0) (View.ld x7 paramRect0)⟩]

/-- The one store covers the output block. -/
theorem layerCover0 (p0 : Vec F S2000x128 .f32) (y : S2000x128.Idx) :
    ∃ pc ∈ ([⟨rowsRect0, p0⟩] : List (View.Piece (Elt F) S2000x128 .f32)), y ∈ pc.1.set :=
  View.cover_of_tiled [⟨rowsRect0, p0⟩] S2000x128.size (by rfl) y

/-! ## The body's triple -/

set_option maxHeartbeats 1000000 in
/-- The body on whole staging buffers, the ten inputs' at known contents and the output's at anything, runs to the
    end, leaves the inputs as they were and the output's buffer at `layerOut0` of the inputs. -/
theorem layerKernel0 (c : Dev nD) (E : Set ℕ) (i : grid0.Coords) (arg0 : Memref sig .tc .vmem S2000x128 .f32) (harg0 : arg0.IsWhole) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S2000x128 .f32) (x2 : Vec F S128x128 .f32) (x3 : Vec F S1x128 .f32) (x4 : Vec F S128x128 .f32) (x5 : Vec F S1x128 .f32) (x6 : Vec F S1x128 .f32) (x7 : Vec F S1x128 .f32) (x8 : Vec F S1x128 .f32) (x9 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (layerOut0 x0 x1 x2 x3 x4 x5 x6 x7 x8 x9)) -∗ K ⟨⟩))
      ⊢ wp frame (wpE (defs₀ (F := F)) Variants.none c none) E (cc0__gin_layer_kernel i arg0 harg0 arg1 harg1 arg2 harg2 arg3 harg3 arg4 harg4 arg5 harg5 arg6 harg6 arg7 harg7 arg8 harg8 arg9 harg9 arg10 harg10) K := by
  simp only [cc0__gin_layer_kernel_eq_skeleton]; unfold cc0__gin_layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (layerCover0 _)

/-! ## The pipeline's proof data -/

/-- The proof data of this region on core `c`: the arrays as the region finds them; after the body at point `t`
    each input's buffer still at its block and the output's at `layerOut0` of the input blocks; nothing owed. -/
def layerDat0 (c : Dev nD) : Dat τ (Elt F) Unit ℕ (UR sig nD τ) ℕ cfg0 c where
  A w := V c (Pipeline.arrRef spec0 w)
  after w t := match w with
    | ⟨0, _⟩ => layerBlock0 V c 0 t
    | ⟨1, _⟩ => layerBlock0 V c 1 t
    | ⟨2, _⟩ => layerBlock0 V c 2 t
    | ⟨3, _⟩ => layerBlock0 V c 3 t
    | ⟨4, _⟩ => layerBlock0 V c 4 t
    | ⟨5, _⟩ => layerBlock0 V c 5 t
    | ⟨6, _⟩ => layerBlock0 V c 6 t
    | ⟨7, _⟩ => layerBlock0 V c 7 t
    | ⟨8, _⟩ => layerBlock0 V c 8 t
    | ⟨9, _⟩ => layerBlock0 V c 9 t
    | ⟨10, _⟩ => layerOut0 (layerBlock0 V c 0 t) (layerBlock0 V c 1 t) (layerBlock0 V c 2 t) (layerBlock0 V c 3 t) (layerBlock0 V c 4 t) (layerBlock0 V c 5 t) (layerBlock0 V c 6 t) (layerBlock0 V c 7 t) (layerBlock0 V c 8 t) (layerBlock0 V c 9 t)
  Φ _ := Pipeline.ΦA spec0 c
  q _ := fullShare
  owed _ := 0

theorem layerA0 (c : Dev nD) (w : Fin cfg0.W) : (layerDat0 V c).A w = V c (Pipeline.arrRef spec0 w) := by
  dsimp only [layerDat0]

theorem layerAfter0_0 (c : Dev nD) (t : Fin cfg0.N) : (layerDat0 V c).after 0 t = layerBlock0 V c 0 t := by dsimp only [layerDat0]
theorem layerAfter0_1 (c : Dev nD) (t : Fin cfg0.N) : (layerDat0 V c).after 1 t = layerBlock0 V c 1 t := by dsimp only [layerDat0]
theorem layerAfter0_2 (c : Dev nD) (t : Fin cfg0.N) : (layerDat0 V c).after 2 t = layerBlock0 V c 2 t := by dsimp only [layerDat0]
theorem layerAfter0_3 (c : Dev nD) (t : Fin cfg0.N) : (layerDat0 V c).after 3 t = layerBlock0 V c 3 t := by dsimp only [layerDat0]
theorem layerAfter0_4 (c : Dev nD) (t : Fin cfg0.N) : (layerDat0 V c).after 4 t = layerBlock0 V c 4 t := by dsimp only [layerDat0]
theorem layerAfter0_5 (c : Dev nD) (t : Fin cfg0.N) : (layerDat0 V c).after 5 t = layerBlock0 V c 5 t := by dsimp only [layerDat0]
theorem layerAfter0_6 (c : Dev nD) (t : Fin cfg0.N) : (layerDat0 V c).after 6 t = layerBlock0 V c 6 t := by dsimp only [layerDat0]
theorem layerAfter0_7 (c : Dev nD) (t : Fin cfg0.N) : (layerDat0 V c).after 7 t = layerBlock0 V c 7 t := by dsimp only [layerDat0]
theorem layerAfter0_8 (c : Dev nD) (t : Fin cfg0.N) : (layerDat0 V c).after 8 t = layerBlock0 V c 8 t := by dsimp only [layerDat0]
theorem layerAfter0_9 (c : Dev nD) (t : Fin cfg0.N) : (layerDat0 V c).after 9 t = layerBlock0 V c 9 t := by dsimp only [layerDat0]
theorem layerAfter0_10 (c : Dev nD) (t : Fin cfg0.N) : (layerDat0 V c).after 10 t = layerOut0 (layerBlock0 V c 0 t) (layerBlock0 V c 1 t) (layerBlock0 V c 2 t) (layerBlock0 V c 3 t) (layerBlock0 V c 4 t) (layerBlock0 V c 5 t) (layerBlock0 V c 6 t) (layerBlock0 V c 7 t) (layerBlock0 V c 8 t) (layerBlock0 V c 9 t) := by dsimp only [layerDat0]

theorem layerBefore0_0 (c : Dev nD) (t : Fin cfg0.N) (d) : (layerDat0 V c).before 0 t d = layerBlock0 V c 0 t :=
  layerBefore0_0_of V (layerDat0 V c) (layerA0 V c 0) (layerAfter0_0 V c) t d
theorem layerBefore0_1 (c : Dev nD) (t : Fin cfg0.N) (d) : (layerDat0 V c).before 1 t d = layerBlock0 V c 1 t :=
  layerBefore0_1_of V (layerDat0 V c) (layerA0 V c 1) (layerAfter0_1 V c) t d
theorem layerBefore0_2 (c : Dev nD) (t : Fin cfg0.N) (d) : (layerDat0 V c).before 2 t d = layerBlock0 V c 2 t :=
  layerBefore0_2_of V (layerDat0 V c) (layerA0 V c 2) (layerAfter0_2 V c) t d
theorem layerBefore0_3 (c : Dev nD) (t : Fin cfg0.N) (d) : (layerDat0 V c).before 3 t d = layerBlock0 V c 3 t :=
  layerBefore0_3_of V (layerDat0 V c) (layerA0 V c 3) (layerAfter0_3 V c) t d
theorem layerBefore0_4 (c : Dev nD) (t : Fin cfg0.N) (d) : (layerDat0 V c).before 4 t d = layerBlock0 V c 4 t :=
  layerBefore0_4_of V (layerDat0 V c) (layerA0 V c 4) (layerAfter0_4 V c) t d
theorem layerBefore0_5 (c : Dev nD) (t : Fin cfg0.N) (d) : (layerDat0 V c).before 5 t d = layerBlock0 V c 5 t :=
  layerBefore0_5_of V (layerDat0 V c) (layerA0 V c 5) (layerAfter0_5 V c) t d
theorem layerBefore0_6 (c : Dev nD) (t : Fin cfg0.N) (d) : (layerDat0 V c).before 6 t d = layerBlock0 V c 6 t :=
  layerBefore0_6_of V (layerDat0 V c) (layerA0 V c 6) (layerAfter0_6 V c) t d
theorem layerBefore0_7 (c : Dev nD) (t : Fin cfg0.N) (d) : (layerDat0 V c).before 7 t d = layerBlock0 V c 7 t :=
  layerBefore0_7_of V (layerDat0 V c) (layerA0 V c 7) (layerAfter0_7 V c) t d
theorem layerBefore0_8 (c : Dev nD) (t : Fin cfg0.N) (d) : (layerDat0 V c).before 8 t d = layerBlock0 V c 8 t :=
  layerBefore0_8_of V (layerDat0 V c) (layerA0 V c 8) (layerAfter0_8 V c) t d
theorem layerBefore0_9 (c : Dev nD) (t : Fin cfg0.N) (d) : (layerDat0 V c).before 9 t d = layerBlock0 V c 9 t :=
  layerBefore0_9_of V (layerDat0 V c) (layerA0 V c 9) (layerAfter0_9 V c) t d

/-! ## The obligation at a grid point -/

/-- What the body is called with at point `t`, the windows one by one, -/
def layerPre0 (c : Dev nD) (t : Fin cfg0.N) : sProp 𝕄 :=
  iprop((layerDat0 V c).Φ t.castSucc ∗ (layerDat0 V c).owesAt () t.castSucc
    ∗ (∃ d, owns (c : Thread nD τ) (st0_0 t) fullShare ((layerDat0 V c).before 0 t d))
    ∗ (∃ d, owns (c : Thread nD τ) (st0_1 t) fullShare ((layerDat0 V c).before 1 t d))
    ∗ (∃ d, owns (c : Thread nD τ) (st0_2 t) fullShare ((layerDat0 V c).before 2 t d))
    ∗ (∃ d, owns (c : Thread nD τ) (st0_3 t) fullShare ((layerDat0 V c).before 3 t d))
    ∗ (∃ d, owns (c : Thread nD τ) (st0_4 t) fullShare ((layerDat0 V c).before 4 t d))
    ∗ (∃ d, owns (c : Thread nD τ) (st0_5 t) fullShare ((layerDat0 V c).before 5 t d))
    ∗ (∃ d, owns (c : Thread nD τ) (st0_6 t) fullShare ((layerDat0 V c).before 6 t d))
    ∗ (∃ d, owns (c : Thread nD τ) (st0_7 t) fullShare ((layerDat0 V c).before 7 t d))
    ∗ (∃ d, owns (c : Thread nD τ) (st0_8 t) fullShare ((layerDat0 V c).before 8 t d))
    ∗ (∃ d, owns (c : Thread nD τ) (st0_9 t) fullShare ((layerDat0 V c).before 9 t d))
    ∗ (∃ d, owns (c : Thread nD τ) (st0_10 t) fullShare ((layerDat0 V c).before 10 t d)))

/-- and what it returns. -/
def layerPost0 (c : Dev nD) (t : Fin cfg0.N) : sProp 𝕄 :=
  iprop((layerDat0 V c).Φ t.succ ∗ (layerDat0 V c).owesAt () t.succ
    ∗ owns (c : Thread nD τ) (st0_0 t) fullShare ((layerDat0 V c).after 0 t)
    ∗ owns (c : Thread nD τ) (st0_1 t) fullShare ((layerDat0 V c).after 1 t)
    ∗ owns (c : Thread nD τ) (st0_2 t) fullShare ((layerDat0 V c).after 2 t)
    ∗ owns (c : Thread nD τ) (st0_3 t) fullShare ((layerDat0 V c).after 3 t)
    ∗ owns (c : Thread nD τ) (st0_4 t) fullShare ((layerDat0 V c).after 4 t)
    ∗ owns (c : Thread nD τ) (st0_5 t) fullShare ((layerDat0 V c).after 5 t)
    ∗ owns (c : Thread nD τ) (st0_6 t) fullShare ((layerDat0 V c).after 6 t)
    ∗ owns (c : Thread nD τ) (st0_7 t) fullShare ((layerDat0 V c).after 7 t)
    ∗ owns (c : Thread nD τ) (st0_8 t) fullShare ((layerDat0 V c).after 8 t)
    ∗ owns (c : Thread nD τ) (st0_9 t) fullShare ((layerDat0 V c).after 9 t)
    ∗ owns (c : Thread nD τ) (st0_10 t) fullShare ((layerDat0 V c).after 10 t))

/-- The body at any point: the inputs' buffers hold their blocks, so the body's triple applies; the invariant and
    what the core owes pass through unread. -/
theorem layerBody0 (c : Dev nD) (t : Fin cfg0.N) :
    layerPre0 V c t ⊢ wp frame (wpE (defs₀ (F := F)) Variants.none c none) Set.univ (bodyAt0 t) (fun _ => layerPost0 V c t) := by
  unfold layerPre0 layerPost0 bodyAt0
  simp only [layerBefore0_0, layerBefore0_1, layerBefore0_2, layerBefore0_3, layerBefore0_4, layerBefore0_5, layerBefore0_6, layerBefore0_7, layerBefore0_8, layerBefore0_9]
  rw [show (layerDat0 V c).Φ t.succ = (layerDat0 V c).Φ t.castSucc from rfl,
    show (layerDat0 V c).owesAt () t.succ = (layerDat0 V c).owesAt () t.castSucc from rfl,
    layerAfter0_0, layerAfter0_1, layerAfter0_2, layerAfter0_3, layerAfter0_4, layerAfter0_5, layerAfter0_6, layerAfter0_7, layerAfter0_8, layerAfter0_9, layerAfter0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (layerKernel0 c Set.univ _ _ _ _ _ _ _ _ _ _ _ _ _ _ _ _ _ _ _ _ _ _ _ (layerBlock0 V c 0 t) (layerBlock0 V c 1 t) (layerBlock0 V c 2 t) (layerBlock0 V c 3 t) (layerBlock0 V c 4 t) (layerBlock0 V c 5 t) (layerBlock0 V c 6 t) (layerBlock0 V c 7 t) (layerBlock0 V c 8 t) (layerBlock0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's body obligation, at every point. -/
theorem layerObligation0 (c : Dev nD) : BodyObligation (layerDat0 (F := F) V c) (defs₀ (F := F)) Variants.none () Set.univ := fun t => by
  rw [bigSep_W0, bigSep_W0]
  exact layerBody0 V c t

end Cert.KernelIdeal.Frame

end
-- ==== Proof.Ideal.LayerRegion1.lean ====
/-
  Region 1 of the program: one layer of the graph network, run block of 2000 rows by block of 2000 rows over
  25 grid points. At a point the body reads the blocks of the node features and of the aggregated neighbour
  features, the two weight matrices and the six one-row parameters (bias, bias, gain, offset, running mean,
  running variance), and stores ONE block of the result. This module states what the stored block is as a
  function of the ten blocks read, proves the body's Hoare triple, gives the pipeline's proof data at any
  contents the region may be entered from, and discharges the pipeline's obligation at every grid point.
  Everything is stated at any float instance.
-/
import proofs.«106503_j32512902431459_1_alg».proof.Proof.Gen.KernelIdeal.Launch
import proofs.«106503_j32512902431459_1_alg».proof.Proof.Gen.KernelIdeal.Skeleton
import proofs.«106503_j32512902431459_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## A window's block at a grid point -/

/-- Window `w`'s block at point `t`, read off its array as the region finds it. -/
def layerBlock1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or kept
    it from the point before (the block index had not moved). -/
theorem layerBefore1_0_of {c : Dev nD} (dat : Dat τ (Elt F) Unit ℕ (UR sig nD τ) ℕ cfg1 c) (hA : dat.A 0 = V c (Pipeline.arrRef spec1 0))
    (hafter : ∀ t, dat.after 0 t = layerBlock1 V c 0 t) (t : Fin cfg1.N) (d) : dat.before 0 t d = layerBlock1 V c 0 t :=
  (dat.before_in_eq_fetched 0 rfl (fun _ => rfl) (fun _ _ _ => rfl) (fun t => by rw [hafter]; unfold Dat.blockOf layerBlock1; rw [hA]; try rfl) t d).trans
    (by unfold Dat.fetched Dat.blockOf layerBlock1; rw [hA]; try rfl)

/-- Input window 1's staging buffer holds its block at every point, whether the pipeline fetched it there or kept
    it from the point before (the block index had not moved). -/
theorem layerBefore1_1_of {c : Dev nD} (dat : Dat τ (Elt F) Unit ℕ (UR sig nD τ) ℕ cfg1 c) (hA : dat.A 1 = V c (Pipeline.arrRef spec1 1))
    (hafter : ∀ t, dat.after 1 t = layerBlock1 V c 1 t) (t : Fin cfg1.N) (d) : dat.before 1 t d = layerBlock1 V c 1 t :=
  (dat.before_in_eq_fetched 1 rfl (fun _ => rfl) (fun _ _ _ => rfl) (fun t => by rw [hafter]; unfold Dat.blockOf layerBlock1; rw [hA]; try rfl) t d).trans
    (by unfold Dat.fetched Dat.blockOf layerBlock1; rw [hA]; try rfl)

/-- Input window 2's staging buffer holds its block at every point, whether the pipeline fetched it there or kept
    it from the point before (the block index had not moved). -/
theorem layerBefore1_2_of {c : Dev nD} (dat : Dat τ (Elt F) Unit ℕ (UR sig nD τ) ℕ cfg1 c) (hA : dat.A 2 = V c (Pipeline.arrRef spec1 2))
    (hafter : ∀ t, dat.after 2 t = layerBlock1 V c 2 t) (t : Fin cfg1.N) (d) : dat.before 2 t d = layerBlock1 V c 2 t :=
  (dat.before_in_eq_fetched 2 rfl (fun _ => rfl) (fun _ _ _ => rfl) (fun t => by rw [hafter]; unfold Dat.blockOf layerBlock1; rw [hA]; try rfl) t d).trans
    (by unfold Dat.fetched Dat.blockOf layerBlock1; rw [hA]; try rfl)

/-- Input window 3's staging buffer holds its block at every point, whether the pipeline fetched it there or kept
    it from the point before (the block index had not moved). -/
theorem layerBefore1_3_of {c : Dev nD} (dat : Dat τ (Elt F) Unit ℕ (UR sig nD τ) ℕ cfg1 c) (hA : dat.A 3 = V c (Pipeline.arrRef spec1 3))
    (hafter : ∀ t, dat.after 3 t = layerBlock1 V c 3 t) (t : Fin cfg1.N) (d) : dat.before 3 t d = layerBlock1 V c 3 t :=
  (dat.before_in_eq_fetched 3 rfl (fun _ => rfl) (fun _ _ _ => rfl) (fun t => by rw [hafter]; unfold Dat.blockOf layerBlock1; rw [hA]; try rfl) t d).trans
    (by unfold Dat.fetched Dat.blockOf layerBlock1; rw [hA]; try rfl)

/-- Input window 4's staging buffer holds its block at every point, whether the pipeline fetched it there or kept
    it from the point before (the block index had not moved). -/
theorem layerBefore1_4_of {c : Dev nD} (dat : Dat τ (Elt F) Unit ℕ (UR sig nD τ) ℕ cfg1 c) (hA : dat.A 4 = V c (Pipeline.arrRef spec1 4))
    (hafter : ∀ t, dat.after 4 t = layerBlock1 V c 4 t) (t : Fin cfg1.N) (d) : dat.before 4 t d = layerBlock1 V c 4 t :=
  (dat.before_in_eq_fetched 4 rfl (fun _ => rfl) (fun _ _ _ => rfl) (fun t => by rw [hafter]; unfold Dat.blockOf layerBlock1; rw [hA]; try rfl) t d).trans
    (by unfold Dat.fetched Dat.blockOf layerBlock1; rw [hA]; try rfl)

/-- Input window 5's staging buffer holds its block at every point, whether the pipeline fetched it there or kept
    it from the point before (the block index had not moved). -/
theorem layerBefore1_5_of {c : Dev nD} (dat : Dat τ (Elt F) Unit ℕ (UR sig nD τ) ℕ cfg1 c) (hA : dat.A 5 = V c (Pipeline.arrRef spec1 5))
    (hafter : ∀ t, dat.after 5 t = layerBlock1 V c 5 t) (t : Fin cfg1.N) (d) : dat.before 5 t d = layerBlock1 V c 5 t :=
  (dat.before_in_eq_fetched 5 rfl (fun _ => rfl) (fun _ _ _ => rfl) (fun t => by rw [hafter]; unfold Dat.blockOf layerBlock1; rw [hA]; try rfl) t d).trans
    (by unfold Dat.fetched Dat.blockOf layerBlock1; rw [hA]; try rfl)

/-- Input window 6's staging buffer holds its block at every point, whether the pipeline fetched it there or kept
    it from the point before (the block index had not moved). -/
theorem layerBefore1_6_of {c : Dev nD} (dat : Dat τ (Elt F) Unit ℕ (UR sig nD τ) ℕ cfg1 c) (hA : dat.A 6 = V c (Pipeline.arrRef spec1 6))
    (hafter : ∀ t, dat.after 6 t = layerBlock1 V c 6 t) (t : Fin cfg1.N) (d) : dat.before 6 t d = layerBlock1 V c 6 t :=
  (dat.before_in_eq_fetched 6 rfl (fun _ => rfl) (fun _ _ _ => rfl) (fun t => by rw [hafter]; unfold Dat.blockOf layerBlock1; rw [hA]; try rfl) t d).trans
    (by unfold Dat.fetched Dat.blockOf layerBlock1; rw [hA]; try rfl)

/-- Input window 7's staging buffer holds its block at every point, whether the pipeline fetched it there or kept
    it from the point before (the block index had not moved). -/
theorem layerBefore1_7_of {c : Dev nD} (dat : Dat τ (Elt F) Unit ℕ (UR sig nD τ) ℕ cfg1 c) (hA : dat.A 7 = V c (Pipeline.arrRef spec1 7))
    (hafter : ∀ t, dat.after 7 t = layerBlock1 V c 7 t) (t : Fin cfg1.N) (d) : dat.before 7 t d = layerBlock1 V c 7 t :=
  (dat.before_in_eq_fetched 7 rfl (fun _ => rfl) (fun _ _ _ => rfl) (fun t => by rw [hafter]; unfold Dat.blockOf layerBlock1; rw [hA]; try rfl) t d).trans
    (by unfold Dat.fetched Dat.blockOf layerBlock1; rw [hA]; try rfl)

/-- Input window 8's staging buffer holds its block at every point, whether the pipeline fetched it there or kept
    it from the point before (the block index had not moved). -/
theorem layerBefore1_8_of {c : Dev nD} (dat : Dat τ (Elt F) Unit ℕ (UR sig nD τ) ℕ cfg1 c) (hA : dat.A 8 = V c (Pipeline.arrRef spec1 8))
    (hafter : ∀ t, dat.after 8 t = layerBlock1 V c 8 t) (t : Fin cfg1.N) (d) : dat.before 8 t d = layerBlock1 V c 8 t :=
  (dat.before_in_eq_fetched 8 rfl (fun _ => rfl) (fun _ _ _ => rfl) (fun t => by rw [hafter]; unfold Dat.blockOf layerBlock1; rw [hA]; try rfl) t d).trans
    (by unfold Dat.fetched Dat.blockOf layerBlock1; rw [hA]; try rfl)

/-- Input window 9's staging buffer holds its block at every point, whether the pipeline fetched it there or kept
    it from the point before (the block index had not moved). -/
theorem layerBefore1_9_of {c : Dev nD} (dat : Dat τ (Elt F) Unit ℕ (UR sig nD τ) ℕ cfg1 c) (hA : dat.A 9 = V c (Pipeline.arrRef spec1 9))
    (hafter : ∀ t, dat.after 9 t = layerBlock1 V c 9 t) (t : Fin cfg1.N) (d) : dat.before 9 t d = layerBlock1 V c 9 t :=
  (dat.before_in_eq_fetched 9 rfl (fun _ => rfl) (fun _ _ _ => rfl) (fun t => by rw [hafter]; unfold Dat.blockOf layerBlock1; rw [hA]; try rfl) t d).trans
    (by unfold Dat.fetched Dat.blockOf layerBlock1; rw [hA]; try rfl)

/-! ## What the body stores -/

/-- The whole block of 2000 rows, the whole weight matrix, the whole parameter row: every access of the body is to
    a whole buffer. -/
abbrev rowsRect1 : Rect S2000x128 := Rect.unit (s := S2000x128) ![0, 0] S2000x128.size inb_S2000x128_S2000x128_0_0
abbrev weightRect1 : Rect S128x128 := Rect.unit (s := S128x128) ![0, 0] S128x128.size inb_S128x128_S128x128_0_0
abbrev paramRect1 : Rect S1x128 := Rect.unit (s := S1x128) ![0, 0] S1x128.size inb_S1x128_S1x128_0_0

/-- The output block after the body: its one store, of the layer's arithmetic (the two named payloads) on the ten
    blocks read. -/
def layerOut1 (x0 : Vec F S2000x128 .f32) (x1 : Vec F S2000x128 .f32) (x2 : Vec F S128x128 .f32) (x3 : Vec F S1x128 .f32) (x4 : Vec F S128x128 .f32) (x5 : Vec F S1x128 .f32) (x6 : Vec F S1x128 .f32) (x7 : Vec F S1x128 .f32) (x8 : Vec F S1x128 .f32) (x9 : Vec F S1x128 .f32) : Vec F S2000x128 .f32 :=
  View.canon [⟨rowsRect1, k1_pay1 (k1_pay2 (View.ld x0 rowsRect1) (View.ld x1 rowsRect1) (View.ld x2 weightRect1) (View.ld x3 paramRect1) (View.ld x4 weightRect1) (View.ld x5 paramRect1) (View.ld x9 paramRect1) (View.ld x8 paramRect1)) (View.ld x6 paramRect1) (View.ld x7 paramRect1)⟩]

/-- The one store covers the output block. -/
theorem layerCover1 (p0 : Vec F S2000x128 .f32) (y : S2000x128.Idx) :
    ∃ pc ∈ ([⟨rowsRect1, p0⟩] : List (View.Piece (Elt F) S2000x128 .f32)), y ∈ pc.1.set :=
  View.cover_of_tiled [⟨rowsRect1, p0⟩] S2000x128.size (by rfl) y

/-! ## The body's triple -/

set_option maxHeartbeats 1000000 in
/-- The body on whole staging buffers, the ten inputs' at known contents and the output's at anything, runs to the
    end, leaves the inputs as they were and the output's buffer at `layerOut1` of the inputs. -/
theorem layerKernel1 (c : Dev nD) (E : Set ℕ) (i : grid1.Coords) (arg0 : Memref sig .tc .vmem S2000x128 .f32) (harg0 : arg0.IsWhole) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S2000x128 .f32) (x2 : Vec F S128x128 .f32) (x3 : Vec F S1x128 .f32) (x4 : Vec F S128x128 .f32) (x5 : Vec F S1x128 .f32) (x6 : Vec F S1x128 .f32) (x7 : Vec F S1x128 .f32) (x8 : Vec F S1x128 .f32) (x9 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (layerOut1 x0 x1 x2 x3 x4 x5 x6 x7 x8 x9)) -∗ K ⟨⟩))
      ⊢ wp frame (wpE (defs₀ (F := F)) Variants.none c none) E (cc1__gin_layer_kernel i arg0 harg0 arg1 harg1 arg2 harg2 arg3 harg3 arg4 harg4 arg5 harg5 arg6 harg6 arg7 harg7 arg8 harg8 arg9 harg9 arg10 harg10) K := by
  simp only [cc1__gin_layer_kernel_eq_skeleton]; unfold cc1__gin_layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (layerCover1 _)

/-! ## The pipeline's proof data -/

/-- The proof data of this region on core `c`: the arrays as the region finds them; after the body at point `t`
    each input's buffer still at its block and the output's at `layerOut1` of the input blocks; nothing owed. -/
def layerDat1 (c : Dev nD) : Dat τ (Elt F) Unit ℕ (UR sig nD τ) ℕ cfg1 c where
  A w := V c (Pipeline.arrRef spec1 w)
  after w t := match w with
    | ⟨0, _⟩ => layerBlock1 V c 0 t
    | ⟨1, _⟩ => layerBlock1 V c 1 t
    | ⟨2, _⟩ => layerBlock1 V c 2 t
    | ⟨3, _⟩ => layerBlock1 V c 3 t
    | ⟨4, _⟩ => layerBlock1 V c 4 t
    | ⟨5, _⟩ => layerBlock1 V c 5 t
    | ⟨6, _⟩ => layerBlock1 V c 6 t
    | ⟨7, _⟩ => layerBlock1 V c 7 t
    | ⟨8, _⟩ => layerBlock1 V c 8 t
    | ⟨9, _⟩ => layerBlock1 V c 9 t
    | ⟨10, _⟩ => layerOut1 (layerBlock1 V c 0 t) (layerBlock1 V c 1 t) (layerBlock1 V c 2 t) (layerBlock1 V c 3 t) (layerBlock1 V c 4 t) (layerBlock1 V c 5 t) (layerBlock1 V c 6 t) (layerBlock1 V c 7 t) (layerBlock1 V c 8 t) (layerBlock1 V c 9 t)
  Φ _ := Pipeline.ΦA spec1 c
  q _ := fullShare
  owed _ := 0

theorem layerA1 (c : Dev nD) (w : Fin cfg1.W) : (layerDat1 V c).A w = V c (Pipeline.arrRef spec1 w) := by
  dsimp only [layerDat1]

theorem layerAfter1_0 (c : Dev nD) (t : Fin cfg1.N) : (layerDat1 V c).after 0 t = layerBlock1 V c 0 t := by dsimp only [layerDat1]
theorem layerAfter1_1 (c : Dev nD) (t : Fin cfg1.N) : (layerDat1 V c).after 1 t = layerBlock1 V c 1 t := by dsimp only [layerDat1]
theorem layerAfter1_2 (c : Dev nD) (t : Fin cfg1.N) : (layerDat1 V c).after 2 t = layerBlock1 V c 2 t := by dsimp only [layerDat1]
theorem layerAfter1_3 (c : Dev nD) (t : Fin cfg1.N) : (layerDat1 V c).after 3 t = layerBlock1 V c 3 t := by dsimp only [layerDat1]
theorem layerAfter1_4 (c : Dev nD) (t : Fin cfg1.N) : (layerDat1 V c).after 4 t = layerBlock1 V c 4 t := by dsimp only [layerDat1]
theorem layerAfter1_5 (c : Dev nD) (t : Fin cfg1.N) : (layerDat1 V c).after 5 t = layerBlock1 V c 5 t := by dsimp only [layerDat1]
theorem layerAfter1_6 (c : Dev nD) (t : Fin cfg1.N) : (layerDat1 V c).after 6 t = layerBlock1 V c 6 t := by dsimp only [layerDat1]
theorem layerAfter1_7 (c : Dev nD) (t : Fin cfg1.N) : (layerDat1 V c).after 7 t = layerBlock1 V c 7 t := by dsimp only [layerDat1]
theorem layerAfter1_8 (c : Dev nD) (t : Fin cfg1.N) : (layerDat1 V c).after 8 t = layerBlock1 V c 8 t := by dsimp only [layerDat1]
theorem layerAfter1_9 (c : Dev nD) (t : Fin cfg1.N) : (layerDat1 V c).after 9 t = layerBlock1 V c 9 t := by dsimp only [layerDat1]
theorem layerAfter1_10 (c : Dev nD) (t : Fin cfg1.N) : (layerDat1 V c).after 10 t = layerOut1 (layerBlock1 V c 0 t) (layerBlock1 V c 1 t) (layerBlock1 V c 2 t) (layerBlock1 V c 3 t) (layerBlock1 V c 4 t) (layerBlock1 V c 5 t) (layerBlock1 V c 6 t) (layerBlock1 V c 7 t) (layerBlock1 V c 8 t) (layerBlock1 V c 9 t) := by dsimp only [layerDat1]

theorem layerBefore1_0 (c : Dev nD) (t : Fin cfg1.N) (d) : (layerDat1 V c).before 0 t d = layerBlock1 V c 0 t :=
  layerBefore1_0_of V (layerDat1 V c) (layerA1 V c 0) (layerAfter1_0 V c) t d
theorem layerBefore1_1 (c : Dev nD) (t : Fin cfg1.N) (d) : (layerDat1 V c).before 1 t d = layerBlock1 V c 1 t :=
  layerBefore1_1_of V (layerDat1 V c) (layerA1 V c 1) (layerAfter1_1 V c) t d
theorem layerBefore1_2 (c : Dev nD) (t : Fin cfg1.N) (d) : (layerDat1 V c).before 2 t d = layerBlock1 V c 2 t :=
  layerBefore1_2_of V (layerDat1 V c) (layerA1 V c 2) (layerAfter1_2 V c) t d
theorem layerBefore1_3 (c : Dev nD) (t : Fin cfg1.N) (d) : (layerDat1 V c).before 3 t d = layerBlock1 V c 3 t :=
  layerBefore1_3_of V (layerDat1 V c) (layerA1 V c 3) (layerAfter1_3 V c) t d
theorem layerBefore1_4 (c : Dev nD) (t : Fin cfg1.N) (d) : (layerDat1 V c).before 4 t d = layerBlock1 V c 4 t :=
  layerBefore1_4_of V (layerDat1 V c) (layerA1 V c 4) (layerAfter1_4 V c) t d
theorem layerBefore1_5 (c : Dev nD) (t : Fin cfg1.N) (d) : (layerDat1 V c).before 5 t d = layerBlock1 V c 5 t :=
  layerBefore1_5_of V (layerDat1 V c) (layerA1 V c 5) (layerAfter1_5 V c) t d
theorem layerBefore1_6 (c : Dev nD) (t : Fin cfg1.N) (d) : (layerDat1 V c).before 6 t d = layerBlock1 V c 6 t :=
  layerBefore1_6_of V (layerDat1 V c) (layerA1 V c 6) (layerAfter1_6 V c) t d
theorem layerBefore1_7 (c : Dev nD) (t : Fin cfg1.N) (d) : (layerDat1 V c).before 7 t d = layerBlock1 V c 7 t :=
  layerBefore1_7_of V (layerDat1 V c) (layerA1 V c 7) (layerAfter1_7 V c) t d
theorem layerBefore1_8 (c : Dev nD) (t : Fin cfg1.N) (d) : (layerDat1 V c).before 8 t d = layerBlock1 V c 8 t :=
  layerBefore1_8_of V (layerDat1 V c) (layerA1 V c 8) (layerAfter1_8 V c) t d
theorem layerBefore1_9 (c : Dev nD) (t : Fin cfg1.N) (d) : (layerDat1 V c).before 9 t d = layerBlock1 V c 9 t :=
  layerBefore1_9_of V (layerDat1 V c) (layerA1 V c 9) (layerAfter1_9 V c) t d

/-! ## The obligation at a grid point -/

/-- What the body is called with at point `t`, the windows one by one, -/
def layerPre1 (c : Dev nD) (t : Fin cfg1.N) : sProp 𝕄 :=
  iprop((layerDat1 V c).Φ t.castSucc ∗ (layerDat1 V c).owesAt () t.castSucc
    ∗ (∃ d, owns (c : Thread nD τ) (st1_0 t) fullShare ((layerDat1 V c).before 0 t d))
    ∗ (∃ d, owns (c : Thread nD τ) (st1_1 t) fullShare ((layerDat1 V c).before 1 t d))
    ∗ (∃ d, owns (c : Thread nD τ) (st1_2 t) fullShare ((layerDat1 V c).before 2 t d))
    ∗ (∃ d, owns (c : Thread nD τ) (st1_3 t) fullShare ((layerDat1 V c).before 3 t d))
    ∗ (∃ d, owns (c : Thread nD τ) (st1_4 t) fullShare ((layerDat1 V c).before 4 t d))
    ∗ (∃ d, owns (c : Thread nD τ) (st1_5 t) fullShare ((layerDat1 V c).before 5 t d))
    ∗ (∃ d, owns (c : Thread nD τ) (st1_6 t) fullShare ((layerDat1 V c).before 6 t d))
    ∗ (∃ d, owns (c : Thread nD τ) (st1_7 t) fullShare ((layerDat1 V c).before 7 t d))
    ∗ (∃ d, owns (c : Thread nD τ) (st1_8 t) fullShare ((layerDat1 V c).before 8 t d))
    ∗ (∃ d, owns (c : Thread nD τ) (st1_9 t) fullShare ((layerDat1 V c).before 9 t d))
    ∗ (∃ d, owns (c : Thread nD τ) (st1_10 t) fullShare ((layerDat1 V c).before 10 t d)))

/-- and what it returns. -/
def layerPost1 (c : Dev nD) (t : Fin cfg1.N) : sProp 𝕄 :=
  iprop((layerDat1 V c).Φ t.succ ∗ (layerDat1 V c).owesAt () t.succ
    ∗ owns (c : Thread nD τ) (st1_0 t) fullShare ((layerDat1 V c).after 0 t)
    ∗ owns (c : Thread nD τ) (st1_1 t) fullShare ((layerDat1 V c).after 1 t)
    ∗ owns (c : Thread nD τ) (st1_2 t) fullShare ((layerDat1 V c).after 2 t)
    ∗ owns (c : Thread nD τ) (st1_3 t) fullShare ((layerDat1 V c).after 3 t)
    ∗ owns (c : Thread nD τ) (st1_4 t) fullShare ((layerDat1 V c).after 4 t)
    ∗ owns (c : Thread nD τ) (st1_5 t) fullShare ((layerDat1 V c).after 5 t)
    ∗ owns (c : Thread nD τ) (st1_6 t) fullShare ((layerDat1 V c).after 6 t)
    ∗ owns (c : Thread nD τ) (st1_7 t) fullShare ((layerDat1 V c).after 7 t)
    ∗ owns (c : Thread nD τ) (st1_8 t) fullShare ((layerDat1 V c).after 8 t)
    ∗ owns (c : Thread nD τ) (st1_9 t) fullShare ((layerDat1 V c).after 9 t)
    ∗ owns (c : Thread nD τ) (st1_10 t) fullShare ((layerDat1 V c).after 10 t))

/-- The body at any point: the inputs' buffers hold their blocks, so the body's triple applies; the invariant and
    what the core owes pass through unread. -/
theorem layerBody1 (c : Dev nD) (t : Fin cfg1.N) :
    layerPre1 V c t ⊢ wp frame (wpE (defs₀ (F := F)) Variants.none c none) Set.univ (bodyAt1 t) (fun _ => layerPost1 V c t) := by
  unfold layerPre1 layerPost1 bodyAt1
  simp only [layerBefore1_0, layerBefore1_1, layerBefore1_2, layerBefore1_3, layerBefore1_4, layerBefore1_5, layerBefore1_6, layerBefore1_7, layerBefore1_8, layerBefore1_9]
  rw [show (layerDat1 V c).Φ t.succ = (layerDat1 V c).Φ t.castSucc from rfl,
    show (layerDat1 V c).owesAt () t.succ = (layerDat1 V c).owesAt () t.castSucc from rfl,
    layerAfter1_0, layerAfter1_1, layerAfter1_2, layerAfter1_3, layerAfter1_4, layerAfter1_5, layerAfter1_6, layerAfter1_7, layerAfter1_8, layerAfter1_9, layerAfter1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (layerKernel1 c Set.univ _ _ _ _ _ _ _ _ _ _ _ _ _ _ _ _ _ _ _ _ _ _ _ (layerBlock1 V c 0 t) (layerBlock1 V c 1 t) (layerBlock1 V c 2 t) (layerBlock1 V c 3 t) (layerBlock1 V c 4 t) (layerBlock1 V c 5 t) (layerBlock1 V c 6 t) (layerBlock1 V c 7 t) (layerBlock1 V c 8 t) (layerBlock1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's body obligation, at every point. -/
theorem layerObligation1 (c : Dev nD) : BodyObligation (layerDat1 (F := F) V c) (defs₀ (F := F)) Variants.none () Set.univ := fun t => by
  rw [bigSep_W1, bigSep_W1]
  exact layerBody1 V c t

end Cert.KernelIdeal.Frame

end
-- ==== Proof.Ideal.LayerRegion2.lean ====
/-
  Region 2 of the program: one layer of the graph network, run block of 2000 rows by block of 2000 rows over
  25 grid points. At a point the body reads the blocks of the node features and of the aggregated neighbour
  features, the two weight matrices and the six one-row parameters (bias, bias, gain, offset, running mean,
  running variance), and stores ONE block of the result. This module states what the stored block is as a
  function of the ten blocks read, proves the body's Hoare triple, gives the pipeline's proof data at any
  contents the region may be entered from, and discharges the pipeline's obligation at every grid point.
  Everything is stated at any float instance.
-/
import proofs.«106503_j32512902431459_1_alg».proof.Proof.Gen.KernelIdeal.Launch
import proofs.«106503_j32512902431459_1_alg».proof.Proof.Gen.KernelIdeal.Skeleton
import proofs.«106503_j32512902431459_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## A window's block at a grid point -/

/-- Window `w`'s block at point `t`, read off its array as the region finds it. -/
def layerBlock2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the pipeline fetched it there or kept
    it from the point before (the block index had not moved). -/
theorem layerBefore2_0_of {c : Dev nD} (dat : Dat τ (Elt F) Unit ℕ (UR sig nD τ) ℕ cfg2 c) (hA : dat.A 0 = V c (Pipeline.arrRef spec2 0))
    (hafter : ∀ t, dat.after 0 t = layerBlock2 V c 0 t) (t : Fin cfg2.N) (d) : dat.before 0 t d = layerBlock2 V c 0 t :=
  (dat.before_in_eq_fetched 0 rfl (fun _ => rfl) (fun _ _ _ => rfl) (fun t => by rw [hafter]; unfold Dat.blockOf layerBlock2; rw [hA]; try rfl) t d).trans
    (by unfold Dat.fetched Dat.blockOf layerBlock2; rw [hA]; try rfl)

/-- Input window 1's staging buffer holds its block at every point, whether the pipeline fetched it there or kept
    it from the point before (the block index had not moved). -/
theorem layerBefore2_1_of {c : Dev nD} (dat : Dat τ (Elt F) Unit ℕ (UR sig nD τ) ℕ cfg2 c) (hA : dat.A 1 = V c (Pipeline.arrRef spec2 1))
    (hafter : ∀ t, dat.after 1 t = layerBlock2 V c 1 t) (t : Fin cfg2.N) (d) : dat.before 1 t d = layerBlock2 V c 1 t :=
  (dat.before_in_eq_fetched 1 rfl (fun _ => rfl) (fun _ _ _ => rfl) (fun t => by rw [hafter]; unfold Dat.blockOf layerBlock2; rw [hA]; try rfl) t d).trans
    (by unfold Dat.fetched Dat.blockOf layerBlock2; rw [hA]; try rfl)

/-- Input window 2's staging buffer holds its block at every point, whether the pipeline fetched it there or kept
    it from the point before (the block index had not moved). -/
theorem layerBefore2_2_of {c : Dev nD} (dat : Dat τ (Elt F) Unit ℕ (UR sig nD τ) ℕ cfg2 c) (hA : dat.A 2 = V c (Pipeline.arrRef spec2 2))
    (hafter : ∀ t, dat.after 2 t = layerBlock2 V c 2 t) (t : Fin cfg2.N) (d) : dat.before 2 t d = layerBlock2 V c 2 t :=
  (dat.before_in_eq_fetched 2 rfl (fun _ => rfl) (fun _ _ _ => rfl) (fun t => by rw [hafter]; unfold Dat.blockOf layerBlock2; rw [hA]; try rfl) t d).trans
    (by unfold Dat.fetched Dat.blockOf layerBlock2; rw [hA]; try rfl)

/-- Input window 3's staging buffer holds its block at every point, whether the pipeline fetched it there or kept
    it from the point before (the block index had not moved). -/
theorem layerBefore2_3_of {c : Dev nD} (dat : Dat τ (Elt F) Unit ℕ (UR sig nD τ) ℕ cfg2 c) (hA : dat.A 3 = V c (Pipeline.arrRef spec2 3))
    (hafter : ∀ t, dat.after 3 t = layerBlock2 V c 3 t) (t : Fin cfg2.N) (d) : dat.before 3 t d = layerBlock2 V c 3 t :=
  (dat.before_in_eq_fetched 3 rfl (fun _ => rfl) (fun _ _ _ => rfl) (fun t => by rw [hafter]; unfold Dat.blockOf layerBlock2; rw [hA]; try rfl) t d).trans
    (by unfold Dat.fetched Dat.blockOf layerBlock2; rw [hA]; try rfl)

/-- Input window 4's staging buffer holds its block at every point, whether the pipeline fetched it there or kept
    it from the point before (the block index had not moved). -/
theorem layerBefore2_4_of {c : Dev nD} (dat : Dat τ (Elt F) Unit ℕ (UR sig nD τ) ℕ cfg2 c) (hA : dat.A 4 = V c (Pipeline.arrRef spec2 4))
    (hafter : ∀ t, dat.after 4 t = layerBlock2 V c 4 t) (t : Fin cfg2.N) (d) : dat.before 4 t d = layerBlock2 V c 4 t :=
  (dat.before_in_eq_fetched 4 rfl (fun _ => rfl) (fun _ _ _ => rfl) (fun t => by rw [hafter]; unfold Dat.blockOf layerBlock2; rw [hA]; try rfl) t d).trans
    (by unfold Dat.fetched Dat.blockOf layerBlock2; rw [hA]; try rfl)

/-- Input window 5's staging buffer holds its block at every point, whether the pipeline fetched it there or kept
    it from the point before (the block index had not moved). -/
theorem layerBefore2_5_of {c : Dev nD} (dat : Dat τ (Elt F) Unit ℕ (UR sig nD τ) ℕ cfg2 c) (hA : dat.A 5 = V c (Pipeline.arrRef spec2 5))
    (hafter : ∀ t, dat.after 5 t = layerBlock2 V c 5 t) (t : Fin cfg2.N) (d) : dat.before 5 t d = layerBlock2 V c 5 t :=
  (dat.before_in_eq_fetched 5 rfl (fun _ => rfl) (fun _ _ _ => rfl) (fun t => by rw [hafter]; unfold Dat.blockOf layerBlock2; rw [hA]; try rfl) t d).trans
    (by unfold Dat.fetched Dat.blockOf layerBlock2; rw [hA]; try rfl)

/-- Input window 6's staging buffer holds its block at every point, whether the pipeline fetched it there or kept
    it from the point before (the block index had not moved). -/
theorem layerBefore2_6_of {c : Dev nD} (dat : Dat τ (Elt F) Unit ℕ (UR sig nD τ) ℕ cfg2 c) (hA : dat.A 6 = V c (Pipeline.arrRef spec2 6))
    (hafter : ∀ t, dat.after 6 t = layerBlock2 V c 6 t) (t : Fin cfg2.N) (d) : dat.before 6 t d = layerBlock2 V c 6 t :=
  (dat.before_in_eq_fetched 6 rfl (fun _ => rfl) (fun _ _ _ => rfl) (fun t => by rw [hafter]; unfold Dat.blockOf layerBlock2; rw [hA]; try rfl) t d).trans
    (by unfold Dat.fetched Dat.blockOf layerBlock2; rw [hA]; try rfl)

/-- Input window 7's staging buffer holds its block at every point, whether the pipeline fetched it there or kept
    it from the point before (the block index had not moved). -/
theorem layerBefore2_7_of {c : Dev nD} (dat : Dat τ (Elt F) Unit ℕ (UR sig nD τ) ℕ cfg2 c) (hA : dat.A 7 = V c (Pipeline.arrRef spec2 7))
    (hafter : ∀ t, dat.after 7 t = layerBlock2 V c 7 t) (t : Fin cfg2.N) (d) : dat.before 7 t d = layerBlock2 V c 7 t :=
  (dat.before_in_eq_fetched 7 rfl (fun _ => rfl) (fun _ _ _ => rfl) (fun t => by rw [hafter]; unfold Dat.blockOf layerBlock2; rw [hA]; try rfl) t d).trans
    (by unfold Dat.fetched Dat.blockOf layerBlock2; rw [hA]; try rfl)

/-- Input window 8's staging buffer holds its block at every point, whether the pipeline fetched it there or kept
    it from the point before (the block index had not moved). -/
theorem layerBefore2_8_of {c : Dev nD} (dat : Dat τ (Elt F) Unit ℕ (UR sig nD τ) ℕ cfg2 c) (hA : dat.A 8 = V c (Pipeline.arrRef spec2 8))
    (hafter : ∀ t, dat.after 8 t = layerBlock2 V c 8 t) (t : Fin cfg2.N) (d) : dat.before 8 t d = layerBlock2 V c 8 t :=
  (dat.before_in_eq_fetched 8 rfl (fun _ => rfl) (fun _ _ _ => rfl) (fun t => by rw [hafter]; unfold Dat.blockOf layerBlock2; rw [hA]; try rfl) t d).trans
    (by unfold Dat.fetched Dat.blockOf layerBlock2; rw [hA]; try rfl)

/-- Input window 9's staging buffer holds its block at every point, whether the pipeline fetched it there or kept
    it from the point before (the block index had not moved). -/
theorem layerBefore2_9_of {c : Dev nD} (dat : Dat τ (Elt F) Unit ℕ (UR sig nD τ) ℕ cfg2 c) (hA : dat.A 9 = V c (Pipeline.arrRef spec2 9))
    (hafter : ∀ t, dat.after 9 t = layerBlock2 V c 9 t) (t : Fin cfg2.N) (d) : dat.before 9 t d = layerBlock2 V c 9 t :=
  (dat.before_in_eq_fetched 9 rfl (fun _ => rfl) (fun _ _ _ => rfl) (fun t => by rw [hafter]; unfold Dat.blockOf layerBlock2; rw [hA]; try rfl) t d).trans
    (by unfold Dat.fetched Dat.blockOf layerBlock2; rw [hA]; try rfl)

/-! ## What the body stores -/

/-- The whole block of 2000 rows, the whole weight matrix, the whole parameter row: every access of the body is to
    a whole buffer. -/
abbrev rowsRect2 : Rect S2000x128 := Rect.unit (s := S2000x128) ![0, 0] S2000x128.size inb_S2000x128_S2000x128_0_0
abbrev weightRect2 : Rect S128x128 := Rect.unit (s := S128x128) ![0, 0] S128x128.size inb_S128x128_S128x128_0_0
abbrev paramRect2 : Rect S1x128 := Rect.unit (s := S1x128) ![0, 0] S1x128.size inb_S1x128_S1x128_0_0

/-- The output block after the body: its one store, of the layer's arithmetic (the two named payloads) on the ten
    blocks read. -/
def layerOut2 (x0 : Vec F S2000x128 .f32) (x1 : Vec F S2000x128 .f32) (x2 : Vec F S128x128 .f32) (x3 : Vec F S1x128 .f32) (x4 : Vec F S128x128 .f32) (x5 : Vec F S1x128 .f32) (x6 : Vec F S1x128 .f32) (x7 : Vec F S1x128 .f32) (x8 : Vec F S1x128 .f32) (x9 : Vec F S1x128 .f32) : Vec F S2000x128 .f32 :=
  View.canon [⟨rowsRect2, k2_pay1 (k2_pay2 (View.ld x0 rowsRect2) (View.ld x1 rowsRect2) (View.ld x2 weightRect2) (View.ld x3 paramRect2) (View.ld x4 weightRect2) (View.ld x5 paramRect2) (View.ld x9 paramRect2) (View.ld x8 paramRect2)) (View.ld x6 paramRect2) (View.ld x7 paramRect2)⟩]

/-- The one store covers the output block. -/
theorem layerCover2 (p0 : Vec F S2000x128 .f32) (y : S2000x128.Idx) :
    ∃ pc ∈ ([⟨rowsRect2, p0⟩] : List (View.Piece (Elt F) S2000x128 .f32)), y ∈ pc.1.set :=
  View.cover_of_tiled [⟨rowsRect2, p0⟩] S2000x128.size (by rfl) y

/-! ## The body's triple -/

set_option maxHeartbeats 1000000 in
/-- The body on whole staging buffers, the ten inputs' at known contents and the output's at anything, runs to the
    end, leaves the inputs as they were and the output's buffer at `layerOut2` of the inputs. -/
theorem layerKernel2 (c : Dev nD) (E : Set ℕ) (i : grid2.Coords) (arg0 : Memref sig .tc .vmem S2000x128 .f32) (harg0 : arg0.IsWhole) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S2000x128 .f32) (x2 : Vec F S128x128 .f32) (x3 : Vec F S1x128 .f32) (x4 : Vec F S128x128 .f32) (x5 : Vec F S1x128 .f32) (x6 : Vec F S1x128 .f32) (x7 : Vec F S1x128 .f32) (x8 : Vec F S1x128 .f32) (x9 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (layerOut2 x0 x1 x2 x3 x4 x5 x6 x7 x8 x9)) -∗ K ⟨⟩))
      ⊢ wp frame (wpE (defs₀ (F := F)) Variants.none c none) E (cc2__gin_layer_kernel i arg0 harg0 arg1 harg1 arg2 harg2 arg3 harg3 arg4 harg4 arg5 harg5 arg6 harg6 arg7 harg7 arg8 harg8 arg9 harg9 arg10 harg10) K := by
  simp only [cc2__gin_layer_kernel_eq_skeleton]; unfold cc2__gin_layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (layerCover2 _)

/-! ## The pipeline's proof data -/

/-- The proof data of this region on core `c`: the arrays as the region finds them; after the body at point `t`
    each input's buffer still at its block and the output's at `layerOut2` of the input blocks; nothing owed. -/
def layerDat2 (c : Dev nD) : Dat τ (Elt F) Unit ℕ (UR sig nD τ) ℕ cfg2 c where
  A w := V c (Pipeline.arrRef spec2 w)
  after w t := match w with
    | ⟨0, _⟩ => layerBlock2 V c 0 t
    | ⟨1, _⟩ => layerBlock2 V c 1 t
    | ⟨2, _⟩ => layerBlock2 V c 2 t
    | ⟨3, _⟩ => layerBlock2 V c 3 t
    | ⟨4, _⟩ => layerBlock2 V c 4 t
    | ⟨5, _⟩ => layerBlock2 V c 5 t
    | ⟨6, _⟩ => layerBlock2 V c 6 t
    | ⟨7, _⟩ => layerBlock2 V c 7 t
    | ⟨8, _⟩ => layerBlock2 V c 8 t
    | ⟨9, _⟩ => layerBlock2 V c 9 t
    | ⟨10, _⟩ => layerOut2 (layerBlock2 V c 0 t) (layerBlock2 V c 1 t) (layerBlock2 V c 2 t) (layerBlock2 V c 3 t) (layerBlock2 V c 4 t) (layerBlock2 V c 5 t) (layerBlock2 V c 6 t) (layerBlock2 V c 7 t) (layerBlock2 V c 8 t) (layerBlock2 V c 9 t)
  Φ _ := Pipeline.ΦA spec2 c
  q _ := fullShare
  owed _ := 0

theorem layerA2 (c : Dev nD) (w : Fin cfg2.W) : (layerDat2 V c).A w = V c (Pipeline.arrRef spec2 w) := by
  dsimp only [layerDat2]

theorem layerAfter2_0 (c : Dev nD) (t : Fin cfg2.N) : (layerDat2 V c).after 0 t = layerBlock2 V c 0 t := by dsimp only [layerDat2]
theorem layerAfter2_1 (c : Dev nD) (t : Fin cfg2.N) : (layerDat2 V c).after 1 t = layerBlock2 V c 1 t := by dsimp only [layerDat2]
theorem layerAfter2_2 (c : Dev nD) (t : Fin cfg2.N) : (layerDat2 V c).after 2 t = layerBlock2 V c 2 t := by dsimp only [layerDat2]
theorem layerAfter2_3 (c : Dev nD) (t : Fin cfg2.N) : (layerDat2 V c).after 3 t = layerBlock2 V c 3 t := by dsimp only [layerDat2]
theorem layerAfter2_4 (c : Dev nD) (t : Fin cfg2.N) : (layerDat2 V c).after 4 t = layerBlock2 V c 4 t := by dsimp only [layerDat2]
theorem layerAfter2_5 (c : Dev nD) (t : Fin cfg2.N) : (layerDat2 V c).after 5 t = layerBlock2 V c 5 t := by dsimp only [layerDat2]
theorem layerAfter2_6 (c : Dev nD) (t : Fin cfg2.N) : (layerDat2 V c).after 6 t = layerBlock2 V c 6 t := by dsimp only [layerDat2]
theorem layerAfter2_7 (c : Dev nD) (t : Fin cfg2.N) : (layerDat2 V c).after 7 t = layerBlock2 V c 7 t := by dsimp only [layerDat2]
theorem layerAfter2_8 (c : Dev nD) (t : Fin cfg2.N) : (layerDat2 V c).after 8 t = layerBlock2 V c 8 t := by dsimp only [layerDat2]
theorem layerAfter2_9 (c : Dev nD) (t : Fin cfg2.N) : (layerDat2 V c).after 9 t = layerBlock2 V c 9 t := by dsimp only [layerDat2]
theorem layerAfter2_10 (c : Dev nD) (t : Fin cfg2.N) : (layerDat2 V c).after 10 t = layerOut2 (layerBlock2 V c 0 t) (layerBlock2 V c 1 t) (layerBlock2 V c 2 t) (layerBlock2 V c 3 t) (layerBlock2 V c 4 t) (layerBlock2 V c 5 t) (layerBlock2 V c 6 t) (layerBlock2 V c 7 t) (layerBlock2 V c 8 t) (layerBlock2 V c 9 t) := by dsimp only [layerDat2]

theorem layerBefore2_0 (c : Dev nD) (t : Fin cfg2.N) (d) : (layerDat2 V c).before 0 t d = layerBlock2 V c 0 t :=
  layerBefore2_0_of V (layerDat2 V c) (layerA2 V c 0) (layerAfter2_0 V c) t d
theorem layerBefore2_1 (c : Dev nD) (t : Fin cfg2.N) (d) : (layerDat2 V c).before 1 t d = layerBlock2 V c 1 t :=
  layerBefore2_1_of V (layerDat2 V c) (layerA2 V c 1) (layerAfter2_1 V c) t d
theorem layerBefore2_2 (c : Dev nD) (t : Fin cfg2.N) (d) : (layerDat2 V c).before 2 t d = layerBlock2 V c 2 t :=
  layerBefore2_2_of V (layerDat2 V c) (layerA2 V c 2) (layerAfter2_2 V c) t d
theorem layerBefore2_3 (c : Dev nD) (t : Fin cfg2.N) (d) : (layerDat2 V c).before 3 t d = layerBlock2 V c 3 t :=
  layerBefore2_3_of V (layerDat2 V c) (layerA2 V c 3) (layerAfter2_3 V c) t d
theorem layerBefore2_4 (c : Dev nD) (t : Fin cfg2.N) (d) : (layerDat2 V c).before 4 t d = layerBlock2 V c 4 t :=
  layerBefore2_4_of V (layerDat2 V c) (layerA2 V c 4) (layerAfter2_4 V c) t d
theorem layerBefore2_5 (c : Dev nD) (t : Fin cfg2.N) (d) : (layerDat2 V c).before 5 t d = layerBlock2 V c 5 t :=
  layerBefore2_5_of V (layerDat2 V c) (layerA2 V c 5) (layerAfter2_5 V c) t d
theorem layerBefore2_6 (c : Dev nD) (t : Fin cfg2.N) (d) : (layerDat2 V c).before 6 t d = layerBlock2 V c 6 t :=
  layerBefore2_6_of V (layerDat2 V c) (layerA2 V c 6) (layerAfter2_6 V c) t d
theorem layerBefore2_7 (c : Dev nD) (t : Fin cfg2.N) (d) : (layerDat2 V c).before 7 t d = layerBlock2 V c 7 t :=
  layerBefore2_7_of V (layerDat2 V c) (layerA2 V c 7) (layerAfter2_7 V c) t d
theorem layerBefore2_8 (c : Dev nD) (t : Fin cfg2.N) (d) : (layerDat2 V c).before 8 t d = layerBlock2 V c 8 t :=
  layerBefore2_8_of V (layerDat2 V c) (layerA2 V c 8) (layerAfter2_8 V c) t d
theorem layerBefore2_9 (c : Dev nD) (t : Fin cfg2.N) (d) : (layerDat2 V c).before 9 t d = layerBlock2 V c 9 t :=
  layerBefore2_9_of V (layerDat2 V c) (layerA2 V c 9) (layerAfter2_9 V c) t d

/-! ## The obligation at a grid point -/

/-- What the body is called with at point `t`, the windows one by one, -/
def layerPre2 (c : Dev nD) (t : Fin cfg2.N) : sProp 𝕄 :=
  iprop((layerDat2 V c).Φ t.castSucc ∗ (layerDat2 V c).owesAt () t.castSucc
    ∗ (∃ d, owns (c : Thread nD τ) (st2_0 t) fullShare ((layerDat2 V c).before 0 t d))
    ∗ (∃ d, owns (c : Thread nD τ) (st2_1 t) fullShare ((layerDat2 V c).before 1 t d))
    ∗ (∃ d, owns (c : Thread nD τ) (st2_2 t) fullShare ((layerDat2 V c).before 2 t d))
    ∗ (∃ d, owns (c : Thread nD τ) (st2_3 t) fullShare ((layerDat2 V c).before 3 t d))
    ∗ (∃ d, owns (c : Thread nD τ) (st2_4 t) fullShare ((layerDat2 V c).before 4 t d))
    ∗ (∃ d, owns (c : Thread nD τ) (st2_5 t) fullShare ((layerDat2 V c).before 5 t d))
    ∗ (∃ d, owns (c : Thread nD τ) (st2_6 t) fullShare ((layerDat2 V c).before 6 t d))
    ∗ (∃ d, owns (c : Thread nD τ) (st2_7 t) fullShare ((layerDat2 V c).before 7 t d))
    ∗ (∃ d, owns (c : Thread nD τ) (st2_8 t) fullShare ((layerDat2 V c).before 8 t d))
    ∗ (∃ d, owns (c : Thread nD τ) (st2_9 t) fullShare ((layerDat2 V c).before 9 t d))
    ∗ (∃ d, owns (c : Thread nD τ) (st2_10 t) fullShare ((layerDat2 V c).before 10 t d)))

/-- and what it returns. -/
def layerPost2 (c : Dev nD) (t : Fin cfg2.N) : sProp 𝕄 :=
  iprop((layerDat2 V c).Φ t.succ ∗ (layerDat2 V c).owesAt () t.succ
    ∗ owns (c : Thread nD τ) (st2_0 t) fullShare ((layerDat2 V c).after 0 t)
    ∗ owns (c : Thread nD τ) (st2_1 t) fullShare ((layerDat2 V c).after 1 t)
    ∗ owns (c : Thread nD τ) (st2_2 t) fullShare ((layerDat2 V c).after 2 t)
    ∗ owns (c : Thread nD τ) (st2_3 t) fullShare ((layerDat2 V c).after 3 t)
    ∗ owns (c : Thread nD τ) (st2_4 t) fullShare ((layerDat2 V c).after 4 t)
    ∗ owns (c : Thread nD τ) (st2_5 t) fullShare ((layerDat2 V c).after 5 t)
    ∗ owns (c : Thread nD τ) (st2_6 t) fullShare ((layerDat2 V c).after 6 t)
    ∗ owns (c : Thread nD τ) (st2_7 t) fullShare ((layerDat2 V c).after 7 t)
    ∗ owns (c : Thread nD τ) (st2_8 t) fullShare ((layerDat2 V c).after 8 t)
    ∗ owns (c : Thread nD τ) (st2_9 t) fullShare ((layerDat2 V c).after 9 t)
    ∗ owns (c : Thread nD τ) (st2_10 t) fullShare ((layerDat2 V c).after 10 t))

/-- The body at any point: the inputs' buffers hold their blocks, so the body's triple applies; the invariant and
    what the core owes pass through unread. -/
theorem layerBody2 (c : Dev nD) (t : Fin cfg2.N) :
    layerPre2 V c t ⊢ wp frame (wpE (defs₀ (F := F)) Variants.none c none) Set.univ (bodyAt2 t) (fun _ => layerPost2 V c t) := by
  unfold layerPre2 layerPost2 bodyAt2
  simp only [layerBefore2_0, layerBefore2_1, layerBefore2_2, layerBefore2_3, layerBefore2_4, layerBefore2_5, layerBefore2_6, layerBefore2_7, layerBefore2_8, layerBefore2_9]
  rw [show (layerDat2 V c).Φ t.succ = (layerDat2 V c).Φ t.castSucc from rfl,
    show (layerDat2 V c).owesAt () t.succ = (layerDat2 V c).owesAt () t.castSucc from rfl,
    layerAfter2_0, layerAfter2_1, layerAfter2_2, layerAfter2_3, layerAfter2_4, layerAfter2_5, layerAfter2_6, layerAfter2_7, layerAfter2_8, layerAfter2_9, layerAfter2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (layerKernel2 c Set.univ _ _ _ _ _ _ _ _ _ _ _ _ _ _ _ _ _ _ _ _ _ _ _ (layerBlock2 V c 0 t) (layerBlock2 V c 1 t) (layerBlock2 V c 2 t) (layerBlock2 V c 3 t) (layerBlock2 V c 4 t) (layerBlock2 V c 5 t) (layerBlock2 V c 6 t) (layerBlock2 V c 7 t) (layerBlock2 V c 8 t) (layerBlock2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's body obligation, at every point. -/
theorem layerObligation2 (c : Dev nD) : BodyObligation (layerDat2 (F := F) V c) (defs₀ (F := F)) Variants.none () Set.univ := fun t => by
  rw [bigSep_W2, bigSep_W2]
  exact layerBody2 V c t

end Cert.KernelIdeal.Frame

end
-- ==== Proof.Ideal.HeadRegion.lean ====
/-
  Region 3 of the program: the head on the pooled graph features, one grid point. The body reads the pooled array
  (512 graphs by 384 features), the first weight matrix, its bias row, the second layer's weights laid as one row,
  and the last bias (one entry), and stores the 512-by-1 result. This module states what is stored as a function
  of the five arrays read, proves the body's Hoare triple, gives the pipeline's proof data at any contents the
  region may be entered from, and discharges the pipeline's obligation. Everything is stated at any float instance.
-/
import proofs.«106503_j32512902431459_1_alg».proof.Proof.Gen.KernelIdeal.Launch
import proofs.«106503_j32512902431459_1_alg».proof.Proof.Gen.KernelIdeal.Skeleton
import proofs.«106503_j32512902431459_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## A window's block at the grid point -/

/-- Window `w`'s block at point `t`, read off its array as the region finds it. -/
def headBlock (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at the point. -/
theorem headBefore_0_of {c : Dev nD} (dat : Dat τ (Elt F) Unit ℕ (UR sig nD τ) ℕ cfg3 c) (hA : dat.A 0 = V c (Pipeline.arrRef spec3 0))
    (hafter : ∀ t, dat.after 0 t = headBlock V c 0 t) (t : Fin cfg3.N) (d) : dat.before 0 t d = headBlock V c 0 t :=
  (dat.before_in_eq_fetched 0 rfl (fun _ => rfl) (fun _ _ _ => rfl) (fun t => by rw [hafter]; unfold Dat.blockOf headBlock; rw [hA]; try rfl) t d).trans
    (by unfold Dat.fetched Dat.blockOf headBlock; rw [hA]; try rfl)

/-- Input window 1's staging buffer holds its block at the point. -/
theorem headBefore_1_of {c : Dev nD} (dat : Dat τ (Elt F) Unit ℕ (UR sig nD τ) ℕ cfg3 c) (hA : dat.A 1 = V c (Pipeline.arrRef spec3 1))
    (hafter : ∀ t, dat.after 1 t = headBlock V c 1 t) (t : Fin cfg3.N) (d) : dat.before 1 t d = headBlock V c 1 t :=
  (dat.before_in_eq_fetched 1 rfl (fun _ => rfl) (fun _ _ _ => rfl) (fun t => by rw [hafter]; unfold Dat.blockOf headBlock; rw [hA]; try rfl) t d).trans
    (by unfold Dat.fetched Dat.blockOf headBlock; rw [hA]; try rfl)

/-- Input window 2's staging buffer holds its block at the point. -/
theorem headBefore_2_of {c : Dev nD} (dat : Dat τ (Elt F) Unit ℕ (UR sig nD τ) ℕ cfg3 c) (hA : dat.A 2 = V c (Pipeline.arrRef spec3 2))
    (hafter : ∀ t, dat.after 2 t = headBlock V c 2 t) (t : Fin cfg3.N) (d) : dat.before 2 t d = headBlock V c 2 t :=
  (dat.before_in_eq_fetched 2 rfl (fun _ => rfl) (fun _ _ _ => rfl) (fun t => by rw [hafter]; unfold Dat.blockOf headBlock; rw [hA]; try rfl) t d).trans
    (by unfold Dat.fetched Dat.blockOf headBlock; rw [hA]; try rfl)

/-- Input window 3's staging buffer holds its block at the point. -/
theorem headBefore_3_of {c : Dev nD} (dat : Dat τ (Elt F) Unit ℕ (UR sig nD τ) ℕ cfg3 c) (hA : dat.A 3 = V c (Pipeline.arrRef spec3 3))
    (hafter : ∀ t, dat.after 3 t = headBlock V c 3 t) (t : Fin cfg3.N) (d) : dat.before 3 t d = headBlock V c 3 t :=
  (dat.before_in_eq_fetched 3 rfl (fun _ => rfl) (fun _ _ _ => rfl) (fun t => by rw [hafter]; unfold Dat.blockOf headBlock; rw [hA]; try rfl) t d).trans
    (by unfold Dat.fetched Dat.blockOf headBlock; rw [hA]; try rfl)

/-- Input window 4's staging buffer holds its block at the point. -/
theorem headBefore_4_of {c : Dev nD} (dat : Dat τ (Elt F) Unit ℕ (UR sig nD τ) ℕ cfg3 c) (hA : dat.A 4 = V c (Pipeline.arrRef spec3 4))
    (hafter : ∀ t, dat.after 4 t = headBlock V c 4 t) (t : Fin cfg3.N) (d) : dat.before 4 t d = headBlock V c 4 t :=
  (dat.before_in_eq_fetched 4 rfl (fun _ => rfl) (fun _ _ _ => rfl) (fun t => by rw [hafter]; unfold Dat.blockOf headBlock; rw [hA]; try rfl) t d).trans
    (by unfold Dat.fetched Dat.blockOf headBlock; rw [hA]; try rfl)

/-! ## What the body stores -/

abbrev pooledRect : Rect S512x384 := Rect.unit (s := S512x384) ![0, 0] S512x384.size inb_S512x384_S512x384_0_0
abbrev headWeightRect : Rect S384x128 := Rect.unit (s := S384x128) ![0, 0] S384x128.size inb_S384x128_S384x128_0_0
abbrev headRowRect : Rect S1x128 := Rect.unit (s := S1x128) ![0, 0] S1x128.size inb_S1x128_S1x128_0_0
abbrev headOneRect : Rect S1x1 := Rect.unit (s := S1x1) ![0, 0] S1x1.size inb_S1x1_S1x1_0_0
abbrev headOutRect : Rect S512x1 := Rect.unit (s := S512x1) ![0, 0] S512x1.size inb_S512x1_S512x1_0_0

/-- The output column after the body: its one store, of the head's arithmetic (the named payload) on the five
    arrays read. -/
def headOut (x0 : Vec F S512x384 .f32) (x1 : Vec F S384x128 .f32) (x2 : Vec F S1x128 .f32) (x3 : Vec F S1x128 .f32) (x4 : Vec F S1x1 .f32) : Vec F S512x1 .f32 :=
  View.canon [⟨headOutRect, k3_pay1 (View.ld x0 pooledRect) (View.ld x1 headWeightRect) (View.ld x2 headRowRect) (View.ld x3 headRowRect) (View.ld x4 headOneRect)⟩]

/-- The one store covers the output column. -/
theorem headCover (p0 : Vec F S512x1 .f32) (y : S512x1.Idx) :
    ∃ pc ∈ ([⟨headOutRect, p0⟩] : List (View.Piece (Elt F) S512x1 .f32)), y ∈ pc.1.set :=
  View.cover_of_tiled [⟨headOutRect, p0⟩] S512x1.size (by rfl) y

/-! ## The body's triple -/

set_option maxHeartbeats 1000000 in
/-- The body on whole staging buffers, the five inputs' at known contents and the output's at anything, runs to the
    end, leaves the inputs as they were and the output's buffer at `headOut` of the inputs. -/
theorem headKernel (c : Dev nD) (E : Set ℕ) (i : grid3.Coords) (arg0 : Memref sig .tc .vmem S512x384 .f32) (harg0 : arg0.IsWhole) (arg1 : Memref sig .tc .vmem S384x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x1 .f32) (harg4 : arg4.IsWhole) (arg5 : Memref sig .tc .vmem S512x1 .f32) (harg5 : arg5.IsWhole)
    (x0 : Vec F S512x384 .f32) (x1 : Vec F S384x128 .f32) (x2 : Vec F S1x128 .f32) (x3 : Vec F S1x128 .f32) (x4 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (headOut x0 x1 x2 x3 x4)) -∗ K ⟨⟩))
      ⊢ wp frame (wpE (defs₀ (F := F)) Variants.none c none) E (cc3__head_kernel i arg0 harg0 arg1 harg1 arg2 harg2 arg3 harg3 arg4 harg4 arg5 harg5) K := by
  simp only [cc3__head_kernel_eq_skeleton]; unfold cc3__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (headCover _)

/-! ## The pipeline's proof data -/

/-- The proof data of this region on core `c`: the arrays as the region finds them; after the body each input's
    buffer still at its block and the output's at `headOut` of the input blocks; nothing owed. -/
def headDat (c : Dev nD) : Dat τ (Elt F) Unit ℕ (UR sig nD τ) ℕ cfg3 c where
  A w := V c (Pipeline.arrRef spec3 w)
  after w t := match w with
    | ⟨0, _⟩ => headBlock V c 0 t
    | ⟨1, _⟩ => headBlock V c 1 t
    | ⟨2, _⟩ => headBlock V c 2 t
    | ⟨3, _⟩ => headBlock V c 3 t
    | ⟨4, _⟩ => headBlock V c 4 t
    | ⟨5, _⟩ => headOut (headBlock V c 0 t) (headBlock V c 1 t) (headBlock V c 2 t) (headBlock V c 3 t) (headBlock V c 4 t)
  Φ _ := Pipeline.ΦA spec3 c
  q _ := fullShare
  owed _ := 0

theorem headA (c : Dev nD) (w : Fin cfg3.W) : (headDat V c).A w = V c (Pipeline.arrRef spec3 w) := by
  dsimp only [headDat]

theorem headAfter_0 (c : Dev nD) (t : Fin cfg3.N) : (headDat V c).after 0 t = headBlock V c 0 t := by dsimp only [headDat]
theorem headAfter_1 (c : Dev nD) (t : Fin cfg3.N) : (headDat V c).after 1 t = headBlock V c 1 t := by dsimp only [headDat]
theorem headAfter_2 (c : Dev nD) (t : Fin cfg3.N) : (headDat V c).after 2 t = headBlock V c 2 t := by dsimp only [headDat]
theorem headAfter_3 (c : Dev nD) (t : Fin cfg3.N) : (headDat V c).after 3 t = headBlock V c 3 t := by dsimp only [headDat]
theorem headAfter_4 (c : Dev nD) (t : Fin cfg3.N) : (headDat V c).after 4 t = headBlock V c 4 t := by dsimp only [headDat]
theorem headAfter_5 (c : Dev nD) (t : Fin cfg3.N) : (headDat V c).after 5 t = headOut (headBlock V c 0 t) (headBlock V c 1 t) (headBlock V c 2 t) (headBlock V c 3 t) (headBlock V c 4 t) := by dsimp only [headDat]

theorem headBefore_0 (c : Dev nD) (t : Fin cfg3.N) (d) : (headDat V c).before 0 t d = headBlock V c 0 t :=
  headBefore_0_of V (headDat V c) (headA V c 0) (headAfter_0 V c) t d
theorem headBefore_1 (c : Dev nD) (t : Fin cfg3.N) (d) : (headDat V c).before 1 t d = headBlock V c 1 t :=
  headBefore_1_of V (headDat V c) (headA V c 1) (headAfter_1 V c) t d
theorem headBefore_2 (c : Dev nD) (t : Fin cfg3.N) (d) : (headDat V c).before 2 t d = headBlock V c 2 t :=
  headBefore_2_of V (headDat V c) (headA V c 2) (headAfter_2 V c) t d
theorem headBefore_3 (c : Dev nD) (t : Fin cfg3.N) (d) : (headDat V c).before 3 t d = headBlock V c 3 t :=
  headBefore_3_of V (headDat V c) (headA V c 3) (headAfter_3 V c) t d
theorem headBefore_4 (c : Dev nD) (t : Fin cfg3.N) (d) : (headDat V c).before 4 t d = headBlock V c 4 t :=
  headBefore_4_of V (headDat V c) (headA V c 4) (headAfter_4 V c) t d

/-! ## The obligation at the grid point -/

def headPre (c : Dev nD) (t : Fin cfg3.N) : sProp 𝕄 :=
  iprop((headDat V c).Φ t.castSucc ∗ (headDat V c).owesAt () t.castSucc
    ∗ (∃ d, owns (c : Thread nD τ) (st3_0 t) fullShare ((headDat V c).before 0 t d))
    ∗ (∃ d, owns (c : Thread nD τ) (st3_1 t) fullShare ((headDat V c).before 1 t d))
    ∗ (∃ d, owns (c : Thread nD τ) (st3_2 t) fullShare ((headDat V c).before 2 t d))
    ∗ (∃ d, owns (c : Thread nD τ) (st3_3 t) fullShare ((headDat V c).before 3 t d))
    ∗ (∃ d, owns (c : Thread nD τ) (st3_4 t) fullShare ((headDat V c).before 4 t d))
    ∗ (∃ d, owns (c : Thread nD τ) (st3_5 t) fullShare ((headDat V c).before 5 t d)))

def headPost (c : Dev nD) (t : Fin cfg3.N) : sProp 𝕄 :=
  iprop((headDat V c).Φ t.succ ∗ (headDat V c).owesAt () t.succ
    ∗ owns (c : Thread nD τ) (st3_0 t) fullShare ((headDat V c).after 0 t)
    ∗ owns (c : Thread nD τ) (st3_1 t) fullShare ((headDat V c).after 1 t)
    ∗ owns (c : Thread nD τ) (st3_2 t) fullShare ((headDat V c).after 2 t)
    ∗ owns (c : Thread nD τ) (st3_3 t) fullShare ((headDat V c).after 3 t)
    ∗ owns (c : Thread nD τ) (st3_4 t) fullShare ((headDat V c).after 4 t)
    ∗ owns (c : Thread nD τ) (st3_5 t) fullShare ((headDat V c).after 5 t))

theorem headBody (c : Dev nD) (t : Fin cfg3.N) :
    headPre V c t ⊢ wp frame (wpE (defs₀ (F := F)) Variants.none c none) Set.univ (bodyAt3 t) (fun _ => headPost V c t) := by
  unfold headPre headPost bodyAt3
  simp only [headBefore_0, headBefore_1, headBefore_2, headBefore_3, headBefore_4]
  rw [show (headDat V c).Φ t.succ = (headDat V c).Φ t.castSucc from rfl,
    show (headDat V c).owesAt () t.succ = (headDat V c).owesAt () t.castSucc from rfl,
    headAfter_0, headAfter_1, headAfter_2, headAfter_3, headAfter_4, headAfter_5]
  iintro ⟨HΦ, Ho, ⟨%d0, H0⟩, ⟨%d1, H1⟩, ⟨%d2, H2⟩, ⟨%d3, H3⟩, ⟨%d4, H4⟩, ⟨%d5, H5⟩⟩
  iapply (headKernel c Set.univ _ _ _ _ _ _ _ _ _ _ _ _ _ (headBlock V c 0 t) (headBlock V c 1 t) (headBlock V c 2 t) (headBlock V c 3 t) (headBlock V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at the grid point. -/
theorem headObligation (c : Dev nD) : BodyObligation (headDat (F := F) V c) (defs₀ (F := F)) Variants.none () Set.univ := fun t => by
  rw [bigSep_W3, bigSep_W3]
  exact headBody V c t

end Cert.KernelIdeal.Frame

end
-- ==== Proof.Ideal.WholeRun.lean ====
/-
  The whole program's run. @main is eight items: a stretch of host operations, a kernel region, and so on four
  times (three graph-network layers and the head). The contents of every unscoped buffer between two items are a
  fold from the launch memory: a host stretch applies its operations; a region leaves its input arrays as entered
  and its output array at what its blocks' write-backs leave. Each region is a segment around those contents, and
  one launch runs the eight segments: every weakly fair execution terminates, nothing faults, and at the end every
  unscoped buffer holds the last contents of the fold. From that: every argument array ends as launched, and the
  result buffer holds what the head region's one block wrote. Everything is stated at any float instance.
-/
import proofs.«106503_j32512902431459_1_alg».proof.Proof.Gen.KernelIdeal.Launch
import proofs.«106503_j32512902431459_1_alg».proof.Proof.Gen.KernelIdeal.Skeleton
import proofs.«106503_j32512902431459_1_alg».proof.Proof.Gen.KernelIdeal.Points
import proofs.«106503_j32512902431459_1_alg».proof.Proof.Gen.KernelIdeal.Regions
import proofs.«106503_j32512902431459_1_alg».proof.Proof.Ideal.LayerRegion0
import proofs.«106503_j32512902431459_1_alg».proof.Proof.Ideal.LayerRegion1
import proofs.«106503_j32512902431459_1_alg».proof.Proof.Ideal.LayerRegion2
import proofs.«106503_j32512902431459_1_alg».proof.Proof.Ideal.HeadRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev cont0 : Dev nD → Valuation τ sig (Elt F) := fun c b => (s₀ m ρ).mem ((c : Dev nD), b)

/-- After the host operations before region 0: what region 0 is entered from. -/
abbrev cont1 : Dev nD → Valuation τ sig (Elt F) := fun c => StableHlo.after hostOps0 (cont0 m ρ c)
/-- The same, read at the TensorCore's references. -/
abbrev ent1 : (c : Dev nD) → (b : Ref sig .tc) → Buf (Elt F) ((c : Thread nD τ).loc b) := fun c b => cont1 m ρ c b
/-- At region 0's exit: its arrays at what the pipeline leaves (an input as entered, the output at its blocks'
    write-backs), every other buffer as entered. -/
def cont2 (c : Dev nD) : Valuation τ sig (Elt F) :=
  Pipeline.withArrays spec0 c (cont1 m ρ c) fun w => (layerDat0 (ent1 m ρ) c).arrAt w cfg0.N
theorem cont2_arr (c : Dev nD) (w : Fin cfg0.W) :
    cont2 m ρ c (Proc.devRef .tc (Pipeline.arrRef spec0 w)) = (layerDat0 (ent1 m ρ) c).arrAt w cfg0.N := by
  unfold cont2; exact Pipeline.withArrays_arr spec0 launch0.win.arr_inj c _ _ w
theorem cont2_of_ne (c : Dev nD) (b : Ref sig .tc) (hb : ∀ w, Pipeline.arrRef spec0 w ≠ b) :
    cont2 m ρ c (Proc.devRef .tc b) = cont1 m ρ c (Proc.devRef .tc b) := by
  unfold cont2; exact Pipeline.withArrays_of_ne spec0 c _ _ b hb
abbrev ext2 : (c : Dev nD) → (b : Ref sig .tc) → Buf (Elt F) ((c : Thread nD τ).loc b) := fun c b => cont2 m ρ c b
theorem exitArr0 (c : Dev nD) (w : Fin cfg0.W) : (layerDat0 (ent1 m ρ) c).arrAt w cfg0.N = ext2 m ρ c (Pipeline.arrRef spec0 w) :=
  (cont2_arr m ρ c w).symm
theorem exitRest0 (c : Dev nD) : ∀ b, b ∉ Finset.univ.image (Pipeline.arrRef spec0) → ext2 m ρ c b = ent1 m ρ c b :=
  fun b hb => cont2_of_ne m ρ c b fun w e => hb (Finset.mem_image.mpr ⟨w, Finset.mem_univ _, e⟩)
theorem cont1_of (c : Dev nD) (b : Ref sig .tc) (h : b ∉ hostOps0_W) : cont1 m ρ c b = cont0 m ρ c b :=
  StableHlo.after_of_writes_sub hostOps0 _ hostOps0_writes h

/-- After the host operations before region 1: what region 1 is entered from. -/
abbrev cont3 : Dev nD → Valuation τ sig (Elt F) := fun c => StableHlo.after hostOps1 (cont2 m ρ c)
/-- The same, read at the TensorCore's references. -/
abbrev ent3 : (c : Dev nD) → (b : Ref sig .tc) → Buf (Elt F) ((c : Thread nD τ).loc b) := fun c b => cont3 m ρ c b
/-- At region 1's exit: its arrays at what the pipeline leaves (an input as entered, the output at its blocks'
    write-backs), every other buffer as entered. -/
def cont4 (c : Dev nD) : Valuation τ sig (Elt F) :=
  Pipeline.withArrays spec1 c (cont3 m ρ c) fun w => (layerDat1 (ent3 m ρ) c).arrAt w cfg1.N
theorem cont4_arr (c : Dev nD) (w : Fin cfg1.W) :
    cont4 m ρ c (Proc.devRef .tc (Pipeline.arrRef spec1 w)) = (layerDat1 (ent3 m ρ) c).arrAt w cfg1.N := by
  unfold cont4; exact Pipeline.withArrays_arr spec1 launch1.win.arr_inj c _ _ w
theorem cont4_of_ne (c : Dev nD) (b : Ref sig .tc) (hb : ∀ w, Pipeline.arrRef spec1 w ≠ b) :
    cont4 m ρ c (Proc.devRef .tc b) = cont3 m ρ c (Proc.devRef .tc b) := by
  unfold cont4; exact Pipeline.withArrays_of_ne spec1 c _ _ b hb
abbrev ext4 : (c : Dev nD) → (b : Ref sig .tc) → Buf (Elt F) ((c : Thread nD τ).loc b) := fun c b => cont4 m ρ c b
theorem exitArr1 (c : Dev nD) (w : Fin cfg1.W) : (layerDat1 (ent3 m ρ) c).arrAt w cfg1.N = ext4 m ρ c (Pipeline.arrRef spec1 w) :=
  (cont4_arr m ρ c w).symm
theorem exitRest1 (c : Dev nD) : ∀ b, b ∉ Finset.univ.image (Pipeline.arrRef spec1) → ext4 m ρ c b = ent3 m ρ c b :=
  fun b hb => cont4_of_ne m ρ c b fun w e => hb (Finset.mem_image.mpr ⟨w, Finset.mem_univ _, e⟩)
theorem cont3_of (c : Dev nD) (b : Ref sig .tc) (h : b ∉ hostOps1_W) : cont3 m ρ c b = cont2 m ρ c b :=
  StableHlo.after_of_writes_sub hostOps1 _ hostOps1_writes h

/-- After the host operations before region 2: what region 2 is entered from. -/
abbrev cont5 : Dev nD → Valuation τ sig (Elt F) := fun c => StableHlo.after hostOps2 (cont4 m ρ c)
/-- The same, read at the TensorCore's references. -/
abbrev ent5 : (c : Dev nD) → (b : Ref sig .tc) → Buf (Elt F) ((c : Thread nD τ).loc b) := fun c b => cont5 m ρ c b
/-- At region 2's exit: its arrays at what the pipeline leaves (an input as entered, the output at its blocks'
    write-backs), every other buffer as entered. -/
def cont6 (c : Dev nD) : Valuation τ sig (Elt F) :=
  Pipeline.withArrays spec2 c (cont5 m ρ c) fun w => (layerDat2 (ent5 m ρ) c).arrAt w cfg2.N
theorem cont6_arr (c : Dev nD) (w : Fin cfg2.W) :
    cont6 m ρ c (Proc.devRef .tc (Pipeline.arrRef spec2 w)) = (layerDat2 (ent5 m ρ) c).arrAt w cfg2.N := by
  unfold cont6; exact Pipeline.withArrays_arr spec2 launch2.win.arr_inj c _ _ w
theorem cont6_of_ne (c : Dev nD) (b : Ref sig .tc) (hb : ∀ w, Pipeline.arrRef spec2 w ≠ b) :
    cont6 m ρ c (Proc.devRef .tc b) = cont5 m ρ c (Proc.devRef .tc b) := by
  unfold cont6; exact Pipeline.withArrays_of_ne spec2 c _ _ b hb
abbrev ext6 : (c : Dev nD) → (b : Ref sig .tc) → Buf (Elt F) ((c : Thread nD τ).loc b) := fun c b => cont6 m ρ c b
theorem exitArr2 (c : Dev nD) (w : Fin cfg2.W) : (layerDat2 (ent5 m ρ) c).arrAt w cfg2.N = ext6 m ρ c (Pipeline.arrRef spec2 w) :=
  (cont6_arr m ρ c w).symm
theorem exitRest2 (c : Dev nD) : ∀ b, b ∉ Finset.univ.image (Pipeline.arrRef spec2) → ext6 m ρ c b = ent5 m ρ c b :=
  fun b hb => cont6_of_ne m ρ c b fun w e => hb (Finset.mem_image.mpr ⟨w, Finset.mem_univ _, e⟩)
theorem cont5_of (c : Dev nD) (b : Ref sig .tc) (h : b ∉ hostOps2_W) : cont5 m ρ c b = cont4 m ρ c b :=
  StableHlo.after_of_writes_sub hostOps2 _ hostOps2_writes h

/-- After the host operations before region 3: what region 3 is entered from. -/
abbrev cont7 : Dev nD → Valuation τ sig (Elt F) := fun c => StableHlo.after hostOps3 (cont6 m ρ c)
/-- The same, read at the TensorCore's references. -/
abbrev ent7 : (c : Dev nD) → (b : Ref sig .tc) → Buf (Elt F) ((c : Thread nD τ).loc b) := fun c b => cont7 m ρ c b
/-- At region 3's exit: its arrays at what the pipeline leaves (an input as entered, the output at its blocks'
    write-backs), every other buffer as entered. -/
def cont8 (c : Dev nD) : Valuation τ sig (Elt F) :=
  Pipeline.withArrays spec3 c (cont7 m ρ c) fun w => (headDat (ent7 m ρ) c).arrAt w cfg3.N
theorem cont8_arr (c : Dev nD) (w : Fin cfg3.W) :
    cont8 m ρ c (Proc.devRef .tc (Pipeline.arrRef spec3 w)) = (headDat (ent7 m ρ) c).arrAt w cfg3.N := by
  unfold cont8; exact Pipeline.withArrays_arr spec3 launch3.win.arr_inj c _ _ w
theorem cont8_of_ne (c : Dev nD) (b : Ref sig .tc) (hb : ∀ w, Pipeline.arrRef spec3 w ≠ b) :
    cont8 m ρ c (Proc.devRef .tc b) = cont7 m ρ c (Proc.devRef .tc b) := by
  unfold cont8; exact Pipeline.withArrays_of_ne spec3 c _ _ b hb
abbrev ext8 : (c : Dev nD) → (b : Ref sig .tc) → Buf (Elt F) ((c : Thread nD τ).loc b) := fun c b => cont8 m ρ c b
theorem exitArr3 (c : Dev nD) (w : Fin cfg3.W) : (headDat (ent7 m ρ) c).arrAt w cfg3.N = ext8 m ρ c (Pipeline.arrRef spec3 w) :=
  (cont8_arr m ρ c w).symm
theorem exitRest3 (c : Dev nD) : ∀ b, b ∉ Finset.univ.image (Pipeline.arrRef spec3) → ext8 m ρ c b = ent7 m ρ c b :=
  fun b hb => cont8_of_ne m ρ c b fun w e => hb (Finset.mem_image.mpr ⟨w, Finset.mem_univ _, e⟩)
theorem cont7_of (c : Dev nD) (b : Ref sig .tc) (h : b ∉ hostOps3_W) : cont7 m ρ c b = cont6 m ρ c b :=
  StableHlo.after_of_writes_sub hostOps3 _ hostOps3_writes h

/-! ## An argument array ends as launched -/

/-- A buffer no host stretch writes and no region has among its arrays holds its launch contents at the end. -/
theorem cont8_untouched (c : Dev nD) (b : Ref sig .tc) (h0 : b ∉ hostOps0_W) (h1 : b ∉ hostOps1_W) (h2 : b ∉ hostOps2_W) (h3 : b ∉ hostOps3_W)
    (a0 : ∀ w, Pipeline.arrRef spec0 w ≠ b) (a1 : ∀ w, Pipeline.arrRef spec1 w ≠ b) (a2 : ∀ w, Pipeline.arrRef spec2 w ≠ b) (a3 : ∀ w, Pipeline.arrRef spec3 w ≠ b) :
    cont8 m ρ c (Proc.devRef .tc b) = m ((c : Thread nD τ).loc b) :=
  calc cont8 m ρ c (Proc.devRef .tc b)
    _ = cont7 m ρ c (Proc.devRef .tc b) := cont8_of_ne m ρ c b a3
    _ = cont6 m ρ c (Proc.devRef .tc b) := cont7_of m ρ c b h3
    _ = cont5 m ρ c (Proc.devRef .tc b) := cont6_of_ne m ρ c b a2
    _ = cont4 m ρ c (Proc.devRef .tc b) := cont5_of m ρ c b h2
    _ = cont3 m ρ c (Proc.devRef .tc b) := cont4_of_ne m ρ c b a1
    _ = cont2 m ρ c (Proc.devRef .tc b) := cont3_of m ρ c b h1
    _ = cont1 m ρ c (Proc.devRef .tc b) := cont2_of_ne m ρ c b a0
    _ = cont0 m ρ c (Proc.devRef .tc b) := cont1_of m ρ c b h0
    _ = m ((c : Thread nD τ).loc b) := rfl

/-- The first head weight matrix is an argument that the head region reads through an input window: the region
    leaves an input's array as entered. -/
theorem cont8_headWeights (c : Dev nD) : cont8 m ρ c (Proc.devRef .tc main_arg12) = m ((c : Thread nD τ).loc main_arg12) :=
  calc cont8 m ρ c (Proc.devRef .tc main_arg12)
    _ = cont7 m ρ c (Proc.devRef .tc main_arg12) := (cont8_arr m ρ c 1).trans (((headDat (ent7 m ρ) c).arrAt_in 1 rfl _).trans (headA (ent7 m ρ) c 1))
    _ = cont6 m ρ c (Proc.devRef .tc main_arg12) := cont7_of m ρ c main_arg12 (by decide)
    _ = cont5 m ρ c (Proc.devRef .tc main_arg12) := cont6_of_ne m ρ c main_arg12 (by decide)
    _ = cont4 m ρ c (Proc.devRef .tc main_arg12) := cont5_of m ρ c main_arg12 (by decide)
    _ = cont3 m ρ c (Proc.devRef .tc main_arg12) := cont4_of_ne m ρ c main_arg12 (by decide)
    _ = cont2 m ρ c (Proc.devRef .tc main_arg12) := cont3_of m ρ c main_arg12 (by decide)
    _ = cont1 m ρ c (Proc.devRef .tc main_arg12) := cont2_of_ne m ρ c main_arg12 (by decide)
    _ = cont0 m ρ c (Proc.devRef .tc main_arg12) := cont1_of m ρ c main_arg12 (by decide)
    _ = m ((c : Thread nD τ).loc main_arg12) := rfl

/-! ## The proof data family and the thread state -/

/-- No pipeline has a prefetched table. -/
abbrev noTables : (p : Fin 4) → (pcfgs (F := F) p).Adm := fun p => (cfgs p).toPCfg_adm
/-- Every pipeline's proof data, each at its region's entry contents. -/
def datFamily : (p : Fin 4) → (c : Dev nD) → Dat τ (Elt F) Unit ℕ (UR sig nD τ) ℕ (Pipeline.pin (pcfgs (F := F)) noTables p) c
  | ⟨0, _⟩ => fun c => layerDat0 (ent1 m ρ) c
  | ⟨1, _⟩ => fun c => layerDat1 (ent3 m ρ) c
  | ⟨2, _⟩ => fun c => layerDat2 (ent5 m ρ) c
  | ⟨3, _⟩ => fun c => headDat (ent7 m ρ) c
abbrev 𝒱none : Variants := Variants.none
/-- No core owes another anything: no level is assigned. -/
abbrev noLevels : GSem nD τ sig → Finset Unit := fun _ => ∅
abbrev noLevel : GSem nD τ sig → Unit → ℕ := fun _ _ => 0
/-- What rides beside the buffers through every segment: the core's generator register at some state, and the core
    owing nothing. -/
abbrev riding (c : Dev nD) : sProp 𝕄 := iprop((∃ r, prngReg c r) ∗ ∃ W, owes (c : Thread nD τ) (0 : CellTallies nD τ sig Unit) W)
/-- A host stretch as a segment over the unscoped references from the contents `W`. -/
abbrev hostSegment (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱none noLevels noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding
/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register
    at some state. -/
abbrev lastState (c : Dev nD) : sProp 𝕄 := iprop(StableHlo.held (c : Thread nD τ) (Pipeline.ucRefs τ sig) (cont8 m ρ c) ∗ ∃ r, prngReg c r)

/-! ## The regions as segments -/

set_option backward.isDefEq.respectTransparency.types false in
/-- Region 0 over the thread state: entered from every unscoped buffer at `cont1`, left at `cont2`. Its arrays
    are split out of the unscoped buffers and put back at the exit contents; the generator register goes into the
    pipeline's invariant and comes out; nothing is owed; the kernel has no semaphore of its own. -/
def region0 : Pipeline.RegionSeg (pcfgs (F := F)) noTables (datFamily m ρ) () defs₀ 𝒱none noLevels noLevel 0 where
  win := launch0.win.to₀
  block_pos := launch0.block_pos
  stage_whole := launch0.stage_whole
  K := PEmpty
  osem k := k.elim
  ho := Pipeline.OwnSemFacts.none _
  hbody c := (layerObligation0 (ent1 m ρ) c).loose
  hwaits := Pipeline.hwaits_of_owed_zero _ _ _ _ noLevels noLevel 0 fun _ _ => rfl
  pre c := iprop(StableHlo.held (c : Thread nD τ) (Pipeline.ucRefs τ sig) (cont1 m ρ c) ∗ riding c)
  post c := iprop(StableHlo.held (c : Thread nD τ) (Pipeline.ucRefs τ sig) (cont2 m ρ c) ∗ riding c)
  X c := iprop(∃ r, prngReg c r)
  Y c := iprop(∃ r, prngReg c r)
  Z c := Pipeline.unscopedRest (Ix := Unit) (Name := ℕ) (U := UR sig nD τ) (Lvl := ℕ) spec0 c (ent1 m ρ c)
  hentry c := by
    rw [Pipeline.ownSems0_none]
    have hsplit := Pipeline.arrays_of_unscopedBufs (p := 0) (pcfgs (F := F)) noTables (datFamily m ρ) launch0.win launch0.arr_whole c
      ((datFamily m ρ 0 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datFamily m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (datFamily m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (datFamily m ρ) ((datFamily m ρ 0 c).share_full fun _ => rfl)
      (ent1 m ρ c) (ext2 m ρ c) ((datFamily m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `cont3`, left at `cont4`. Its arrays
    are split out of the unscoped buffers and put back at the exit contents; the generator register goes into the
    pipeline's invariant and comes out; nothing is owed; the kernel has no semaphore of its own. -/
def region1 : Pipeline.RegionSeg (pcfgs (F := F)) noTables (datFamily m ρ) () defs₀ 𝒱none noLevels noLevel 1 where
  win := launch1.win.to₀
  block_pos := launch1.block_pos
  stage_whole := launch1.stage_whole
  K := PEmpty
  osem k := k.elim
  ho := Pipeline.OwnSemFacts.none _
  hbody c := (layerObligation1 (ent3 m ρ) c).loose
  hwaits := Pipeline.hwaits_of_owed_zero _ _ _ _ noLevels noLevel 1 fun _ _ => rfl
  pre c := iprop(StableHlo.held (c : Thread nD τ) (Pipeline.ucRefs τ sig) (cont3 m ρ c) ∗ riding c)
  post c := iprop(StableHlo.held (c : Thread nD τ) (Pipeline.ucRefs τ sig) (cont4 m ρ c) ∗ riding c)
  X c := iprop(∃ r, prngReg c r)
  Y c := iprop(∃ r, prngReg c r)
  Z c := Pipeline.unscopedRest (Ix := Unit) (Name := ℕ) (U := UR sig nD τ) (Lvl := ℕ) spec1 c (ent3 m ρ c)
  hentry c := by
    rw [Pipeline.ownSems0_none]
    have hsplit := Pipeline.arrays_of_unscopedBufs (p := 1) (pcfgs (F := F)) noTables (datFamily m ρ) launch1.win launch1.arr_whole c
      ((datFamily m ρ 1 c).share_full fun _ => rfl) (ent3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datFamily m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (datFamily m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (datFamily m ρ) ((datFamily m ρ 1 c).share_full fun _ => rfl)
      (ent3 m ρ c) (ext4 m ρ c) ((datFamily m ρ 1 c).arrAt · cfg1.N) (exitArr1 m ρ c) (exitRest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `cont5`, left at `cont6`. Its arrays
    are split out of the unscoped buffers and put back at the exit contents; the generator register goes into the
    pipeline's invariant and comes out; nothing is owed; the kernel has no semaphore of its own. -/
def region2 : Pipeline.RegionSeg (pcfgs (F := F)) noTables (datFamily m ρ) () defs₀ 𝒱none noLevels noLevel 2 where
  win := launch2.win.to₀
  block_pos := launch2.block_pos
  stage_whole := launch2.stage_whole
  K := PEmpty
  osem k := k.elim
  ho := Pipeline.OwnSemFacts.none _
  hbody c := (layerObligation2 (ent5 m ρ) c).loose
  hwaits := Pipeline.hwaits_of_owed_zero _ _ _ _ noLevels noLevel 2 fun _ _ => rfl
  pre c := iprop(StableHlo.held (c : Thread nD τ) (Pipeline.ucRefs τ sig) (cont5 m ρ c) ∗ riding c)
  post c := iprop(StableHlo.held (c : Thread nD τ) (Pipeline.ucRefs τ sig) (cont6 m ρ c) ∗ riding c)
  X c := iprop(∃ r, prngReg c r)
  Y c := iprop(∃ r, prngReg c r)
  Z c := Pipeline.unscopedRest (Ix := Unit) (Name := ℕ) (U := UR sig nD τ) (Lvl := ℕ) spec2 c (ent5 m ρ c)
  hentry c := by
    rw [Pipeline.ownSems0_none]
    have hsplit := Pipeline.arrays_of_unscopedBufs (p := 2) (pcfgs (F := F)) noTables (datFamily m ρ) launch2.win launch2.arr_whole c
      ((datFamily m ρ 2 c).share_full fun _ => rfl) (ent5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datFamily m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (datFamily m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (datFamily m ρ) ((datFamily m ρ 2 c).share_full fun _ => rfl)
      (ent5 m ρ c) (ext6 m ρ c) ((datFamily m ρ 2 c).arrAt · cfg2.N) (exitArr2 m ρ c) (exitRest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `cont7`, left at `cont8`. Its arrays
    are split out of the unscoped buffers and put back at the exit contents; the generator register goes into the
    pipeline's invariant and comes out; nothing is owed; the kernel has no semaphore of its own. -/
def region3 : Pipeline.RegionSeg (pcfgs (F := F)) noTables (datFamily m ρ) () defs₀ 𝒱none noLevels noLevel 3 where
  win := launch3.win.to₀
  block_pos := launch3.block_pos
  stage_whole := launch3.stage_whole
  K := PEmpty
  osem k := k.elim
  ho := Pipeline.OwnSemFacts.none _
  hbody c := (headObligation (ent7 m ρ) c).loose
  hwaits := Pipeline.hwaits_of_owed_zero _ _ _ _ noLevels noLevel 3 fun _ _ => rfl
  pre c := iprop(StableHlo.held (c : Thread nD τ) (Pipeline.ucRefs τ sig) (cont7 m ρ c) ∗ riding c)
  post c := iprop(lastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (ent7 m ρ c)
  hentry c := by
    rw [Pipeline.ownSems0_none]
    have hsplit := Pipeline.arrays_of_unscopedBufs (p := 3) (pcfgs (F := F)) noTables (datFamily m ρ) launch3.win launch3.arr_whole c
      ((datFamily m ρ 3 c).share_full fun _ => rfl) (ent7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datFamily m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (datFamily m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTables (Ix := Unit) (Name := ℕ) (U := UR sig nD τ) (Lvl := ℕ)
      launch3.win launch3.arr_whole c (datFamily m ρ) ((datFamily m ρ 3 c).share_full fun _ => rfl)
      (ent7 m ρ c) (ext8 m ρ c) ((datFamily m ρ 3 c).arrAt · cfg3.N) (exitArr3 m ρ c) (exitRest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight segments in order. -/
abbrev segments : List (Pipeline.Seg (pcfgs (F := F)) noTables (datFamily m ρ) () defs₀ 𝒱none noLevels noLevel) :=
  [ .host (hostSegment hostOps0 hostOps0_sub hostOps0_fresh (cont0 m ρ)),
    .region (region0 m ρ),
    .host (hostSegment hostOps1 hostOps1_sub hostOps1_fresh (cont2 m ρ)),
    .region (region1 m ρ),
    .host (hostSegment hostOps2 hostOps2_sub hostOps2_fresh (cont4 m ρ)),
    .region (region2 m ρ),
    .host (hostSegment hostOps3 hostOps3_sub hostOps3_fresh (cont6 m ρ)),
    .region (region3 m ρ) ]
/-- @main is the run of the segments. -/
theorem main_is_segments (c : Dev nD) : main (F := F) c = Pipeline.Seg.run (segments m ρ) := (main_chain c).trans (by chain_rfl)

set_option backward.isDefEq.respectTransparency.types false in
/-- THE RUN: from any memory with zero counters every weakly fair execution of @main terminates, nothing faulting,
    and in every final state every unscoped buffer holds the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = cont8 m ρ c b) :=
  Pipeline.θ_run_regions_kit (pcfgs (F := F)) noTables (datFamily m ρ) () cellOf_inj emb₁ defs₀ 𝒱none noLevels noLevel m ρ main (segments m ρ)
    (fun c Q => by rw [main_is_segments m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (cont0 m ρ c) ∗ riding c)) (Tₙ := lastState m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach noLevels noLevel fun c => ?_
      rw [show unscopedBufs c (fun b => m ((c : Thread nD τ).loc b)) = StableHlo.held (c : Thread nD τ) (Pipeline.ucRefs τ sig) (cont0 m ρ c)
        from Pipeline.unscopedBufs_held c (cont0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = cont8 m ρ c b)
    (hfin := fun c s' => by
      iintro ⟨⟨Hh, -⟩, HSI⟩
      unfold StableHlo.held
      imodintro
      iapply (pointsTo_read_all (Pipeline.ucRefs τ sig) (fun b => (((c : Thread nD τ)).1, b)) (cont8 m ρ c) s')
      isplitl [Hh] <;> iassumption)
    (hQ := fun s h c => h c)

/-! ## What the run gives -/

/-- The result buffer at the end is what the head region's one write-back leaves in it. -/
theorem cont8_result (c : Dev nD) : cont8 m ρ c (Proc.devRef .tc main_v126) = (headDat (ent7 m ρ) c).arrAt 5 cfg3.N :=
  cont8_arr m ρ c 5

/-- Every argument array ends as launched. -/
theorem cont8_args (c : Dev nD) :
    cont8 m ρ c (Proc.devRef .tc main_arg0) = m ((c : Thread nD τ).loc main_arg0) ∧
    cont8 m ρ c (Proc.devRef .tc main_arg1) = m ((c : Thread nD τ).loc main_arg1) ∧
    cont8 m ρ c (Proc.devRef .tc main_arg2) = m ((c : Thread nD τ).loc main_arg2) ∧
    cont8 m ρ c (Proc.devRef .tc main_arg3) = m ((c : Thread nD τ).loc main_arg3) ∧
    cont8 m ρ c (Proc.devRef .tc main_arg4) = m ((c : Thread nD τ).loc main_arg4) ∧
    cont8 m ρ c (Proc.devRef .tc main_arg5) = m ((c : Thread nD τ).loc main_arg5) ∧
    cont8 m ρ c (Proc.devRef .tc main_arg6) = m ((c : Thread nD τ).loc main_arg6) ∧
    cont8 m ρ c (Proc.devRef .tc main_arg7) = m ((c : Thread nD τ).loc main_arg7) ∧
    cont8 m ρ c (Proc.devRef .tc main_arg8) = m ((c : Thread nD τ).loc main_arg8) ∧
    cont8 m ρ c (Proc.devRef .tc main_arg9) = m ((c : Thread nD τ).loc main_arg9) ∧
    cont8 m ρ c (Proc.devRef .tc main_arg10) = m ((c : Thread nD τ).loc main_arg10) ∧
    cont8 m ρ c (Proc.devRef .tc main_arg11) = m ((c : Thread nD τ).loc main_arg11) ∧
    cont8 m ρ c (Proc.devRef .tc main_arg12) = m ((c : Thread nD τ).loc main_arg12) ∧
    cont8 m ρ c (Proc.devRef .tc main_arg13) = m ((c : Thread nD τ).loc main_arg13) ∧
    cont8 m ρ c (Proc.devRef .tc main_arg14) = m ((c : Thread nD τ).loc main_arg14) ∧
    cont8 m ρ c (Proc.devRef .tc main_arg15) = m ((c : Thread nD τ).loc main_arg15) :=
  ⟨cont8_untouched m ρ c main_arg0 (by decide) (by decide) (by decide) (by decide) (by decide) (by decide) (by decide) (by decide),
   cont8_untouched m ρ c main_arg1 (by decide) (by decide) (by decide) (by decide) (by decide) (by decide) (by decide) (by decide),
   cont8_untouched m ρ c main_arg2 (by decide) (by decide) (by decide) (by decide) (by decide) (by decide) (by decide) (by decide),
   cont8_untouched m ρ c main_arg3 (by decide) (by decide) (by decide) (by decide) (by decide) (by decide) (by decide) (by decide),
   cont8_untouched m ρ c main_arg4 (by decide) (by decide) (by decide) (by decide) (by decide) (by decide) (by decide) (by decide),
   cont8_untouched m ρ c main_arg5 (by decide) (by decide) (by decide) (by decide) (by decide) (by decide) (by decide) (by decide),
   cont8_untouched m ρ c main_arg6 (by decide) (by decide) (by decide) (by decide) (by decide) (by decide) (by decide) (by decide),
   cont8_untouched m ρ c main_arg7 (by decide) (by decide) (by decide) (by decide) (by decide) (by decide) (by decide) (by decide),
   cont8_untouched m ρ c main_arg8 (by decide) (by decide) (by decide) (by decide) (by decide) (by decide) (by decide) (by decide),
   cont8_untouched m ρ c main_arg9 (by decide) (by decide) (by decide) (by decide) (by decide) (by decide) (by decide) (by decide),
   cont8_untouched m ρ c main_arg10 (by decide) (by decide) (by decide) (by decide) (by decide) (by decide) (by decide) (by decide),
   cont8_untouched m ρ c main_arg11 (by decide) (by decide) (by decide) (by decide) (by decide) (by decide) (by decide) (by decide),
   cont8_headWeights m ρ c,
   cont8_untouched m ρ c main_arg13 (by decide) (by decide) (by decide) (by decide) (by decide) (by decide) (by decide) (by decide),
   cont8_untouched m ρ c main_arg14 (by decide) (by decide) (by decide) (by decide) (by decide) (by decide) (by decide) (by decide),
   cont8_untouched m ρ c main_arg15 (by decide) (by decide) (by decide) (by decide) (by decide) (by decide) (by decide) (by decide)⟩

/-- THE FRAME: every weakly fair execution of @main terminates, nothing faulting, and every argument array ends as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)) :=
  (θ_run defs _ _).mono (fun r h c => by
    have ha := cont8_args m ρ c
    exact ⟨(h c _ (mem_unscoped main_arg0 (by decide))).trans ha.1,
      (h c _ (mem_unscoped main_arg1 (by decide))).trans ha.2.1,
      (h c _ (mem_unscoped main_arg2 (by decide))).trans ha.2.2.1,
      (h c _ (mem_unscoped main_arg3 (by decide))).trans ha.2.2.2.1,
      (h c _ (mem_unscoped main_arg4 (by decide))).trans ha.2.2.2.2.1,
      (h c _ (mem_unscoped main_arg5 (by decide))).trans ha.2.2.2.2.2.1,
      (h c _ (mem_unscoped main_arg6 (by decide))).trans ha.2.2.2.2.2.2.1,
      (h c _ (mem_unscoped main_arg7 (by decide))).trans ha.2.2.2.2.2.2.2.1,
      (h c _ (mem_unscoped main_arg8 (by decide))).trans ha.2.2.2.2.2.2.2.2.1,
      (h c _ (mem_unscoped main_arg9 (by decide))).trans ha.2.2.2.2.2.2.2.2.2.1,
      (h c _ (mem_unscoped main_arg10 (by decide))).trans ha.2.2.2.2.2.2.2.2.2.2.1,
      (h c _ (mem_unscoped main_arg11 (by decide))).trans ha.2.2.2.2.2.2.2.2.2.2.2.1,
      (h c _ (mem_unscoped main_arg12 (by decide))).trans ha.2.2.2.2.2.2.2.2.2.2.2.2.1,
      (h c _ (mem_unscoped main_arg13 (by decide))).trans ha.2.2.2.2.2.2.2.2.2.2.2.2.2.1,
      (h c _ (mem_unscoped main_arg14 (by decide))).trans ha.2.2.2.2.2.2.2.2.2.2.2.2.2.2.1,
      (h c _ (mem_unscoped main_arg15 (by decide))).trans ha.2.2.2.2.2.2.2.2.2.2.2.2.2.2.2⟩) (run_all m ρ)

end Cert.KernelIdeal.Frame

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«106503_j32512902431459_1_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«106503_j32512902431459_1_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.LibRowNorm.lean ====
/-
  General lemmas: a row-wise normalisation on the extended reals, at any number of rows. An array `z` of M rows
  and N columns is built entry by entry as `agg + h · d + b` (a per-row weight `d`, a per-column offset `b`:
  `combine`); each row is then centred at its mean, scaled by the reciprocal square root of its mean squared
  deviation plus a constant, multiplied by a per-column gain, shifted by a per-column offset and cut at zero
  (`normRelu`). Row `p` of the result depends only on row `p` of the operands, which is what lets a result
  computed block of rows by block of rows be read as one function of the whole arrays. The same function is
  recognised in the spelling a vector unit gives it (lane sums kept as a column, columns and rows broadcast over
  the block) and in the spelling a host program gives it (sums from an initial value, two-step broadcasts).
  None mentions a program.
-/
import proofs.«106503_j32512902431459_1_alg».proof.Proof.LibRowBlocks

noncomputable section

namespace Cert.RowNorm

open Idealize.ShloMosaic Idealize.ShloMosaic.ValueIdx Cert.LayoutLib Cert.DenseLib Cert.RowBlocks

variable {M N : ℕ}

/-- `agg + h · d + b`: the weight `d` of the row, the offset `b` of the column. -/
def combine (agg h : (⟨2, ![M, N]⟩ : Shape).Idx → EReal) (d : Fin M → EReal) (b : Fin N → EReal) :
    (⟨2, ![M, N]⟩ : Shape).Idx → EReal := fun i => agg i + h i * d (i 0) + b (i 1)

/-- The mean of row `p`: the row's sum divided by `n`. -/
def mean (n : EReal) (z : (⟨2, ![M, N]⟩ : Shape).Idx → EReal) (p : Fin M) : EReal :=
  Ideal.div (∑ k : Fin N, z (ix2 p k)) n

/-- The mean squared deviation of row `p` from its mean. -/
def spread (n : EReal) (z : (⟨2, ![M, N]⟩ : Shape).Idx → EReal) (p : Fin M) : EReal :=
  Ideal.div (∑ k : Fin N, (z (ix2 p k) - mean n z p) * (z (ix2 p k) - mean n z p)) n

/-- Each row centred, scaled by `(spread + ε)^(-1/2)`, times the column's gain, plus the column's offset, cut at zero. -/
def normRelu (n ε : EReal) (z : (⟨2, ![M, N]⟩ : Shape).Idx → EReal) (g be : Fin N → EReal) :
    (⟨2, ![M, N]⟩ : Shape).Idx → EReal := fun i =>
  max ((z i - mean n z (i 0)) * Ideal.rsqrt (spread n z (i 0) + ε) * g (i 1) + be (i 1)) 0

/-- The two together. -/
def post (n ε : EReal) (agg h : (⟨2, ![M, N]⟩ : Shape).Idx → EReal) (d : Fin M → EReal) (b g be : Fin N → EReal) :
    (⟨2, ![M, N]⟩ : Shape).Idx → EReal := normRelu n ε (combine agg h d b) g be

theorem combine_apply (agg h : (⟨2, ![M, N]⟩ : Shape).Idx → EReal) (d : Fin M → EReal) (b : Fin N → EReal) (p : Fin M) (q : Fin N) :
    combine agg h d b (ix2 p q) = agg (ix2 p q) + h (ix2 p q) * d p + b q := rfl

theorem normRelu_apply (n ε : EReal) (z : (⟨2, ![M, N]⟩ : Shape).Idx → EReal) (g be : Fin N → EReal) (p : Fin M) (q : Fin N) :
    normRelu n ε z g be (ix2 p q) = max ((z (ix2 p q) - mean n z p) * Ideal.rsqrt (spread n z p + ε) * g q + be q) 0 := rfl

/-! ## Row locality -/

theorem mean_congr {M' : ℕ} (n : EReal) (z' : (⟨2, ![M', N]⟩ : Shape).Idx → EReal) (z : (⟨2, ![M, N]⟩ : Shape).Idx → EReal)
    (p' : Fin M') (p : Fin M) (hz : ∀ k : Fin N, z' (ix2 p' k) = z (ix2 p k)) : mean n z' p' = mean n z p := by
  unfold mean
  exact congrArg (Ideal.div · n) (Finset.sum_congr rfl fun k _ => hz k)

theorem spread_congr {M' : ℕ} (n : EReal) (z' : (⟨2, ![M', N]⟩ : Shape).Idx → EReal) (z : (⟨2, ![M, N]⟩ : Shape).Idx → EReal)
    (p' : Fin M') (p : Fin M) (hz : ∀ k : Fin N, z' (ix2 p' k) = z (ix2 p k)) : spread n z' p' = spread n z p := by
  unfold spread
  rw [mean_congr n z' z p' p hz]
  exact congrArg (Ideal.div · n) (Finset.sum_congr rfl fun k _ => by rw [hz k])

/-- Two arrays, of any heights, that agree on a row of each are normalised alike on those rows. -/
theorem normRelu_row {M' : ℕ} (n ε : EReal) (z' : (⟨2, ![M', N]⟩ : Shape).Idx → EReal) (z : (⟨2, ![M, N]⟩ : Shape).Idx → EReal)
    (g be : Fin N → EReal) (p' : Fin M') (p : Fin M) (hz : ∀ k : Fin N, z' (ix2 p' k) = z (ix2 p k)) (q : Fin N) :
    normRelu n ε z' g be (ix2 p' q) = normRelu n ε z g be (ix2 p q) := by
  rw [normRelu_apply, normRelu_apply, mean_congr n z' z p' p hz, spread_congr n z' z p' p hz, hz q]

/-- The same for the whole step: rows of `agg` and `h` that agree, and equal row weights, give equal rows. -/
theorem post_row {M' : ℕ} (n ε : EReal) (agg' h' : (⟨2, ![M', N]⟩ : Shape).Idx → EReal) (d' : Fin M' → EReal)
    (agg h : (⟨2, ![M, N]⟩ : Shape).Idx → EReal) (d : Fin M → EReal) (b g be : Fin N → EReal) (p' : Fin M') (p : Fin M)
    (ha : ∀ k : Fin N, agg' (ix2 p' k) = agg (ix2 p k)) (hh : ∀ k : Fin N, h' (ix2 p' k) = h (ix2 p k)) (hd : d' p' = d p)
    (q : Fin N) : post n ε agg' h' d' b g be (ix2 p' q) = post n ε agg h d b g be (ix2 p q) :=
  normRelu_row n ε _ _ g be p' p (fun k => by rw [combine_apply, combine_apply, ha k, hh k, hd]) q

/-- The same with any two indices: equal columns, rows of `agg` and `h` that agree, equal row weights. -/
theorem post_eq_of_row {M' : ℕ} (n ε : EReal) (agg' h' : (⟨2, ![M', N]⟩ : Shape).Idx → EReal) (d' : Fin M' → EReal)
    (agg h : (⟨2, ![M, N]⟩ : Shape).Idx → EReal) (d : Fin M → EReal) (b g be : Fin N → EReal)
    (j : (⟨2, ![M', N]⟩ : Shape).Idx) (i : (⟨2, ![M, N]⟩ : Shape).Idx) (hq : (j 1).val = (i 1).val)
    (ha : ∀ k : Fin N, agg' (ix2 (n0 := M') (j 0) k) = agg (ix2 (n0 := M) (i 0) k))
    (hh : ∀ k : Fin N, h' (ix2 (n0 := M') (j 0) k) = h (ix2 (n0 := M) (i 0) k)) (hd : d' (j 0) = d (i 0)) :
    post n ε agg' h' d' b g be j = post n ε agg h d b g be i := by
  obtain ⟨p', q', rfl⟩ : ∃ (p' : Fin M') (q' : Fin N), j = ix2 p' q' := ⟨j 0, j 1, eq_ix2 j⟩
  obtain ⟨p, q, rfl⟩ : ∃ (p : Fin M) (q : Fin N), i = ix2 p q := ⟨i 0, i 1, eq_ix2 i⟩
  have e : q' = q := Fin.ext hq
  subst e
  exact post_row n ε agg' h' d' agg h d b g be p' p ha hh hd q'

/-! ## Two dense layers -/

/-- An array times a matrix, plus a bias, cut at zero, times a second matrix, plus a second bias. -/
def mlp {M A B C : ℕ} (cat : (⟨2, ![M, A]⟩ : Shape).Idx → EReal) (W₁ : (⟨2, ![A, B]⟩ : Shape).Idx → EReal) (b₁ : Fin B → EReal)
    (W₂ : (⟨2, ![B, C]⟩ : Shape).Idx → EReal) (b₂ : Fin C → EReal) : (⟨2, ![M, C]⟩ : Shape).Idx → EReal :=
  biased (layer (mm cat W₁) b₁ W₂) b₂

/-- Row `p` of the two layers' result depends on row `p` of the first operand only. -/
theorem mlp_eq_of_row {M M' A B C : ℕ} (cat' : (⟨2, ![M', A]⟩ : Shape).Idx → EReal) (cat : (⟨2, ![M, A]⟩ : Shape).Idx → EReal)
    (W₁ : (⟨2, ![A, B]⟩ : Shape).Idx → EReal) (b₁ : Fin B → EReal) (W₂ : (⟨2, ![B, C]⟩ : Shape).Idx → EReal) (b₂ : Fin C → EReal)
    (j : (⟨2, ![M', C]⟩ : Shape).Idx) (i : (⟨2, ![M, C]⟩ : Shape).Idx) (hq : (j 1).val = (i 1).val)
    (hx : ∀ k : Fin A, cat' (ix2 (n0 := M') (j 0) k) = cat (ix2 (n0 := M) (i 0) k)) :
    mlp cat' W₁ b₁ W₂ b₂ j = mlp cat W₁ b₁ W₂ b₂ i :=
  biased_eq_of_entry _ _ _ _ j i rfl hq
    (layer_eq_of_row _ _ _ _ _ _ j i rfl rfl hq fun k =>
      mm_eq_of_row cat' W₁ cat W₁ (ix2 (n0 := M') (j 0) k) (ix2 (n0 := M) (i 0) k) rfl rfl fun k' => hx k')

/-! ## Layout operations as whole-array functions -/

/-- A column broadcast over the columns of a block reads the column at the row. -/
theorem broadcastTo_col (v : (⟨2, ![M, 1]⟩ : Shape).Idx → EReal) (h : (⟨2, ![M, 1]⟩ : Shape).Broadcasts ⟨2, ![M, N]⟩) :
    broadcastTo ⟨2, ![M, N]⟩ v h = fun i => v (ix2 (n0 := M) (i 0) (0 : Fin 1)) := by
  funext i
  obtain ⟨p, q, rfl⟩ : ∃ (p : Fin M) (q : Fin N), i = ix2 p q := ⟨i 0, i 1, eq_ix2 i⟩
  exact broadcastTo_col_apply v h p q

/-- A lane sum kept as a column: the row's sum, whatever the column's one coordinate. -/
theorem rowsum_vector (Z : FVec Ideal ⟨2, ![M, N]⟩ .f32) (acc : BitVec 32)
    (r : (⟨2, ![M, N]⟩ : Shape).Reduces [(1 : Fin 2)] ⟨1, ![M]⟩) (hφ : FKind.Formats FTy.f32)
    (hacc : acc = FKind.add.neutral FTy.f32 hφ) (c : (⟨1, ![M]⟩ : Shape).ShapeCasts ⟨2, ![M, 1]⟩) :
    shapeCast ⟨2, ![M, 1]⟩ (multiReduction .add [(1 : Fin 2)] ⟨1, ![M]⟩ Z acc r hφ hacc) c
      = fun i => ∑ k : Fin N, Z (ix2 (n0 := M) (i 0) k) := by
  funext i
  obtain ⟨p, u, rfl⟩ : ∃ (p : Fin M) (u : Fin 1), i = ix2 p u := ⟨i 0, i 1, eq_ix2 i⟩
  rw [shapeCast_col_apply]
  refine (Ideal.multiReduction_add_single Z acc r hφ hacc (ix1 p)).trans ?_
  exact Finset.sum_congr rfl fun k _ => congrArg Z (lift_row r p k)

/-- The host's broadcast of a column over the columns. -/
theorem broadcastInDim_col (h : (⟨2, ![M, 1]⟩ : Shape).BroadcastsInDim ⟨2, ![M, N]⟩ (![0, 1] : Fin 2 → Fin 2))
    (x : (⟨2, ![M, 1]⟩ : Shape).Idx → EReal) :
    broadcastInDim ⟨2, ![M, N]⟩ ![0, 1] h x = fun i => x (ix2 (n0 := M) (i 0) (0 : Fin 1)) := by
  funext i
  obtain ⟨p, q, rfl⟩ : ∃ (p : Fin M) (q : Fin N), i = ix2 p q := ⟨i 0, i 1, eq_ix2 i⟩
  exact broadcastInDim_col_apply h x p q

/-- The host's sum along the rows kept as a column: the initial value plus the row's sum. -/
theorem rowsum_host (Z : FVec Ideal ⟨2, ![M, N]⟩ .f32) {u : Shape} (init : u.Idx → EReal) (hu : 0 < u.numel)
    (rt : (⟨2, ![M, N]⟩ : Shape).ReducesTo [(1 : Fin 2)] ⟨1, ![M]⟩) (r : (⟨2, ![M, N]⟩ : Shape).Reduces [(1 : Fin 2)] ⟨1, ![M]⟩)
    (hb : (⟨1, ![M]⟩ : Shape).BroadcastsInDim ⟨2, ![M, 1]⟩ (![0] : Fin 1 → Fin 2)) :
    broadcastInDim ⟨2, ![M, 1]⟩ ![0] hb (Host.reduceAdd (F := Ideal) Z init rt hu)
      = fun i => init (Shape.Idx.first hu) + ∑ k : Fin N, Z (ix2 (n0 := M) (i 0) k) := by
  funext i
  obtain ⟨p, v, rfl⟩ : ∃ (p : Fin M) (v : Fin 1), i = ix2 p v := ⟨i 0, i 1, eq_ix2 i⟩
  rw [broadcastInDim_vecCol_apply]
  exact hostReduceAdd_row_apply rt r Z _ p

/-- The host's broadcast of a scalar. -/
theorem broadcastInDim_scalar {t : Shape} (h : (⟨0, ![]⟩ : Shape).BroadcastsInDim t (![] : Fin 0 → Fin t.rank))
    (x : (⟨0, ![]⟩ : Shape).Idx → EReal) : broadcastInDim t ![] h x = fun _ => x ix0 :=
  funext fun j => broadcastInDim_scalar_apply h x j

/-- The same from the zero word: the row's sum. -/
theorem rowsum_host_zero (Z : FVec Ideal ⟨2, ![M, N]⟩ .f32) (hu : 0 < (⟨0, ![]⟩ : Shape).numel)
    (rt : (⟨2, ![M, N]⟩ : Shape).ReducesTo [(1 : Fin 2)] ⟨1, ![M]⟩) (r : (⟨2, ![M, N]⟩ : Shape).Reduces [(1 : Fin 2)] ⟨1, ![M]⟩)
    (hb : (⟨1, ![M]⟩ : Shape).BroadcastsInDim ⟨2, ![M, 1]⟩ (![0] : Fin 1 → Fin 2)) :
    broadcastInDim ⟨2, ![M, 1]⟩ ![0] hb (Host.reduceAdd (F := Ideal) Z (constant (F := Ideal) ⟨0, ![]⟩ .f32 0x00000000#32) rt hu)
      = fun i => ∑ k : Fin N, Z (ix2 (n0 := M) (i 0) k) := by
  rw [rowsum_host Z _ hu rt r hb]
  funext i
  show Ideal.ofBits .f32 0x00000000#32 + _ = _
  rw [Ideal.ofBits_zero_f32, zero_add]

/-! ## The two spellings of the row normalisation -/

/-- The vector unit's spelling, on a block of any height: the lane sums kept as columns, the columns and the one-row
    operands broadcast over the block, the divisor and the constant splat. -/
theorem post_vector (nb εb : BitVec FTy.f32.bits)
    (c1 : (⟨2, ![M, N]⟩ : Shape).ShapeCasts ⟨2, ![M, N]⟩) (c2 : (⟨2, ![M, 1]⟩ : Shape).ShapeCasts ⟨2, ![M, 1]⟩)
    (c3 : (⟨2, ![1, N]⟩ : Shape).ShapeCasts ⟨2, ![1, N]⟩) (c4 : (⟨1, ![M]⟩ : Shape).ShapeCasts ⟨2, ![M, 1]⟩)
    (b1 : (⟨2, ![M, 1]⟩ : Shape).Broadcasts ⟨2, ![M, N]⟩) (b2 : (⟨2, ![1, N]⟩ : Shape).Broadcasts ⟨2, ![M, N]⟩)
    (r : (⟨2, ![M, N]⟩ : Shape).Reduces [(1 : Fin 2)] ⟨1, ![M]⟩) (hφ : FKind.Formats FTy.f32)
    (hacc : (0x00000000#32 : BitVec FTy.f32.bits) = FKind.add.neutral FTy.f32 hφ)
    (agg h : FVec Ideal ⟨2, ![M, N]⟩ .f32) (d : FVec Ideal ⟨2, ![M, 1]⟩ .f32) (b g be : FVec Ideal ⟨2, ![1, N]⟩ .f32) :
    let Z : FVec Ideal ⟨2, ![M, N]⟩ .f32 :=
      addf (addf (shapeCast ⟨2, ![M, N]⟩ agg c1) (mulf (shapeCast ⟨2, ![M, N]⟩ h c1) (broadcastTo ⟨2, ![M, N]⟩ (shapeCast ⟨2, ![M, 1]⟩ d c2) b1)))
        (broadcastTo ⟨2, ![M, N]⟩ (shapeCast ⟨2, ![1, N]⟩ b c3) b2)
    let μ : FVec Ideal ⟨2, ![M, 1]⟩ .f32 :=
      divf (shapeCast ⟨2, ![M, 1]⟩ (multiReduction .add [(1 : Fin 2)] ⟨1, ![M]⟩ Z 0x00000000#32 r hφ hacc) c4)
        (broadcast ⟨2, ![M, 1]⟩ (Scalar.ofBits (F := Ideal) .f32 nb))
    let D : FVec Ideal ⟨2, ![M, N]⟩ .f32 := subf Z (broadcastTo ⟨2, ![M, N]⟩ μ b1)
    let σ : FVec Ideal ⟨2, ![M, 1]⟩ .f32 :=
      divf (shapeCast ⟨2, ![M, 1]⟩ (multiReduction .add [(1 : Fin 2)] ⟨1, ![M]⟩ (mulf D D) 0x00000000#32 r hφ hacc) c4)
        (broadcast ⟨2, ![M, 1]⟩ (Scalar.ofBits (F := Ideal) .f32 nb))
    maximumf (addf (mulf (mulf D (broadcastTo ⟨2, ![M, N]⟩ (rsqrt (addf σ (broadcast ⟨2, ![M, 1]⟩ (Scalar.ofBits (F := Ideal) .f32 εb)))) b1))
        (broadcastTo ⟨2, ![M, N]⟩ (shapeCast ⟨2, ![1, N]⟩ g c3) b2)) (broadcastTo ⟨2, ![M, N]⟩ (shapeCast ⟨2, ![1, N]⟩ be c3) b2))
      (broadcast ⟨2, ![M, N]⟩ (Scalar.ofBits (F := Ideal) .f32 0x00000000#32))
    = post (Ideal.ofBits .f32 nb) (Ideal.ofBits .f32 εb) agg h (fun p => d (ix2 p (0 : Fin 1))) (fun q => b (ix2 (0 : Fin 1) q))
        (fun q => g (ix2 (0 : Fin 1) q)) (fun q => be (ix2 (0 : Fin 1) q)) := by
  intro Z μ D σ
  simp only [Z, μ, D, σ, shapeCast_self, broadcastTo_col, broadcastTo_eq_rows, maximumf_splat_zero]
  rw [rowsum_vector _ _ r hφ hacc c4, rowsum_vector _ _ r hφ hacc c4]
  rfl

/-- The host's spelling, on arrays of any height: sums from the zero word, two-step broadcasts, scalars broadcast. -/
theorem post_host (nb εb : BitVec FTy.f32.bits) (hu : 0 < (⟨0, ![]⟩ : Shape).numel)
    (hcb : (⟨2, ![M, 1]⟩ : Shape).BroadcastsInDim ⟨2, ![M, N]⟩ (![0, 1] : Fin 2 → Fin 2))
    (hrb : (⟨2, ![1, N]⟩ : Shape).BroadcastsInDim ⟨2, ![M, N]⟩ (![0, 1] : Fin 2 → Fin 2))
    (hvr : (⟨1, ![N]⟩ : Shape).BroadcastsInDim ⟨2, ![1, N]⟩ (![1] : Fin 1 → Fin 2))
    (hvc : (⟨1, ![M]⟩ : Shape).BroadcastsInDim ⟨2, ![M, 1]⟩ (![0] : Fin 1 → Fin 2))
    (hsc : (⟨0, ![]⟩ : Shape).BroadcastsInDim ⟨2, ![M, 1]⟩ (![] : Fin 0 → Fin 2))
    (hs0 : (⟨0, ![]⟩ : Shape).BroadcastsInDim ⟨2, ![M, N]⟩ (![] : Fin 0 → Fin 2))
    (rt : (⟨2, ![M, N]⟩ : Shape).ReducesTo [(1 : Fin 2)] ⟨1, ![M]⟩) (r : (⟨2, ![M, N]⟩ : Shape).Reduces [(1 : Fin 2)] ⟨1, ![M]⟩)
    (agg h : FVec Ideal ⟨2, ![M, N]⟩ .f32) (d : FVec Ideal ⟨2, ![M, 1]⟩ .f32) (b g be : FVec Ideal ⟨1, ![N]⟩ .f32) :
    let Z : FVec Ideal ⟨2, ![M, N]⟩ .f32 :=
      addf (addf agg (mulf h (broadcastInDim ⟨2, ![M, N]⟩ ![0, 1] hcb d)))
        (broadcastInDim ⟨2, ![M, N]⟩ ![0, 1] hrb (broadcastInDim ⟨2, ![1, N]⟩ ![1] hvr b))
    let μ : FVec Ideal ⟨2, ![M, 1]⟩ .f32 :=
      Host.divf (broadcastInDim ⟨2, ![M, 1]⟩ ![0] hvc (Host.reduceAdd (F := Ideal) Z (constant (F := Ideal) ⟨0, ![]⟩ .f32 0x00000000#32) rt hu))
        (broadcastInDim ⟨2, ![M, 1]⟩ ![] hsc (constant (F := Ideal) ⟨0, ![]⟩ .f32 nb))
    let D : FVec Ideal ⟨2, ![M, N]⟩ .f32 := subf Z (broadcastInDim ⟨2, ![M, N]⟩ ![0, 1] hcb μ)
    let σ : FVec Ideal ⟨2, ![M, 1]⟩ .f32 :=
      Host.divf (broadcastInDim ⟨2, ![M, 1]⟩ ![0] hvc (Host.reduceAdd (F := Ideal) (mulf D D) (constant (F := Ideal) ⟨0, ![]⟩ .f32 0x00000000#32) rt hu))
        (broadcastInDim ⟨2, ![M, 1]⟩ ![] hsc (constant (F := Ideal) ⟨0, ![]⟩ .f32 nb))
    maximumf (addf (mulf (mulf D (broadcastInDim ⟨2, ![M, N]⟩ ![0, 1] hcb
          (Host.rsqrt (addf σ (broadcastInDim ⟨2, ![M, 1]⟩ ![] hsc (constant (F := Ideal) ⟨0, ![]⟩ .f32 εb))))))
        (broadcastInDim ⟨2, ![M, N]⟩ ![0, 1] hrb (broadcastInDim ⟨2, ![1, N]⟩ ![1] hvr g)))
        (broadcastInDim ⟨2, ![M, N]⟩ ![0, 1] hrb (broadcastInDim ⟨2, ![1, N]⟩ ![1] hvr be)))
      (broadcastInDim ⟨2, ![M, N]⟩ ![] hs0 (constant (F := Ideal) ⟨0, ![]⟩ .f32 0x00000000#32))
    = post (Ideal.ofBits .f32 nb) (Ideal.ofBits .f32 εb) agg h (fun p => d (ix2 p (0 : Fin 1))) (fun q => b (ix1 q))
        (fun q => g (ix1 q)) (fun q => be (ix1 q)) := by
  intro Z μ D σ
  simp only [Z, μ, D, σ]
  rw [maximumf_bcast_zero, broadcastInDim_eq_rows b hvr hrb, broadcastInDim_eq_rows g hvr hrb, broadcastInDim_eq_rows be hvr hrb,
    rowsum_host_zero _ hu rt r hvc, rowsum_host_zero _ hu rt r hvc, broadcastInDim_scalar hsc, broadcastInDim_scalar hsc,
    broadcastInDim_col hcb d, broadcastInDim_col hcb, broadcastInDim_col hcb]
  rfl

/-- The host's spelling of the two dense layers. -/
theorem mlp_host {A B C : ℕ} (D₁ : DotDims ⟨2, ![M, A]⟩ ⟨2, ![A, B]⟩ ⟨2, ![M, B]⟩) (hD₁ : D₁ = DotDims.plain M A B)
    (D₂ : DotDims ⟨2, ![M, B]⟩ ⟨2, ![B, C]⟩ ⟨2, ![M, C]⟩) (hD₂ : D₂ = DotDims.plain M B C)
    (h1 : (⟨1, ![B]⟩ : Shape).BroadcastsInDim ⟨2, ![1, B]⟩ (![1] : Fin 1 → Fin 2))
    (h2 : (⟨2, ![1, B]⟩ : Shape).BroadcastsInDim ⟨2, ![M, B]⟩ (![0, 1] : Fin 2 → Fin 2))
    (h3 : (⟨1, ![C]⟩ : Shape).BroadcastsInDim ⟨2, ![1, C]⟩ (![1] : Fin 1 → Fin 2))
    (h4 : (⟨2, ![1, C]⟩ : Shape).BroadcastsInDim ⟨2, ![M, C]⟩ (![0, 1] : Fin 2 → Fin 2))
    (h0 : (⟨0, ![]⟩ : Shape).BroadcastsInDim ⟨2, ![M, B]⟩ (![] : Fin 0 → Fin 2))
    (cat : FVec Ideal ⟨2, ![M, A]⟩ .f32) (W₁ : FVec Ideal ⟨2, ![A, B]⟩ .f32) (b₁ : FVec Ideal ⟨1, ![B]⟩ .f32)
    (W₂ : FVec Ideal ⟨2, ![B, C]⟩ .f32) (b₂ : FVec Ideal ⟨1, ![C]⟩ .f32) :
    addf (Host.dotGeneral D₂ none
        (maximumf (addf (Host.dotGeneral D₁ none cat W₁) (broadcastInDim ⟨2, ![M, B]⟩ ![0, 1] h2 (broadcastInDim ⟨2, ![1, B]⟩ ![1] h1 b₁)))
          (broadcastInDim ⟨2, ![M, B]⟩ ![] h0 (constant (F := Ideal) ⟨0, ![]⟩ .f32 0x00000000#32))) W₂)
      (broadcastInDim ⟨2, ![M, C]⟩ ![0, 1] h4 (broadcastInDim ⟨2, ![1, C]⟩ ![1] h3 b₂))
    = mlp cat W₁ (fun q => b₁ (ix1 q)) W₂ (fun q => b₂ (ix1 q)) := by
  rw [dotGeneral_eq_mm D₁ hD₁, dotGeneral_eq_mm D₂ hD₂, broadcastInDim_eq_rows b₁ h1 h2, broadcastInDim_eq_rows b₂ h3 h4,
    maximumf_bcast_zero]
  rfl

/-- The vector unit's spelling of the two dense layers, on a block of any height. -/
theorem mlp_vector {A B C : ℕ} (D₁ : DotDims ⟨2, ![M, A]⟩ ⟨2, ![A, B]⟩ ⟨2, ![M, B]⟩) (hD₁ : D₁ = DotDims.plain M A B)
    (D₂ : DotDims ⟨2, ![M, B]⟩ ⟨2, ![B, C]⟩ ⟨2, ![M, C]⟩) (hD₂ : D₂ = DotDims.plain M B C)
    (c1 : (⟨2, ![1, B]⟩ : Shape).ShapeCasts ⟨2, ![1, B]⟩) (c2 : (⟨2, ![1, C]⟩ : Shape).ShapeCasts ⟨2, ![1, C]⟩)
    (h1 : (⟨2, ![1, B]⟩ : Shape).Broadcasts ⟨2, ![M, B]⟩) (h2 : (⟨2, ![1, C]⟩ : Shape).Broadcasts ⟨2, ![M, C]⟩)
    (cat : FVec Ideal ⟨2, ![M, A]⟩ .f32) (W₁ : FVec Ideal ⟨2, ![A, B]⟩ .f32) (b₁ : FVec Ideal ⟨2, ![1, B]⟩ .f32)
    (W₂ : FVec Ideal ⟨2, ![B, C]⟩ .f32) (b₂ : FVec Ideal ⟨2, ![1, C]⟩ .f32) :
    addf (matmul D₂ none
        (maximumf (addf (matmul D₁ none cat W₁ (constant ⟨2, ![M, B]⟩ .f32 0x00000000#32)) (broadcastTo ⟨2, ![M, B]⟩ (shapeCast ⟨2, ![1, B]⟩ b₁ c1) h1))
          (broadcast ⟨2, ![M, B]⟩ (Scalar.ofBits (F := Ideal) .f32 0x00000000#32))) W₂ (constant ⟨2, ![M, C]⟩ .f32 0x00000000#32))
      (broadcastTo ⟨2, ![M, C]⟩ (shapeCast ⟨2, ![1, C]⟩ b₂ c2) h2)
    = mlp cat W₁ (fun q => b₁ (ix2 (0 : Fin 1) q)) W₂ (fun q => b₂ (ix2 (0 : Fin 1) q)) := by
  simp only [shapeCast_self, matmul_eq_mm D₁ hD₁, matmul_eq_mm D₂ hD₂, broadcastTo_eq_rows, maximumf_splat_zero]
  rfl

end Cert.RowNorm

end
-- ==== Proof.GnnSpec.lean ====
/-
  The graph network's two kernels as functions on the extended reals, stated with no program in sight.

  One layer, on an array of `M` nodes with 128 features: the node features and the aggregated neighbour features
  are added; the sum goes through two dense layers (times a matrix, plus a bias row, cut at zero, times a second
  matrix, plus a second bias row); the result is cut at zero and then normalised column by column with fixed
  statistics: minus the column's mean, times the reciprocal square root of the column's variance plus a constant,
  times the column's gain, plus the column's offset. Row `p` of the result depends only on row `p` of the two
  arrays of features: that is what lets a result computed block of rows by block of rows be read as one function of
  the whole arrays.

  The head, on `G` pooled graphs with 384 features: times a matrix, plus a bias row, cut at zero; then each row is
  multiplied entry by entry with a weight row and summed, and a last bias is added.
-/
import proofs.«106503_j32512902431459_1_alg».proof.Proof.LibRowNorm

noncomputable section

namespace Cert.GnnSpec

open Idealize.ShloMosaic Idealize.ShloMosaic.ValueIdx Cert.LayoutLib Cert.DenseLib Cert.RowBlocks Cert.RowNorm

/-- One layer: entry `(p, q)` is `(max (mlp (x + agg)) 0 − μ q) · (v q + ε)^(-1/2) · γ q + β q`. -/
def gnnLayer {M : ℕ} (ε : EReal) (x agg : (⟨2, ![M, 128]⟩ : Shape).Idx → EReal)
    (W₁ : (⟨2, ![128, 128]⟩ : Shape).Idx → EReal) (b₁ : Fin 128 → EReal)
    (W₂ : (⟨2, ![128, 128]⟩ : Shape).Idx → EReal) (b₂ γ β μ v : Fin 128 → EReal) :
    (⟨2, ![M, 128]⟩ : Shape).Idx → EReal :=
  fun i => (max (mlp (plus x agg) W₁ b₁ W₂ b₂ i) 0 - μ (i 1)) * Ideal.rsqrt (v (i 1) + ε) * γ (i 1) + β (i 1)

/-- Row locality: two pairs of arrays, of any heights, that agree on a row of each give layers that agree on those
    rows, column by column. -/
theorem gnnLayer_eq_of_row {M M' : ℕ} (ε : EReal) (x' agg' : (⟨2, ![M', 128]⟩ : Shape).Idx → EReal)
    (x agg : (⟨2, ![M, 128]⟩ : Shape).Idx → EReal)
    (W₁ : (⟨2, ![128, 128]⟩ : Shape).Idx → EReal) (b₁ : Fin 128 → EReal)
    (W₂ : (⟨2, ![128, 128]⟩ : Shape).Idx → EReal) (b₂ γ β μ v : Fin 128 → EReal)
    (j : (⟨2, ![M', 128]⟩ : Shape).Idx) (i : (⟨2, ![M, 128]⟩ : Shape).Idx) (hq : (j 1).val = (i 1).val)
    (hx : ∀ k : Fin 128, x' (ix2 (n0 := M') (j 0) k) = x (ix2 (n0 := M) (i 0) k))
    (ha : ∀ k : Fin 128, agg' (ix2 (n0 := M') (j 0) k) = agg (ix2 (n0 := M) (i 0) k)) :
    gnnLayer ε x' agg' W₁ b₁ W₂ b₂ γ β μ v j = gnnLayer ε x agg W₁ b₁ W₂ b₂ γ β μ v i := by
  have e : (j 1 : Fin 128) = (i 1 : Fin 128) := Fin.ext hq
  have hm : mlp (plus x' agg') W₁ b₁ W₂ b₂ j = mlp (plus x agg) W₁ b₁ W₂ b₂ i :=
    mlp_eq_of_row (plus x' agg') (plus x agg) W₁ b₁ W₂ b₂ j i hq fun k => by
      show x' _ + agg' _ = x _ + agg _
      rw [hx k, ha k]
  show (max (mlp (plus x' agg') W₁ b₁ W₂ b₂ j) 0 - μ (j 1)) * Ideal.rsqrt (v (j 1) + ε) * γ (j 1) + β (j 1)
    = (max (mlp (plus x agg) W₁ b₁ W₂ b₂ i) 0 - μ (i 1)) * Ideal.rsqrt (v (i 1) + ε) * γ (i 1) + β (i 1)
  rw [hm, e]

/-- The head: entry `(g, u)` is `Σ_k max ((P · W) (g, k) + b₁ k) 0 · w₂ k + b₂ u` (the last axis has one entry). -/
def gnnHead {G : ℕ} (P : (⟨2, ![G, 384]⟩ : Shape).Idx → EReal) (W : (⟨2, ![384, 128]⟩ : Shape).Idx → EReal)
    (b₁ w₂ : Fin 128 → EReal) (b₂ : Fin 1 → EReal) : (⟨2, ![G, 1]⟩ : Shape).Idx → EReal :=
  fun i => (∑ k : Fin 128, max (mm P W (ix2 (n0 := G) (i 0) k) + b₁ k) 0 * w₂ k) + b₂ (i 1)

end Cert.GnnSpec

end
-- ==== Proof.Ideal.LayerValue0.lean ====
/-
  What region 0 leaves in its output array, at the extended reals: the layer's function of the arrays the region
  is entered with. The block the body stores at a grid point is the layer applied to the blocks it read (the two
  payloads are the vector unit's spelling of the layer). The blocks of the weights and of the one-row parameters
  are their whole arrays at every point; the blocks of the two feature arrays and of the output sit at the same
  2000 rows. Since a row of the layer's result depends only on that row of the features, what a point writes back
  is the block of ONE whole-array function; the 25 blocks tile the 50000 rows, so the array ends holding it.
-/
import proofs.«106503_j32512902431459_1_alg».proof.Proof.Ideal.LayerRegion0
import proofs.«106503_j32512902431459_1_alg».proof.Proof.GnnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open Cert.LayoutLib Cert.DenseLib Cert.RowBlocks Cert.RowNorm Cert.GnnSpec

variable (V : (c : Dev nD) → (b : Ref sig .tc) → Buf (Elt Ideal) ((c : Thread nD τ).loc b))

/-- The constant added to the variance: the float word the program carries, read exactly. -/
abbrev layerEps0 : EReal := Ideal.ofBits .f32 0x3727C5AC#32

theorem zeroOffsets0 : (![0, 0] : Fin 2 → Nat) = fun _ => 0 := funext fun a => by fin_cases a <;> rfl

/-- The body's arithmetic on the ten blocks read is the layer on a block of 2000 rows. -/
theorem layerPayload0 (x0 x1 : Vec Ideal S2000x128 .f32) (x2 : Vec Ideal S128x128 .f32) (x3 : Vec Ideal S1x128 .f32)
    (x4 : Vec Ideal S128x128 .f32) (x5 x6 x7 x8 x9 : Vec Ideal S1x128 .f32) :
    k0_pay1 (F := Ideal) (k0_pay2 (F := Ideal) x0 x1 x2 x3 x4 x5 x9 x8) x6 x7
      = gnnLayer (M := 2000) layerEps0 x0 x1 x2 (fun q : Fin 128 => x3 (ix2 (0 : Fin 1) q)) x4 (fun q : Fin 128 => x5 (ix2 (0 : Fin 1) q)) (fun q : Fin 128 => x6 (ix2 (0 : Fin 1) q)) (fun q : Fin 128 => x7 (ix2 (0 : Fin 1) q)) (fun q : Fin 128 => x8 (ix2 (0 : Fin 1) q)) (fun q : Fin 128 => x9 (ix2 (0 : Fin 1) q)) := by
  unfold k0_pay1 k0_pay2
  simp only [truncf_eq, shapeCast_self, matmul_eq_mm dot_S2000x128_S128x128_S2000x128_1_0_0_1_n_n rfl, broadcastTo_eq_rows, maximumf_splat_zero]
  rfl

/-- The whole-array function the region's output ends at. -/
def layerWhole0 (c : Dev nD) : S50000x128.Idx → EReal :=
  gnnLayer (M := 50000) layerEps0 (V c main_v6) (V c main_v20) (V c main_v22) (fun q : Fin 128 => V c main_v37 (ix2 (0 : Fin 1) q)) (V c main_v26) (fun q : Fin 128 => V c main_v38 (ix2 (0 : Fin 1) q))
    (fun q : Fin 128 => V c main_v39 (ix2 (0 : Fin 1) q)) (fun q : Fin 128 => V c main_v40 (ix2 (0 : Fin 1) q)) (fun q : Fin 128 => V c main_v41 (ix2 (0 : Fin 1) q)) (fun q : Fin 128 => V c main_v42 (ix2 (0 : Fin 1) q))

/-- The printed index maps, decided over the 25 grid points: the two feature windows move with the output window
    along the rows; every other window stays at block (0, 0); the output's row-block index is at most 24. -/
theorem layerIdx0 : ∀ t : Fin cfg0.N, win0_0.index t (0 : Fin 2) = win0_10.index t (0 : Fin 2)
    ∧ win0_0.index t (1 : Fin 2) = 0
    ∧ win0_1.index t (0 : Fin 2) = win0_10.index t (0 : Fin 2)
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (1 : Fin 2) = 0
    ∧ win0_10.index t (0 : Fin 2) ≤ 24 :=
  (by decide +kernel : ∀ t : Fin grid0.N, _)

/-- Every block of rows is some point's. -/
theorem layerOnto0 : ∀ q0 : Fin 25, ∃ t : Fin cfg0.N, win0_10.index t = ![q0.val, 0] :=
  (by decide +kernel : ∀ q0 : Fin 25, ∃ t : Fin grid0.N, win0_10.index t = ![q0.val, 0])

/-- Window 2 is resident: its one block is its whole array, at every point. -/
theorem layerResident0_2 (c : Dev nD) (t : Fin cfg0.N) : layerBlock0 V c 2 t = V c main_v22 := by
  obtain ⟨e0a, e0b, e1a, e1b, e2a, e2b, e3a, e3b, e4a, e4b, e5a, e5b, e6a, e6b, e7a, e7b, e8a, e8b, e9a, e9b, e10b, e10le⟩ := layerIdx0 t
  funext y
  show V c main_v22 (((cfg0.win 2).blk t).view.emb y) = V c main_v22 y
  have h : ((cfg0.win 2).blk t).view.emb y = y := by
    funext a; apply Fin.ext
    match a with
    | ⟨0, _⟩ => show win0_2.index t (0 : Fin 2) * 128 + 1 * (y 0).val = (y 0).val; omega
    | ⟨1, _⟩ => show win0_2.index t (1 : Fin 2) * 128 + 1 * (y 1).val = (y 1).val; omega
  rw [h]

/-- Window 3 is resident: its one block is its whole array, at every point. -/
theorem layerResident0_3 (c : Dev nD) (t : Fin cfg0.N) : layerBlock0 V c 3 t = V c main_v37 := by
  obtain ⟨e0a, e0b, e1a, e1b, e2a, e2b, e3a, e3b, e4a, e4b, e5a, e5b, e6a, e6b, e7a, e7b, e8a, e8b, e9a, e9b, e10b, e10le⟩ := layerIdx0 t
  funext y
  show V c main_v37 (((cfg0.win 3).blk t).view.emb y) = V c main_v37 y
  have h : ((cfg0.win 3).blk t).view.emb y = y := by
    funext a; apply Fin.ext
    match a with
    | ⟨0, _⟩ => show win0_3.index t (0 : Fin 2) * 1 + 1 * (y 0).val = (y 0).val; omega
    | ⟨1, _⟩ => show win0_3.index t (1 : Fin 2) * 128 + 1 * (y 1).val = (y 1).val; omega
  rw [h]

/-- Window 4 is resident: its one block is its whole array, at every point. -/
theorem layerResident0_4 (c : Dev nD) (t : Fin cfg0.N) : layerBlock0 V c 4 t = V c main_v26 := by
  obtain ⟨e0a, e0b, e1a, e1b, e2a, e2b, e3a, e3b, e4a, e4b, e5a, e5b, e6a, e6b, e7a, e7b, e8a, e8b, e9a, e9b, e10b, e10le⟩ := layerIdx0 t
  funext y
  show V c main_v26 (((cfg0.win 4).blk t).view.emb y) = V c main_v26 y
  have h : ((cfg0.win 4).blk t).view.emb y = y := by
    funext a; apply Fin.ext
    match a with
    | ⟨0, _⟩ => show win0_4.index t (0 : Fin 2) * 128 + 1 * (y 0).val = (y 0).val; omega
    | ⟨1, _⟩ => show win0_4.index t (1 : Fin 2) * 128 + 1 * (y 1).val = (y 1).val; omega
  rw [h]

/-- Window 5 is resident: its one block is its whole array, at every point. -/
theorem layerResident0_5 (c : Dev nD) (t : Fin cfg0.N) : layerBlock0 V c 5 t = V c main_v38 := by
  obtain ⟨e0a, e0b, e1a, e1b, e2a, e2b, e3a, e3b, e4a, e4b, e5a, e5b, e6a, e6b, e7a, e7b, e8a, e8b, e9a, e9b, e10b, e10le⟩ := layerIdx0 t
  funext y
  show V c main_v38 (((cfg0.win 5).blk t).view.emb y) = V c main_v38 y
  have h : ((cfg0.win 5).blk t).view.emb y = y := by
    funext a; apply Fin.ext
    match a with
    | ⟨0, _⟩ => show win0_5.index t (0 : Fin 2) * 1 + 1 * (y 0).val = (y 0).val; omega
    | ⟨1, _⟩ => show win0_5.index t (1 : Fin 2) * 128 + 1 * (y 1).val = (y 1).val; omega
  rw [h]

/-- Window 6 is resident: its one block is its whole array, at every point. -/
theorem layerResident0_6 (c : Dev nD) (t : Fin cfg0.N) : layerBlock0 V c 6 t = V c main_v39 := by
  obtain ⟨e0a, e0b, e1a, e1b, e2a, e2b, e3a, e3b, e4a, e4b, e5a, e5b, e6a, e6b, e7a, e7b, e8a, e8b, e9a, e9b, e10b, e10le⟩ := layerIdx0 t
  funext y
  show V c main_v39 (((cfg0.win 6).blk t).view.emb y) = V c main_v39 y
  have h : ((cfg0.win 6).blk t).view.emb y = y := by
    funext a; apply Fin.ext
    match a with
    | ⟨0, _⟩ => show win0_6.index t (0 : Fin 2) * 1 + 1 * (y 0).val = (y 0).val; omega
    | ⟨1, _⟩ => show win0_6.index t (1 : Fin 2) * 128 + 1 * (y 1).val = (y 1).val; omega
  rw [h]

/-- Window 7 is resident: its one block is its whole array, at every point. -/
theorem layerResident0_7 (c : Dev nD) (t : Fin cfg0.N) : layerBlock0 V c 7 t = V c main_v40 := by
  obtain ⟨e0a, e0b, e1a, e1b, e2a, e2b, e3a, e3b, e4a, e4b, e5a, e5b, e6a, e6b, e7a, e7b, e8a, e8b, e9a, e9b, e10b, e10le⟩ := layerIdx0 t
  funext y
  show V c main_v40 (((cfg0.win 7).blk t).view.emb y) = V c main_v40 y
  have h : ((cfg0.win 7).blk t).view.emb y = y := by
    funext a; apply Fin.ext
    match a with
    | ⟨0, _⟩ => show win0_7.index t (0 : Fin 2) * 1 + 1 * (y 0).val = (y 0).val; omega
    | ⟨1, _⟩ => show win0_7.index t (1 : Fin 2) * 128 + 1 * (y 1).val = (y 1).val; omega
  rw [h]

/-- Window 8 is resident: its one block is its whole array, at every point. -/
theorem layerResident0_8 (c : Dev nD) (t : Fin cfg0.N) : layerBlock0 V c 8 t = V c main_v41 := by
  obtain ⟨e0a, e0b, e1a, e1b, e2a, e2b, e3a, e3b, e4a, e4b, e5a, e5b, e6a, e6b, e7a, e7b, e8a, e8b, e9a, e9b, e10b, e10le⟩ := layerIdx0 t
  funext y
  show V c main_v41 (((cfg0.win 8).blk t).view.emb y) = V c main_v41 y
  have h : ((cfg0.win 8).blk t).view.emb y = y := by
    funext a; apply Fin.ext
    match a with
    | ⟨0, _⟩ => show win0_8.index t (0 : Fin 2) * 1 + 1 * (y 0).val = (y 0).val; omega
    | ⟨1, _⟩ => show win0_8.index t (1 : Fin 2) * 128 + 1 * (y 1).val = (y 1).val; omega
  rw [h]

/-- Window 9 is resident: its one block is its whole array, at every point. -/
theorem layerResident0_9 (c : Dev nD) (t : Fin cfg0.N) : layerBlock0 V c 9 t = V c main_v42 := by
  obtain ⟨e0a, e0b, e1a, e1b, e2a, e2b, e3a, e3b, e4a, e4b, e5a, e5b, e6a, e6b, e7a, e7b, e8a, e8b, e9a, e9b, e10b, e10le⟩ := layerIdx0 t
  funext y
  show V c main_v42 (((cfg0.win 9).blk t).view.emb y) = V c main_v42 y
  have h : ((cfg0.win 9).blk t).view.emb y = y := by
    funext a; apply Fin.ext
    match a with
    | ⟨0, _⟩ => show win0_9.index t (0 : Fin 2) * 1 + 1 * (y 0).val = (y 0).val; omega
    | ⟨1, _⟩ => show win0_9.index t (1 : Fin 2) * 128 + 1 * (y 1).val = (y 1).val; omega
  rw [h]

/-- WHAT POINT `t` WRITES BACK is block `t` of the whole-array function. -/
theorem layerFlushed0 (c : Dev nD) (t : Fin cfg0.N) :
    (layerDat0 V c).flushed 10 t = ((cfg0.win 10).blk t).view.read (Elt Ideal) (layerWhole0 V c) := by
  show (cfg0.win 10).cut (grid0.coords t) ((layerDat0 V c).after 10 t) = _
  rw [layerAfter0_10]
  unfold layerOut0
  rw [View.canon_unit_zero zeroOffsets0]
  simp only [View.ld_unit_zero (S := S2000x128) zeroOffsets0, View.ld_unit_zero (S := S128x128) zeroOffsets0, View.ld_unit_zero (S := S1x128) zeroOffsets0]
  rw [layerPayload0, layerResident0_2 V c t, layerResident0_3 V c t, layerResident0_4 V c t, layerResident0_5 V c t, layerResident0_6 V c t, layerResident0_7 V c t, layerResident0_8 V c t, layerResident0_9 V c t]
  obtain ⟨e0a, e0b, e1a, e1b, e2a, e2b, e3a, e3b, e4a, e4b, e5a, e5b, e6a, e6b, e7a, e7b, e8a, e8b, e9a, e9b, e10b, e10le⟩ := layerIdx0 t
  funext j
  show gnnLayer (M := 2000) layerEps0 (layerBlock0 V c 0 t) (layerBlock0 V c 1 t) (V c main_v22) (fun q : Fin 128 => V c main_v37 (ix2 (0 : Fin 1) q)) (V c main_v26) (fun q : Fin 128 => V c main_v38 (ix2 (0 : Fin 1) q))
      (fun q : Fin 128 => V c main_v39 (ix2 (0 : Fin 1) q)) (fun q : Fin 128 => V c main_v40 (ix2 (0 : Fin 1) q)) (fun q : Fin 128 => V c main_v41 (ix2 (0 : Fin 1) q)) (fun q : Fin 128 => V c main_v42 (ix2 (0 : Fin 1) q)) j
    = layerWhole0 V c (((cfg0.win 10).blk t).view.emb j)
  unfold layerWhole0
  refine gnnLayer_eq_of_row layerEps0 (layerBlock0 V c 0 t) (layerBlock0 V c 1 t) (V c main_v6) (V c main_v20) (V c main_v22) (fun q : Fin 128 => V c main_v37 (ix2 (0 : Fin 1) q)) (V c main_v26) (fun q : Fin 128 => V c main_v38 (ix2 (0 : Fin 1) q))
      (fun q : Fin 128 => V c main_v39 (ix2 (0 : Fin 1) q)) (fun q : Fin 128 => V c main_v40 (ix2 (0 : Fin 1) q)) (fun q : Fin 128 => V c main_v41 (ix2 (0 : Fin 1) q)) (fun q : Fin 128 => V c main_v42 (ix2 (0 : Fin 1) q)) j (((cfg0.win 10).blk t).view.emb j) ?_ ?_ ?_
  · show (j 1).val = win0_10.index t (1 : Fin 2) * 128 + 1 * (j 1).val
    omega
  · intro k
    show V c main_v6 (((cfg0.win 0).blk t).view.emb (ix2 (n0 := 2000) (j 0) k)) = V c main_v6 (ix2 (n0 := 50000) ((((cfg0.win 10).blk t).view.emb j) 0) k)
    have h : ((cfg0.win 0).blk t).view.emb (ix2 (n0 := 2000) (j 0) k) = ix2 (n0 := 50000) ((((cfg0.win 10).blk t).view.emb j) 0) k := by
      funext a; apply Fin.ext
      match a with
      | ⟨0, _⟩ => show win0_0.index t (0 : Fin 2) * 2000 + 1 * (j 0).val = win0_10.index t (0 : Fin 2) * 2000 + 1 * (j 0).val; omega
      | ⟨1, _⟩ => show win0_0.index t (1 : Fin 2) * 128 + 1 * k.val = k.val; omega
    rw [h]
  · intro k
    show V c main_v20 (((cfg0.win 1).blk t).view.emb (ix2 (n0 := 2000) (j 0) k)) = V c main_v20 (ix2 (n0 := 50000) ((((cfg0.win 10).blk t).view.emb j) 0) k)
    have h : ((cfg0.win 1).blk t).view.emb (ix2 (n0 := 2000) (j 0) k) = ix2 (n0 := 50000) ((((cfg0.win 10).blk t).view.emb j) 0) k := by
      funext a; apply Fin.ext
      match a with
      | ⟨0, _⟩ => show win0_1.index t (0 : Fin 2) * 2000 + 1 * (j 0).val = win0_10.index t (0 : Fin 2) * 2000 + 1 * (j 0).val; omega
      | ⟨1, _⟩ => show win0_1.index t (1 : Fin 2) * 128 + 1 * k.val = k.val; omega
    rw [h]

/-- An index of the array is in point `t`'s block iff each coordinate is in the block's range on its axis. -/
theorem layerMem0 (t : Fin cfg0.N) (i : S50000x128.Idx) :
    i ∈ ((cfg0.win 10).blk t).view.set ↔ ∀ a : Fin 2, win0_10.index t a * S2000x128.size a ≤ (i a).val ∧ (i a).val < win0_10.index t a * S2000x128.size a + S2000x128.size a := by
  show i ∈ ((View.whole main_v43).slice (win0_10.rect t)).set ↔ _
  rw [View.set_slice_whole, Rect.mem_set_unit]
  exact Iff.rfl

/-- The 25 blocks of 2000 rows tile the 50000 rows: every index is in the block of the point at its row divided by 2000. -/
theorem layerCovered0 (i : S50000x128.Idx) :
    ∃ t : Fin cfg0.N, (cfg0.win 10).flush t = true ∧ i ∈ ((cfg0.win 10).blk t).view.set := by
  have hi0 : (i 0).val < 50000 := (i 0).isLt
  have hi1 : (i 1).val < 128 := (i 1).isLt
  obtain ⟨t, ht⟩ := layerOnto0 ⟨(i 0).val / 2000, by omega⟩
  have q0 : win0_10.index t (0 : Fin 2) = (i 0).val / 2000 := congrFun ht 0
  have q1 : win0_10.index t (1 : Fin 2) = 0 := congrFun ht 1
  refine ⟨t, flush0_10 t, ?_⟩
  rw [layerMem0]
  intro a
  match a with
  | ⟨0, _⟩ => show win0_10.index t (0 : Fin 2) * 2000 ≤ (i 0).val ∧ (i 0).val < win0_10.index t (0 : Fin 2) * 2000 + 2000; omega
  | ⟨1, _⟩ => show win0_10.index t (1 : Fin 2) * 128 ≤ (i 1).val ∧ (i 1).val < win0_10.index t (1 : Fin 2) * 128 + 128; omega

/-- THE OUTPUT ARRAY after the region: the layer of the arrays the region was entered with. -/
theorem layerFinal0 (c : Dev nD) : (layerDat0 V c).arrAt 10 cfg0.N = layerWhole0 V c :=
  (layerDat0 V c).arrAt_eq_of_cover 10 (layerWhole0 V c) (fun t _ => layerFlushed0 V c t) (layerCovered0)

end Cert.KernelIdeal.Frame

end
-- ==== Proof.Ideal.LayerValue1.lean ====
/-
  What region 1 leaves in its output array, at the extended reals: the layer's function of the arrays the region
  is entered with. The block the body stores at a grid point is the layer applied to the blocks it read (the two
  payloads are the vector unit's spelling of the layer). The blocks of the weights and of the one-row parameters
  are their whole arrays at every point; the blocks of the two feature arrays and of the output sit at the same
  2000 rows. Since a row of the layer's result depends only on that row of the features, what a point writes back
  is the block of ONE whole-array function; the 25 blocks tile the 50000 rows, so the array ends holding it.
-/
import proofs.«106503_j32512902431459_1_alg».proof.Proof.Ideal.LayerRegion1
import proofs.«106503_j32512902431459_1_alg».proof.Proof.GnnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open Cert.LayoutLib Cert.DenseLib Cert.RowBlocks Cert.RowNorm Cert.GnnSpec

variable (V : (c : Dev nD) → (b : Ref sig .tc) → Buf (Elt Ideal) ((c : Thread nD τ).loc b))

/-- The constant added to the variance: the float word the program carries, read exactly. -/
abbrev layerEps1 : EReal := Ideal.ofBits .f32 0x3727C5AC#32

theorem zeroOffsets1 : (![0, 0] : Fin 2 → Nat) = fun _ => 0 := funext fun a => by fin_cases a <;> rfl

/-- The body's arithmetic on the ten blocks read is the layer on a block of 2000 rows. -/
theorem layerPayload1 (x0 x1 : Vec Ideal S2000x128 .f32) (x2 : Vec Ideal S128x128 .f32) (x3 : Vec Ideal S1x128 .f32)
    (x4 : Vec Ideal S128x128 .f32) (x5 x6 x7 x8 x9 : Vec Ideal S1x128 .f32) :
    k1_pay1 (F := Ideal) (k1_pay2 (F := Ideal) x0 x1 x2 x3 x4 x5 x9 x8) x6 x7
      = gnnLayer (M := 2000) layerEps1 x0 x1 x2 (fun q : Fin 128 => x3 (ix2 (0 : Fin 1) q)) x4 (fun q : Fin 128 => x5 (ix2 (0 : Fin 1) q)) (fun q : Fin 128 => x6 (ix2 (0 : Fin 1) q)) (fun q : Fin 128 => x7 (ix2 (0 : Fin 1) q)) (fun q : Fin 128 => x8 (ix2 (0 : Fin 1) q)) (fun q : Fin 128 => x9 (ix2 (0 : Fin 1) q)) := by
  unfold k1_pay1 k1_pay2
  simp only [truncf_eq, shapeCast_self, matmul_eq_mm dot_S2000x128_S128x128_S2000x128_1_0_0_1_n_n rfl, broadcastTo_eq_rows, maximumf_splat_zero]
  rfl

/-- The whole-array function the region's output ends at. -/
def layerWhole1 (c : Dev nD) : S50000x128.Idx → EReal :=
  gnnLayer (M := 50000) layerEps1 (V c main_v43) (V c main_v53) (V c main_v55) (fun q : Fin 128 => V c main_v70 (ix2 (0 : Fin 1) q)) (V c main_v59) (fun q : Fin 128 => V c main_v71 (ix2 (0 : Fin 1) q))
    (fun q : Fin 128 => V c main_v72 (ix2 (0 : Fin 1) q)) (fun q : Fin 128 => V c main_v73 (ix2 (0 : Fin 1) q)) (fun q : Fin 128 => V c main_v74 (ix2 (0 : Fin 1) q)) (fun q : Fin 128 => V c main_v75 (ix2 (0 : Fin 1) q))

/-- The printed index maps, decided over the 25 grid points: the two feature windows move with the output window
    along the rows; every other window stays at block (0, 0); the output's row-block index is at most 24. -/
theorem layerIdx1 : ∀ t : Fin cfg1.N, win1_0.index t (0 : Fin 2) = win1_10.index t (0 : Fin 2)
    ∧ win1_0.index t (1 : Fin 2) = 0
    ∧ win1_1.index t (0 : Fin 2) = win1_10.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (1 : Fin 2) = 0
    ∧ win1_10.index t (0 : Fin 2) ≤ 24 :=
  (by decide +kernel : ∀ t : Fin grid1.N, _)

/-- Every block of rows is some point's. -/
theorem layerOnto1 : ∀ q0 : Fin 25, ∃ t : Fin cfg1.N, win1_10.index t = ![q0.val, 0] :=
  (by decide +kernel : ∀ q0 : Fin 25, ∃ t : Fin grid1.N, win1_10.index t = ![q0.val, 0])

/-- Window 2 is resident: its one block is its whole array, at every point. -/
theorem layerResident1_2 (c : Dev nD) (t : Fin cfg1.N) : layerBlock1 V c 2 t = V c main_v55 := by
  obtain ⟨e0a, e0b, e1a, e1b, e2a, e2b, e3a, e3b, e4a, e4b, e5a, e5b, e6a, e6b, e7a, e7b, e8a, e8b, e9a, e9b, e10b, e10le⟩ := layerIdx1 t
  funext y
  show V c main_v55 (((cfg1.win 2).blk t).view.emb y) = V c main_v55 y
  have h : ((cfg1.win 2).blk t).view.emb y = y := by
    funext a; apply Fin.ext
    match a with
    | ⟨0, _⟩ => show win1_2.index t (0 : Fin 2) * 128 + 1 * (y 0).val = (y 0).val; omega
    | ⟨1, _⟩ => show win1_2.index t (1 : Fin 2) * 128 + 1 * (y 1).val = (y 1).val; omega
  rw [h]

/-- Window 3 is resident: its one block is its whole array, at every point. -/
theorem layerResident1_3 (c : Dev nD) (t : Fin cfg1.N) : layerBlock1 V c 3 t = V c main_v70 := by
  obtain ⟨e0a, e0b, e1a, e1b, e2a, e2b, e3a, e3b, e4a, e4b, e5a, e5b, e6a, e6b, e7a, e7b, e8a, e8b, e9a, e9b, e10b, e10le⟩ := layerIdx1 t
  funext y
  show V c main_v70 (((cfg1.win 3).blk t).view.emb y) = V c main_v70 y
  have h : ((cfg1.win 3).blk t).view.emb y = y := by
    funext a; apply Fin.ext
    match a with
    | ⟨0, _⟩ => show win1_3.index t (0 : Fin 2) * 1 + 1 * (y 0).val = (y 0).val; omega
    | ⟨1, _⟩ => show win1_3.index t (1 : Fin 2) * 128 + 1 * (y 1).val = (y 1).val; omega
  rw [h]

/-- Window 4 is resident: its one block is its whole array, at every point. -/
theorem layerResident1_4 (c : Dev nD) (t : Fin cfg1.N) : layerBlock1 V c 4 t = V c main_v59 := by
  obtain ⟨e0a, e0b, e1a, e1b, e2a, e2b, e3a, e3b, e4a, e4b, e5a, e5b, e6a, e6b, e7a, e7b, e8a, e8b, e9a, e9b, e10b, e10le⟩ := layerIdx1 t
  funext y
  show V c main_v59 (((cfg1.win 4).blk t).view.emb y) = V c main_v59 y
  have h : ((cfg1.win 4).blk t).view.emb y = y := by
    funext a; apply Fin.ext
    match a with
    | ⟨0, _⟩ => show win1_4.index t (0 : Fin 2) * 128 + 1 * (y 0).val = (y 0).val; omega
    | ⟨1, _⟩ => show win1_4.index t (1 : Fin 2) * 128 + 1 * (y 1).val = (y 1).val; omega
  rw [h]

/-- Window 5 is resident: its one block is its whole array, at every point. -/
theorem layerResident1_5 (c : Dev nD) (t : Fin cfg1.N) : layerBlock1 V c 5 t = V c main_v71 := by
  obtain ⟨e0a, e0b, e1a, e1b, e2a, e2b, e3a, e3b, e4a, e4b, e5a, e5b, e6a, e6b, e7a, e7b, e8a, e8b, e9a, e9b, e10b, e10le⟩ := layerIdx1 t
  funext y
  show V c main_v71 (((cfg1.win 5).blk t).view.emb y) = V c main_v71 y
  have h : ((cfg1.win 5).blk t).view.emb y = y := by
    funext a; apply Fin.ext
    match a with
    | ⟨0, _⟩ => show win1_5.index t (0 : Fin 2) * 1 + 1 * (y 0).val = (y 0).val; omega
    | ⟨1, _⟩ => show win1_5.index t (1 : Fin 2) * 128 + 1 * (y 1).val = (y 1).val; omega
  rw [h]

/-- Window 6 is resident: its one block is its whole array, at every point. -/
theorem layerResident1_6 (c : Dev nD) (t : Fin cfg1.N) : layerBlock1 V c 6 t = V c main_v72 := by
  obtain ⟨e0a, e0b, e1a, e1b, e2a, e2b, e3a, e3b, e4a, e4b, e5a, e5b, e6a, e6b, e7a, e7b, e8a, e8b, e9a, e9b, e10b, e10le⟩ := layerIdx1 t
  funext y
  show V c main_v72 (((cfg1.win 6).blk t).view.emb y) = V c main_v72 y
  have h : ((cfg1.win 6).blk t).view.emb y = y := by
    funext a; apply Fin.ext
    match a with
    | ⟨0, _⟩ => show win1_6.index t (0 : Fin 2) * 1 + 1 * (y 0).val = (y 0).val; omega
    | ⟨1, _⟩ => show win1_6.index t (1 : Fin 2) * 128 + 1 * (y 1).val = (y 1).val; omega
  rw [h]

/-- Window 7 is resident: its one block is its whole array, at every point. -/
theorem layerResident1_7 (c : Dev nD) (t : Fin cfg1.N) : layerBlock1 V c 7 t = V c main_v73 := by
  obtain ⟨e0a, e0b, e1a, e1b, e2a, e2b, e3a, e3b, e4a, e4b, e5a, e5b, e6a, e6b, e7a, e7b, e8a, e8b, e9a, e9b, e10b, e10le⟩ := layerIdx1 t
  funext y
  show V c main_v73 (((cfg1.win 7).blk t).view.emb y) = V c main_v73 y
  have h : ((cfg1.win 7).blk t).view.emb y = y := by
    funext a; apply Fin.ext
    match a with
    | ⟨0, _⟩ => show win1_7.index t (0 : Fin 2) * 1 + 1 * (y 0).val = (y 0).val; omega
    | ⟨1, _⟩ => show win1_7.index t (1 : Fin 2) * 128 + 1 * (y 1).val = (y 1).val; omega
  rw [h]

/-- Window 8 is resident: its one block is its whole array, at every point. -/
theorem layerResident1_8 (c : Dev nD) (t : Fin cfg1.N) : layerBlock1 V c 8 t = V c main_v74 := by
  obtain ⟨e0a, e0b, e1a, e1b, e2a, e2b, e3a, e3b, e4a, e4b, e5a, e5b, e6a, e6b, e7a, e7b, e8a, e8b, e9a, e9b, e10b, e10le⟩ := layerIdx1 t
  funext y
  show V c main_v74 (((cfg1.win 8).blk t).view.emb y) = V c main_v74 y
  have h : ((cfg1.win 8).blk t).view.emb y = y := by
    funext a; apply Fin.ext
    match a with
    | ⟨0, _⟩ => show win1_8.index t (0 : Fin 2) * 1 + 1 * (y 0).val = (y 0).val; omega
    | ⟨1, _⟩ => show win1_8.index t (1 : Fin 2) * 128 + 1 * (y 1).val = (y 1).val; omega
  rw [h]

/-- Window 9 is resident: its one block is its whole array, at every point. -/
theorem layerResident1_9 (c : Dev nD) (t : Fin cfg1.N) : layerBlock1 V c 9 t = V c main_v75 := by
  obtain ⟨e0a, e0b, e1a, e1b, e2a, e2b, e3a, e3b, e4a, e4b, e5a, e5b, e6a, e6b, e7a, e7b, e8a, e8b, e9a, e9b, e10b, e10le⟩ := layerIdx1 t
  funext y
  show V c main_v75 (((cfg1.win 9).blk t).view.emb y) = V c main_v75 y
  have h : ((cfg1.win 9).blk t).view.emb y = y := by
    funext a; apply Fin.ext
    match a with
    | ⟨0, _⟩ => show win1_9.index t (0 : Fin 2) * 1 + 1 * (y 0).val = (y 0).val; omega
    | ⟨1, _⟩ => show win1_9.index t (1 : Fin 2) * 128 + 1 * (y 1).val = (y 1).val; omega
  rw [h]

/-- WHAT POINT `t` WRITES BACK is block `t` of the whole-array function. -/
theorem layerFlushed1 (c : Dev nD) (t : Fin cfg1.N) :
    (layerDat1 V c).flushed 10 t = ((cfg1.win 10).blk t).view.read (Elt Ideal) (layerWhole1 V c) := by
  show (cfg1.win 10).cut (grid1.coords t) ((layerDat1 V c).after 10 t) = _
  rw [layerAfter1_10]
  unfold layerOut1
  rw [View.canon_unit_zero zeroOffsets1]
  simp only [View.ld_unit_zero (S := S2000x128) zeroOffsets1, View.ld_unit_zero (S := S128x128) zeroOffsets1, View.ld_unit_zero (S := S1x128) zeroOffsets1]
  rw [layerPayload1, layerResident1_2 V c t, layerResident1_3 V c t, layerResident1_4 V c t, layerResident1_5 V c t, layerResident1_6 V c t, layerResident1_7 V c t, layerResident1_8 V c t, layerResident1_9 V c t]
  obtain ⟨e0a, e0b, e1a, e1b, e2a, e2b, e3a, e3b, e4a, e4b, e5a, e5b, e6a, e6b, e7a, e7b, e8a, e8b, e9a, e9b, e10b, e10le⟩ := layerIdx1 t
  funext j
  show gnnLayer (M := 2000) layerEps1 (layerBlock1 V c 0 t) (layerBlock1 V c 1 t) (V c main_v55) (fun q : Fin 128 => V c main_v70 (ix2 (0 : Fin 1) q)) (V c main_v59) (fun q : Fin 128 => V c main_v71 (ix2 (0 : Fin 1) q))
      (fun q : Fin 128 => V c main_v72 (ix2 (0 : Fin 1) q)) (fun q : Fin 128 => V c main_v73 (ix2 (0 : Fin 1) q)) (fun q : Fin 128 => V c main_v74 (ix2 (0 : Fin 1) q)) (fun q : Fin 128 => V c main_v75 (ix2 (0 : Fin 1) q)) j
    = layerWhole1 V c (((cfg1.win 10).blk t).view.emb j)
  unfold layerWhole1
  refine gnnLayer_eq_of_row layerEps1 (layerBlock1 V c 0 t) (layerBlock1 V c 1 t) (V c main_v43) (V c main_v53) (V c main_v55) (fun q : Fin 128 => V c main_v70 (ix2 (0 : Fin 1) q)) (V c main_v59) (fun q : Fin 128 => V c main_v71 (ix2 (0 : Fin 1) q))
      (fun q : Fin 128 => V c main_v72 (ix2 (0 : Fin 1) q)) (fun q : Fin 128 => V c main_v73 (ix2 (0 : Fin 1) q)) (fun q : Fin 128 => V c main_v74 (ix2 (0 : Fin 1) q)) (fun q : Fin 128 => V c main_v75 (ix2 (0 : Fin 1) q)) j (((cfg1.win 10).blk t).view.emb j) ?_ ?_ ?_
  · show (j 1).val = win1_10.index t (1 : Fin 2) * 128 + 1 * (j 1).val
    omega
  · intro k
    show V c main_v43 (((cfg1.win 0).blk t).view.emb (ix2 (n0 := 2000) (j 0) k)) = V c main_v43 (ix2 (n0 := 50000) ((((cfg1.win 10).blk t).view.emb j) 0) k)
    have h : ((cfg1.win 0).blk t).view.emb (ix2 (n0 := 2000) (j 0) k) = ix2 (n0 := 50000) ((((cfg1.win 10).blk t).view.emb j) 0) k := by
      funext a; apply Fin.ext
      match a with
      | ⟨0, _⟩ => show win1_0.index t (0 : Fin 2) * 2000 + 1 * (j 0).val = win1_10.index t (0 : Fin 2) * 2000 + 1 * (j 0).val; omega
      | ⟨1, _⟩ => show win1_0.index t (1 : Fin 2) * 128 + 1 * k.val = k.val; omega
    rw [h]
  · intro k
    show V c main_v53 (((cfg1.win 1).blk t).view.emb (ix2 (n0 := 2000) (j 0) k)) = V c main_v53 (ix2 (n0 := 50000) ((((cfg1.win 10).blk t).view.emb j) 0) k)
    have h : ((cfg1.win 1).blk t).view.emb (ix2 (n0 := 2000) (j 0) k) = ix2 (n0 := 50000) ((((cfg1.win 10).blk t).view.emb j) 0) k := by
      funext a; apply Fin.ext
      match a with
      | ⟨0, _⟩ => show win1_1.index t (0 : Fin 2) * 2000 + 1 * (j 0).val = win1_10.index t (0 : Fin 2) * 2000 + 1 * (j 0).val; omega
      | ⟨1, _⟩ => show win1_1.index t (1 : Fin 2) * 128 + 1 * k.val = k.val; omega
    rw [h]

/-- An index of the array is in point `t`'s block iff each coordinate is in the block's range on its axis. -/
theorem layerMem1 (t : Fin cfg1.N) (i : S50000x128.Idx) :
    i ∈ ((cfg1.win 10).blk t).view.set ↔ ∀ a : Fin 2, win1_10.index t a * S2000x128.size a ≤ (i a).val ∧ (i a).val < win1_10.index t a * S2000x128.size a + S2000x128.size a := by
  show i ∈ ((View.whole main_v76).slice (win1_10.rect t)).set ↔ _
  rw [View.set_slice_whole, Rect.mem_set_unit]
  exact Iff.rfl

/-- The 25 blocks of 2000 rows tile the 50000 rows: every index is in the block of the point at its row divided by 2000. -/
theorem layerCovered1 (i : S50000x128.Idx) :
    ∃ t : Fin cfg1.N, (cfg1.win 10).flush t = true ∧ i ∈ ((cfg1.win 10).blk t).view.set := by
  have hi0 : (i 0).val < 50000 := (i 0).isLt
  have hi1 : (i 1).val < 128 := (i 1).isLt
  obtain ⟨t, ht⟩ := layerOnto1 ⟨(i 0).val / 2000, by omega⟩
  have q0 : win1_10.index t (0 : Fin 2) = (i 0).val / 2000 := congrFun ht 0
  have q1 : win1_10.index t (1 : Fin 2) = 0 := congrFun ht 1
  refine ⟨t, flush1_10 t, ?_⟩
  rw [layerMem1]
  intro a
  match a with
  | ⟨0, _⟩ => show win1_10.index t (0 : Fin 2) * 2000 ≤ (i 0).val ∧ (i 0).val < win1_10.index t (0 : Fin 2) * 2000 + 2000; omega
  | ⟨1, _⟩ => show win1_10.index t (1 : Fin 2) * 128 ≤ (i 1).val ∧ (i 1).val < win1_10.index t (1 : Fin 2) * 128 + 128; omega

/-- THE OUTPUT ARRAY after the region: the layer of the arrays the region was entered with. -/
theorem layerFinal1 (c : Dev nD) : (layerDat1 V c).arrAt 10 cfg1.N = layerWhole1 V c :=
  (layerDat1 V c).arrAt_eq_of_cover 10 (layerWhole1 V c) (fun t _ => layerFlushed1 V c t) (layerCovered1)

end Cert.KernelIdeal.Frame

end
-- ==== Proof.Ideal.LayerValue2.lean ====
/-
  What region 2 leaves in its output array, at the extended reals: the layer's function of the arrays the region
  is entered with. The block the body stores at a grid point is the layer applied to the blocks it read (the two
  payloads are the vector unit's spelling of the layer). The blocks of the weights and of the one-row parameters
  are their whole arrays at every point; the blocks of the two feature arrays and of the output sit at the same
  2000 rows. Since a row of the layer's result depends only on that row of the features, what a point writes back
  is the block of ONE whole-array function; the 25 blocks tile the 50000 rows, so the array ends holding it.
-/
import proofs.«106503_j32512902431459_1_alg».proof.Proof.Ideal.LayerRegion2
import proofs.«106503_j32512902431459_1_alg».proof.Proof.GnnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open Cert.LayoutLib Cert.DenseLib Cert.RowBlocks Cert.RowNorm Cert.GnnSpec

variable (V : (c : Dev nD) → (b : Ref sig .tc) → Buf (Elt Ideal) ((c : Thread nD τ).loc b))

/-- The constant added to the variance: the float word the program carries, read exactly. -/
abbrev layerEps2 : EReal := Ideal.ofBits .f32 0x3727C5AC#32

theorem zeroOffsets2 : (![0, 0] : Fin 2 → Nat) = fun _ => 0 := funext fun a => by fin_cases a <;> rfl

/-- The body's arithmetic on the ten blocks read is the layer on a block of 2000 rows. -/
theorem layerPayload2 (x0 x1 : Vec Ideal S2000x128 .f32) (x2 : Vec Ideal S128x128 .f32) (x3 : Vec Ideal S1x128 .f32)
    (x4 : Vec Ideal S128x128 .f32) (x5 x6 x7 x8 x9 : Vec Ideal S1x128 .f32) :
    k2_pay1 (F := Ideal) (k2_pay2 (F := Ideal) x0 x1 x2 x3 x4 x5 x9 x8) x6 x7
      = gnnLayer (M := 2000) layerEps2 x0 x1 x2 (fun q : Fin 128 => x3 (ix2 (0 : Fin 1) q)) x4 (fun q : Fin 128 => x5 (ix2 (0 : Fin 1) q)) (fun q : Fin 128 => x6 (ix2 (0 : Fin 1) q)) (fun q : Fin 128 => x7 (ix2 (0 : Fin 1) q)) (fun q : Fin 128 => x8 (ix2 (0 : Fin 1) q)) (fun q : Fin 128 => x9 (ix2 (0 : Fin 1) q)) := by
  unfold k2_pay1 k2_pay2
  simp only [truncf_eq, shapeCast_self, matmul_eq_mm dot_S2000x128_S128x128_S2000x128_1_0_0_1_n_n rfl, broadcastTo_eq_rows, maximumf_splat_zero]
  rfl

/-- The whole-array function the region's output ends at. -/
def layerWhole2 (c : Dev nD) : S50000x128.Idx → EReal :=
  gnnLayer (M := 50000) layerEps2 (V c main_v76) (V c main_v86) (V c main_v88) (fun q : Fin 128 => V c main_v103 (ix2 (0 : Fin 1) q)) (V c main_v92) (fun q : Fin 128 => V c main_v104 (ix2 (0 : Fin 1) q))
    (fun q : Fin 128 => V c main_v105 (ix2 (0 : Fin 1) q)) (fun q : Fin 128 => V c main_v106 (ix2 (0 : Fin 1) q)) (fun q : Fin 128 => V c main_v107 (ix2 (0 : Fin 1) q)) (fun q : Fin 128 => V c main_v108 (ix2 (0 : Fin 1) q))

/-- The printed index maps, decided over the 25 grid points: the two feature windows move with the output window
    along the rows; every other window stays at block (0, 0); the output's row-block index is at most 24. -/
theorem layerIdx2 : ∀ t : Fin cfg2.N, win2_0.index t (0 : Fin 2) = win2_10.index t (0 : Fin 2)
    ∧ win2_0.index t (1 : Fin 2) = 0
    ∧ win2_1.index t (0 : Fin 2) = win2_10.index t (0 : Fin 2)
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (1 : Fin 2) = 0
    ∧ win2_10.index t (0 : Fin 2) ≤ 24 :=
  (by decide +kernel : ∀ t : Fin grid2.N, _)

/-- Every block of rows is some point's. -/
theorem layerOnto2 : ∀ q0 : Fin 25, ∃ t : Fin cfg2.N, win2_10.index t = ![q0.val, 0] :=
  (by decide +kernel : ∀ q0 : Fin 25, ∃ t : Fin grid2.N, win2_10.index t = ![q0.val, 0])

/-- Window 2 is resident: its one block is its whole array, at every point. -/
theorem layerResident2_2 (c : Dev nD) (t : Fin cfg2.N) : layerBlock2 V c 2 t = V c main_v88 := by
  obtain ⟨e0a, e0b, e1a, e1b, e2a, e2b, e3a, e3b, e4a, e4b, e5a, e5b, e6a, e6b, e7a, e7b, e8a, e8b, e9a, e9b, e10b, e10le⟩ := layerIdx2 t
  funext y
  show V c main_v88 (((cfg2.win 2).blk t).view.emb y) = V c main_v88 y
  have h : ((cfg2.win 2).blk t).view.emb y = y := by
    funext a; apply Fin.ext
    match a with
    | ⟨0, _⟩ => show win2_2.index t (0 : Fin 2) * 128 + 1 * (y 0).val = (y 0).val; omega
    | ⟨1, _⟩ => show win2_2.index t (1 : Fin 2) * 128 + 1 * (y 1).val = (y 1).val; omega
  rw [h]

/-- Window 3 is resident: its one block is its whole array, at every point. -/
theorem layerResident2_3 (c : Dev nD) (t : Fin cfg2.N) : layerBlock2 V c 3 t = V c main_v103 := by
  obtain ⟨e0a, e0b, e1a, e1b, e2a, e2b, e3a, e3b, e4a, e4b, e5a, e5b, e6a, e6b, e7a, e7b, e8a, e8b, e9a, e9b, e10b, e10le⟩ := layerIdx2 t
  funext y
  show V c main_v103 (((cfg2.win 3).blk t).view.emb y) = V c main_v103 y
  have h : ((cfg2.win 3).blk t).view.emb y = y := by
    funext a; apply Fin.ext
    match a with
    | ⟨0, _⟩ => show win2_3.index t (0 : Fin 2) * 1 + 1 * (y 0).val = (y 0).val; omega
    | ⟨1, _⟩ => show win2_3.index t (1 : Fin 2) * 128 + 1 * (y 1).val = (y 1).val; omega
  rw [h]

/-- Window 4 is resident: its one block is its whole array, at every point. -/
theorem layerResident2_4 (c : Dev nD) (t : Fin cfg2.N) : layerBlock2 V c 4 t = V c main_v92 := by
  obtain ⟨e0a, e0b, e1a, e1b, e2a, e2b, e3a, e3b, e4a, e4b, e5a, e5b, e6a, e6b, e7a, e7b, e8a, e8b, e9a, e9b, e10b, e10le⟩ := layerIdx2 t
  funext y
  show V c main_v92 (((cfg2.win 4).blk t).view.emb y) = V c main_v92 y
  have h : ((cfg2.win 4).blk t).view.emb y = y := by
    funext a; apply Fin.ext
    match a with
    | ⟨0, _⟩ => show win2_4.index t (0 : Fin 2) * 128 + 1 * (y 0).val = (y 0).val; omega
    | ⟨1, _⟩ => show win2_4.index t (1 : Fin 2) * 128 + 1 * (y 1).val = (y 1).val; omega
  rw [h]

/-- Window 5 is resident: its one block is its whole array, at every point. -/
theorem layerResident2_5 (c : Dev nD) (t : Fin cfg2.N) : layerBlock2 V c 5 t = V c main_v104 := by
  obtain ⟨e0a, e0b, e1a, e1b, e2a, e2b, e3a, e3b, e4a, e4b, e5a, e5b, e6a, e6b, e7a, e7b, e8a, e8b, e9a, e9b, e10b, e10le⟩ := layerIdx2 t
  funext y
  show V c main_v104 (((cfg2.win 5).blk t).view.emb y) = V c main_v104 y
  have h : ((cfg2.win 5).blk t).view.emb y = y := by
    funext a; apply Fin.ext
    match a with
    | ⟨0, _⟩ => show win2_5.index t (0 : Fin 2) * 1 + 1 * (y 0).val = (y 0).val; omega
    | ⟨1, _⟩ => show win2_5.index t (1 : Fin 2) * 128 + 1 * (y 1).val = (y 1).val; omega
  rw [h]

/-- Window 6 is resident: its one block is its whole array, at every point. -/
theorem layerResident2_6 (c : Dev nD) (t : Fin cfg2.N) : layerBlock2 V c 6 t = V c main_v105 := by
  obtain ⟨e0a, e0b, e1a, e1b, e2a, e2b, e3a, e3b, e4a, e4b, e5a, e5b, e6a, e6b, e7a, e7b, e8a, e8b, e9a, e9b, e10b, e10le⟩ := layerIdx2 t
  funext y
  show V c main_v105 (((cfg2.win 6).blk t).view.emb y) = V c main_v105 y
  have h : ((cfg2.win 6).blk t).view.emb y = y := by
    funext a; apply Fin.ext
    match a with
    | ⟨0, _⟩ => show win2_6.index t (0 : Fin 2) * 1 + 1 * (y 0).val = (y 0).val; omega
    | ⟨1, _⟩ => show win2_6.index t (1 : Fin 2) * 128 + 1 * (y 1).val = (y 1).val; omega
  rw [h]

/-- Window 7 is resident: its one block is its whole array, at every point. -/
theorem layerResident2_7 (c : Dev nD) (t : Fin cfg2.N) : layerBlock2 V c 7 t = V c main_v106 := by
  obtain ⟨e0a, e0b, e1a, e1b, e2a, e2b, e3a, e3b, e4a, e4b, e5a, e5b, e6a, e6b, e7a, e7b, e8a, e8b, e9a, e9b, e10b, e10le⟩ := layerIdx2 t
  funext y
  show V c main_v106 (((cfg2.win 7).blk t).view.emb y) = V c main_v106 y
  have h : ((cfg2.win 7).blk t).view.emb y = y := by
    funext a; apply Fin.ext
    match a with
    | ⟨0, _⟩ => show win2_7.index t (0 : Fin 2) * 1 + 1 * (y 0).val = (y 0).val; omega
    | ⟨1, _⟩ => show win2_7.index t (1 : Fin 2) * 128 + 1 * (y 1).val = (y 1).val; omega
  rw [h]

/-- Window 8 is resident: its one block is its whole array, at every point. -/
theorem layerResident2_8 (c : Dev nD) (t : Fin cfg2.N) : layerBlock2 V c 8 t = V c main_v107 := by
  obtain ⟨e0a, e0b, e1a, e1b, e2a, e2b, e3a, e3b, e4a, e4b, e5a, e5b, e6a, e6b, e7a, e7b, e8a, e8b, e9a, e9b, e10b, e10le⟩ := layerIdx2 t
  funext y
  show V c main_v107 (((cfg2.win 8).blk t).view.emb y) = V c main_v107 y
  have h : ((cfg2.win 8).blk t).view.emb y = y := by
    funext a; apply Fin.ext
    match a with
    | ⟨0, _⟩ => show win2_8.index t (0 : Fin 2) * 1 + 1 * (y 0).val = (y 0).val; omega
    | ⟨1, _⟩ => show win2_8.index t (1 : Fin 2) * 128 + 1 * (y 1).val = (y 1).val; omega
  rw [h]

/-- Window 9 is resident: its one block is its whole array, at every point. -/
theorem layerResident2_9 (c : Dev nD) (t : Fin cfg2.N) : layerBlock2 V c 9 t = V c main_v108 := by
  obtain ⟨e0a, e0b, e1a, e1b, e2a, e2b, e3a, e3b, e4a, e4b, e5a, e5b, e6a, e6b, e7a, e7b, e8a, e8b, e9a, e9b, e10b, e10le⟩ := layerIdx2 t
  funext y
  show V c main_v108 (((cfg2.win 9).blk t).view.emb y) = V c main_v108 y
  have h : ((cfg2.win 9).blk t).view.emb y = y := by
    funext a; apply Fin.ext
    match a with
    | ⟨0, _⟩ => show win2_9.index t (0 : Fin 2) * 1 + 1 * (y 0).val = (y 0).val; omega
    | ⟨1, _⟩ => show win2_9.index t (1 : Fin 2) * 128 + 1 * (y 1).val = (y 1).val; omega
  rw [h]

/-- WHAT POINT `t` WRITES BACK is block `t` of the whole-array function. -/
theorem layerFlushed2 (c : Dev nD) (t : Fin cfg2.N) :
    (layerDat2 V c).flushed 10 t = ((cfg2.win 10).blk t).view.read (Elt Ideal) (layerWhole2 V c) := by
  show (cfg2.win 10).cut (grid2.coords t) ((layerDat2 V c).after 10 t) = _
  rw [layerAfter2_10]
  unfold layerOut2
  rw [View.canon_unit_zero zeroOffsets2]
  simp only [View.ld_unit_zero (S := S2000x128) zeroOffsets2, View.ld_unit_zero (S := S128x128) zeroOffsets2, View.ld_unit_zero (S := S1x128) zeroOffsets2]
  rw [layerPayload2, layerResident2_2 V c t, layerResident2_3 V c t, layerResident2_4 V c t, layerResident2_5 V c t, layerResident2_6 V c t, layerResident2_7 V c t, layerResident2_8 V c t, layerResident2_9 V c t]
  obtain ⟨e0a, e0b, e1a, e1b, e2a, e2b, e3a, e3b, e4a, e4b, e5a, e5b, e6a, e6b, e7a, e7b, e8a, e8b, e9a, e9b, e10b, e10le⟩ := layerIdx2 t
  funext j
  show gnnLayer (M := 2000) layerEps2 (layerBlock2 V c 0 t) (layerBlock2 V c 1 t) (V c main_v88) (fun q : Fin 128 => V c main_v103 (ix2 (0 : Fin 1) q)) (V c main_v92) (fun q : Fin 128 => V c main_v104 (ix2 (0 : Fin 1) q))
      (fun q : Fin 128 => V c main_v105 (ix2 (0 : Fin 1) q)) (fun q : Fin 128 => V c main_v106 (ix2 (0 : Fin 1) q)) (fun q : Fin 128 => V c main_v107 (ix2 (0 : Fin 1) q)) (fun q : Fin 128 => V c main_v108 (ix2 (0 : Fin 1) q)) j
    = layerWhole2 V c (((cfg2.win 10).blk t).view.emb j)
  unfold layerWhole2
  refine gnnLayer_eq_of_row layerEps2 (layerBlock2 V c 0 t) (layerBlock2 V c 1 t) (V c main_v76) (V c main_v86) (V c main_v88) (fun q : Fin 128 => V c main_v103 (ix2 (0 : Fin 1) q)) (V c main_v92) (fun q : Fin 128 => V c main_v104 (ix2 (0 : Fin 1) q))
      (fun q : Fin 128 => V c main_v105 (ix2 (0 : Fin 1) q)) (fun q : Fin 128 => V c main_v106 (ix2 (0 : Fin 1) q)) (fun q : Fin 128 => V c main_v107 (ix2 (0 : Fin 1) q)) (fun q : Fin 128 => V c main_v108 (ix2 (0 : Fin 1) q)) j (((cfg2.win 10).blk t).view.emb j) ?_ ?_ ?_
  · show (j 1).val = win2_10.index t (1 : Fin 2) * 128 + 1 * (j 1).val
    omega
  · intro k
    show V c main_v76 (((cfg2.win 0).blk t).view.emb (ix2 (n0 := 2000) (j 0) k)) = V c main_v76 (ix2 (n0 := 50000) ((((cfg2.win 10).blk t).view.emb j) 0) k)
    have h : ((cfg2.win 0).blk t).view.emb (ix2 (n0 := 2000) (j 0) k) = ix2 (n0 := 50000) ((((cfg2.win 10).blk t).view.emb j) 0) k := by
      funext a; apply Fin.ext
      match a with
      | ⟨0, _⟩ => show win2_0.index t (0 : Fin 2) * 2000 + 1 * (j 0).val = win2_10.index t (0 : Fin 2) * 2000 + 1 * (j 0).val; omega
      | ⟨1, _⟩ => show win2_0.index t (1 : Fin 2) * 128 + 1 * k.val = k.val; omega
    rw [h]
  · intro k
    show V c main_v86 (((cfg2.win 1).blk t).view.emb (ix2 (n0 := 2000) (j 0) k)) = V c main_v86 (ix2 (n0 := 50000) ((((cfg2.win 10).blk t).view.emb j) 0) k)
    have h : ((cfg2.win 1).blk t).view.emb (ix2 (n0 := 2000) (j 0) k) = ix2 (n0 := 50000) ((((cfg2.win 10).blk t).view.emb j) 0) k := by
      funext a; apply Fin.ext
      match a with
      | ⟨0, _⟩ => show win2_1.index t (0 : Fin 2) * 2000 + 1 * (j 0).val = win2_10.index t (0 : Fin 2) * 2000 + 1 * (j 0).val; omega
      | ⟨1, _⟩ => show win2_1.index t (1 : Fin 2) * 128 + 1 * k.val = k.val; omega
    rw [h]

/-- An index of the array is in point `t`'s block iff each coordinate is in the block's range on its axis. -/
theorem layerMem2 (t : Fin cfg2.N) (i : S50000x128.Idx) :
    i ∈ ((cfg2.win 10).blk t).view.set ↔ ∀ a : Fin 2, win2_10.index t a * S2000x128.size a ≤ (i a).val ∧ (i a).val < win2_10.index t a * S2000x128.size a + S2000x128.size a := by
  show i ∈ ((View.whole main_v109).slice (win2_10.rect t)).set ↔ _
  rw [View.set_slice_whole, Rect.mem_set_unit]
  exact Iff.rfl

/-- The 25 blocks of 2000 rows tile the 50000 rows: every index is in the block of the point at its row divided by 2000. -/
theorem layerCovered2 (i : S50000x128.Idx) :
    ∃ t : Fin cfg2.N, (cfg2.win 10).flush t = true ∧ i ∈ ((cfg2.win 10).blk t).view.set := by
  have hi0 : (i 0).val < 50000 := (i 0).isLt
  have hi1 : (i 1).val < 128 := (i 1).isLt
  obtain ⟨t, ht⟩ := layerOnto2 ⟨(i 0).val / 2000, by omega⟩
  have q0 : win2_10.index t (0 : Fin 2) = (i 0).val / 2000 := congrFun ht 0
  have q1 : win2_10.index t (1 : Fin 2) = 0 := congrFun ht 1
  refine ⟨t, flush2_10 t, ?_⟩
  rw [layerMem2]
  intro a
  match a with
  | ⟨0, _⟩ => show win2_10.index t (0 : Fin 2) * 2000 ≤ (i 0).val ∧ (i 0).val < win2_10.index t (0 : Fin 2) * 2000 + 2000; omega
  | ⟨1, _⟩ => show win2_10.index t (1 : Fin 2) * 128 ≤ (i 1).val ∧ (i 1).val < win2_10.index t (1 : Fin 2) * 128 + 128; omega

/-- THE OUTPUT ARRAY after the region: the layer of the arrays the region was entered with. -/
theorem layerFinal2 (c : Dev nD) : (layerDat2 V c).arrAt 10 cfg2.N = layerWhole2 V c :=
  (layerDat2 V c).arrAt_eq_of_cover 10 (layerWhole2 V c) (fun t _ => layerFlushed2 V c t) (layerCovered2)

end Cert.KernelIdeal.Frame

end
-- ==== Proof.Ideal.HeadValue.lean ====
/-
  What the head region leaves in the result array, at the extended reals: the head's function of the arrays the
  region is entered with. There is one grid point and every window's one block is its whole array, so the one
  write-back is the whole result. The body's arithmetic is the vector unit's spelling of the head: a matrix
  product into a zero accumulator, a bias row broadcast down the rows, the cut at zero, an entrywise product with a
  weight row, a lane sum kept as a column, a one-entry bias broadcast down the column.
-/
import proofs.«106503_j32512902431459_1_alg».proof.Proof.Ideal.HeadRegion
import proofs.«106503_j32512902431459_1_alg».proof.Proof.GnnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open Cert.LayoutLib Cert.DenseLib Cert.RowBlocks Cert.RowNorm Cert.GnnSpec

variable (V : (c : Dev nD) → (b : Ref sig .tc) → Buf (Elt Ideal) ((c : Thread nD τ).loc b))

theorem zeroOffsetsH : (![0, 0] : Fin 2 → Nat) = fun _ => 0 := funext fun a => by fin_cases a <;> rfl

/-- The body's arithmetic on the five arrays read is the head. -/
theorem headPayload (x0 : Vec Ideal S512x384 .f32) (x1 : Vec Ideal S384x128 .f32) (x2 x3 : Vec Ideal S1x128 .f32) (x4 : Vec Ideal S1x1 .f32) :
    k3_pay1 (F := Ideal) x0 x1 x2 x3 x4 = gnnHead (G := 512) x0 x1 (fun q : Fin 128 => x2 (ix2 (0 : Fin 1) q)) (fun q : Fin 128 => x3 (ix2 (0 : Fin 1) q)) (fun u : Fin 1 => x4 (ix2 (0 : Fin 1) u)) := by
  unfold k3_pay1
  simp only [truncf_eq, shapeCast_self, matmul_eq_mm dot_S512x384_S384x128_S512x128_1_0_0_1_n_n rfl, broadcastTo_eq_rows, maximumf_splat_zero]
  refine (congrArg (fun z : FVec Ideal S512x1 .f32 => addf z (rows (M := 512) fun c : Fin 1 => x4 (ix2 (0 : Fin 1) c)))
    (rowsum_vector (M := 512) (N := 128) _ _ _ _ _ _)).trans ?_
  rfl

/-- The whole-array function the result ends at. -/
def headWhole (c : Dev nD) : S512x1.Idx → EReal :=
  gnnHead (G := 512) (V c main_v122) (V c main_arg12) (fun q : Fin 128 => V c main_v123 (ix2 (0 : Fin 1) q)) (fun q : Fin 128 => V c main_v124 (ix2 (0 : Fin 1) q)) (fun u : Fin 1 => V c main_v125 (ix2 (0 : Fin 1) u))

/-- The printed index maps at the one grid point: every window is at block (0, 0). -/
theorem headIdx : ∀ t : Fin cfg3.N, win3_0.index t (0 : Fin 2) = 0
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0 :=
  (by decide +kernel : ∀ t : Fin grid3.N, _)

/-- Window 0's one block is its whole array. -/
theorem headResident_0 (c : Dev nD) (t : Fin cfg3.N) : headBlock V c 0 t = V c main_v122 := by
  obtain ⟨e0a, e0b, e1a, e1b, e2a, e2b, e3a, e3b, e4a, e4b, e5a, e5b⟩ := headIdx t
  funext y
  show V c main_v122 (((cfg3.win 0).blk t).view.emb y) = V c main_v122 y
  have h : ((cfg3.win 0).blk t).view.emb y = y := by
    funext a; apply Fin.ext
    match a with
    | ⟨0, _⟩ => show win3_0.index t (0 : Fin 2) * 512 + 1 * (y 0).val = (y 0).val; omega
    | ⟨1, _⟩ => show win3_0.index t (1 : Fin 2) * 384 + 1 * (y 1).val = (y 1).val; omega
  rw [h]

/-- Window 1's one block is its whole array. -/
theorem headResident_1 (c : Dev nD) (t : Fin cfg3.N) : headBlock V c 1 t = V c main_arg12 := by
  obtain ⟨e0a, e0b, e1a, e1b, e2a, e2b, e3a, e3b, e4a, e4b, e5a, e5b⟩ := headIdx t
  funext y
  show V c main_arg12 (((cfg3.win 1).blk t).view.emb y) = V c main_arg12 y
  have h : ((cfg3.win 1).blk t).view.emb y = y := by
    funext a; apply Fin.ext
    match a with
    | ⟨0, _⟩ => show win3_1.index t (0 : Fin 2) * 384 + 1 * (y 0).val = (y 0).val; omega
    | ⟨1, _⟩ => show win3_1.index t (1 : Fin 2) * 128 + 1 * (y 1).val = (y 1).val; omega
  rw [h]

/-- Window 2's one block is its whole array. -/
theorem headResident_2 (c : Dev nD) (t : Fin cfg3.N) : headBlock V c 2 t = V c main_v123 := by
  obtain ⟨e0a, e0b, e1a, e1b, e2a, e2b, e3a, e3b, e4a, e4b, e5a, e5b⟩ := headIdx t
  funext y
  show V c main_v123 (((cfg3.win 2).blk t).view.emb y) = V c main_v123 y
  have h : ((cfg3.win 2).blk t).view.emb y = y := by
    funext a; apply Fin.ext
    match a with
    | ⟨0, _⟩ => show win3_2.index t (0 : Fin 2) * 1 + 1 * (y 0).val = (y 0).val; omega
    | ⟨1, _⟩ => show win3_2.index t (1 : Fin 2) * 128 + 1 * (y 1).val = (y 1).val; omega
  rw [h]

/-- Window 3's one block is its whole array. -/
theorem headResident_3 (c : Dev nD) (t : Fin cfg3.N) : headBlock V c 3 t = V c main_v124 := by
  obtain ⟨e0a, e0b, e1a, e1b, e2a, e2b, e3a, e3b, e4a, e4b, e5a, e5b⟩ := headIdx t
  funext y
  show V c main_v124 (((cfg3.win 3).blk t).view.emb y) = V c main_v124 y
  have h : ((cfg3.win 3).blk t).view.emb y = y := by
    funext a; apply Fin.ext
    match a with
    | ⟨0, _⟩ => show win3_3.index t (0 : Fin 2) * 1 + 1 * (y 0).val = (y 0).val; omega
    | ⟨1, _⟩ => show win3_3.index t (1 : Fin 2) * 128 + 1 * (y 1).val = (y 1).val; omega
  rw [h]

/-- Window 4's one block is its whole array. -/
theorem headResident_4 (c : Dev nD) (t : Fin cfg3.N) : headBlock V c 4 t = V c main_v125 := by
  obtain ⟨e0a, e0b, e1a, e1b, e2a, e2b, e3a, e3b, e4a, e4b, e5a, e5b⟩ := headIdx t
  funext y
  show V c main_v125 (((cfg3.win 4).blk t).view.emb y) = V c main_v125 y
  have h : ((cfg3.win 4).blk t).view.emb y = y := by
    funext a; apply Fin.ext
    match a with
    | ⟨0, _⟩ => show win3_4.index t (0 : Fin 2) * 1 + 1 * (y 0).val = (y 0).val; omega
    | ⟨1, _⟩ => show win3_4.index t (1 : Fin 2) * 1 + 1 * (y 1).val = (y 1).val; omega
  rw [h]

/-- WHAT THE POINT WRITES BACK is the whole-array function, read through the one block. -/
theorem headFlushed (c : Dev nD) (t : Fin cfg3.N) :
    (headDat V c).flushed 5 t = ((cfg3.win 5).blk t).view.read (Elt Ideal) (headWhole V c) := by
  show (cfg3.win 5).cut (grid3.coords t) ((headDat V c).after 5 t) = _
  rw [headAfter_5]
  unfold headOut
  rw [View.canon_unit_zero zeroOffsetsH]
  simp only [View.ld_unit_zero (S := S512x384) zeroOffsetsH, View.ld_unit_zero (S := S384x128) zeroOffsetsH, View.ld_unit_zero (S := S1x128) zeroOffsetsH, View.ld_unit_zero (S := S1x1) zeroOffsetsH]
  rw [headPayload, headResident_0 V c t, headResident_1 V c t, headResident_2 V c t, headResident_3 V c t, headResident_4 V c t]
  obtain ⟨e0a, e0b, e1a, e1b, e2a, e2b, e3a, e3b, e4a, e4b, e5a, e5b⟩ := headIdx t
  funext j
  show headWhole V c j = headWhole V c (((cfg3.win 5).blk t).view.emb j)
  have h : ((cfg3.win 5).blk t).view.emb j = j := by
    funext a; apply Fin.ext
    match a with
    | ⟨0, _⟩ => show win3_5.index t (0 : Fin 2) * 512 + 1 * (j 0).val = (j 0).val; omega
    | ⟨1, _⟩ => show win3_5.index t (1 : Fin 2) * 1 + 1 * (j 1).val = (j 1).val; omega
  rw [h]

theorem headMem (t : Fin cfg3.N) (i : S512x1.Idx) :
    i ∈ ((cfg3.win 5).blk t).view.set ↔ ∀ a : Fin 2, win3_5.index t a * S512x1.size a ≤ (i a).val ∧ (i a).val < win3_5.index t a * S512x1.size a + S512x1.size a := by
  show i ∈ ((View.whole main_v126).slice (win3_5.rect t)).set ↔ _
  rw [View.set_slice_whole, Rect.mem_set_unit]
  exact Iff.rfl

/-- The one block is the whole array. -/
theorem headCovered (i : S512x1.Idx) :
    ∃ t : Fin cfg3.N, (cfg3.win 5).flush t = true ∧ i ∈ ((cfg3.win 5).blk t).view.set := by
  obtain ⟨e0a, e0b, e1a, e1b, e2a, e2b, e3a, e3b, e4a, e4b, e5a, e5b⟩ := headIdx t3_0
  have hi0 : (i 0).val < 512 := (i 0).isLt
  have hi1 : (i 1).val < 1 := (i 1).isLt
  refine ⟨t3_0, flush3_5 t3_0, ?_⟩
  rw [headMem]
  intro a
  match a with
  | ⟨0, _⟩ => show win3_5.index t3_0 (0 : Fin 2) * 512 ≤ (i 0).val ∧ (i 0).val < win3_5.index t3_0 (0 : Fin 2) * 512 + 512; omega
  | ⟨1, _⟩ => show win3_5.index t3_0 (1 : Fin 2) * 1 ≤ (i 1).val ∧ (i 1).val < win3_5.index t3_0 (1 : Fin 2) * 1 + 1; omega

/-- THE RESULT ARRAY after the region: the head of the arrays the region was entered with. -/
theorem headFinal (c : Dev nD) : (headDat V c).arrAt 5 cfg3.N = headWhole V c :=
  (headDat V c).arrAt_eq_of_cover 5 (headWhole V c) (fun t _ => headFlushed V c t) (headCovered)

end Cert.KernelIdeal.Frame

end
-- ==== Proof.GnnHost.lean ====
/-
  The layer and the head of the graph network in the spelling a host program gives them: general dots, vectors
  broadcast in two steps, scalars broadcast, a maximum against a broadcast zero, the reciprocal square root taken
  on the vector of variances before it is broadcast. Each is the specification's function. None mentions a program.
-/
import proofs.«106503_j32512902431459_1_alg».proof.Proof.GnnSpec

noncomputable section

namespace Cert.GnnSpec

open Idealize.ShloMosaic Idealize.ShloMosaic.ValueIdx Cert.LayoutLib Cert.DenseLib Cert.RowBlocks Cert.RowNorm

/-- The host's spelling of one layer, on arrays of any height. -/
theorem gnnLayer_host {M : ℕ} (εb : BitVec FTy.f32.bits)
    (D : DotDims ⟨2, ![M, 128]⟩ ⟨2, ![128, 128]⟩ ⟨2, ![M, 128]⟩) (hD : D = DotDims.plain M 128 128)
    (h1 : (⟨1, ![128]⟩ : Shape).BroadcastsInDim ⟨2, ![1, 128]⟩ (![1] : Fin 1 → Fin 2))
    (h2 : (⟨2, ![1, 128]⟩ : Shape).BroadcastsInDim ⟨2, ![M, 128]⟩ (![0, 1] : Fin 2 → Fin 2))
    (h0 : (⟨0, ![]⟩ : Shape).BroadcastsInDim ⟨2, ![M, 128]⟩ (![] : Fin 0 → Fin 2))
    (hv : (⟨0, ![]⟩ : Shape).BroadcastsInDim ⟨1, ![128]⟩ (![] : Fin 0 → Fin 1))
    (x agg : FVec Ideal ⟨2, ![M, 128]⟩ .f32) (W₁ W₂ : FVec Ideal ⟨2, ![128, 128]⟩ .f32) (b₁ b₂ γ β μ v : FVec Ideal ⟨1, ![128]⟩ .f32) :
    addf (mulf (mulf (subf
        (maximumf (addf (Host.dotGeneral D none
            (maximumf (addf (Host.dotGeneral D none (addf x agg) W₁) (broadcastInDim ⟨2, ![M, 128]⟩ ![0, 1] h2 (broadcastInDim ⟨2, ![1, 128]⟩ ![1] h1 b₁)))
              (broadcastInDim ⟨2, ![M, 128]⟩ ![] h0 (constant (F := Ideal) ⟨0, ![]⟩ .f32 0x00000000#32))) W₂)
            (broadcastInDim ⟨2, ![M, 128]⟩ ![0, 1] h2 (broadcastInDim ⟨2, ![1, 128]⟩ ![1] h1 b₂)))
          (broadcastInDim ⟨2, ![M, 128]⟩ ![] h0 (constant (F := Ideal) ⟨0, ![]⟩ .f32 0x00000000#32)))
        (broadcastInDim ⟨2, ![M, 128]⟩ ![0, 1] h2 (broadcastInDim ⟨2, ![1, 128]⟩ ![1] h1 μ)))
        (broadcastInDim ⟨2, ![M, 128]⟩ ![0, 1] h2 (broadcastInDim ⟨2, ![1, 128]⟩ ![1] h1
          (Host.rsqrt (addf v (broadcastInDim ⟨1, ![128]⟩ ![] hv (constant (F := Ideal) ⟨0, ![]⟩ .f32 εb)))))))
        (broadcastInDim ⟨2, ![M, 128]⟩ ![0, 1] h2 (broadcastInDim ⟨2, ![1, 128]⟩ ![1] h1 γ)))
      (broadcastInDim ⟨2, ![M, 128]⟩ ![0, 1] h2 (broadcastInDim ⟨2, ![1, 128]⟩ ![1] h1 β))
    = gnnLayer (Ideal.ofBits .f32 εb) x agg W₁ (fun q => b₁ (ix1 q)) W₂ (fun q => b₂ (ix1 q)) (fun q => γ (ix1 q)) (fun q => β (ix1 q))
        (fun q => μ (ix1 q)) (fun q => v (ix1 q)) := by
  rw [mlp_host D hD D hD h1 h2 h1 h2 h0, maximumf_bcast_zero, broadcastInDim_eq_rows μ h1 h2, broadcastInDim_eq_rows γ h1 h2,
    broadcastInDim_eq_rows β h1 h2, broadcastInDim_eq_rows _ h1 h2, broadcastInDim_scalar hv]
  rfl

/-- The host's spelling of the head, on any number of graphs: the last product is a general dot with a one-column
    matrix, and the last bias a one-entry vector broadcast in two steps. -/
theorem gnnHead_host {G : ℕ}
    (D₁ : DotDims ⟨2, ![G, 384]⟩ ⟨2, ![384, 128]⟩ ⟨2, ![G, 128]⟩) (hD₁ : D₁ = DotDims.plain G 384 128)
    (D₂ : DotDims ⟨2, ![G, 128]⟩ ⟨2, ![128, 1]⟩ ⟨2, ![G, 1]⟩) (hD₂ : D₂ = DotDims.plain G 128 1)
    (h1 : (⟨1, ![128]⟩ : Shape).BroadcastsInDim ⟨2, ![1, 128]⟩ (![1] : Fin 1 → Fin 2))
    (h2 : (⟨2, ![1, 128]⟩ : Shape).BroadcastsInDim ⟨2, ![G, 128]⟩ (![0, 1] : Fin 2 → Fin 2))
    (h0 : (⟨0, ![]⟩ : Shape).BroadcastsInDim ⟨2, ![G, 128]⟩ (![] : Fin 0 → Fin 2))
    (h3 : (⟨1, ![1]⟩ : Shape).BroadcastsInDim ⟨2, ![1, 1]⟩ (![1] : Fin 1 → Fin 2))
    (h4 : (⟨2, ![1, 1]⟩ : Shape).BroadcastsInDim ⟨2, ![G, 1]⟩ (![0, 1] : Fin 2 → Fin 2))
    (P : FVec Ideal ⟨2, ![G, 384]⟩ .f32) (W : FVec Ideal ⟨2, ![384, 128]⟩ .f32) (b₁ : FVec Ideal ⟨1, ![128]⟩ .f32)
    (w₂ : FVec Ideal ⟨2, ![128, 1]⟩ .f32) (b₂ : FVec Ideal ⟨1, ![1]⟩ .f32) :
    addf (Host.dotGeneral D₂ none
        (maximumf (addf (Host.dotGeneral D₁ none P W) (broadcastInDim ⟨2, ![G, 128]⟩ ![0, 1] h2 (broadcastInDim ⟨2, ![1, 128]⟩ ![1] h1 b₁)))
          (broadcastInDim ⟨2, ![G, 128]⟩ ![] h0 (constant (F := Ideal) ⟨0, ![]⟩ .f32 0x00000000#32))) w₂)
      (broadcastInDim ⟨2, ![G, 1]⟩ ![0, 1] h4 (broadcastInDim ⟨2, ![1, 1]⟩ ![1] h3 b₂))
    = gnnHead P W (fun q => b₁ (ix1 q)) (fun k => w₂ (ix2 k (0 : Fin 1))) (fun u => b₂ (ix1 u)) := by
  rw [dotGeneral_eq_mm D₁ hD₁, dotGeneral_eq_mm D₂ hD₂, broadcastInDim_eq_rows b₁ h1 h2, maximumf_bcast_zero,
    broadcastInDim_eq_rows b₂ h3 h4]
  funext i
  obtain ⟨p, u, rfl⟩ : ∃ (p : Fin G) (u : Fin 1), i = ix2 p u := ⟨i 0, i 1, eq_ix2 i⟩
  have hu : u = 0 := Subsingleton.elim _ _
  subst hu
  rfl

end Cert.GnnSpec

end
-- ==== Proof.RefValue.lean ====
/-
  The reference program's stages recognised: each of its three layers is the specification's layer of the stage
  before it, and its last stages are the specification's head of the pooled features. The stages in between
  (the embedding lookup, the sums over incoming edges, the mean over each graph) are left as the reference's own
  stage functions: the kernel's program computes them with the same host operations.
-/
import proofs.«106503_j32512902431459_1_alg».proof.Proof.RefRead
import proofs.«106503_j32512902431459_1_alg».proof.Proof.GnnHost

set_option maxRecDepth 16384

noncomputable section

namespace Cert.ReferenceIdeal.RefValue

open Cert.ReferenceIdeal Cert.ReferenceIdeal.Gen Cert.ReferenceIdeal.ReadP Idealize.ShloMosaic Idealize.ShloMosaic.ValueIdx Cert.GnnSpec

/-- Layer 0 of the reference is the layer's function of its features, its aggregated features and row 0 of each
    parameter array. -/
theorem refLayer0 (x0 : (⟨S50000, .i32⟩ : BufTy).Contents (Elt Ideal)) (x1 : (⟨S2x800000, .i32⟩ : BufTy).Contents (Elt Ideal)) (x3 : (⟨S1000x128, .f32⟩ : BufTy).Contents (Elt Ideal)) (x4 : (⟨S3x128x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) (x8 : (⟨S3x128, .f32⟩ : BufTy).Contents (Elt Ideal)) (x9 : (⟨S3x128, .f32⟩ : BufTy).Contents (Elt Ideal)) (x10 : (⟨S3x128, .f32⟩ : BufTy).Contents (Elt Ideal)) (x11 : (⟨S3x128, .f32⟩ : BufTy).Contents (Elt Ideal)) :
    val_main_v62 (F := Ideal) x0 x1 x3 x4 x5 x6 x7 x8 x9 x10 x11 = gnnLayer (M := 50000) (Ideal.ofBits .f32 0x3727C5AC#32) (val_main_v6 (F := Ideal) x0 x3) (val_main_v20 (F := Ideal) x0 x1 x3) (val_main_v23 (F := Ideal) x4) (fun q : Fin 128 => val_main_v26 (F := Ideal) x5 (ix1 q))
      (val_main_v32 (F := Ideal) x6) (fun q : Fin 128 => val_main_v35 (F := Ideal) x7 (ix1 q)) (fun q : Fin 128 => val_main_v54 (F := Ideal) x8 (ix1 q)) (fun q : Fin 128 => val_main_v59 (F := Ideal) x9 (ix1 q)) (fun q : Fin 128 => val_main_v41 (F := Ideal) x10 (ix1 q)) (fun q : Fin 128 => val_main_v46 (F := Ideal) x11 (ix1 q)) := by
  unfold val_main_v62 val_main_v61 val_main_v60 val_main_v57 val_main_v56 val_main_v55 val_main_v52 val_main_v51 val_main_v50 val_main_v49 val_main_v48 val_main_v47 val_main_cst_3 val_main_v44 val_main_v43 val_main_v42 val_main_v39 val_main_call1_v0 val_main_call1_cst val_main_v38 val_main_v37 val_main_v36 val_main_v33 val_main_v30 val_main_call0_v0 val_main_call0_cst val_main_v29 val_main_v28 val_main_v27 val_main_v24 val_main_v21
  exact gnnLayer_host (M := 50000) 0x3727C5AC#32 _ rfl _ _ _ _ _ _ _ _ _ _ _ _ _ _

/-- Layer 1 of the reference is the layer's function of its features, its aggregated features and row 1 of each
    parameter array. -/
theorem refLayer1 (x0 : (⟨S50000, .i32⟩ : BufTy).Contents (Elt Ideal)) (x1 : (⟨S2x800000, .i32⟩ : BufTy).Contents (Elt Ideal)) (x3 : (⟨S1000x128, .f32⟩ : BufTy).Contents (Elt Ideal)) (x4 : (⟨S3x128x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) (x8 : (⟨S3x128, .f32⟩ : BufTy).Contents (Elt Ideal)) (x9 : (⟨S3x128, .f32⟩ : BufTy).Contents (Elt Ideal)) (x10 : (⟨S3x128, .f32⟩ : BufTy).Contents (Elt Ideal)) (x11 : (⟨S3x128, .f32⟩ : BufTy).Contents (Elt Ideal)) :
    val_main_v114 (F := Ideal) x0 x1 x3 x4 x5 x6 x7 x8 x9 x10 x11 = gnnLayer (M := 50000) (Ideal.ofBits .f32 0x3727C5AC#32) (val_main_v62 (F := Ideal) x0 x1 x3 x4 x5 x6 x7 x8 x9 x10 x11) (val_main_v72 (F := Ideal) x0 x1 x3 x4 x5 x6 x7 x8 x9 x10 x11) (val_main_v75 (F := Ideal) x4) (fun q : Fin 128 => val_main_v78 (F := Ideal) x5 (ix1 q))
      (val_main_v84 (F := Ideal) x6) (fun q : Fin 128 => val_main_v87 (F := Ideal) x7 (ix1 q)) (fun q : Fin 128 => val_main_v106 (F := Ideal) x8 (ix1 q)) (fun q : Fin 128 => val_main_v111 (F := Ideal) x9 (ix1 q)) (fun q : Fin 128 => val_main_v93 (F := Ideal) x10 (ix1 q)) (fun q : Fin 128 => val_main_v98 (F := Ideal) x11 (ix1 q)) := by
  unfold val_main_v114 val_main_v113 val_main_v112 val_main_v109 val_main_v108 val_main_v107 val_main_v104 val_main_v103 val_main_v102 val_main_v101 val_main_v100 val_main_v99 val_main_cst_7 val_main_v96 val_main_v95 val_main_v94 val_main_v91 val_main_call3_v0 val_main_call3_cst val_main_v90 val_main_v89 val_main_v88 val_main_v85 val_main_v82 val_main_call2_v0 val_main_call2_cst val_main_v81 val_main_v80 val_main_v79 val_main_v76 val_main_v73
  exact gnnLayer_host (M := 50000) 0x3727C5AC#32 _ rfl _ _ _ _ _ _ _ _ _ _ _ _ _ _

/-- Layer 2 of the reference is the layer's function of its features, its aggregated features and row 2 of each
    parameter array. -/
theorem refLayer2 (x0 : (⟨S50000, .i32⟩ : BufTy).Contents (Elt Ideal)) (x1 : (⟨S2x800000, .i32⟩ : BufTy).Contents (Elt Ideal)) (x3 : (⟨S1000x128, .f32⟩ : BufTy).Contents (Elt Ideal)) (x4 : (⟨S3x128x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) (x8 : (⟨S3x128, .f32⟩ : BufTy).Contents (Elt Ideal)) (x9 : (⟨S3x128, .f32⟩ : BufTy).Contents (Elt Ideal)) (x10 : (⟨S3x128, .f32⟩ : BufTy).Contents (Elt Ideal)) (x11 : (⟨S3x128, .f32⟩ : BufTy).Contents (Elt Ideal)) :
    val_main_v166 (F := Ideal) x0 x1 x3 x4 x5 x6 x7 x8 x9 x10 x11 = gnnLayer (M := 50000) (Ideal.ofBits .f32 0x3727C5AC#32) (val_main_v114 (F := Ideal) x0 x1 x3 x4 x5 x6 x7 x8 x9 x10 x11) (val_main_v124 (F := Ideal) x0 x1 x3 x4 x5 x6 x7 x8 x9 x10 x11) (val_main_v127 (F := Ideal) x4) (fun q : Fin 128 => val_main_v130 (F := Ideal) x5 (ix1 q))
      (val_main_v136 (F := Ideal) x6) (fun q : Fin 128 => val_main_v139 (F := Ideal) x7 (ix1 q)) (fun q : Fin 128 => val_main_v158 (F := Ideal) x8 (ix1 q)) (fun q : Fin 128 => val_main_v163 (F := Ideal) x9 (ix1 q)) (fun q : Fin 128 => val_main_v145 (F := Ideal) x10 (ix1 q)) (fun q : Fin 128 => val_main_v150 (F := Ideal) x11 (ix1 q)) := by
  unfold val_main_v166 val_main_v165 val_main_v164 val_main_v161 val_main_v160 val_main_v159 val_main_v156 val_main_v155 val_main_v154 val_main_v153 val_main_v152 val_main_v151 val_main_cst_11 val_main_v148 val_main_v147 val_main_v146 val_main_v143 val_main_call5_v0 val_main_call5_cst val_main_v142 val_main_v141 val_main_v140 val_main_v137 val_main_v134 val_main_call4_v0 val_main_call4_cst val_main_v133 val_main_v132 val_main_v131 val_main_v128 val_main_v125
  exact gnnLayer_host (M := 50000) 0x3727C5AC#32 _ rfl _ _ _ _ _ _ _ _ _ _ _ _ _ _

/-- The reference's last stages are the head of the pooled features. -/
theorem refHead (x0 : (⟨S50000, .i32⟩ : BufTy).Contents (Elt Ideal)) (x1 : (⟨S2x800000, .i32⟩ : BufTy).Contents (Elt Ideal)) (x2 : (⟨S50000, .i32⟩ : BufTy).Contents (Elt Ideal)) (x3 : (⟨S1000x128, .f32⟩ : BufTy).Contents (Elt Ideal)) (x4 : (⟨S3x128x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) (x8 : (⟨S3x128, .f32⟩ : BufTy).Contents (Elt Ideal)) (x9 : (⟨S3x128, .f32⟩ : BufTy).Contents (Elt Ideal)) (x10 : (⟨S3x128, .f32⟩ : BufTy).Contents (Elt Ideal)) (x11 : (⟨S3x128, .f32⟩ : BufTy).Contents (Elt Ideal)) (x12 : (⟨S384x128, .f32⟩ : BufTy).Contents (Elt Ideal)) (x13 : (⟨S128, .f32⟩ : BufTy).Contents (Elt Ideal)) (x14 : (⟨S128x1, .f32⟩ : BufTy).Contents (Elt Ideal)) (x15 : (⟨S1, .f32⟩ : BufTy).Contents (Elt Ideal)) :
    val_main_v188 (F := Ideal) x0 x1 x2 x3 x4 x5 x6 x7 x8 x9 x10 x11 x12 x13 x14 x15 = gnnHead (G := 512) (val_main_v179 (F := Ideal) x0 x1 x2 x3 x4 x5 x6 x7 x8 x9 x10 x11) x12 (fun q : Fin 128 => x13 (ix1 q)) (fun k : Fin 128 => x14 (ix2 k (0 : Fin 1)))
      (fun u : Fin 1 => x15 (ix1 u)) := by
  unfold val_main_v188 val_main_v187 val_main_v186 val_main_v185 val_main_v184 val_main_call6_v0 val_main_call6_cst val_main_v183 val_main_v182 val_main_v181 val_main_v180
  exact gnnHead_host (G := 512) _ rfl _ rfl _ _ _ _ _ _ _ _ _ _

end Cert.ReferenceIdeal.RefValue

end
-- ==== Proof.Ideal.Bridge.lean ====
/-
  The kernel's program and the reference compute one function. Between its four kernel regions the kernel's program
  runs the same host operations as the reference (the embedding lookup, the sum over incoming edges before each
  layer, the mean over each graph before the head), so the value of every buffer a region is entered with is a stage
  of the reference. Each layer region leaves the specification's layer of the arrays it was entered with, and the
  reference's layer is the same function (the parameter rows are the same rows of the same argument arrays, read
  through a slice and a change of shape on both sides); the head region leaves the specification's head of the
  pooled features, and so does the reference. By induction along the program the result buffer ends at the
  reference's result. No step needs the inputs to be finite: both sides are the same sums and products in the same
  arrangement, row by row.
-/
import proofs.«106503_j32512902431459_1_alg».proof.Proof.Ideal.WholeRun
import proofs.«106503_j32512902431459_1_alg».proof.Proof.Ideal.LayerValue0
import proofs.«106503_j32512902431459_1_alg».proof.Proof.Ideal.LayerValue1
import proofs.«106503_j32512902431459_1_alg».proof.Proof.Ideal.LayerValue2
import proofs.«106503_j32512902431459_1_alg».proof.Proof.Ideal.HeadValue
import proofs.«106503_j32512902431459_1_alg».proof.Proof.RefValue
import Idealize.ShloMosaic.Lib.StableHlo.Run

set_option maxRecDepth 16384

noncomputable section

namespace Cert.KernelIdeal.Frame

open Idealize.ShloMosaic Idealize.ShloMosaic.TcCoe Idealize.ShloMosaic.ValueIdx Idealize.ShloMosaic.StableHlo
open Idealize.SL.Sem
open Cert.KernelIdeal Cert.KernelIdeal.Gen
open Cert.LayoutLib Cert.DenseLib Cert.RowBlocks Cert.RowNorm Cert.GnnSpec

variable (m : (ℓ : Loc nD τ sig) → Buf (Elt Ideal) ℓ) (ρ : Dev nD → PrngReg)

/-! ## Buffers the items so far have not touched -/

theorem cont2_keep (c : Dev nD) (b : Ref sig .tc) (h0 : b ∉ hostOps0_W) (a0 : ∀ w, Pipeline.arrRef spec0 w ≠ b) :
    cont2 m ρ c (Proc.devRef .tc b) = m ((c : Thread nD τ).loc b) :=
  (cont2_of_ne m ρ c b a0).trans ((cont1_of m ρ c b h0).trans rfl)
theorem cont4_keep (c : Dev nD) (b : Ref sig .tc) (h0 : b ∉ hostOps0_W) (a0 : ∀ w, Pipeline.arrRef spec0 w ≠ b)
    (h1 : b ∉ hostOps1_W) (a1 : ∀ w, Pipeline.arrRef spec1 w ≠ b) : cont4 m ρ c (Proc.devRef .tc b) = m ((c : Thread nD τ).loc b) :=
  (cont4_of_ne m ρ c b a1).trans ((cont3_of m ρ c b h1).trans (cont2_keep m ρ c b h0 a0))
theorem cont6_keep (c : Dev nD) (b : Ref sig .tc) (h0 : b ∉ hostOps0_W) (a0 : ∀ w, Pipeline.arrRef spec0 w ≠ b)
    (h1 : b ∉ hostOps1_W) (a1 : ∀ w, Pipeline.arrRef spec1 w ≠ b) (h2 : b ∉ hostOps2_W) (a2 : ∀ w, Pipeline.arrRef spec2 w ≠ b) :
    cont6 m ρ c (Proc.devRef .tc b) = m ((c : Thread nD τ).loc b) :=
  (cont6_of_ne m ρ c b a2).trans ((cont5_of m ρ c b h2).trans (cont4_keep m ρ c b h0 a0 h1 a1))

/-- A vector recast as one row reads, at `(0, q)`, the vector at `q`. -/
theorem rowOfVec (x : S128.Idx → EReal) (q : Fin 128) : shapeCast S1x128 x shapeCasts_S128_S1x128 (ix2 (0 : Fin 1) q) = x (ix1 q) :=
  shapeCast_vecRow_apply x shapeCasts_S128_S1x128 0 q

/-! ## The edge endpoints, computed once before the first region -/

theorem srcIdx (c : Dev nD) : cont1 m ρ c (Proc.devRef .tc main_v8) = Cert.ReferenceIdeal.ReadP.val_main_v8 (F := Ideal) (m ((c : Thread nD τ).loc main_arg1)) := by
  show StableHlo.after hostOps0 (cont0 m ρ c) (Proc.devRef .tc main_v8) = _
  after_results
  rfl
theorem dstIdx (c : Dev nD) : cont1 m ρ c (Proc.devRef .tc main_v10) = Cert.ReferenceIdeal.ReadP.val_main_v10 (F := Ideal) (m ((c : Thread nD τ).loc main_arg1)) := by
  show StableHlo.after hostOps0 (cont0 m ρ c) (Proc.devRef .tc main_v10) = _
  after_results
  rfl

/-! ## Layer 0: the arrays region 0 is entered with, and what it leaves -/

theorem l0_W1 (c : Dev nD) : ent1 m ρ c main_v22 = Cert.ReferenceIdeal.ReadP.val_main_v23 (F := Ideal) (m ((c : Thread nD τ).loc main_arg4)) := by
  show StableHlo.after hostOps0 (cont0 m ρ c) (Proc.devRef .tc main_v22) = _
  after_results
  rfl

theorem l0_W2 (c : Dev nD) : ent1 m ρ c main_v26 = Cert.ReferenceIdeal.ReadP.val_main_v32 (F := Ideal) (m ((c : Thread nD τ).loc main_arg6)) := by
  show StableHlo.after hostOps0 (cont0 m ρ c) (Proc.devRef .tc main_v26) = _
  after_results
  rfl

theorem l0_b1 (c : Dev nD) (q : Fin 128) : ent1 m ρ c main_v37 (ix2 (0 : Fin 1) q) = Cert.ReferenceIdeal.ReadP.val_main_v26 (F := Ideal) (m ((c : Thread nD τ).loc main_arg5)) (ix1 q) := by
  have e : ent1 m ρ c main_v37 = shapeCast S1x128 (Cert.ReferenceIdeal.ReadP.val_main_v26 (F := Ideal) (m ((c : Thread nD τ).loc main_arg5))) shapeCasts_S128_S1x128 := by
    show StableHlo.after hostOps0 (cont0 m ρ c) (Proc.devRef .tc main_v37) = _
    after_results
    rfl
  rw [e]
  exact rowOfVec _ q

theorem l0_b2 (c : Dev nD) (q : Fin 128) : ent1 m ρ c main_v38 (ix2 (0 : Fin 1) q) = Cert.ReferenceIdeal.ReadP.val_main_v35 (F := Ideal) (m ((c : Thread nD τ).loc main_arg7)) (ix1 q) := by
  have e : ent1 m ρ c main_v38 = shapeCast S1x128 (Cert.ReferenceIdeal.ReadP.val_main_v35 (F := Ideal) (m ((c : Thread nD τ).loc main_arg7))) shapeCasts_S128_S1x128 := by
    show StableHlo.after hostOps0 (cont0 m ρ c) (Proc.devRef .tc main_v38) = _
    after_results
    rfl
  rw [e]
  exact rowOfVec _ q

theorem l0_gamma (c : Dev nD) (q : Fin 128) : ent1 m ρ c main_v39 (ix2 (0 : Fin 1) q) = Cert.ReferenceIdeal.ReadP.val_main_v54 (F := Ideal) (m ((c : Thread nD τ).loc main_arg8)) (ix1 q) := by
  have e : ent1 m ρ c main_v39 = shapeCast S1x128 (Cert.ReferenceIdeal.ReadP.val_main_v54 (F := Ideal) (m ((c : Thread nD τ).loc main_arg8))) shapeCasts_S128_S1x128 := by
    show StableHlo.after hostOps0 (cont0 m ρ c) (Proc.devRef .tc main_v39) = _
    after_results
    rfl
  rw [e]
  exact rowOfVec _ q

theorem l0_beta (c : Dev nD) (q : Fin 128) : ent1 m ρ c main_v40 (ix2 (0 : Fin 1) q) = Cert.ReferenceIdeal.ReadP.val_main_v59 (F := Ideal) (m ((c : Thread nD τ).loc main_arg9)) (ix1 q) := by
  have e : ent1 m ρ c main_v40 = shapeCast S1x128 (Cert.ReferenceIdeal.ReadP.val_main_v59 (F := Ideal) (m ((c : Thread nD τ).loc main_arg9))) shapeCasts_S128_S1x128 := by
    show StableHlo.after hostOps0 (cont0 m ρ c) (Proc.devRef .tc main_v40) = _
    after_results
    rfl
  rw [e]
  exact rowOfVec _ q

theorem l0_mu (c : Dev nD) (q : Fin 128) : ent1 m ρ c main_v41 (ix2 (0 : Fin 1) q) = Cert.ReferenceIdeal.ReadP.val_main_v41 (F := Ideal) (m ((c : Thread nD τ).loc main_arg10)) (ix1 q) := by
  have e : ent1 m ρ c main_v41 = shapeCast S1x128 (Cert.ReferenceIdeal.ReadP.val_main_v41 (F := Ideal) (m ((c : Thread nD τ).loc main_arg10))) shapeCasts_S128_S1x128 := by
    show StableHlo.after hostOps0 (cont0 m ρ c) (Proc.devRef .tc main_v41) = _
    after_results
    rfl
  rw [e]
  exact rowOfVec _ q

theorem l0_v (c : Dev nD) (q : Fin 128) : ent1 m ρ c main_v42 (ix2 (0 : Fin 1) q) = Cert.ReferenceIdeal.ReadP.val_main_v46 (F := Ideal) (m ((c : Thread nD τ).loc main_arg11)) (ix1 q) := by
  have e : ent1 m ρ c main_v42 = shapeCast S1x128 (Cert.ReferenceIdeal.ReadP.val_main_v46 (F := Ideal) (m ((c : Thread nD τ).loc main_arg11))) shapeCasts_S128_S1x128 := by
    show StableHlo.after hostOps0 (cont0 m ρ c) (Proc.devRef .tc main_v42) = _
    after_results
    rfl
  rw [e]
  exact rowOfVec _ q

theorem l0_x (c : Dev nD) : ent1 m ρ c main_v6 = Cert.ReferenceIdeal.ReadP.val_main_v6 (F := Ideal) (m ((c : Thread nD τ).loc main_arg0)) (m ((c : Thread nD τ).loc main_arg3)) := by
  show StableHlo.after hostOps0 (cont0 m ρ c) (Proc.devRef .tc main_v6) = _
  after_results
  rfl
theorem l0_agg (c : Dev nD) : ent1 m ρ c main_v20 = Cert.ReferenceIdeal.ReadP.val_main_v20 (F := Ideal) (m ((c : Thread nD τ).loc main_arg0)) (m ((c : Thread nD τ).loc main_arg1)) (m ((c : Thread nD τ).loc main_arg3)) := by
  show StableHlo.after hostOps0 (cont0 m ρ c) (Proc.devRef .tc main_v20) = _
  after_results
  rfl

/-- What region 0 leaves in its output array is the reference's layer 0. -/
theorem layer0_out (c : Dev nD) : cont2 m ρ c (Proc.devRef .tc main_v43) = Cert.ReferenceIdeal.ReadP.val_main_v62 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [show cont2 m ρ c (Proc.devRef .tc main_v43) = (layerDat0 (ent1 m ρ) c).arrAt 10 cfg0.N from cont2_arr m ρ c 10, layerFinal0,
    Cert.ReferenceIdeal.RefValue.refLayer0]
  unfold layerWhole0
  simp only [l0_x m ρ c, l0_agg m ρ c, l0_W1 m ρ c, l0_W2 m ρ c, l0_b1 m ρ c, l0_b2 m ρ c, l0_gamma m ρ c, l0_beta m ρ c, l0_mu m ρ c, l0_v m ρ c]
/-- The edge endpoints are still what the first stretch computed. -/
theorem cont2_src (c : Dev nD) : cont2 m ρ c (Proc.devRef .tc main_v8) = Cert.ReferenceIdeal.ReadP.val_main_v8 (F := Ideal) (m ((c : Thread nD τ).loc main_arg1)) :=
  (cont2_of_ne m ρ c main_v8 (by decide)).trans (srcIdx m ρ c)
theorem cont2_dst (c : Dev nD) : cont2 m ρ c (Proc.devRef .tc main_v10) = Cert.ReferenceIdeal.ReadP.val_main_v10 (F := Ideal) (m ((c : Thread nD τ).loc main_arg1)) :=
  (cont2_of_ne m ρ c main_v10 (by decide)).trans (dstIdx m ρ c)

/-! ## Layer 1: the arrays region 1 is entered with, and what it leaves -/

theorem l1_W1 (c : Dev nD) : ent3 m ρ c main_v55 = Cert.ReferenceIdeal.ReadP.val_main_v75 (F := Ideal) (m ((c : Thread nD τ).loc main_arg4)) := by
  show StableHlo.after hostOps1 (cont2 m ρ c) (Proc.devRef .tc main_v55) = _
  after_results
  rw [cont2_keep m ρ c main_arg4 (by decide) (by decide)]
  rfl

theorem l1_W2 (c : Dev nD) : ent3 m ρ c main_v59 = Cert.ReferenceIdeal.ReadP.val_main_v84 (F := Ideal) (m ((c : Thread nD τ).loc main_arg6)) := by
  show StableHlo.after hostOps1 (cont2 m ρ c) (Proc.devRef .tc main_v59) = _
  after_results
  rw [cont2_keep m ρ c main_arg6 (by decide) (by decide)]
  rfl

theorem l1_b1 (c : Dev nD) (q : Fin 128) : ent3 m ρ c main_v70 (ix2 (0 : Fin 1) q) = Cert.ReferenceIdeal.ReadP.val_main_v78 (F := Ideal) (m ((c : Thread nD τ).loc main_arg5)) (ix1 q) := by
  have e : ent3 m ρ c main_v70 = shapeCast S1x128 (Cert.ReferenceIdeal.ReadP.val_main_v78 (F := Ideal) (m ((c : Thread nD τ).loc main_arg5))) shapeCasts_S128_S1x128 := by
    show StableHlo.after hostOps1 (cont2 m ρ c) (Proc.devRef .tc main_v70) = _
    after_results
    rw [cont2_keep m ρ c main_arg5 (by decide) (by decide)]
    rfl
  rw [e]
  exact rowOfVec _ q

theorem l1_b2 (c : Dev nD) (q : Fin 128) : ent3 m ρ c main_v71 (ix2 (0 : Fin 1) q) = Cert.ReferenceIdeal.ReadP.val_main_v87 (F := Ideal) (m ((c : Thread nD τ).loc main_arg7)) (ix1 q) := by
  have e : ent3 m ρ c main_v71 = shapeCast S1x128 (Cert.ReferenceIdeal.ReadP.val_main_v87 (F := Ideal) (m ((c : Thread nD τ).loc main_arg7))) shapeCasts_S128_S1x128 := by
    show StableHlo.after hostOps1 (cont2 m ρ c) (Proc.devRef .tc main_v71) = _
    after_results
    rw [cont2_keep m ρ c main_arg7 (by decide) (by decide)]
    rfl
  rw [e]
  exact rowOfVec _ q

theorem l1_gamma (c : Dev nD) (q : Fin 128) : ent3 m ρ c main_v72 (ix2 (0 : Fin 1) q) = Cert.ReferenceIdeal.ReadP.val_main_v106 (F := Ideal) (m ((c : Thread nD τ).loc main_arg8)) (ix1 q) := by
  have e : ent3 m ρ c main_v72 = shapeCast S1x128 (Cert.ReferenceIdeal.ReadP.val_main_v106 (F := Ideal) (m ((c : Thread nD τ).loc main_arg8))) shapeCasts_S128_S1x128 := by
    show StableHlo.after hostOps1 (cont2 m ρ c) (Proc.devRef .tc main_v72) = _
    after_results
    rw [cont2_keep m ρ c main_arg8 (by decide) (by decide)]
    rfl
  rw [e]
  exact rowOfVec _ q

theorem l1_beta (c : Dev nD) (q : Fin 128) : ent3 m ρ c main_v73 (ix2 (0 : Fin 1) q) = Cert.ReferenceIdeal.ReadP.val_main_v111 (F := Ideal) (m ((c : Thread nD τ).loc main_arg9)) (ix1 q) := by
  have e : ent3 m ρ c main_v73 = shapeCast S1x128 (Cert.ReferenceIdeal.ReadP.val_main_v111 (F := Ideal) (m ((c : Thread nD τ).loc main_arg9))) shapeCasts_S128_S1x128 := by
    show StableHlo.after hostOps1 (cont2 m ρ c) (Proc.devRef .tc main_v73) = _
    after_results
    rw [cont2_keep m ρ c main_arg9 (by decide) (by decide)]
    rfl
  rw [e]
  exact rowOfVec _ q

theorem l1_mu (c : Dev nD) (q : Fin 128) : ent3 m ρ c main_v74 (ix2 (0 : Fin 1) q) = Cert.ReferenceIdeal.ReadP.val_main_v93 (F := Ideal) (m ((c : Thread nD τ).loc main_arg10)) (ix1 q) := by
  have e : ent3 m ρ c main_v74 = shapeCast S1x128 (Cert.ReferenceIdeal.ReadP.val_main_v93 (F := Ideal) (m ((c : Thread nD τ).loc main_arg10))) shapeCasts_S128_S1x128 := by
    show StableHlo.after hostOps1 (cont2 m ρ c) (Proc.devRef .tc main_v74) = _
    after_results
    rw [cont2_keep m ρ c main_arg10 (by decide) (by decide)]
    rfl
  rw [e]
  exact rowOfVec _ q

theorem l1_v (c : Dev nD) (q : Fin 128) : ent3 m ρ c main_v75 (ix2 (0 : Fin 1) q) = Cert.ReferenceIdeal.ReadP.val_main_v98 (F := Ideal) (m ((c : Thread nD τ).loc main_arg11)) (ix1 q) := by
  have e : ent3 m ρ c main_v75 = shapeCast S1x128 (Cert.ReferenceIdeal.ReadP.val_main_v98 (F := Ideal) (m ((c : Thread nD τ).loc main_arg11))) shapeCasts_S128_S1x128 := by
    show StableHlo.after hostOps1 (cont2 m ρ c) (Proc.devRef .tc main_v75) = _
    after_results
    rw [cont2_keep m ρ c main_arg11 (by decide) (by decide)]
    rfl
  rw [e]
  exact rowOfVec _ q

theorem l1_x (c : Dev nD) : ent3 m ρ c main_v43 = Cert.ReferenceIdeal.ReadP.val_main_v62 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (cont3_of m ρ c main_v43 (by decide)).trans (layer0_out m ρ c)
theorem l1_agg (c : Dev nD) : ent3 m ρ c main_v53 = Cert.ReferenceIdeal.ReadP.val_main_v72 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps1 (cont2 m ρ c) (Proc.devRef .tc main_v53) = _
  after_results
  rw [layer0_out m ρ c, cont2_src m ρ c, cont2_dst m ρ c]
  rfl

/-- What region 1 leaves in its output array is the reference's layer 1. -/
theorem layer1_out (c : Dev nD) : cont4 m ρ c (Proc.devRef .tc main_v76) = Cert.ReferenceIdeal.ReadP.val_main_v114 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [show cont4 m ρ c (Proc.devRef .tc main_v76) = (layerDat1 (ent3 m ρ) c).arrAt 10 cfg1.N from cont4_arr m ρ c 10, layerFinal1,
    Cert.ReferenceIdeal.RefValue.refLayer1]
  unfold layerWhole1
  simp only [l1_x m ρ c, l1_agg m ρ c, l1_W1 m ρ c, l1_W2 m ρ c, l1_b1 m ρ c, l1_b2 m ρ c, l1_gamma m ρ c, l1_beta m ρ c, l1_mu m ρ c, l1_v m ρ c]
/-- The edge endpoints are still what the first stretch computed. -/
theorem cont4_src (c : Dev nD) : cont4 m ρ c (Proc.devRef .tc main_v8) = Cert.ReferenceIdeal.ReadP.val_main_v8 (F := Ideal) (m ((c : Thread nD τ).loc main_arg1)) :=
  (cont4_of_ne m ρ c main_v8 (by decide)).trans ((cont3_of m ρ c main_v8 (by decide)).trans (cont2_src m ρ c))
theorem cont4_dst (c : Dev nD) : cont4 m ρ c (Proc.devRef .tc main_v10) = Cert.ReferenceIdeal.ReadP.val_main_v10 (F := Ideal) (m ((c : Thread nD τ).loc main_arg1)) :=
  (cont4_of_ne m ρ c main_v10 (by decide)).trans ((cont3_of m ρ c main_v10 (by decide)).trans (cont2_dst m ρ c))

/-! ## Layer 2: the arrays region 2 is entered with, and what it leaves -/

theorem l2_W1 (c : Dev nD) : ent5 m ρ c main_v88 = Cert.ReferenceIdeal.ReadP.val_main_v127 (F := Ideal) (m ((c : Thread nD τ).loc main_arg4)) := by
  show StableHlo.after hostOps2 (cont4 m ρ c) (Proc.devRef .tc main_v88) = _
  after_results
  rw [cont4_keep m ρ c main_arg4 (by decide) (by decide) (by decide) (by decide)]
  rfl

theorem l2_W2 (c : Dev nD) : ent5 m ρ c main_v92 = Cert.ReferenceIdeal.ReadP.val_main_v136 (F := Ideal) (m ((c : Thread nD τ).loc main_arg6)) := by
  show StableHlo.after hostOps2 (cont4 m ρ c) (Proc.devRef .tc main_v92) = _
  after_results
  rw [cont4_keep m ρ c main_arg6 (by decide) (by decide) (by decide) (by decide)]
  rfl

theorem l2_b1 (c : Dev nD) (q : Fin 128) : ent5 m ρ c main_v103 (ix2 (0 : Fin 1) q) = Cert.ReferenceIdeal.ReadP.val_main_v130 (F := Ideal) (m ((c : Thread nD τ).loc main_arg5)) (ix1 q) := by
  have e : ent5 m ρ c main_v103 = shapeCast S1x128 (Cert.ReferenceIdeal.ReadP.val_main_v130 (F := Ideal) (m ((c : Thread nD τ).loc main_arg5))) shapeCasts_S128_S1x128 := by
    show StableHlo.after hostOps2 (cont4 m ρ c) (Proc.devRef .tc main_v103) = _
    after_results
    rw [cont4_keep m ρ c main_arg5 (by decide) (by decide) (by decide) (by decide)]
    rfl
  rw [e]
  exact rowOfVec _ q

theorem l2_b2 (c : Dev nD) (q : Fin 128) : ent5 m ρ c main_v104 (ix2 (0 : Fin 1) q) = Cert.ReferenceIdeal.ReadP.val_main_v139 (F := Ideal) (m ((c : Thread nD τ).loc main_arg7)) (ix1 q) := by
  have e : ent5 m ρ c main_v104 = shapeCast S1x128 (Cert.ReferenceIdeal.ReadP.val_main_v139 (F := Ideal) (m ((c : Thread nD τ).loc main_arg7))) shapeCasts_S128_S1x128 := by
    show StableHlo.after hostOps2 (cont4 m ρ c) (Proc.devRef .tc main_v104) = _
    after_results
    rw [cont4_keep m ρ c main_arg7 (by decide) (by decide) (by decide) (by decide)]
    rfl
  rw [e]
  exact rowOfVec _ q

theorem l2_gamma (c : Dev nD) (q : Fin 128) : ent5 m ρ c main_v105 (ix2 (0 : Fin 1) q) = Cert.ReferenceIdeal.ReadP.val_main_v158 (F := Ideal) (m ((c : Thread nD τ).loc main_arg8)) (ix1 q) := by
  have e : ent5 m ρ c main_v105 = shapeCast S1x128 (Cert.ReferenceIdeal.ReadP.val_main_v158 (F := Ideal) (m ((c : Thread nD τ).loc main_arg8))) shapeCasts_S128_S1x128 := by
    show StableHlo.after hostOps2 (cont4 m ρ c) (Proc.devRef .tc main_v105) = _
    after_results
    rw [cont4_keep m ρ c main_arg8 (by decide) (by decide) (by decide) (by decide)]
    rfl
  rw [e]
  exact rowOfVec _ q

theorem l2_beta (c : Dev nD) (q : Fin 128) : ent5 m ρ c main_v106 (ix2 (0 : Fin 1) q) = Cert.ReferenceIdeal.ReadP.val_main_v163 (F := Ideal) (m ((c : Thread nD τ).loc main_arg9)) (ix1 q) := by
  have e : ent5 m ρ c main_v106 = shapeCast S1x128 (Cert.ReferenceIdeal.ReadP.val_main_v163 (F := Ideal) (m ((c : Thread nD τ).loc main_arg9))) shapeCasts_S128_S1x128 := by
    show StableHlo.after hostOps2 (cont4 m ρ c) (Proc.devRef .tc main_v106) = _
    after_results
    rw [cont4_keep m ρ c main_arg9 (by decide) (by decide) (by decide) (by decide)]
    rfl
  rw [e]
  exact rowOfVec _ q

theorem l2_mu (c : Dev nD) (q : Fin 128) : ent5 m ρ c main_v107 (ix2 (0 : Fin 1) q) = Cert.ReferenceIdeal.ReadP.val_main_v145 (F := Ideal) (m ((c : Thread nD τ).loc main_arg10)) (ix1 q) := by
  have e : ent5 m ρ c main_v107 = shapeCast S1x128 (Cert.ReferenceIdeal.ReadP.val_main_v145 (F := Ideal) (m ((c : Thread nD τ).loc main_arg10))) shapeCasts_S128_S1x128 := by
    show StableHlo.after hostOps2 (cont4 m ρ c) (Proc.devRef .tc main_v107) = _
    after_results
    rw [cont4_keep m ρ c main_arg10 (by decide) (by decide) (by decide) (by decide)]
    rfl
  rw [e]
  exact rowOfVec _ q

theorem l2_v (c : Dev nD) (q : Fin 128) : ent5 m ρ c main_v108 (ix2 (0 : Fin 1) q) = Cert.ReferenceIdeal.ReadP.val_main_v150 (F := Ideal) (m ((c : Thread nD τ).loc main_arg11)) (ix1 q) := by
  have e : ent5 m ρ c main_v108 = shapeCast S1x128 (Cert.ReferenceIdeal.ReadP.val_main_v150 (F := Ideal) (m ((c : Thread nD τ).loc main_arg11))) shapeCasts_S128_S1x128 := by
    show StableHlo.after hostOps2 (cont4 m ρ c) (Proc.devRef .tc main_v108) = _
    after_results
    rw [cont4_keep m ρ c main_arg11 (by decide) (by decide) (by decide) (by decide)]
    rfl
  rw [e]
  exact rowOfVec _ q

theorem l2_x (c : Dev nD) : ent5 m ρ c main_v76 = Cert.ReferenceIdeal.ReadP.val_main_v114 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (cont5_of m ρ c main_v76 (by decide)).trans (layer1_out m ρ c)
theorem l2_agg (c : Dev nD) : ent5 m ρ c main_v86 = Cert.ReferenceIdeal.ReadP.val_main_v124 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps2 (cont4 m ρ c) (Proc.devRef .tc main_v86) = _
  after_results
  rw [layer1_out m ρ c, cont4_src m ρ c, cont4_dst m ρ c]
  rfl

/-- What region 2 leaves in its output array is the reference's layer 2. -/
theorem layer2_out (c : Dev nD) : cont6 m ρ c (Proc.devRef .tc main_v109) = Cert.ReferenceIdeal.ReadP.val_main_v166 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [show cont6 m ρ c (Proc.devRef .tc main_v109) = (layerDat2 (ent5 m ρ) c).arrAt 10 cfg2.N from cont6_arr m ρ c 10, layerFinal2,
    Cert.ReferenceIdeal.RefValue.refLayer2]
  unfold layerWhole2
  simp only [l2_x m ρ c, l2_agg m ρ c, l2_W1 m ρ c, l2_W2 m ρ c, l2_b1 m ρ c, l2_b2 m ρ c, l2_gamma m ρ c, l2_beta m ρ c, l2_mu m ρ c, l2_v m ρ c]
/-- The edge endpoints are still what the first stretch computed. -/
theorem cont6_src (c : Dev nD) : cont6 m ρ c (Proc.devRef .tc main_v8) = Cert.ReferenceIdeal.ReadP.val_main_v8 (F := Ideal) (m ((c : Thread nD τ).loc main_arg1)) :=
  (cont6_of_ne m ρ c main_v8 (by decide)).trans ((cont5_of m ρ c main_v8 (by decide)).trans (cont4_src m ρ c))
theorem cont6_dst (c : Dev nD) : cont6 m ρ c (Proc.devRef .tc main_v10) = Cert.ReferenceIdeal.ReadP.val_main_v10 (F := Ideal) (m ((c : Thread nD τ).loc main_arg1)) :=
  (cont6_of_ne m ρ c main_v10 (by decide)).trans ((cont5_of m ρ c main_v10 (by decide)).trans (cont4_dst m ρ c))

/-! ## The pooled features, and the head -/

/-- Region 1 leaves its input array, the first layer's output, as entered. -/
theorem cont4_layer0 (c : Dev nD) : cont4 m ρ c (Proc.devRef .tc main_v43) = Cert.ReferenceIdeal.ReadP.val_main_v62 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (cont4_arr m ρ c 0).trans (((layerDat1 (ent3 m ρ) c).arrAt_in 0 rfl _).trans ((layerA1 (ent3 m ρ) c 0).trans (l1_x m ρ c)))
theorem cont6_layer0 (c : Dev nD) : cont6 m ρ c (Proc.devRef .tc main_v43) = Cert.ReferenceIdeal.ReadP.val_main_v62 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (cont6_of_ne m ρ c main_v43 (by decide)).trans ((cont5_of m ρ c main_v43 (by decide)).trans (cont4_layer0 m ρ c))
/-- Region 2 leaves its input array, the second layer's output, as entered. -/
theorem cont6_layer1 (c : Dev nD) : cont6 m ρ c (Proc.devRef .tc main_v76) = Cert.ReferenceIdeal.ReadP.val_main_v114 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (cont6_arr m ρ c 0).trans (((layerDat2 (ent5 m ρ) c).arrAt_in 0 rfl _).trans ((layerA2 (ent5 m ρ) c 0).trans (l2_x m ρ c)))

/-- The mean over each graph, as the host operations before the head spell it: the three layers' outputs joined along
    the features and summed into their graph's row; a one per node summed into its graph's count; the sums divided by
    the count or by one, whichever is larger. -/
def pooledOf (c : Dev nD) (h0 : Buf (Elt Ideal) ((c : Thread nD τ).loc main_v43)) (h1 : Buf (Elt Ideal) ((c : Thread nD τ).loc main_v76))
    (h2 : Buf (Elt Ideal) ((c : Thread nD τ).loc main_v109)) (g : Buf (Elt Ideal) ((c : Thread nD τ).loc main_arg2)) :
    Buf (Elt Ideal) ((c : Thread nD τ).loc main_v122) :=
  Host.divf
    (Host.scatterAdd scatter_S512x384_S50000x1_S50000x384_1_0_0_1
      (broadcastInDim S512x384 ![] bcast_S_S512x384 (constant (F := Ideal) S_ .f32 0x00000000#32))
      (broadcastInDim S50000x1 ![0] bcast_S50000_S50000x1_0 g)
      (concatenate S50000x384 1 [⟨S50000x128, h0⟩, ⟨S50000x128, h1⟩, ⟨S50000x128, h2⟩] concatenates_S50000x128_S50000x128_S50000x128_S50000x384_d1))
    (broadcastInDim S512x384 ![0, 1] bcast_S512x1_S512x384_0_1
      (maximumf
        (broadcastInDim S512x1 ![0] bcast_S512_S512x1_0
          (Host.scatterAdd scatter_S512_S50000x1_S50000_n_0_0_1
            (broadcastInDim S512 ![] bcast_S_S512 (constant (F := Ideal) S_ .f32 0x00000000#32))
            (broadcastInDim S50000x1 ![0] bcast_S50000_S50000x1_0 g)
            (broadcastInDim S50000 ![] bcast_S_S50000 (constant (F := Ideal) S_ .f32 0x3F800000#32))))
        (broadcastInDim S512x1 ![] bcast_S_S512x1 (constant (F := Ideal) S_ .f32 0x3F800000#32))))

/-- The pooled features the head region is entered with are the reference's: the same mean over each graph of the
    same three layer outputs. -/
theorem pooled_eq (c : Dev nD) : ent7 m ρ c main_v122 = Cert.ReferenceIdeal.ReadP.val_main_v179 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have e : ent7 m ρ c main_v122 = pooledOf c (cont6 m ρ c (Proc.devRef .tc main_v43)) (cont6 m ρ c (Proc.devRef .tc main_v76))
      (cont6 m ρ c (Proc.devRef .tc main_v109)) (cont6 m ρ c (Proc.devRef .tc main_arg2)) := by
    show StableHlo.after hostOps3 (cont6 m ρ c) (Proc.devRef .tc main_v122) = _
    after_results
    rfl
  rw [e, cont6_layer0 m ρ c, cont6_layer1 m ρ c, layer2_out m ρ c, cont6_keep m ρ c main_arg2 (by decide) (by decide) (by decide) (by decide) (by decide) (by decide)]
  rfl

theorem head_W (c : Dev nD) : ent7 m ρ c main_arg12 = m ((c : Thread nD τ).loc main_arg12) :=
  (cont7_of m ρ c main_arg12 (by decide)).trans (cont6_keep m ρ c main_arg12 (by decide) (by decide) (by decide) (by decide) (by decide) (by decide))

theorem head_b1 (c : Dev nD) (q : Fin 128) : ent7 m ρ c main_v123 (ix2 (0 : Fin 1) q) = m ((c : Thread nD τ).loc main_arg13) (ix1 q) := by
  have e : ent7 m ρ c main_v123 = shapeCast S1x128 (m ((c : Thread nD τ).loc main_arg13)) shapeCasts_S128_S1x128 := by
    show StableHlo.after hostOps3 (cont6 m ρ c) (Proc.devRef .tc main_v123) = _
    after_results
    rw [cont6_keep m ρ c main_arg13 (by decide) (by decide) (by decide) (by decide) (by decide) (by decide)]
    rfl
  rw [e]
  exact rowOfVec _ q

/-- A one-column matrix recast as one row reads, at `(0, k)`, the column at `k`. -/
theorem colAsRow (x : S128x1.Idx → EReal) (k : Fin 128) : shapeCast S1x128 x shapeCasts_S128x1_S1x128 (ix2 (0 : Fin 1) k) = x (ix2 k (0 : Fin 1)) :=
  shapeCast_apply x shapeCasts_S128x1_S1x128 _ _ (by
    rw [Shape.rowMajor_val_two, Shape.rowMajor_val_two]
    show k.val * 1 + 0 = 0 * 128 + k.val
    omega)

theorem head_w2 (c : Dev nD) (k : Fin 128) : ent7 m ρ c main_v124 (ix2 (0 : Fin 1) k) = m ((c : Thread nD τ).loc main_arg14) (ix2 k (0 : Fin 1)) := by
  have e : ent7 m ρ c main_v124 = shapeCast S1x128 (m ((c : Thread nD τ).loc main_arg14)) shapeCasts_S128x1_S1x128 := by
    show StableHlo.after hostOps3 (cont6 m ρ c) (Proc.devRef .tc main_v124) = _
    after_results
    rw [cont6_keep m ρ c main_arg14 (by decide) (by decide) (by decide) (by decide) (by decide) (by decide)]
    rfl
  rw [e]
  exact colAsRow _ k

theorem head_b2 (c : Dev nD) (u : Fin 1) : ent7 m ρ c main_v125 (ix2 (0 : Fin 1) u) = m ((c : Thread nD τ).loc main_arg15) (ix1 u) := by
  have e : ent7 m ρ c main_v125 = shapeCast S1x1 (m ((c : Thread nD τ).loc main_arg15)) shapeCasts_S1_S1x1 := by
    show StableHlo.after hostOps3 (cont6 m ρ c) (Proc.devRef .tc main_v125) = _
    after_results
    rw [cont6_keep m ρ c main_arg15 (by decide) (by decide) (by decide) (by decide) (by decide) (by decide)]
    rfl
  rw [e]
  exact shapeCast_vecRow_apply (b := 1) _ shapeCasts_S1_S1x1 0 u

/-- THE RESULT: the result buffer ends at the reference's result, as a function of the argument arrays. -/
theorem result_eq (c : Dev nD) : cont8 m ρ c (Proc.devRef .tc main_v126) = Cert.ReferenceIdeal.ReadP.val_main_v188 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [cont8_result m ρ c, headFinal, Cert.ReferenceIdeal.RefValue.refHead]
  unfold headWhole
  simp only [pooled_eq m ρ c, head_W m ρ c, head_b1 m ρ c, head_w2 m ρ c, head_b2 m ρ c]

/-- The kernel's run with its result named: every weakly fair execution terminates, nothing faulting, with the result
    buffer at the reference's function of the argument arrays and the argument arrays as launched. -/
theorem run_value : θ_run defs (onTc (τ := τ) (main (F := Ideal))) ⟨m, fun _ => 0, ρ⟩ (fun r => ∀ c : Dev nD,
      r.2.mem ((c.tc : Thread nD τ).loc main_v126) = Cert.ReferenceIdeal.ReadP.val_main_v188 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => by
    have ha := cont8_args m ρ c
    exact ⟨(h c _ (mem_unscoped main_v126 (by decide))).trans (result_eq m ρ c),
      (h c _ (mem_unscoped main_arg0 (by decide))).trans ha.1,
      (h c _ (mem_unscoped main_arg1 (by decide))).trans ha.2.1,
      (h c _ (mem_unscoped main_arg2 (by decide))).trans ha.2.2.1,
      (h c _ (mem_unscoped main_arg3 (by decide))).trans ha.2.2.2.1,
      (h c _ (mem_unscoped main_arg4 (by decide))).trans ha.2.2.2.2.1,
      (h c _ (mem_unscoped main_arg5 (by decide))).trans ha.2.2.2.2.2.1,
      (h c _ (mem_unscoped main_arg6 (by decide))).trans ha.2.2.2.2.2.2.1,
      (h c _ (mem_unscoped main_arg7 (by decide))).trans ha.2.2.2.2.2.2.2.1,
      (h c _ (mem_unscoped main_arg8 (by decide))).trans ha.2.2.2.2.2.2.2.2.1,
      (h c _ (mem_unscoped main_arg9 (by decide))).trans ha.2.2.2.2.2.2.2.2.2.1,
      (h c _ (mem_unscoped main_arg10 (by decide))).trans ha.2.2.2.2.2.2.2.2.2.2.1,
      (h c _ (mem_unscoped main_arg11 (by decide))).trans ha.2.2.2.2.2.2.2.2.2.2.2.1,
      (h c _ (mem_unscoped main_arg12 (by decide))).trans ha.2.2.2.2.2.2.2.2.2.2.2.2.1,
      (h c _ (mem_unscoped main_arg13 (by decide))).trans ha.2.2.2.2.2.2.2.2.2.2.2.2.2.1,
      (h c _ (mem_unscoped main_arg14 (by decide))).trans ha.2.2.2.2.2.2.2.2.2.2.2.2.2.2.1,
      (h c _ (mem_unscoped main_arg15 (by decide))).trans ha.2.2.2.2.2.2.2.2.2.2.2.2.2.2.2⟩) (run_all m ρ)

end Cert.KernelIdeal.Frame

end
-- ==== Proof.lean ====
/-
  The certificate of a three-layer graph network with a pooled head, computed by four kernels (one per layer, over
  blocks of 2000 of the 50000 nodes, and one for the head) among host operations, against a host-only reference.

  The mathematics. Each layer takes the node features `x` and the sums `agg` of the features over incoming edges
  and returns, row by row, `(max (relu((x + agg)·W₁ + b₁)·W₂ + b₂) 0 − μ) · (σ² + ε)^(-1/2) · γ + β` with the layer's own
  rows of the parameter arrays; the three outputs are joined along the features, averaged over the nodes of each
  graph, and the head returns `relu(pooled·V₁ + c₁)·v₂ + c₂`. At the extended reals a change of float format is the
  identity, a matrix product accumulated into zero is the plain sum of products, and a lane sum is the plain sum, so
  the kernels' arithmetic is this function; a row of a layer's result depends only on that row of `x` and `agg`, so the
  result computed block of rows by block of rows is the layer of the whole arrays. The lookups, the sums over edges
  and the mean over graphs are the same host operations in both programs. Hence both programs end with the same
  result, index by index; no step uses that the inputs are finite.

  The frames. Each program terminates without a fault and leaves its argument arrays as launched: for the two kernel
  programs by running @main as eight segments (host stretch, region, four times) over the contents of the unscoped
  buffers folded from the launch memory; for the reference by its run read back.

  The idealized kernel program is the printed program read at the extended reals with nothing rewritten, so the
  idealization claim has no conjunct.
-/
import proofs.«106503_j32512902431459_1_alg».proof.Defs
import proofs.«106503_j32512902431459_1_alg».proof.Proof.Gen.Kernel
import proofs.«106503_j32512902431459_1_alg».proof.Proof.Gen.KernelIdeal
import proofs.«106503_j32512902431459_1_alg».proof.Proof.Gen.ReferenceIdeal
import proofs.«106503_j32512902431459_1_alg».proof.Proof.Gen.Pre_finite_inputs
import proofs.«106503_j32512902431459_1_alg».proof.Proof.Bits.WholeRun
import proofs.«106503_j32512902431459_1_alg».proof.Proof.Ideal.WholeRun
import proofs.«106503_j32512902431459_1_alg».proof.Proof.Ideal.Bridge
import proofs.«106503_j32512902431459_1_alg».proof.Proof.RefRun
import proofs.«106503_j32512902431459_1_alg».proof.Proof.RefRead
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Frame.frame m ρ

/-- The idealized kernel program runs and leaves its arguments as launched. -/
theorem frame_kernelIdeal : Cert.frame_KernelIdeal := fun m ρ _ => Cert.KernelIdeal.Frame.frame m ρ

/-- The reference runs and leaves its arguments as launched: its run read back, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories that agree on the arguments both programs end with the same result: the reference's result as a
    function of the argument arrays, which the kernel program's result buffer also ends at. -/
theorem algebraic : Cert.algebraic_KernelIdeal_ReferenceIdeal := by
  intro m ρ m' ρ' _ hagree
  refine ⟨fun c => Cert.ReferenceIdeal.ReadP.val_main_v188 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    Cert.KernelIdeal.Frame.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨g0, g1, g2, g3, g4, g5, g6, g7, g8, g9, g10, g11, g12, g13, g14, g15⟩ := hagree c
  rw [Cert.ReferenceIdeal.ReadP.val_main_v188_eq, g0, g1, g2, g3, g4, g5, g6, g7, g8, g9, g10, g11, g12, g13, g14, g15]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
